-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S512x64 : S_.BroadcastsInDim S512x64 (![] : Fin 0 → Fin S512x64.rank)
  reducesTo_S512x64_S_d0_1 : S512x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S384x256 .f32) (main_arg6 : FVec F S256 .f32) (main_arg7 : FVec F S256 .f32) (main_arg8 : FVec F S256x256 .f32) (main_arg9 : FVec F S256 .f32) (main_arg10 : FVec F S256 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S500000x128 .f32) (main_arg1 : FVec F S500000x128 .f32) (main_arg2 : FVec F S500000x64 .f32) (main_arg3 : FVec F S512x64 .f32) (main_arg4 : IVec S500000 32) (main_arg5 : FVec F S384x256 .f32) (main_arg6 : FVec F S256 .f32) (main_arg7 : FVec F S256 .f32) (main_arg8 : FVec F S256x256 .f32) (main_arg9 : FVec F S256 .f32) (main_arg10 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_arg9 main_arg10 main_v13 main_v16
-- ==== Kernel.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S128x256 : Shape := ⟨2, ![128, 256]⟩
abbrev S64x256 : Shape := ⟨2, ![64, 256]⟩
abbrev S500000x256 : Shape := ⟨2, ![500000, 256]⟩
abbrev S2x1x256 : Shape := ⟨3, ![2, 1, 256]⟩
abbrev S2000x128 : Shape := ⟨2, ![2000, 128]⟩
abbrev S2000x64 : Shape := ⟨2, ![2000, 64]⟩
abbrev S2000x256 : Shape := ⟨2, ![2000, 256]⟩
abbrev S1x1x256 : Shape := ⟨3, ![1, 1, 256]⟩
abbrev S1x256 : Shape := ⟨2, ![1, 256]⟩
abbrev S2x256x256 : Shape := ⟨3, ![2, 256, 256]⟩
abbrev S1x256x256 : Shape := ⟨3, ![1, 256, 256]⟩

abbrev nBuf : Space → Nat
  | .hbm => 91
  | .vmem => 38
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x64, .f32⟩
  | .hbm, ⟨20, _⟩ => ⟨S128x256, .f32⟩
  | .hbm, ⟨21, _⟩ => ⟨S128x256, .bf16⟩
  | .hbm, ⟨22, _⟩ => ⟨S128x256, .f32⟩
  | .hbm, ⟨23, _⟩ => ⟨S128x256, .bf16⟩
  | .hbm, ⟨24, _⟩ => ⟨S64x256, .f32⟩
  | .hbm, ⟨25, _⟩ => ⟨S64x256, .bf16⟩
  | .hbm, ⟨26, _⟩ => ⟨S64x256, .f32⟩
  | .hbm, ⟨27, _⟩ => ⟨S64x256, .bf16⟩
  | .hbm, ⟨28, _⟩ => ⟨S500000x256, .bf16⟩
  | .hbm, ⟨29, _⟩ => ⟨S2x1x256, .f32⟩
  | .hbm, ⟨30, _⟩ => ⟨S2x1x256, .f32⟩
  | .hbm, ⟨31, _⟩ => ⟨S_, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S2x1x256, .f32⟩
  | .hbm, ⟨56, _⟩ => ⟨S2x256x256, .f32⟩
  | .hbm, ⟨57, _⟩ => ⟨S_, .f32⟩
  | .hbm, ⟨58, _⟩ => ⟨S1x256, .f32⟩
  | .hbm, ⟨59, _⟩ => ⟨S_, .f32⟩
  | .hbm, ⟨60, _⟩ => ⟨S256x256, .f32⟩
  | .hbm, ⟨61, _⟩ => ⟨S1x256, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S_, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S_, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S256x256, .f32⟩
  | .hbm, ⟨88, _⟩ => ⟨S256x256, .f32⟩
  | .hbm, ⟨89, _⟩ => ⟨S256x256, .bf16⟩
  | .hbm, ⟨90, _⟩ => ⟨S500000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S128x256, .bf16⟩
  | .local _ .vmem, ⟨9, _⟩ => ⟨S128x256, .bf16⟩
  | .local _ .vmem, ⟨10, _⟩ => ⟨S64x256, .bf16⟩
  | .local _ .vmem, ⟨11, _⟩ => ⟨S64x256, .bf16⟩
  | .local _ .vmem, ⟨12, _⟩ => ⟨S2000x256, .bf16⟩
  | .local _ .vmem, ⟨13, _⟩ => ⟨S2000x256, .bf16⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S2000x256, .bf16⟩
  | .local _ .vmem, ⟨21, _⟩ => ⟨S2000x256, .bf16⟩
  | .local _ .vmem, ⟨22, _⟩ => ⟨S1x256, .f32⟩
  | .local _ .vmem, ⟨23, _⟩ => ⟨S1x256, .f32⟩
  | .local _ .vmem, ⟨24, _⟩ => ⟨S1x1x256, .f32⟩
  | .local _ .vmem, ⟨25, _⟩ => ⟨S1x1x256, .f32⟩
  | .local _ .vmem, ⟨26, _⟩ => ⟨S1x256x256, .f32⟩
  | .local _ .vmem, ⟨27, _⟩ => ⟨S1x256x256, .f32⟩
  | .local _ .vmem, ⟨28, _⟩ => ⟨S1x1x256, .f32⟩
  | .local _ .vmem, ⟨29, _⟩ => ⟨S1x256x256, .f32⟩
  | .local _ .vmem, ⟨30, _⟩ => ⟨S2000x256, .bf16⟩
  | .local _ .vmem, ⟨31, _⟩ => ⟨S2000x256, .bf16⟩
  | .local _ .vmem, ⟨32, _⟩ => ⟨S1x256, .f32⟩
  | .local _ .vmem, ⟨33, _⟩ => ⟨S1x256, .f32⟩
  | .local _ .vmem, ⟨34, _⟩ => ⟨S256x256, .bf16⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_cst : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_cst_6 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_35 : BitVec 32 := 0#32
  let v48 : BitVec 1 := Scalar.cmpi .ne v47 c0_i32_35
  v48

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v32 : BitVec 1 := Scalar.cmpi .eq arg1 c124_i32
  let v33 : BitVec 32 := Scalar.extui v32
  let c0_i32_20 : BitVec 32 := 0#32
  let v34 : BitVec 1 := Scalar.cmpi .ne v33 c0_i32_20
  v34

def cc1_transform_0 (i : grid1.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S384x256_S128x256_0_0 : S384x256.Slices ![0, 0] S128x256
  bitsLt_bf16_f32 : FTy.bits .bf16 < FTy.bits .f32
  slices_S384x256_S128x256_128_0 : S384x256.Slices ![128, 0] S128x256
  slices_S384x256_S64x256_256_0 : S384x256.Slices ![256, 0] S64x256
  slices_S384x256_S64x256_320_0 : S384x256.Slices ![320, 0] S64x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  reduces_S2000x256_S256 : S2000x256.Reduces [0] S256
  shapeCasts_S256_S1x256 : S256.ShapeCasts S1x256
  shapeCasts_S1x256_S1x1x256 : S1x256.ShapeCasts S1x1x256
  reducesTo_S2x1x256_S1x256_d0 : S2x1x256.ReducesTo [0] S1x256
  h_S_ : 0 < S_.numel
  bcast_S_S1x256 : S_.BroadcastsInDim S1x256 (![] : Fin 0 → Fin S1x256.rank)
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S256x256_S1x256x256 : S256x256.ShapeCasts S1x256x256
  reducesTo_S2x256x256_S256x256_d0 : S2x256x256.ReducesTo [0] S256x256
  reducesTo_S256x256_S256_d0 : S256x256.ReducesTo [0] S256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S512x64_S500000x1_S500000x64_1_0_n_n_0_1_164_wf : GatherDims.WF S512x64 S500000x1 S500000x64 [1] [0] [] [0] [] 1 ![1, 64]
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S2000x256_S256x256_0_0_1_1_n_n_wf : DotDims.WF S2000x256 S2000x256 S256x256 [0] [0] [1] [1] [] []
  dot_S1x256_S256x256_S1x256_1_0_0_1_n_n_wf : DotDims.WF S1x256 S256x256 S1x256 [1] [0] [0] [1] [] []
  dot_S256x256_S256x256_S256x256_1_0_0_1_n_n_wf : DotDims.WF S256x256 S256x256 S256x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S500000x64.size a
  hwx0_2 : ∀ i : grid0.Coords, EltTy.bits .f32 = 32 ∨ (Rect.block (s := S500000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S500000x64.size a
  hwx0_3 : ∀ i : grid0.Coords, EltTy.bits .f32 = 32 ∨ (Rect.block (s := S500000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .bf16 = 32 ∨ (Rect.block (s := S64x256) S64x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S500000x256.size a
  hwx0_8 : ∀ i : grid0.Coords, EltTy.bits .bf16 = 32 ∨ (Rect.block (s := S500000x256) S2000x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256.size a ≤ S2x1x256.size a
  hwx0_9 : ∀ i : grid0.Coords, EltTy.bits .f32 = 32 ∨ (Rect.block (s := S2x1x256) S1x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S2x1x256.size a
  hwx0_10 : ∀ i : grid0.Coords, EltTy.bits .f32 = 32 ∨ (Rect.block (s := S2x1x256) S1x1x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S500000x256.size a
  hwx1_0 : ∀ i : grid1.Coords, EltTy.bits .bf16 = 32 ∨ (Rect.block (s := S500000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S2x1x256.size a
  hwx1_3 : ∀ i : grid1.Coords, EltTy.bits .f32 = 32 ∨ (Rect.block (s := S2x1x256) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S2x256x256.size a
  hwx1_4 : ∀ i : grid1.Coords, EltTy.bits .f32 = 32 ∨ (Rect.block (s := S2x256x256) S1x256x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S500000x256.size a
  hwx2_0 : ∀ i : grid2.Coords, EltTy.bits .bf16 = 32 ∨ (Rect.block (s := S500000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S500000x256.size a
  hwx2_5 : ∀ i : grid2.Coords, EltTy.bits .f32 = 32 ∨ (Rect.block (s := S500000x256) S2000x256.size (cc2_transform_5 i) (hinb2_5 i)).WholeWords (EltTy.packing .f32)

variable [Facts₀]

def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15_0) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_1) S1x1x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_2) S1x1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v15_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34_0) S1x1x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S1x256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v15_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x64, .f32⟩
  | .hbm, ⟨20, _⟩ => ⟨S500000x384, .f32⟩
  | .hbm, ⟨21, _⟩ => ⟨S500000x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S500000x256, .f32⟩
  | .hbm, ⟨29, _⟩ => ⟨S500000x256, .f32⟩
  | .hbm, ⟨30, _⟩ => ⟨S500000x256, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S500000x256, .f32⟩
  | .hbm, ⟨38, _⟩ => ⟨S500000x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S500000x256, .f32⟩
  | .hbm, ⟨45, _⟩ => ⟨S500000x256, .f32⟩
  | .hbm, ⟨46, _⟩ => ⟨S1x256, .f32⟩
  | .hbm, ⟨47, _⟩ => ⟨S500000x256, .f32⟩
  | .hbm, ⟨48, _⟩ => ⟨S500000x256, .f32⟩
  | .hbm, ⟨49, _⟩ => ⟨S1x256, .f32⟩
  | .hbm, ⟨50, _⟩ => ⟨S500000x256, .f32⟩
  | .hbm, ⟨51, _⟩ => ⟨S500000x256, .f32⟩
  | .hbm, ⟨52, _⟩ => ⟨S_, .f32⟩
  | .hbm, ⟨53, _⟩ => ⟨S500000x256, .f32⟩
  | .hbm, ⟨54, _⟩ => ⟨S500000x256, .f32⟩
  | .hbm, ⟨55, _⟩ => ⟨S500000x256, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S500000x256, .f32⟩
  | .hbm, ⟨63, _⟩ => ⟨S500000x256, .f32⟩
  | .hbm, ⟨64, _⟩ => ⟨S500000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S500000x256, .f32⟩
  | .hbm, ⟨72, _⟩ => ⟨S500000x256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S500000x256, .f32⟩
  | .hbm, ⟨79, _⟩ => ⟨S500000x256, .f32⟩
  | .hbm, ⟨80, _⟩ => ⟨S1x256, .f32⟩
  | .hbm, ⟨81, _⟩ => ⟨S500000x256, .f32⟩
  | .hbm, ⟨82, _⟩ => ⟨S500000x256, .f32⟩
  | .hbm, ⟨83, _⟩ => ⟨S1x256, .f32⟩
  | .hbm, ⟨84, _⟩ => ⟨S500000x256, .f32⟩
  | .hbm, ⟨85, _⟩ => ⟨S500000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  reducesTo_S500000x256_S256_d0 : S500000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  gather_S512x64_S500000x1_S500000x64_1_0_n_n_0_1_164_wf : GatherDims.WF S512x64 S500000x1 S500000x64 [1] [0] [] [0] [] 1 ![1, 64]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []

variable [Facts₀]

def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.Reference.lean ====
/-
  The two conjuncts that need no kernel run.

  The reference is a straight line of host operations with no kernel launch: every weakly fair execution of it
  terminates with each result at the operations' composed term of the arguments, the arguments unchanged; its frame
  is that run with the result forgotten.

  The ideal pass rewrote nothing when it printed the idealized kernel (its ledger is empty), so "the idealized kernel
  is the kernel's sanctioned idealization" has no conjunct to prove.
-/
import proofs.«149722_j50371376447949_2_alg».proof.Defs
import proofs.«149722_j50371376447949_2_alg».proof.Proof.Gen.ReferenceIdeal.Run
import proofs.«149722_j50371376447949_2_alg».proof.Proof.Gen.Pre_finite_inputs

noncomputable section

namespace Cert.Proof.Conjuncts

open Idealize.ShloMosaic Idealize.SL.Sem

/-- The reference runs to the end, faults nowhere and leaves its eleven argument arrays as launched: the run of its
    host operations, read without the result. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten by the ideal pass: nothing to preserve. -/
theorem preserves : Cert.preserves_Kernel_KernelIdeal := trivial

end Cert.Proof.Conjuncts

end
-- ==== Proof.KR0Data.lean ====
/-
  The first kernel region (a grid of 2 × 125 points run in row-major order, a tile of 2000 edges per point): the proof
  data — what every staging buffer holds after the body at each point, and what the two scratch accumulators hold
  between points.

  At point `t` (row `t / 125`, position `t % 125` in the row) the body reads the tile's four row blocks (source,
  destination, edge features, gathered globals) and the four slices of the first layer's weights, forms the tile's
  2000 × 256 product as the sum of four partial products (`k0_pay5`), stores it (converted to the narrower float format,
  `k0_pay6`) over the whole first output block, and adds the tile's column sums and column sums of squares to two
  1 × 1 × 256 scratch accumulators, which it zeroes first when the point opens a row. At the last point of a row it
  copies the two accumulators into the second and third output blocks, which are written back there and only there.

  So the accumulators after point `t` are given by a recursion on the point: at a row's first point the tile's
  contribution added to zero, otherwise added to what the point before left. The invariant between points holds the two
  scratch buffers at these contents (before the first point: at anything) beside the scoped buffers of the later regions.
-/
import proofs.«149722_j50371376447949_2_alg».proof.Proof.Gen.Kernel.Points
import proofs.«149722_j50371376447949_2_alg».proof.Proof.Gen.Kernel.Launch
import proofs.«149722_j50371376447949_2_alg».proof.Proof.Gen.Kernel.Skeleton
import Idealize.ShloMosaic.Lib.Tactic
import Idealize.ShloMosaic.Lib.Pipeline.FrameBody
import Idealize.ShloMosaic.Lib.Pipeline.Kit
import Idealize.ShloMosaic.Lib.Pipeline.Value
import Idealize.ShloMosaic.Lib.Pipeline.Regions
import proofs.«149722_j50371376447949_2_alg».proof.Proof.Gen.Kernel.Regions

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch accumulators, as whole memrefs: the column sums and the column sums of squares. -/
abbrev scM0 : Memref sig .tc .vmem S1x1x256 .f32 := Memref.whole cc0_scratch0
abbrev scM1 : Memref sig .tc .vmem S1x1x256 .f32 := Memref.whole cc0_scratch1

section Data

variable (c : Dev nD) (A : (w : Fin cfg0.W) → Buf (Elt F) ((cfg0.win w).arr.view.loc (c.tc : Thread nD τ)))

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (A w)

/-- The tile's product at point `t`: the four partial products of its row blocks with the weight slices, summed. -/
def tile (t : Fin cfg0.N) : FVec F S2000x256 .f32 :=
  k0_pay5 (iblk c A 0 t) (iblk c A 1 t) (iblk c A 2 t) (iblk c A 3 t) (iblk c A 4 t) (iblk c A 5 t) (iblk c A 6 t) (iblk c A 7 t)

/-- The first output block at point `t`: the tile's product in the narrower float format. -/
def pre1 (t : Fin cfg0.N) : FVec F S2000x256 .bf16 :=
  k0_pay6 (iblk c A 0 t) (iblk c A 1 t) (iblk c A 2 t) (iblk c A 3 t) (iblk c A 4 t) (iblk c A 5 t) (iblk c A 6 t) (iblk c A 7 t)

/-- The column-sum accumulator after the body at point `n`: at a row's first point the tile's column sums added to
    zero, otherwise added to what the point before left. -/
def accSum : (n : ℕ) → n < cfg0.N → Vec F S1x1x256 .f32
  | 0, h => k0_pay1 (tile c A ⟨0, h⟩) (k0_pay3 (F := F))
  | n + 1, h =>
    if (n + 1) % 125 = 0 then k0_pay1 (tile c A ⟨n + 1, h⟩) (k0_pay3 (F := F))
    else k0_pay1 (tile c A ⟨n + 1, h⟩) (accSum n (Nat.lt_of_succ_lt h))

/-- The accumulator of the column sums of squares after the body at point `n`, likewise. -/
def accSq : (n : ℕ) → n < cfg0.N → Vec F S1x1x256 .f32
  | 0, h => k0_pay2 (tile c A ⟨0, h⟩) (k0_pay4 (F := F))
  | n + 1, h =>
    if (n + 1) % 125 = 0 then k0_pay2 (tile c A ⟨n + 1, h⟩) (k0_pay4 (F := F))
    else k0_pay2 (tile c A ⟨n + 1, h⟩) (accSq n (Nat.lt_of_succ_lt h))

/-- At a row's first point the accumulator restarts from zero; -/
theorem accSum_first (t : Fin cfg0.N) (h0 : t.val % 125 = 0) :
    accSum c A t.val t.isLt = k0_pay1 (tile c A t) (k0_pay3 (F := F)) := by
  obtain ⟨n, hn⟩ := t
  cases n with
  | zero => rfl
  | succ n => exact if_pos h0

/-- at any other point it adds to what the point before left. -/
theorem accSum_next (t : Fin cfg0.N) (h0 : ¬t.val % 125 = 0) :
    accSum c A t.val t.isLt
      = k0_pay1 (tile c A t) (accSum c A (t.val - 1) (Nat.lt_of_le_of_lt (Nat.sub_le _ _) t.isLt)) := by
  obtain ⟨n, hn⟩ := t
  cases n with
  | zero => exact absurd (Nat.zero_mod _) h0
  | succ n => exact if_neg h0

theorem accSq_first (t : Fin cfg0.N) (h0 : t.val % 125 = 0) :
    accSq c A t.val t.isLt = k0_pay2 (tile c A t) (k0_pay4 (F := F)) := by
  obtain ⟨n, hn⟩ := t
  cases n with
  | zero => rfl
  | succ n => exact if_pos h0

theorem accSq_next (t : Fin cfg0.N) (h0 : ¬t.val % 125 = 0) :
    accSq c A t.val t.isLt
      = k0_pay2 (tile c A t) (accSq c A (t.val - 1) (Nat.lt_of_le_of_lt (Nat.sub_le _ _) t.isLt)) := by
  obtain ⟨n, hn⟩ := t
  cases n with
  | zero => exact absurd (Nat.zero_mod _) h0
  | succ n => exact if_neg h0

/-- The scoped buffers of the two later regions, which this region never touches: each whole, at some contents. -/
def others : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- The invariant before point `n`: before the first point every scoped buffer no window stages at some contents;
    afterwards the two scratch accumulators at what the point before left, beside the later regions' buffers. -/
def Phi : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (accSum c A n hn) ∗ owns (c : Thread nD τ) scM1 fullShare (accSq c A n hn)
      ∗ others c)

theorem Phi_zero (n : ℕ) (h : n ≤ cfg0.N) (hz : n = 0) :
    Phi c A n h = Pipeline.scopedRest (Ix := Unit) (Name := ℕ) (U := UR sig nD τ) (Lvl := ℕ) (Val := Elt F) spec0 c := by
  subst hz; rfl

theorem Phi_succ (n : ℕ) (hn : n < cfg0.N) :
    Phi c A (n + 1) hn = iprop(owns (c : Thread nD τ) scM0 fullShare (accSum c A n hn) ∗ owns (c : Thread nD τ) scM1 fullShare (accSq c A n hn)
      ∗ others c) := rfl

theorem Phi_pos (n : ℕ) (h : n ≤ cfg0.N) (hz : n ≠ 0) :
    Phi c A n h = iprop(owns (c : Thread nD τ) scM0 fullShare (accSum c A (n - 1) (by omega)) ∗ owns (c : Thread nD τ) scM1 fullShare (accSq c A (n - 1) (by omega))
      ∗ others c) := by
  cases n with
  | zero => exact absurd rfl hz
  | succ n => rfl

/-- The proof data on core `c`, the eleven windows' arrays entering at `A`: after the body at point `t` each input's
    staging buffer at its block, the first output's at the tile's product, the two others' at the accumulators (they
    are stored at a row's last point only; elsewhere the window is idle and the entry is not consulted); between points
    the invariant above; nothing owed; full shares. -/
def dat : Dat τ (Elt F) Unit ℕ (UR sig nD τ) ℕ cfg0 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => iblk c A 5 t
    | ⟨6, _⟩ => iblk c A 6 t
    | ⟨7, _⟩ => iblk c A 7 t
    | ⟨8, _⟩ => pre1 c A t
    | ⟨9, _⟩ => accSum c A t.val t.isLt
    | ⟨10, _⟩ => accSq c A t.val t.isLt
  Φ t := Phi c A t.val (Nat.le_of_lt_succ t.isLt)
  q _ := fullShare
  owed _ := 0

theorem Phi_castSucc (t : Fin cfg0.N) : (dat c A).Φ t.castSucc = Phi c A t.val (Nat.le_of_lt t.isLt) := by
  dsimp only [dat]; simp only [Fin.coe_castSucc]

theorem Phi_succ' (t : Fin cfg0.N) : (dat c A).Φ t.succ = Phi c A (t.val + 1) t.isLt := rfl

theorem after_0 (t : Fin cfg0.N) : (dat c A).after 0 t = iblk c A 0 t := by dsimp only [dat]
theorem after_1 (t : Fin cfg0.N) : (dat c A).after 1 t = iblk c A 1 t := by dsimp only [dat]
theorem after_2 (t : Fin cfg0.N) : (dat c A).after 2 t = iblk c A 2 t := by dsimp only [dat]
theorem after_3 (t : Fin cfg0.N) : (dat c A).after 3 t = iblk c A 3 t := by dsimp only [dat]
theorem after_4 (t : Fin cfg0.N) : (dat c A).after 4 t = iblk c A 4 t := by dsimp only [dat]
theorem after_5 (t : Fin cfg0.N) : (dat c A).after 5 t = iblk c A 5 t := by dsimp only [dat]
theorem after_6 (t : Fin cfg0.N) : (dat c A).after 6 t = iblk c A 6 t := by dsimp only [dat]
theorem after_7 (t : Fin cfg0.N) : (dat c A).after 7 t = iblk c A 7 t := by dsimp only [dat]
theorem after_8 (t : Fin cfg0.N) : (dat c A).after 8 t = pre1 c A t := by dsimp only [dat]
theorem after_9 (t : Fin cfg0.N) : (dat c A).after 9 t = accSum c A t.val t.isLt := by dsimp only [dat]
theorem after_10 (t : Fin cfg0.N) : (dat c A).after 10 t = accSq c A t.val t.isLt := by dsimp only [dat]

/-- Each input's current staging buffer holds its block at every point, fetched there or not: unfetched (the weight
    slices, after the first point), the block index has not moved, and the body left the block in place. -/
theorem before_0 (t : Fin cfg0.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg0.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg0.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)
theorem before_3 (t : Fin cfg0.N) (d) : (dat c A).before 3 t d = iblk c A 3 t :=
  ((dat c A).before_in_eq_fetched 3 rfl (fun _ => rfl) (fun _ _ _ => rfl) (fun t => by rw [after_3]; rfl) t d).trans
    (by unfold Dat.fetched Dat.blockOf iblk; rfl)
theorem before_4 (t : Fin cfg0.N) (d) : (dat c A).before 4 t d = iblk c A 4 t :=
  ((dat c A).before_in_eq_fetched 4 rfl (fun _ => rfl) (fun _ _ _ => rfl) (fun t => by rw [after_4]; rfl) t d).trans
    (by unfold Dat.fetched Dat.blockOf iblk; rfl)
theorem before_5 (t : Fin cfg0.N) (d) : (dat c A).before 5 t d = iblk c A 5 t :=
  ((dat c A).before_in_eq_fetched 5 rfl (fun _ => rfl) (fun _ _ _ => rfl) (fun t => by rw [after_5]; rfl) t d).trans
    (by unfold Dat.fetched Dat.blockOf iblk; rfl)
theorem before_6 (t : Fin cfg0.N) (d) : (dat c A).before 6 t d = iblk c A 6 t :=
  ((dat c A).before_in_eq_fetched 6 rfl (fun _ => rfl) (fun _ _ _ => rfl) (fun t => by rw [after_6]; rfl) t d).trans
    (by unfold Dat.fetched Dat.blockOf iblk; rfl)
theorem before_7 (t : Fin cfg0.N) (d) : (dat c A).before 7 t d = iblk c A 7 t :=
  ((dat c A).before_in_eq_fetched 7 rfl (fun _ => rfl) (fun _ _ _ => rfl) (fun t => by rw [after_7]; rfl) t d).trans
    (by unfold Dat.fetched Dat.blockOf iblk; rfl)

end Data

section Ends

variable (c : Dev nD) (A : (w : Fin cfg0.W) → Buf (Elt F) ((cfg0.win w).arr.view.loc (c.tc : Thread nD τ)))

/-! ## The invariant's two ends

The region has no semaphore of its own and takes nothing into its invariant beside the scoped buffers no window stages:
it is entered with those at some contents, which is the invariant before the first point, and after the last point the
accumulators' contents are forgotten again. -/

/-- After any point the invariant gives the scoped buffers back, each at some contents. -/
theorem Phi_out (t : Fin (cfg0.N + 1)) (ht : t.val ≠ 0) :
    (dat c A).Φ t ⊢ Pipeline.scopedRest (Ix := Unit) (Name := ℕ) (U := UR sig nD τ) (Lvl := ℕ) (Val := Elt F) spec0 c := by
  rw [show (dat c A).Φ t = Phi c A t.val (Nat.le_of_lt_succ t.isLt) from rfl, Phi_pos c A _ _ ht, scopedRest0_eq]
  unfold others
  simp only [scM0, scM1, owns_whole]
  iintro ⟨HS0, HS1, Hr⟩
  isplitl [HS0]; · iexists _; iexact HS0
  isplitl [HS1]; · iexists _; iexact HS1
  iexact Hr

/-- ENTRY: nothing, no prefetched table, and the scoped buffers no window stages make the invariant before the first point. -/
theorem hin :
    iprop((BI.emp : sProp 𝕄) ∗ Pipeline.prefHeld (pcfgs (F := F) 0).pre c (fun _ => fullShare) (adm (F := F) 0).1
        ∗ Pipeline.scopedRest (Pipeline.pin (pcfgs (F := F)) adm 0).spec c)
      ⊢ (dat c A).Φ 0 := by
  rw [show (dat c A).Φ 0 = Pipeline.scopedRest (Ix := Unit) (Name := ℕ) (U := UR sig nD τ) (Lvl := ℕ) (Val := Elt F) spec0 c from rfl]
  iintro ⟨-, -, Hr⟩
  iexact Hr

/-- EXIT: the invariant after the last point gives back nothing, no semaphore, and those scoped buffers. -/
theorem hout :
    (dat c A).Φ (Fin.last cfg0.N)
      ⊢ iprop((BI.emp : sProp 𝕄)
          ∗ Pipeline.ownSems0 (Ix := Unit) (Name := ℕ) (U := UR sig nD τ) (Lvl := ℕ) (Val := Elt F) (τ := τ) (fun k : PEmpty => k.elim) c
          ∗ Pipeline.scopedRest (Pipeline.pin (pcfgs (F := F)) adm 0).spec c) := by
  rw [Pipeline.ownSems0_none]
  refine (Phi_out c A _ (by rw [Fin.val_last]; have : cfg0.N = 250 := N_0; omega)).trans ?_
  iintro Hr
  isplitr; · iempintro
  isplitr; · iempintro
  iexact Hr

end Ends

end Cert.Kernel.R0

end
-- ==== Proof.KR0Run.lean ====
/-
  The first kernel region's body, run once per control case on whole staging memrefs.

  The body branches twice on the second grid coordinate `j`: at `j = 0` it zeroes the two scratch accumulators before
  anything else, and at `j = 124` it copies them, after adding the tile's contribution, into the second and third output
  blocks. A row has 125 points, so the two never hold together and there are three cases: a row's first point, a point in
  the middle, a row's last point. In each the body loads the eight input blocks, stores the tile's product (`k0_pay6`)
  over the whole first output block, and stores into each accumulator the tile's column sums (`k0_pay1`), resp. column
  sums of squares (`k0_pay2`), of the product `k0_pay5` added to what it held (zero, at a first point).

  Every load and store is through a whole buffer at zero offsets, so what a buffer reads after the run is the payload of
  the last store into it, and a load after a store reads that store's payload.
-/
import proofs.«149722_j50371376447949_2_alg».proof.Proof.Gen.Kernel.Points
import proofs.«149722_j50371376447949_2_alg».proof.Proof.Gen.Kernel.Launch
import proofs.«149722_j50371376447949_2_alg».proof.Proof.Gen.Kernel.Skeleton
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body is through a whole buffer: offsets zero. -/
theorem off2 : (![0, 0] : Fin 2 → ℕ) = fun _ => 0 := by funext a; fin_cases a <;> rfl
theorem off3 : (![0, 0, 0] : Fin 3 → ℕ) = fun _ => 0 := by funext a; fin_cases a <;> rfl

/-- A store through the whole buffer, made last, covers it whatever was stored before. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- The body's first conditional, as the kernel computes it: the point opens a row (second grid coordinate zero). -/
abbrev cond1 (i : grid0.Coords) : Prop :=
  (Scalar.cmpi .ne (Scalar.extui (Scalar.cmpi .eq (BitVec.ofNat 32 (i 1).val) 0#32)) 0#32) = 1#1
/-- The second: the point closes a row (second grid coordinate 124). -/
abbrev cond2 (i : grid0.Coords) : Prop := k0_cond2 i = 1#1

set_option maxHeartbeats 2000000 in
/-- AT A ROW'S FIRST POINT (the first conditional taken, the second not). On whole staging memrefs — the eight inputs' at
    read contents, the first output's at anything, the two idle outputs' at contents handed back untouched, the two
    accumulators at anything — the body runs to its return with the first output's buffer at the tile's product and each
    accumulator at the tile's contribution added to zero. -/
theorem run_first (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : cond1 i) (hc2 : ¬cond2 i)
    (x0 x1 : Vec F S2000x128 .f32) (x2 x3 : Vec F S2000x64 .f32) (x4 x5 : Vec F S128x256 .bf16) (x6 x7 : Vec F S64x256 .bf16) (xi9 xi10 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare xi9 ∗ owns (c : Thread nD τ) arg12 fullShare xi10
            ∗ owns (c : Thread nD τ) arg13 fullShare (k0_pay1 (k0_pay5 x0 x1 x2 x3 x4 x5 x6 x7) (k0_pay3 (F := F))) ∗ owns (c : Thread nD τ) arg14 fullShare (k0_pay2 (k0_pay5 x0 x1 x2 x3 x4 x5 x6 x7) (k0_pay4 (F := F)))) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
  subst hf0 hf1 hf2 hf3 hf4 hf5 hf6 hf7 hf9 hf10
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists f9; isplitr; · ipureintro; rfl
    iexact H9
  isplitl [H10]
  · iexists f10; isplitr; · ipureintro; rfl
    iexact H10
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

set_option maxHeartbeats 2000000 in
/-- IN THE MIDDLE OF A ROW (neither conditional taken). The accumulators enter at what the point before left, and leave
    with the tile's contribution added; the rest as at a first point. -/
theorem run_mid (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : ¬cond1 i) (hc2 : ¬cond2 i)
    (x0 x1 : Vec F S2000x128 .f32) (x2 x3 : Vec F S2000x64 .f32) (x4 x5 : Vec F S128x256 .bf16) (x6 x7 : Vec F S64x256 .bf16) (xi9 xi10 s0 s1 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare xi9 ∗ owns (c : Thread nD τ) arg12 fullShare xi10
            ∗ owns (c : Thread nD τ) arg13 fullShare (k0_pay1 (k0_pay5 x0 x1 x2 x3 x4 x5 x6 x7) s0) ∗ owns (c : Thread nD τ) arg14 fullShare (k0_pay2 (k0_pay5 x0 x1 x2 x3 x4 x5 x6 x7) s1)) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
  subst hf0 hf1 hf2 hf3 hf4 hf5 hf6 hf7 hf9 hf10 hfs0 hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists f9; isplitr; · ipureintro; rfl
    iexact H9
  isplitl [H10]
  · iexists f10; isplitr; · ipureintro; rfl
    iexact H10
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

set_option maxHeartbeats 2000000 in
/-- AT A ROW'S LAST POINT (the second conditional taken, the first not). As in the middle of a row, and the two other
    outputs' buffers, entering at anything, leave holding the accumulators' new contents. -/
theorem run_last (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : ¬cond1 i) (hc2 : cond2 i)
    (x0 x1 : Vec F S2000x128 .f32) (x2 x3 : Vec F S2000x64 .f32) (x4 x5 : Vec F S128x256 .bf16) (x6 x7 : Vec F S64x256 .bf16) (s0 s1 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare (k0_pay1 (k0_pay5 x0 x1 x2 x3 x4 x5 x6 x7) s0) ∗ owns (c : Thread nD τ) arg12 fullShare (k0_pay2 (k0_pay5 x0 x1 x2 x3 x4 x5 x6 x7) s1)
            ∗ owns (c : Thread nD τ) arg13 fullShare (k0_pay1 (k0_pay5 x0 x1 x2 x3 x4 x5 x6 x7) s0) ∗ owns (c : Thread nD τ) arg14 fullShare (k0_pay2 (k0_pay5 x0 x1 x2 x3 x4 x5 x6 x7) s1)) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  subst hf0 hf1 hf2 hf3 hf4 hf5 hf6 hf7 hfs0 hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists _; isplitr
    swap; · iexact H9
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H10]
  · iexists _; isplitr
    swap; · iexact H10
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

end Cert.Kernel.R0

end
-- ==== Proof.KR0Body.lean ====
/-
  The first kernel region's body obligation: at every point of the grid, from the invariant and the eleven windows'
  current staging buffers at what they then hold, the kernel's body runs to the invariant at the next point and the
  buffers at what the proof data says it leaves.

  The point's position in its row decides which of the body's two conditionals are taken; both conditions are decided
  over the grid in closed form (the first holds exactly at the points ≡ 0 mod 125, the second at those ≡ 124). The three
  cases are the three runs of the body; what remains here is bookkeeping: each input's buffer holds its block; the first
  output's buffer, written back at every point, holds nothing the body relies on; the two other outputs' buffers are
  idle, and handed back as found, except at a row's last point, where they receive the accumulators; the accumulators
  come out of the invariant at what the point before left (at anything, before the very first point) and go back at this
  point's contents.
-/
import proofs.«149722_j50371376447949_2_alg».proof.Proof.KR0Data
import proofs.«149722_j50371376447949_2_alg».proof.Proof.KR0Run

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions and the idle windows, over the grid -/

/-- The first conditional holds exactly at the rows' first points; -/
theorem hcond1 : ∀ t : Fin cfg0.N, cond1 (grid0.coords t) ↔ t.val % 125 = 0 :=
  (by decide +kernel : ∀ t : Fin grid0.N, cond1 (grid0.coords t) ↔ t.val % 125 = 0)
/-- the second exactly at their last points. -/
theorem hcond2 : ∀ t : Fin cfg0.N, cond2 (grid0.coords t) ↔ t.val % 125 = 124 :=
  (by decide +kernel : ∀ t : Fin grid0.N, cond2 (grid0.coords t) ↔ t.val % 125 = 124)

/-- Away from a row's last point the second and third outputs are idle, and not written back; at it they are live. -/
theorem idle_9 : ∀ t : Fin cfg0.N, ¬cond2 (grid0.coords t) → cfg0.idle 9 (grid0.coords t) = true := by decide +kernel
theorem idle_10 : ∀ t : Fin cfg0.N, ¬cond2 (grid0.coords t) → cfg0.idle 10 (grid0.coords t) = true := by decide +kernel
theorem live_9 : ∀ t : Fin cfg0.N, cond2 (grid0.coords t) → cfg0.idle 9 (grid0.coords t) = false := by decide +kernel
theorem live_10 : ∀ t : Fin cfg0.N, cond2 (grid0.coords t) → cfg0.idle 10 (grid0.coords t) = false := by decide +kernel
theorem noFlush_9 (t : Fin cfg0.N) (h : ¬t.val % 125 = 124) : (cfg0.win 9).flush t = false :=
  Bool.eq_false_iff.mpr fun hf => h ((flush0_9 t).mp hf)
theorem noFlush_10 (t : Fin cfg0.N) (h : ¬t.val % 125 = 124) : (cfg0.win 10).flush t = false :=
  Bool.eq_false_iff.mpr fun hf => h ((flush0_10 t).mp hf)

section Body

variable (c : Dev nD) (A : (w : Fin cfg0.W) → Buf (Elt F) ((cfg0.win w).arr.view.loc (c.tc : Thread nD τ)))

/-- What the body is called with at point `t`, the windows one by one, -/
def bodyPre (t : Fin cfg0.N) : sProp 𝕄 :=
  iprop((dat c A).Φ t.castSucc ∗ (dat c A).owesAt () t.castSucc
    ∗ (∃ d, owns (c : Thread nD τ) (st0_0 t) fullShare ((dat c A).before 0 t d))
    ∗ (∃ d, owns (c : Thread nD τ) (st0_1 t) fullShare ((dat c A).before 1 t d))
    ∗ (∃ d, owns (c : Thread nD τ) (st0_2 t) fullShare ((dat c A).before 2 t d))
    ∗ (∃ d, owns (c : Thread nD τ) (st0_3 t) fullShare ((dat c A).before 3 t d))
    ∗ (∃ d, owns (c : Thread nD τ) (st0_4 t) fullShare ((dat c A).before 4 t d))
    ∗ (∃ d, owns (c : Thread nD τ) (st0_5 t) fullShare ((dat c A).before 5 t d))
    ∗ (∃ d, owns (c : Thread nD τ) (st0_6 t) fullShare ((dat c A).before 6 t d))
    ∗ (∃ d, owns (c : Thread nD τ) (st0_7 t) fullShare ((dat c A).before 7 t d))
    ∗ (∃ d, owns (c : Thread nD τ) (st0_8 t) fullShare ((dat c A).before 8 t d))
    ∗ (∃ d, owns (c : Thread nD τ) (st0_9 t) fullShare ((dat c A).before 9 t d))
    ∗ (∃ d, owns (c : Thread nD τ) (st0_10 t) fullShare ((dat c A).before 10 t d)))

/-- and what it returns: every live window's buffer at what the body leaves, an idle one's as it was found. -/
def bodyPost (t : Fin cfg0.N) : sProp 𝕄 :=
  iprop((dat c A).Φ t.succ ∗ (dat c A).owesAt () t.succ
    ∗ owns (c : Thread nD τ) (st0_0 t) fullShare ((dat c A).after 0 t)
    ∗ owns (c : Thread nD τ) (st0_1 t) fullShare ((dat c A).after 1 t)
    ∗ owns (c : Thread nD τ) (st0_2 t) fullShare ((dat c A).after 2 t)
    ∗ owns (c : Thread nD τ) (st0_3 t) fullShare ((dat c A).after 3 t)
    ∗ owns (c : Thread nD τ) (st0_4 t) fullShare ((dat c A).after 4 t)
    ∗ owns (c : Thread nD τ) (st0_5 t) fullShare ((dat c A).after 5 t)
    ∗ owns (c : Thread nD τ) (st0_6 t) fullShare ((dat c A).after 6 t)
    ∗ owns (c : Thread nD τ) (st0_7 t) fullShare ((dat c A).after 7 t)
    ∗ owns (c : Thread nD τ) (st0_8 t) fullShare ((dat c A).after 8 t)
    ∗ (dat c A).leavesExact 9 t
    ∗ (dat c A).leavesExact 10 t)

set_option maxHeartbeats 4000000 in
/-- The body at any point: the case its position in the row selects applies. -/
theorem sound_body (t : Fin cfg0.N) :
    bodyPre c A t ⊢ wp frame (wpE (defs₀ (F := F)) Variants.none c none) Set.univ (bodyAt0 t) (fun _ => bodyPost c A t) := by
  unfold bodyPre bodyPost bodyAt0
  simp only [before_0, before_1, before_2, before_3, before_4, before_5, before_6, before_7]
  rw [show (dat c A).owesAt () t.succ = (dat c A).owesAt () t.castSucc from rfl,
    Phi_succ' c A t, Phi_succ c A t.val t.isLt,
    after_0, after_1, after_2, after_3, after_4, after_5, after_6, after_7, after_8]
  have hN : t.val < 250 := lt_of_lt_of_eq t.isLt (show cfg0.N = 250 from N_0)
  by_cases h0 : t.val % 125 = 0
  · -- a row's first point
    have h1 : ¬t.val % 125 = 124 := by omega
    have hc1 : cond1 (grid0.coords t) := (hcond1 t).mpr h0
    have hc2 : ¬cond2 (grid0.coords t) := fun h => h1 ((hcond2 t).mp h)
    rw [Dat.leavesExact_idle (dat c A) 9 t (idle_9 t hc2) (noFlush_9 t h1),
      Dat.leavesExact_idle (dat c A) 10 t (idle_10 t hc2) (noFlush_10 t h1),
      accSum_first c A t h0, accSq_first c A t h0]
    unfold tile pre1
    by_cases hz : t.val = 0
    · rw [Phi_castSucc c A t, Phi_zero c A _ _ hz, scopedRest0_eq]
      unfold others
      iintro ⟨⟨⟨%fs0, HS0⟩, ⟨%fs1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexists fs0; rw [owns_whole]; iexact HS0
      isplitl [HS1]; · iexists fs1; rw [owns_whole]; iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10
    · rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexists _; iexact HS0
      isplitl [HS1]; · iexists _; iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10
  · have hz : t.val ≠ 0 := fun hz => h0 (by rw [hz])
    have hc1 : ¬cond1 (grid0.coords t) := fun h => h0 ((hcond1 t).mp h)
    by_cases h1 : t.val % 125 = 124
    · -- a row's last point
      have hc2 : cond2 (grid0.coords t) := (hcond2 t).mpr h1
      rw [show (dat c A).leavesExact 9 t = owns (c : Thread nD τ) (st0_9 t) fullShare ((dat c A).after 9 t) from by
          unfold Dat.leavesExact; rw [live_9 t hc2],
        show (dat c A).leavesExact 10 t = owns (c : Thread nD τ) (st0_10 t) fullShare ((dat c A).after 10 t) from by
          unfold Dat.leavesExact; rw [live_10 t hc2],
        after_9, after_10, accSum_next c A t h0, accSq_next c A t h0]
      unfold tile pre1
      rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) (accSum c A (t.val - 1) (Nat.lt_of_le_of_lt (Nat.sub_le _ _) t.isLt))
        (accSq c A (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a point in the middle of a row
      have hc2 : ¬cond2 (grid0.coords t) := fun h => h1 ((hcond2 t).mp h)
      rw [Dat.leavesExact_idle (dat c A) 9 t (idle_9 t hc2) (noFlush_9 t h1),
        Dat.leavesExact_idle (dat c A) 10 t (idle_10 t hc2) (noFlush_10 t h1),
        accSum_next c A t h0, accSq_next c A t h0]
      unfold tile pre1
      rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10)
        (accSum c A (t.val - 1) (Nat.lt_of_le_of_lt (Nat.sub_le _ _) t.isLt))
        (accSq c A (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10

/-- The library's body obligation, at every point. -/
theorem body_obligation : BodyObligation (dat c A) (defs₀ (F := F)) Variants.none () Set.univ := fun t => by
  rw [bigSep_W0, bigSep_W0]
  exact sound_body c A t

end Body

end Cert.Kernel.R0

end
-- ==== Proof.KI0.lean ====
/-
  Region 0 as the whole run takes it: its proof data over the entering arrays, the body obligation, and the two ends of
  its invariant against the scoped buffers no window stages (at entry the two accumulators are among them, at contents
  not chosen; at exit they are handed back).
-/
import proofs.«149722_j50371376447949_2_alg».proof.Proof.KR0Data
import proofs.«149722_j50371376447949_2_alg».proof.Proof.KR0Body

noncomputable section
namespace Cert.Kernel.I0
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (c : Dev nD) (A : (w : Fin cfg0.W) → Buf (Elt F) ((cfg0.win w).arr.view.loc (c.tc : Thread nD τ)))

abbrev dat : Dat τ (Elt F) Unit ℕ (UR sig nD τ) ℕ cfg0 c := R0.dat c A

theorem body_obligation : BodyObligation (dat c A) (defs₀ (F := F)) Variants.none () Set.univ := R0.body_obligation c A

set_option backward.isDefEq.respectTransparency.types false in
theorem hin : (Pipeline.scopedRest (Ix := Unit) (Name := ℕ) (U := UR sig nD τ) (Lvl := ℕ) (Val := Elt F) spec0 c : sProp 𝕄) ⊢ (dat c A).Φ 0 := by
  iintro Hr
  iapply (R0.hin c A)
  isplitr; · iempintro
  isplitr; · unfold Pipeline.prefHeld; rw [show (Finset.univ : Finset (Fin 0)) = ∅ from rfl, BI.bigSep_empty]; iempintro
  iexact Hr

set_option backward.isDefEq.respectTransparency.types false in
theorem hout : (dat c A).Φ (Fin.last cfg0.N) ⊢ (Pipeline.scopedRest (Ix := Unit) (Name := ℕ) (U := UR sig nD τ) (Lvl := ℕ) (Val := Elt F) spec0 c : sProp 𝕄) := by
  iintro H
  ihave H' := (R0.hout c A) $$ H
  icases H' with ⟨-, -, Hr⟩
  iexact Hr

end Cert.Kernel.I0
end
-- ==== Proof.KR1Data.lean ====
import proofs.«149722_j50371376447949_2_alg».proof.Proof.Gen.Kernel.Points
import proofs.«149722_j50371376447949_2_alg».proof.Proof.Gen.Kernel.Launch
import proofs.«149722_j50371376447949_2_alg».proof.Proof.Gen.Kernel.Skeleton
import proofs.«149722_j50371376447949_2_alg».proof.Proof.Gen.Kernel.Regions
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.Kernel.R1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: its proof data

The grid has 2 × 125 points, taken row by row: point `n` has first coordinate `n / 125` (the core's row) and second
coordinate `n % 125`. At each point the body reads three blocks — a tile of 2000 rows of the first layer's product
and the two rows of 256 numbers that scale and shift it — and adds the tile's contribution to two accumulators kept in
scratch memory: the column sums of the hidden activations `h = max(tile * scale + shift, 0)` and their Gram matrix
`hᵀ h`. The accumulators are reset at the first point of each row (`n % 125 = 0`) and copied into the two outputs'
staging buffers at the last (`n % 125 = 124`), where the pipeline writes those buffers back into row `n / 125` of the
output arrays.

The proof data names what every buffer holds between points. The accumulators' contents after point `n` are given by a
recursion on `n` (`acc`): this tile's contribution added to zero at the first point of a row, to the previous point's
contents otherwise. The invariant between points is the two scratch buffers at these contents beside the scoped buffers
this region never touches; before the first point the scratch buffers hold anything. -/

section Data

variable (c : Dev nD) (A : (w : Fin cfg1.W) → Buf (Elt F) ((cfg1.win w).arr.view.loc (c.tc : Thread nD τ)))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (A w)

/-- The tile of the first product at point `t`, and the scale and shift rows (the same at every point). -/
def tile (t : Fin cfg1.N) : Vec F S2000x256 .bf16 := iblk c A 0 t
def scale (t : Fin cfg1.N) : Vec F S1x256 .f32 := iblk c A 1 t
def shift (t : Fin cfg1.N) : Vec F S1x256 .f32 := iblk c A 2 t

/-- One point's work on the accumulators: the tile's column sums of the hidden activations added to the first, the
    tile's Gram matrix of them added to the second. -/
def step (t : Fin cfg1.N) (p : Vec F S1x1x256 .f32 × Vec F S1x256x256 .f32) : Vec F S1x1x256 .f32 × Vec F S1x256x256 .f32 :=
  (k1_pay4 (tile c A t) (scale c A t) (shift c A t) p.1, k1_pay5 (tile c A t) (scale c A t) (shift c A t) p.2)

/-- The accumulators as a row of the grid starts: both zero. -/
def zeros : Vec F S1x1x256 .f32 × Vec F S1x256x256 .f32 := (k1_pay1, k1_pay2)

/-- THE ACCUMULATION. What the two scratch accumulators hold after the body at point `n`: the point's work done on
    zeros at the first point of a row of the grid, on what the point before left otherwise. -/
def acc : (n : ℕ) → n < cfg1.N → Vec F S1x1x256 .f32 × Vec F S1x256x256 .f32
  | 0, hn => step c A ⟨0, hn⟩ zeros
  | n + 1, hn => step c A ⟨n + 1, hn⟩ (if (n + 1) % 125 = 0 then zeros else acc n (Nat.lt_of_succ_lt hn))

/-- At the first point of a row the accumulators restart from zero. -/
theorem acc_reset (t : Fin cfg1.N) (h : t.val % 125 = 0) : acc c A t.val t.isLt = step c A t zeros := by
  obtain ⟨n, hn⟩ := t
  cases n with
  | zero => rfl
  | succ n => exact congrArg (step c A ⟨n + 1, hn⟩) (if_pos h)

/-- At any other point they continue from the point before. -/
theorem acc_add (t : Fin cfg1.N) (h : ¬t.val % 125 = 0) :
    acc c A t.val t.isLt = step c A t (acc c A (t.val - 1) (Nat.lt_of_le_of_lt (Nat.sub_le _ _) t.isLt)) := by
  obtain ⟨n, hn⟩ := t
  cases n with
  | zero => exact absurd (Nat.zero_mod _) h
  | succ n => exact congrArg (step c A ⟨n + 1, hn⟩) (if_neg h)

/-- The region's scoped buffers that it neither stages nor uses as scratch: untouched throughout. -/
abbrev rest : sProp 𝕄 :=
  Pipeline.scopedRestBut (Ix := Unit) (Name := ℕ) (U := UR sig nD τ) (Lvl := ℕ) (Val := Elt F) spec1 c [cc1_scratch0, cc1_scratch1]

/-- The scoped buffers no window stages are the two scratch accumulators, at some contents, and the rest. -/
theorem scopedRest_owns :
    (Pipeline.scopedRest (Ix := Unit) (Name := ℕ) (U := UR sig nD τ) (Lvl := ℕ) (Val := Elt F) spec1 c : sProp 𝕄)
      = iprop(((∃ d, owns (c : Thread nD τ) (Memref.whole cc1_scratch0) fullShare d)
          ∗ (∃ d, owns (c : Thread nD τ) (Memref.whole cc1_scratch1) fullShare d)) ∗ rest (F := F) c) := by
  rw [scopedRest1_split]; simp only [owns_whole]

/-- The invariant before point `n` (after point `n - 1`): before the first point the scoped buffers no window stages,
    the scratch among them at anything; afterwards the two accumulators at what the point before left, and the rest. -/
def Phi : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) (Memref.whole cc1_scratch0) fullShare (acc c A n hn).1
      ∗ owns (c : Thread nD τ) (Memref.whole cc1_scratch1) fullShare (acc c A n hn).2 ∗ rest (F := F) c)

theorem Phi_zero (n : ℕ) (h : n ≤ cfg1.N) (hz : n = 0) :
    Phi c A n h = Pipeline.scopedRest (Ix := Unit) (Name := ℕ) (U := UR sig nD τ) (Lvl := ℕ) (Val := Elt F) spec1 c := by
  subst hz; rfl

theorem Phi_succ (n : ℕ) (hn : n < cfg1.N) :
    Phi c A (n + 1) hn = iprop(owns (c : Thread nD τ) (Memref.whole cc1_scratch0) fullShare (acc c A n hn).1
      ∗ owns (c : Thread nD τ) (Memref.whole cc1_scratch1) fullShare (acc c A n hn).2 ∗ rest (F := F) c) := rfl

theorem Phi_pos (n : ℕ) (h : n ≤ cfg1.N) (hz : n ≠ 0) :
    Phi c A n h = iprop(owns (c : Thread nD τ) (Memref.whole cc1_scratch0) fullShare (acc c A (n - 1) (by omega)).1
      ∗ owns (c : Thread nD τ) (Memref.whole cc1_scratch1) fullShare (acc c A (n - 1) (by omega)).2 ∗ rest (F := F) c) := by
  cases n with
  | zero => exact absurd rfl hz
  | succ n => rfl

/-- THE PROOF DATA on core `c`, the five windows' arrays entering at `A`: after the body at point `t` each input's
    staging buffer at its block and the two outputs' at the accumulators (the body copies them there at the last point
    of a row; at the other points, idle for the outputs, the entry is not consulted); between points `Phi`; nothing
    owed; full shares. -/
def dat : Dat τ (Elt F) Unit ℕ (UR sig nD τ) ℕ cfg1 c where
  A := A
  after w t := match w with
    | ⟨0, _⟩ => iblk c A 0 t
    | ⟨1, _⟩ => iblk c A 1 t
    | ⟨2, _⟩ => iblk c A 2 t
    | ⟨3, _⟩ => (acc c A t.val t.isLt).1
    | ⟨4, _⟩ => (acc c A t.val t.isLt).2
  Φ t := Phi c A t.val (Nat.le_of_lt_succ t.isLt)
  q _ := fullShare
  owed _ := 0

theorem dat_A (w : Fin cfg1.W) : (dat c A).A w = A w := rfl

theorem after_0 (t : Fin cfg1.N) : (dat c A).after 0 t = iblk c A 0 t := by dsimp only [dat]
theorem after_1 (t : Fin cfg1.N) : (dat c A).after 1 t = iblk c A 1 t := by dsimp only [dat]
theorem after_2 (t : Fin cfg1.N) : (dat c A).after 2 t = iblk c A 2 t := by dsimp only [dat]
theorem after_3 (t : Fin cfg1.N) : (dat c A).after 3 t = (acc c A t.val t.isLt).1 := by dsimp only [dat]
theorem after_4 (t : Fin cfg1.N) : (dat c A).after 4 t = (acc c A t.val t.isLt).2 := by dsimp only [dat]

/-- The invariant at a point's start and end, restated at the point's number. -/
theorem Phi_castSucc (t : Fin cfg1.N) : (dat c A).Φ t.castSucc = Phi c A t.val (Nat.le_of_lt t.isLt) := by
  dsimp only [dat]; simp only [Fin.coe_castSucc]
theorem Phi_at_succ (t : Fin cfg1.N) : (dat c A).Φ t.succ = Phi c A (t.val + 1) t.isLt := rfl

/-- Each input's current staging buffer holds its block at every point, fetched there or not: unfetched, the block
    index has not moved, and the body left the block in place. -/
theorem before_0 (t : Fin cfg1.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg1.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg1.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)

/-! ## The invariant's two ends -/

/-- ENTRY: the scoped buffers no window stages, as the launch hands them over, are the invariant before the first
    point (nothing else enters it: no table is prefetched and the kernel names no semaphore of its own). -/
theorem hin : iprop(BI.emp ∗ Pipeline.prefHeld (Ix := Unit) (Name := ℕ) (U := UR sig nD τ) (Lvl := ℕ) (pcfgs (F := F) 1).pre c (fun _ => fullShare) (Gen.adm (F := F) 1).1
      ∗ Pipeline.scopedRest (Ix := Unit) (Name := ℕ) (U := UR sig nD τ) (Lvl := ℕ) (Val := Elt F) (Pipeline.pin (pcfgs (F := F)) Gen.adm 1).spec c)
    ⊢ (dat c A).Φ 0 := by
  rw [show (dat c A).Φ 0 = Phi c A 0 (Nat.zero_le _) from rfl, Phi_zero c A 0 _ rfl]
  iintro ⟨-, -, Hr⟩
  iexact Hr

/-- EXIT: after the last point the accumulators' contents are forgotten, and the scoped buffers no window stages
    are handed back. -/
theorem hout : (dat c A).Φ (Fin.last (Pipeline.pin (pcfgs (F := F)) Gen.adm 1).N)
    ⊢ iprop(BI.emp ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) (Pipeline.pin (pcfgs (F := F)) Gen.adm 1).spec c) := by
  rw [Pipeline.ownSems0_none]
  rw [show (dat c A).Φ (Fin.last (Pipeline.pin (pcfgs (F := F)) Gen.adm 1).N) = Phi c A cfg1.N (Nat.le_refl _) from rfl,
    Phi_pos c A _ _ (by have : cfg1.N = 250 := N_1; omega)]
  rw [show (Pipeline.pin (pcfgs (F := F)) Gen.adm 1).spec = spec1 from rfl, scopedRest_owns]
  iintro ⟨H0, H1, Hr⟩
  isplitr; · iempintro
  isplitr; · iempintro
  isplitr [Hr]
  · isplitl [H0]
    · iexists _; iexact H0
    · iexists _; iexact H1
  · iexact Hr

end Data

end Cert.Kernel.R1

end
-- ==== Proof.KR1Run.lean ====
import proofs.«149722_j50371376447949_2_alg».proof.Proof.Gen.Kernel.Launch
import proofs.«149722_j50371376447949_2_alg».proof.Proof.Gen.Kernel.Skeleton
import proofs.«149722_j50371376447949_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.R1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once per control case

The body of the second kernel region reads a tile `x0` of the first layer's pre-activations (2000 rows, 256
columns) and the two rows `x1` (scale) and `x2` (shift), forms the hidden activations
`h = max(x0 * x1 + x2, 0)` of the tile, and adds to two accumulators it keeps in scratch memory from one grid
point to the next: the column sums of `h` (a row of 256 numbers) and the Gram matrix `hᵀ h` (256 × 256).
At the first point of a core's row of the grid (second coordinate 0) it first resets both accumulators to zero;
at the last one (second coordinate 124) it copies both accumulators into the two outputs' staging buffers.
Hence three control cases: reset-and-add, add, add-and-copy. In each the run is stated over arbitrary whole
memrefs and arbitrary contents, and says what every buffer holds at the end as a function of what it held
at the start. -/

/-- The first conditional of the body holds when the second grid coordinate is zero. -/
abbrev cond0 (i : grid1.Coords) : Prop :=
  (Scalar.cmpi .ne (Scalar.extui (Scalar.cmpi .eq (BitVec.ofNat 32 (i 1).val) 0#32)) 0#32) = 1#1
/-- The second conditional holds when the second grid coordinate is the last of its row. -/
abbrev cond1 (i : grid1.Coords) : Prop := k1_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole memref through the whole-shape rectangle reads the contents it holds. -/
theorem load_whole {S : Shape} {e : EltTy} (M : Memref sig .tc .vmem S e) (hM : M.IsWhole) {off : Fin S.rank → ℕ}
    (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- After stores the last of which fills the whole shape, a memref reads that store's payload. -/
theorem read_store_whole {S : Shape} {e : EltTy} (M : Memref sig .tc .vmem S e) (f : M.view.ty.Contents (Elt F)) {off : Fin S.rank → ℕ}
    (h : off = fun _ => 0) (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- THE MIDDLE CASE (neither conditional holds): both accumulators take this tile's contribution, every other
    buffer is handed back as found. -/
theorem runB (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : ¬cond0 i) (hc1 : ¬cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole _ _ hz3, load_whole _ harg2 hz2, load_whole _ harg3 hz2, load_whole _ harg4 hz2, load_whole _ harg7 hz3]
  · iexists _; isplitr; swap; · iexact HS1
    ipureintro
    rw [read_store_whole _ _ hz3, load_whole _ harg2 hz2, load_whole _ harg3 hz2, load_whole _ harg4 hz2, load_whole _ harg8 hz3]

/-- THE FIRST CASE (second coordinate zero): both accumulators are reset to zero and take this tile's
    contribution, whatever they held; every other buffer is handed back as found. -/
theorem runA (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : cond0 i) (hc1 : ¬cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) arg7 fullShare (k1_pay4 x0 x1 x2 k1_pay1) ∗ owns (c : Thread nD τ) arg8 fullShare (k1_pay5 x0 x1 x2 k1_pay2)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    rw [read_store_whole _ _ hz3, load_whole _ harg2 hz2, load_whole _ harg3 hz2, load_whole _ harg4 hz2, View.readCov_unit_zero (S := S1x1x256) _ hz3]
  · iexists _; isplitr; swap; · iexact HS1
    ipureintro
    sl_unfold_run_names
    rw [read_store_whole _ _ hz3, load_whole _ harg2 hz2, load_whole _ harg3 hz2, load_whole _ harg4 hz2, View.readCov_unit_zero (S := S1x256x256) _ hz3]

/-- THE LAST CASE (second coordinate 124): both accumulators take this tile's contribution and are then copied
    into the two outputs' buffers, whatever those held. -/
theorem runC (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : ¬cond0 i) (hc1 : cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 x1 x2 s0) ∗ owns (c : Thread nD τ) arg6 fullShare (k1_pay5 x0 x1 x2 s1)
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    rw [read_store_whole _ _ hz3, View.readCov_unit_zero (S := S1x1x256) _ hz3, load_whole _ harg2 hz2, load_whole _ harg3 hz2, load_whole _ harg4 hz2, load_whole _ harg7 hz3]
  isplitl [H4]
  · iexists _; isplitr; swap; · iexact H4
    ipureintro
    sl_unfold_run_names
    rw [read_store_whole _ _ hz3, View.readCov_unit_zero (S := S1x256x256) _ hz3, load_whole _ harg2 hz2, load_whole _ harg3 hz2, load_whole _ harg4 hz2, load_whole _ harg8 hz3]
  isplitl [HS0]
  · iexists _; isplitr; swap; · iexact HS0
    ipureintro
    sl_unfold_run_names
    rw [read_store_whole _ _ hz3, load_whole _ harg2 hz2, load_whole _ harg3 hz2, load_whole _ harg4 hz2, load_whole _ harg7 hz3]
  · iexists _; isplitr; swap; · iexact HS1
    ipureintro
    sl_unfold_run_names
    rw [read_store_whole _ _ hz3, load_whole _ harg2 hz2, load_whole _ harg3 hz2, load_whole _ harg4 hz2, load_whole _ harg8 hz3]

end Cert.Kernel.R1

end
-- ==== Proof.KR1Body.lean ====
import proofs.«149722_j50371376447949_2_alg».proof.Proof.KR1Run
import proofs.«149722_j50371376447949_2_alg».proof.Proof.KR1Data

set_option maxRecDepth 16384

noncomputable section

namespace Cert.Kernel.R1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: the body obligation

At every grid point the body, handed the invariant and every window's current staging buffer at what the proof data
says it holds, runs to the invariant at the next point and every buffer at what the proof data says it leaves. Which
of the three runs of the body applies is read off the point's number `n`: `n % 125 = 0` (reset and add), `n % 125 = 124`
(add and copy out), anything else (add). The two outputs are idle except at the points `n % 125 = 124`, which are also
exactly the points that write them back: elsewhere their buffers are handed back as found. -/

/-- The first conditional holds exactly at the first point of each row of the grid. -/
theorem hcond0 : ∀ t : Fin cfg1.N, cond0 (grid1.coords t) ↔ t.val % 125 = 0 :=
  (by decide +kernel : ∀ t : Fin grid1.N, cond0 (grid1.coords t) ↔ t.val % 125 = 0)
/-- The second exactly at the last. -/
theorem hcond1 : ∀ t : Fin cfg1.N, cond1 (grid1.coords t) ↔ t.val % 125 = 124 :=
  (by decide +kernel : ∀ t : Fin grid1.N, cond1 (grid1.coords t) ↔ t.val % 125 = 124)

/-- The inputs are never idle. -/
theorem live_0 (t : Fin cfg1.N) : cfg1.idle 0 (grid1.coords t) = false := rfl
theorem live_1 (t : Fin cfg1.N) : cfg1.idle 1 (grid1.coords t) = false := rfl
theorem live_2 (t : Fin cfg1.N) : cfg1.idle 2 (grid1.coords t) = false := rfl
/-- The outputs are idle where the second conditional fails, live where it holds. -/
theorem idle_3 (t : Fin cfg1.N) (h : ¬cond1 (grid1.coords t)) : cfg1.idle 3 (grid1.coords t) = true := by
  show (!(k1_cond2 (grid1.coords t) == 1#1)) = true
  rw [Bool.not_eq_true', beq_eq_false_iff_ne]; exact h
theorem idle_4 (t : Fin cfg1.N) (h : ¬cond1 (grid1.coords t)) : cfg1.idle 4 (grid1.coords t) = true := by
  show (!(k1_cond2 (grid1.coords t) == 1#1)) = true
  rw [Bool.not_eq_true', beq_eq_false_iff_ne]; exact h
theorem live_3 (t : Fin cfg1.N) (h : cond1 (grid1.coords t)) : cfg1.idle 3 (grid1.coords t) = false := by
  show (!(k1_cond2 (grid1.coords t) == 1#1)) = false
  rw [show k1_cond2 (grid1.coords t) = 1#1 from h]; rfl
theorem live_4 (t : Fin cfg1.N) (h : cond1 (grid1.coords t)) : cfg1.idle 4 (grid1.coords t) = false := by
  show (!(k1_cond2 (grid1.coords t) == 1#1)) = false
  rw [show k1_cond2 (grid1.coords t) = 1#1 from h]; rfl
/-- Away from the last point of a row the outputs are not written back. -/
theorem noFlush_3 (t : Fin cfg1.N) (h : ¬t.val % 125 = 124) : (cfg1.win 3).flush t = false :=
  Bool.eq_false_iff.mpr fun hf => h ((flush1_3 t).mp hf)
theorem noFlush_4 (t : Fin cfg1.N) (h : ¬t.val % 125 = 124) : (cfg1.win 4).flush t = false :=
  Bool.eq_false_iff.mpr fun hf => h ((flush1_4 t).mp hf)

section Body

variable (c : Dev nD) (A : (w : Fin cfg1.W) → Buf (Elt F) ((cfg1.win w).arr.view.loc (c.tc : Thread nD τ)))

/-- What the body is called with at point `t`, the windows one by one, -/
def bodyPre (t : Fin cfg1.N) : sProp 𝕄 :=
  iprop((dat c A).Φ t.castSucc ∗ (dat c A).owesAt () t.castSucc
    ∗ (∃ d, owns (c : Thread nD τ) (st1_0 t) fullShare ((dat c A).before 0 t d))
    ∗ (∃ d, owns (c : Thread nD τ) (st1_1 t) fullShare ((dat c A).before 1 t d))
    ∗ (∃ d, owns (c : Thread nD τ) (st1_2 t) fullShare ((dat c A).before 2 t d))
    ∗ (∃ d, owns (c : Thread nD τ) (st1_3 t) fullShare ((dat c A).before 3 t d))
    ∗ (∃ d, owns (c : Thread nD τ) (st1_4 t) fullShare ((dat c A).before 4 t d)))

/-- and what it returns. -/
def bodyPost (t : Fin cfg1.N) : sProp 𝕄 :=
  iprop((dat c A).Φ t.succ ∗ (dat c A).owesAt () t.succ
    ∗ (dat c A).leavesExact 0 t
    ∗ (dat c A).leavesExact 1 t
    ∗ (dat c A).leavesExact 2 t
    ∗ (dat c A).leavesExact 3 t
    ∗ (dat c A).leavesExact 4 t)

set_option maxHeartbeats 2000000 in
/-- The body at any point: the inputs' memrefs hold their blocks; the point's number says which run applies; the
    invariant hands the body the accumulators at what the point before left (at anything before the first point) and
    takes them back at this point's contents; the core owes nothing throughout. -/
theorem sound_body (t : Fin cfg1.N) :
    bodyPre c A t ⊢ wp frame (wpE (defs₀ (F := F)) Variants.none c none) Set.univ (bodyAt1 t) (fun _ => bodyPost c A t) := by
  unfold bodyPre bodyPost bodyAt1
  simp only [before_0, before_1, before_2]
  rw [show (dat c A).owesAt () t.succ = (dat c A).owesAt () t.castSucc from rfl, Phi_at_succ, Phi_succ, Phi_castSucc]
  rw [show (dat c A).leavesExact 0 t = owns (c : Thread nD τ) (st1_0 t) fullShare ((dat c A).after 0 t) from by
      unfold Dat.leavesExact; rw [live_0 t], after_0,
    show (dat c A).leavesExact 1 t = owns (c : Thread nD τ) (st1_1 t) fullShare ((dat c A).after 1 t) from by
      unfold Dat.leavesExact; rw [live_1 t], after_1,
    show (dat c A).leavesExact 2 t = owns (c : Thread nD τ) (st1_2 t) fullShare ((dat c A).after 2 t) from by
      unfold Dat.leavesExact; rw [live_2 t], after_2]
  have hN : t.val < 250 := lt_of_lt_of_eq t.isLt N_1
  by_cases h0 : t.val % 125 = 0
  · have h1 : ¬t.val % 125 = 124 := by omega
    have hc0 : cond0 (grid1.coords t) := (hcond0 t).mpr h0
    have hc1 : ¬cond1 (grid1.coords t) := fun h => h1 ((hcond1 t).mp h)
    rw [Dat.leavesExact_idle (dat c A) 3 t (idle_3 t hc1) (noFlush_3 t h1),
      Dat.leavesExact_idle (dat c A) 4 t (idle_4 t hc1) (noFlush_4 t h1)]
    rw [acc_reset c A t h0]
    dsimp only [step, zeros]
    by_cases hz : t.val = 0
    · rw [Phi_zero c A _ _ hz, scopedRest_owns]
      iintro ⟨⟨⟨⟨%s0, HS0⟩, ⟨%s1, HS1⟩⟩, Hr⟩, Ho, ⟨%d0, H0⟩, ⟨%d1, H1⟩, ⟨%d2, H2⟩, ⟨%d3, H3⟩, ⟨%d4, H4⟩⟩
      iapply (runA c (grid1.coords t) _ _ _ _ _ _ _ _ _ _ _ _ _ _ hc0 hc1 (tile c A t) (scale c A t) (shift c A t)
        ((dat c A).before 3 t d3) ((dat c A).before 4 t d4) s0 s1 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4
    · rw [Phi_pos c A _ _ hz]
      iintro ⟨⟨HS0, HS1, Hr⟩, Ho, ⟨%d0, H0⟩, ⟨%d1, H1⟩, ⟨%d2, H2⟩, ⟨%d3, H3⟩, ⟨%d4, H4⟩⟩
      iapply (runA c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    have hc0 : ¬cond0 (grid1.coords t) := fun h => h0 ((hcond0 t).mp h)
    rw [acc_add c A t h0, Phi_pos c A _ _ hz]
    dsimp only [step]
    by_cases h1 : t.val % 125 = 124
    · have hc1 : cond1 (grid1.coords t) := (hcond1 t).mpr h1
      rw [show (dat c A).leavesExact 3 t = owns (c : Thread nD τ) (st1_3 t) fullShare ((dat c A).after 3 t) from by
          unfold Dat.leavesExact; rw [live_3 t hc1], after_3,
        show (dat c A).leavesExact 4 t = owns (c : Thread nD τ) (st1_4 t) fullShare ((dat c A).after 4 t) from by
          unfold Dat.leavesExact; rw [live_4 t hc1], after_4]
      rw [acc_add c A t h0]
      dsimp only [step]
      iintro ⟨⟨HS0, HS1, Hr⟩, Ho, ⟨%d0, H0⟩, ⟨%d1, H1⟩, ⟨%d2, H2⟩, ⟨%d3, H3⟩, ⟨%d4, H4⟩⟩
      iapply (runC c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · have hc1 : ¬cond1 (grid1.coords t) := fun h => h1 ((hcond1 t).mp h)
      rw [Dat.leavesExact_idle (dat c A) 3 t (idle_3 t hc1) (noFlush_3 t h1),
        Dat.leavesExact_idle (dat c A) 4 t (idle_4 t hc1) (noFlush_4 t h1)]
      iintro ⟨⟨HS0, HS1, Hr⟩, Ho, ⟨%d0, H0⟩, ⟨%d1, H1⟩, ⟨%d2, H2⟩, ⟨%d3, H3⟩, ⟨%d4, H4⟩⟩
      iapply (runB c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation : BodyObligation (dat c A) (defs₀ (F := F)) Variants.none () Set.univ := fun t => by
  rw [bigSep_W1, bigSep_W1]
  exact sound_body c A t

end Body

end Cert.Kernel.R1

end
-- ==== Proof.KI1.lean ====
/-
  Region 1 as the whole run takes it: its proof data over the entering arrays, the body obligation, and the two ends of
  its invariant against the scoped buffers no window stages (at entry the two accumulators are among them, at contents
  not chosen; at exit they are handed back).
-/
import proofs.«149722_j50371376447949_2_alg».proof.Proof.KR1Data
import proofs.«149722_j50371376447949_2_alg».proof.Proof.KR1Body

noncomputable section
namespace Cert.Kernel.I1
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (c : Dev nD) (A : (w : Fin cfg1.W) → Buf (Elt F) ((cfg1.win w).arr.view.loc (c.tc : Thread nD τ)))

abbrev dat : Dat τ (Elt F) Unit ℕ (UR sig nD τ) ℕ cfg1 c := R1.dat c A

theorem body_obligation : BodyObligation (dat c A) (defs₀ (F := F)) Variants.none () Set.univ := R1.body_obligation c A

set_option backward.isDefEq.respectTransparency.types false in
theorem hin : (Pipeline.scopedRest (Ix := Unit) (Name := ℕ) (U := UR sig nD τ) (Lvl := ℕ) (Val := Elt F) spec1 c : sProp 𝕄) ⊢ (dat c A).Φ 0 := by
  iintro Hr
  iapply (R1.hin c A)
  isplitr; · iempintro
  isplitr; · unfold Pipeline.prefHeld; rw [show (Finset.univ : Finset (Fin 0)) = ∅ from rfl, BI.bigSep_empty]; iempintro
  iexact Hr

set_option backward.isDefEq.respectTransparency.types false in
theorem hout : (dat c A).Φ (Fin.last cfg1.N) ⊢ (Pipeline.scopedRest (Ix := Unit) (Name := ℕ) (U := UR sig nD τ) (Lvl := ℕ) (Val := Elt F) spec1 c : sProp 𝕄) := by
  iintro H
  ihave H' := (R1.hout c A) $$ H
  icases H' with ⟨-, -, Hr⟩
  iexact Hr

end Cert.Kernel.I1
end
-- ==== Proof.KR2.lean ====
/-
  The third kernel region (one grid axis of 250 points, a tile of 2000 edges per point): the proof data and the body.

  At a point the body reads five blocks — the tile's rows of the first product, the first layer's scale and shift rows,
  the second layer's weights with its scale folded in, the second shift row —, recomputes the tile's hidden activations,
  multiplies by the weights and adds the shift, and stores the result over the whole output block. It keeps nothing from
  point to point and names no scratch: the invariant between points is the scoped buffers no window stages, untouched.

  What the body finds: each input's staging buffer holds that window's block at the point, whether or not the point
  fetched it (the four one-row / weight windows have a constant block index and are fetched once); the output's staging
  buffer, written back at every point, holds nothing the body may rely on. What it leaves: the inputs as found, the
  output's buffer at `k2_pay1` of the five blocks.
-/
import proofs.«149722_j50371376447949_2_alg».proof.Proof.Gen.Kernel.Points
import proofs.«149722_j50371376447949_2_alg».proof.Proof.Gen.Kernel.Launch
import proofs.«149722_j50371376447949_2_alg».proof.Proof.Gen.Kernel.Skeleton
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run once on whole staging memrefs -/

/-- Every access of the body is through the whole buffer: offsets zero. -/
theorem off2 : (![0, 0] : Fin 2 → ℕ) = fun _ => 0 := by funext a; fin_cases a <;> rfl

abbrev rOut : Rect S2000x256 := Rect.unit (s := S2000x256) ![0, 0] S2000x256.size inb_S2000x256_S2000x256_0_0

/-- The one store covers the output block. -/
theorem cover_out (p : Vec F S2000x256 .f32) (y : S2000x256.Idx) :
    ∃ pc ∈ ([⟨rOut, p⟩] : List (View.Piece (Elt F) S2000x256 .f32)), y ∈ pc.1.set :=
  View.cover_of_tiled [⟨rOut, p⟩] S2000x256.size (by rfl) y

set_option maxHeartbeats 1000000 in
/-- On whole staging memrefs, the five inputs' at read contents `x0 … x4` and the output's at anything, the body runs
    to its return with the inputs' as they were and the output's at the payload of its one store. -/
theorem sound_kernel (c : Dev nD) (i : grid2.Coords)
    (arg1 : Memref sig .tc .vmem S2000x256 .bf16) (h1 : arg1.IsWhole) (arg2 : Memref sig .tc .vmem S1x256 .f32) (h2 : arg2.IsWhole)
    (arg3 : Memref sig .tc .vmem S1x256 .f32) (h3 : arg3.IsWhole) (arg4 : Memref sig .tc .vmem S256x256 .bf16) (h4 : arg4.IsWhole)
    (arg5 : Memref sig .tc .vmem S1x256 .f32) (h5 : arg5.IsWhole) (arg6 : Memref sig .tc .vmem S2000x256 .f32) (h6 : arg6.IsWhole)
    (x0 : Vec F S2000x256 .bf16) (x1 x2 : Vec F S1x256 .f32) (x3 : Vec F S256x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) Set.univ
          (cc2__stage3_kernel i arg1 h1 arg2 h2 arg3 h3 arg4 h4 arg5 h5 arg6 h6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_out _), View.canon_unit_zero off2]
  simp only [View.readAt_eq_ld, View.ld_unit_zero (S := S2000x256) off2, View.ld_unit_zero (S := S1x256) off2,
    View.ld_unit_zero (S := S256x256) off2]

/-! ## The proof data -/

section Data

variable (c : Dev nD) (A : (w : Fin cfg2.W) → Buf (Elt F) ((cfg2.win w).arr.view.loc (c.tc : Thread nD τ)))

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (A w)

/-- The proof data on core `c`, the six windows' arrays entering at `A`: after the body at point `t` each input's
    staging buffer at its block, the output's at the payload of the five blocks; between points the scoped buffers no
    window stages; nothing owed; full shares. -/
def dat : Dat τ (Elt F) Unit ℕ (UR sig nD τ) ℕ cfg2 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => k2_pay1 (iblk c A 0 t) (iblk c A 1 t) (iblk c A 2 t) (iblk c A 3 t) (iblk c A 4 t)
  Φ _ := Pipeline.scopedRest (Ix := Unit) (Name := ℕ) (U := UR sig nD τ) (Lvl := ℕ) (Val := Elt F) spec2 c
  q _ := fullShare
  owed _ := 0

theorem after_0 (t : Fin cfg2.N) : (dat c A).after 0 t = iblk c A 0 t := by dsimp only [dat]
theorem after_1 (t : Fin cfg2.N) : (dat c A).after 1 t = iblk c A 1 t := by dsimp only [dat]
theorem after_2 (t : Fin cfg2.N) : (dat c A).after 2 t = iblk c A 2 t := by dsimp only [dat]
theorem after_3 (t : Fin cfg2.N) : (dat c A).after 3 t = iblk c A 3 t := by dsimp only [dat]
theorem after_4 (t : Fin cfg2.N) : (dat c A).after 4 t = iblk c A 4 t := by dsimp only [dat]
theorem after_5 (t : Fin cfg2.N) : (dat c A).after 5 t
    = k2_pay1 (iblk c A 0 t) (iblk c A 1 t) (iblk c A 2 t) (iblk c A 3 t) (iblk c A 4 t) := by dsimp only [dat]

/-- Each input's current staging buffer holds its block at every point, fetched there or not: unfetched, the block
    index has not moved, and the body left the block in place. -/
theorem before_0 (t : Fin cfg2.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg2.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg2.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)
theorem before_3 (t : Fin cfg2.N) (d) : (dat c A).before 3 t d = iblk c A 3 t :=
  ((dat c A).before_in_eq_fetched 3 rfl (fun _ => rfl) (fun _ _ _ => rfl) (fun t => by rw [after_3]; rfl) t d).trans
    (by unfold Dat.fetched Dat.blockOf iblk; rfl)
theorem before_4 (t : Fin cfg2.N) (d) : (dat c A).before 4 t d = iblk c A 4 t :=
  ((dat c A).before_in_eq_fetched 4 rfl (fun _ => rfl) (fun _ _ _ => rfl) (fun t => by rw [after_4]; rfl) t d).trans
    (by unfold Dat.fetched Dat.blockOf iblk; rfl)

/-! ## The body obligation, at a generic point -/

/-- What the body is called with at point `t`, the windows one by one, -/
def bodyPre (t : Fin cfg2.N) : sProp 𝕄 :=
  iprop((dat c A).Φ t.castSucc ∗ (dat c A).owesAt () t.castSucc
    ∗ (∃ d, owns (c : Thread nD τ) (st2_0 t) fullShare ((dat c A).before 0 t d))
    ∗ (∃ d, owns (c : Thread nD τ) (st2_1 t) fullShare ((dat c A).before 1 t d))
    ∗ (∃ d, owns (c : Thread nD τ) (st2_2 t) fullShare ((dat c A).before 2 t d))
    ∗ (∃ d, owns (c : Thread nD τ) (st2_3 t) fullShare ((dat c A).before 3 t d))
    ∗ (∃ d, owns (c : Thread nD τ) (st2_4 t) fullShare ((dat c A).before 4 t d))
    ∗ (∃ d, owns (c : Thread nD τ) (st2_5 t) fullShare ((dat c A).before 5 t d)))

/-- and what it returns. -/
def bodyPost (t : Fin cfg2.N) : sProp 𝕄 :=
  iprop((dat c A).Φ t.succ ∗ (dat c A).owesAt () t.succ
    ∗ owns (c : Thread nD τ) (st2_0 t) fullShare ((dat c A).after 0 t)
    ∗ owns (c : Thread nD τ) (st2_1 t) fullShare ((dat c A).after 1 t)
    ∗ owns (c : Thread nD τ) (st2_2 t) fullShare ((dat c A).after 2 t)
    ∗ owns (c : Thread nD τ) (st2_3 t) fullShare ((dat c A).after 3 t)
    ∗ owns (c : Thread nD τ) (st2_4 t) fullShare ((dat c A).after 4 t)
    ∗ owns (c : Thread nD τ) (st2_5 t) fullShare ((dat c A).after 5 t))

/-- The body at any point: the inputs' memrefs hold their blocks, so the run applies; the invariant and the core's dues
    pass through unread. -/
theorem sound_body (t : Fin cfg2.N) :
    bodyPre c A t ⊢ wp frame (wpE (defs₀ (F := F)) Variants.none c none) Set.univ (bodyAt2 t) (fun _ => bodyPost c A t) := by
  unfold bodyPre bodyPost bodyAt2
  simp only [before_0, before_1, before_2, before_3, before_4]
  rw [show (dat c A).Φ t.succ = (dat c A).Φ t.castSucc from rfl,
    show (dat c A).owesAt () t.succ = (dat c A).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c (grid2.coords t) _ _ _ _ _ _ _ _ _ _ _ _
    (iblk c A 0 t) (iblk c A 1 t) (iblk c A 2 t) (iblk c A 3 t) (iblk c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation : BodyObligation (dat c A) (defs₀ (F := F)) Variants.none () Set.univ := fun t => by
  rw [bigSep_W2, bigSep_W2]
  exact sound_body c A t

end Data

end Cert.Kernel.R2

end
-- ==== Proof.KRun.lean ====
/-
  The kernel's whole run: three kernel regions among three stretches of host operations, from the launch to the return.

  Between two items a core holds every unscoped buffer whole, at contents that fold through the program: the launch
  memory; after a host stretch, the stretch's operations applied; after a region, that region's windowed arrays at what
  the pipeline leaves there (the inputs as entered, each output's write-backs folded in) and every other buffer as
  entered. A region takes its arrays out of the unscoped buffers at entry and puts them back at exit; its invariant is
  made of the scoped buffers no window stages and gives them back; nothing is owed to another core and the kernels name no
  semaphore of their own. Read against the final state, the last fold says what every unscoped buffer ends holding.
-/
import proofs.«149722_j50371376447949_2_alg».proof.Proof.Gen.Kernel.Launch
import proofs.«149722_j50371376447949_2_alg».proof.Proof.Gen.Kernel.Regions
import proofs.«149722_j50371376447949_2_alg».proof.Proof.KI0
import proofs.«149722_j50371376447949_2_alg».proof.Proof.KI1
import proofs.«149722_j50371376447949_2_alg».proof.Proof.KR2
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.RunAll

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- At launch. -/
abbrev B0 : Dev nD → Valuation τ sig (Elt F) := fun c b => m (c, b)
/-- After the first host stretch (region 0's entry). -/
abbrev B1 (c : Dev nD) : Valuation τ sig (Elt F) := StableHlo.after hostOps0 (B0 m c)
/-- The same read at the TensorCore's references. -/
abbrev V1 (c : Dev nD) (b : Ref sig .tc) : Buf (Elt F) ((c : Thread nD τ).loc b) := B1 m c b
/-- Region 0's arrays as it finds them. -/
abbrev A0 (c : Dev nD) (w : Fin cfg0.W) : Buf (Elt F) ((cfg0.win w).arr.view.loc (c.tc : Thread nD τ)) := V1 m c (Pipeline.arrRef spec0 w)
/-- After region 0: its arrays at what the pipeline leaves, every other buffer as entered. -/
def B2 (c : Dev nD) : Valuation τ sig (Elt F) :=
  Pipeline.withArrays spec0 c (B1 m c) fun w => (I0.dat c (A0 m c)).arrAt w cfg0.N
abbrev V2 (c : Dev nD) (b : Ref sig .tc) : Buf (Elt F) ((c : Thread nD τ).loc b) := B2 m c b
/-- After the second host stretch (region 1's entry). -/
abbrev B3 (c : Dev nD) : Valuation τ sig (Elt F) := StableHlo.after hostOps1 (B2 m c)
abbrev V3 (c : Dev nD) (b : Ref sig .tc) : Buf (Elt F) ((c : Thread nD τ).loc b) := B3 m c b
abbrev A1 (c : Dev nD) (w : Fin cfg1.W) : Buf (Elt F) ((cfg1.win w).arr.view.loc (c.tc : Thread nD τ)) := V3 m c (Pipeline.arrRef spec1 w)
/-- After region 1. -/
def B4 (c : Dev nD) : Valuation τ sig (Elt F) :=
  Pipeline.withArrays spec1 c (B3 m c) fun w => (I1.dat c (A1 m c)).arrAt w cfg1.N
abbrev V4 (c : Dev nD) (b : Ref sig .tc) : Buf (Elt F) ((c : Thread nD τ).loc b) := B4 m c b
/-- After the third host stretch (region 2's entry). -/
abbrev B5 (c : Dev nD) : Valuation τ sig (Elt F) := StableHlo.after hostOps2 (B4 m c)
abbrev V5 (c : Dev nD) (b : Ref sig .tc) : Buf (Elt F) ((c : Thread nD τ).loc b) := B5 m c b
abbrev A2 (c : Dev nD) (w : Fin cfg2.W) : Buf (Elt F) ((cfg2.win w).arr.view.loc (c.tc : Thread nD τ)) := V5 m c (Pipeline.arrRef spec2 w)
/-- After region 2: the end. -/
def B6 (c : Dev nD) : Valuation τ sig (Elt F) :=
  Pipeline.withArrays spec2 c (B5 m c) fun w => (R2.dat c (A2 m c)).arrAt w cfg2.N
abbrev V6 (c : Dev nD) (b : Ref sig .tc) : Buf (Elt F) ((c : Thread nD τ).loc b) := B6 m c b

theorem B2_arr (c : Dev nD) (w : Fin cfg0.W) : B2 m c (Proc.devRef .tc (Pipeline.arrRef spec0 w)) = (I0.dat c (A0 m c)).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem B4_arr (c : Dev nD) (w : Fin cfg1.W) : B4 m c (Proc.devRef .tc (Pipeline.arrRef spec1 w)) = (I1.dat c (A1 m c)).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem B6_arr (c : Dev nD) (w : Fin cfg2.W) : B6 m c (Proc.devRef .tc (Pipeline.arrRef spec2 w)) = (R2.dat c (A2 m c)).arrAt w cfg2.N := by
  unfold B6; exact Pipeline.withArrays_arr spec2 launch2.win.arr_inj c _ _ w
theorem B6_of_ne (c : Dev nD) (b : Ref sig .tc) (hb : ∀ w, Pipeline.arrRef spec2 w ≠ b) : B6 m c (Proc.devRef .tc b) = B5 m c (Proc.devRef .tc b) := by
  unfold B6; exact Pipeline.withArrays_of_ne spec2 c _ _ b hb

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => I0.dat c (A0 m c)
  | ⟨1, _⟩ => fun c => I1.dat c (A1 m c)
  | ⟨2, _⟩ => fun c => R2.dat c (A2 m c)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core owing nothing. -/
abbrev R (c : Dev nD) : sProp 𝕄 := iprop(∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- Region 2's invariant is the scoped rest itself, at both ends. -/
theorem r2_hin (c : Dev nD) (A : (w : Fin cfg2.W) → Buf (Elt F) ((cfg2.win w).arr.view.loc (c.tc : Thread nD τ))) :
    (Pipeline.scopedRest (Ix := Unit) (Name := ℕ) (U := UR sig nD τ) (Lvl := ℕ) (Val := Elt F) spec2 c : sProp 𝕄) ⊢ (R2.dat c A).Φ 0 := .rfl
theorem r2_hout (c : Dev nD) (A : (w : Fin cfg2.W) → Buf (Elt F) ((cfg2.win w).arr.view.loc (c.tc : Thread nD τ))) :
    (R2.dat c A).Φ (Fin.last cfg2.N) ⊢ (Pipeline.scopedRest (Ix := Unit) (Name := ℕ) (U := UR sig nD τ) (Lvl := ℕ) (Val := Elt F) spec2 c : sProp 𝕄) := .rfl

theorem hF0 (c : Dev nD) (w : Fin cfg0.W) : (I0.dat c (A0 m c)).arrAt w cfg0.N = V2 m c (Pipeline.arrRef spec0 w) :=
  (B2_arr m c w).symm
theorem hrest0 (c : Dev nD) : ∀ b, b ∉ Finset.univ.image (Pipeline.arrRef spec0) → V2 m c b = V1 m c b :=
  fun b hb => B2_of_ne m c b fun w e => hb (Finset.mem_image.mpr ⟨w, Finset.mem_univ _, e⟩)

set_option backward.isDefEq.respectTransparency.types false in
/-- Region 0 over the thread state: entered from every unscoped buffer at the fold before it, left at the fold after
    it. Its arrays split out of the unscoped buffers and put back at the exit contents; the scoped rest into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (I0.body_obligation c (A0 m c)).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(emp)
  Y c := iprop(emp)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (I0.dat c (A0 m c)).Φ 0 from rfl]
    iintro ⟨-, -, Hr⟩
    iapply (I0.hin c (A0 m c))
    iexact Hr
  hout c := by
    rw [Pipeline.ownSems0_none, show (pdats m 0 c).Φ (Fin.last _) = (I0.dat c (A0 m c)).Φ (Fin.last cfg0.N) from rfl]
    iintro H
    ihave Hr := (I0.hout c (A0 m c)) $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem hF1 (c : Dev nD) (w : Fin cfg1.W) : (I1.dat c (A1 m c)).arrAt w cfg1.N = V4 m c (Pipeline.arrRef spec1 w) :=
  (B4_arr m c w).symm
theorem hrest1 (c : Dev nD) : ∀ b, b ∉ Finset.univ.image (Pipeline.arrRef spec1) → V4 m c b = V3 m c b :=
  fun b hb => B4_of_ne m c b fun w e => hb (Finset.mem_image.mpr ⟨w, Finset.mem_univ _, e⟩)

set_option backward.isDefEq.respectTransparency.types false in
/-- Region 1 over the thread state: entered from every unscoped buffer at the fold before it, left at the fold after
    it. Its arrays split out of the unscoped buffers and put back at the exit contents; the scoped rest into the invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (I1.body_obligation c (A1 m c)).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(emp)
  Y c := iprop(emp)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (I1.dat c (A1 m c)).Φ 0 from rfl]
    iintro ⟨-, -, Hr⟩
    iapply (I1.hin c (A1 m c))
    iexact Hr
  hout c := by
    rw [Pipeline.ownSems0_none, show (pdats m 1 c).Φ (Fin.last _) = (I1.dat c (A1 m c)).Φ (Fin.last cfg1.N) from rfl]
    iintro H
    ihave Hr := (I1.hout c (A1 m c)) $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem hF2 (c : Dev nD) (w : Fin cfg2.W) : (R2.dat c (A2 m c)).arrAt w cfg2.N = V6 m c (Pipeline.arrRef spec2 w) :=
  (B6_arr m c w).symm
theorem hrest2 (c : Dev nD) : ∀ b, b ∉ Finset.univ.image (Pipeline.arrRef spec2) → V6 m c b = V5 m c b :=
  fun b hb => B6_of_ne m c b fun w e => hb (Finset.mem_image.mpr ⟨w, Finset.mem_univ _, e⟩)

set_option backward.isDefEq.respectTransparency.types false in
/-- Region 2 over the thread state: entered from every unscoped buffer at the fold before it, left at the fold after
    it. Its arrays split out of the unscoped buffers and put back at the exit contents; the scoped rest into the invariant
    and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation c (A2 m c)).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(emp)
  Y c := iprop(emp)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (R2.dat c (A2 m c)).Φ 0 from rfl]
    iintro ⟨-, -, Hr⟩
    iapply (r2_hin c (A2 m c))
    iexact Hr
  hout c := by
    rw [Pipeline.ownSems0_none, show (pdats m 2 c).Φ (Fin.last _) = (R2.dat c (A2 m c)).Φ (Fin.last cfg2.N) from rfl]
    iintro H
    ihave Hr := (r2_hout c (A2 m c)) $$ H
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

set_option backward.isDefEq.respectTransparency.types false in
/-- THE RUN. At the compiled mesh, from any memory with zero counters, every weakly fair execution of @main on the
    TensorCores terminates, nothing faulting, and in every final state every unscoped buffer holds the last fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (B6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = B6 m c b)
    (hfin := fun c s' => by
      iintro ⟨Hh, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

end Cert.Kernel.RunAll

end
-- ==== Proof.KWalkArgs.lean ====
import proofs.«149722_j50371376447949_2_alg».proof.Proof.KRun
import proofs.«149722_j50371376447949_2_alg».proof.Proof.Gen.Kernel.Regions

/-!
# Every argument ends holding its launch contents

The contents of the unscoped buffers fold through the program: the launch memory, then each stretch of host
operations applied, then each region's arrays replaced by what its pipeline leaves. No item writes an argument: a host
operation writes only its own result buffer, and a region changes only its output windows' arrays. Eight of the eleven
arguments are no region's window, so each step of the fold leaves them as they were. The other three are the first
region's input windows; a pipeline never writes back an input window's array, so they come out of the first region as
they entered it, and no later item touches them.
-/

set_option maxRecDepth 16384

noncomputable section

namespace Cert.Kernel.WalkArgs

open Cert.Kernel
open Cert.Kernel.Gen hiding V0 V1 V2 V3 V4 V5 V6 Outs
open Idealize.ShloMosaic Idealize.ShloMosaic.TcCoe
open Idealize.SL Idealize.SL.Sem
open Idealize.ShloMosaic.Pipeline (Dat Cfg Window)
open Cert.Kernel.RunAll

/-! ## A reference no item writes keeps its launch contents -/

variable {F : FTy → Type} [FloatOps F]
variable (m : (ℓ : Loc nD τ sig) → Buf (Elt F) ℓ) (c : Dev nD)

theorem B1_keep (r : Ref sig .tc) (h0 : r ∉ hostOps0_W) :
    B1 m c (Proc.devRef .tc r) = m ((c : Thread nD τ).loc r) :=
  StableHlo.after_of_writes_sub hostOps0 _ hostOps0_writes h0

theorem B2_keep (r : Ref sig .tc) (h0 : r ∉ hostOps0_W) (hw0 : ∀ w, Pipeline.arrRef spec0 w ≠ r) :
    B2 m c (Proc.devRef .tc r) = m ((c : Thread nD τ).loc r) :=
  (B2_of_ne m c r hw0).trans (B1_keep m c r h0)

theorem B3_keep (r : Ref sig .tc) (h0 : r ∉ hostOps0_W) (hw0 : ∀ w, Pipeline.arrRef spec0 w ≠ r) (h1 : r ∉ hostOps1_W) :
    B3 m c (Proc.devRef .tc r) = m ((c : Thread nD τ).loc r) :=
  (StableHlo.after_of_writes_sub hostOps1 _ hostOps1_writes h1).trans (B2_keep m c r h0 hw0)

theorem B4_keep (r : Ref sig .tc) (h0 : r ∉ hostOps0_W) (hw0 : ∀ w, Pipeline.arrRef spec0 w ≠ r) (h1 : r ∉ hostOps1_W)
    (hw1 : ∀ w, Pipeline.arrRef spec1 w ≠ r) : B4 m c (Proc.devRef .tc r) = m ((c : Thread nD τ).loc r) :=
  (B4_of_ne m c r hw1).trans (B3_keep m c r h0 hw0 h1)

theorem B5_keep (r : Ref sig .tc) (h0 : r ∉ hostOps0_W) (hw0 : ∀ w, Pipeline.arrRef spec0 w ≠ r) (h1 : r ∉ hostOps1_W)
    (hw1 : ∀ w, Pipeline.arrRef spec1 w ≠ r) (h2 : r ∉ hostOps2_W) :
    B5 m c (Proc.devRef .tc r) = m ((c : Thread nD τ).loc r) :=
  (StableHlo.after_of_writes_sub hostOps2 _ hostOps2_writes h2).trans (B4_keep m c r h0 hw0 h1 hw1)

theorem B6_keep (r : Ref sig .tc) (h0 : r ∉ hostOps0_W) (hw0 : ∀ w, Pipeline.arrRef spec0 w ≠ r) (h1 : r ∉ hostOps1_W)
    (hw1 : ∀ w, Pipeline.arrRef spec1 w ≠ r) (h2 : r ∉ hostOps2_W) (hw2 : ∀ w, Pipeline.arrRef spec2 w ≠ r) :
    B6 m c (Proc.devRef .tc r) = m ((c : Thread nD τ).loc r) :=
  (B6_of_ne m c r hw2).trans (B5_keep m c r h0 hw0 h1 hw1 h2)

/-- What a buffer holds after the first region it still holds at the end, if nothing later writes it. -/
theorem B6_of_B2 (r : Ref sig .tc) (x : (Proc.devRef (τ := τ) .tc r).ty.Contents (Elt F)) (hx : B2 m c (Proc.devRef .tc r) = x)
    (h1 : r ∉ hostOps1_W) (hw1 : ∀ w, Pipeline.arrRef spec1 w ≠ r) (h2 : r ∉ hostOps2_W)
    (hw2 : ∀ w, Pipeline.arrRef spec2 w ≠ r) : B6 m c (Proc.devRef .tc r) = x :=
  (B6_of_ne m c r hw2).trans <| (StableHlo.after_of_writes_sub hostOps2 _ hostOps2_writes h2).trans <|
    (B4_of_ne m c r hw1).trans <| (StableHlo.after_of_writes_sub hostOps1 _ hostOps1_writes h1).trans hx

/-! ## The first region's three argument windows enter as launched -/

theorem A0_0 : A0 m c 0 = (m ((c : Thread nD τ).loc main_arg0)) := B1_keep m c main_arg0 (by decide)
theorem A0_1 : A0 m c 1 = (m ((c : Thread nD τ).loc main_arg1)) := B1_keep m c main_arg1 (by decide)
theorem A0_2 : A0 m c 2 = (m ((c : Thread nD τ).loc main_arg2)) := B1_keep m c main_arg2 (by decide)

/-! ## The eleven arguments at the end -/

theorem B6_main_arg0 : B6 m c (Proc.devRef .tc main_arg0) = (m ((c : Thread nD τ).loc main_arg0)) :=
  B6_of_B2 m c main_arg0 _ ((B2_arr m c 0).trans (((I0.dat c (A0 m c)).arrAt_in 0 rfl _).trans (A0_0 m c)))
    (by decide) (by decide) (by decide) (by decide)
theorem B6_main_arg1 : B6 m c (Proc.devRef .tc main_arg1) = (m ((c : Thread nD τ).loc main_arg1)) :=
  B6_of_B2 m c main_arg1 _ ((B2_arr m c 1).trans (((I0.dat c (A0 m c)).arrAt_in 1 rfl _).trans (A0_1 m c)))
    (by decide) (by decide) (by decide) (by decide)
theorem B6_main_arg2 : B6 m c (Proc.devRef .tc main_arg2) = (m ((c : Thread nD τ).loc main_arg2)) :=
  B6_of_B2 m c main_arg2 _ ((B2_arr m c 2).trans (((I0.dat c (A0 m c)).arrAt_in 2 rfl _).trans (A0_2 m c)))
    (by decide) (by decide) (by decide) (by decide)
theorem B6_main_arg3 : B6 m c (Proc.devRef .tc main_arg3) = (m ((c : Thread nD τ).loc main_arg3)) :=
  B6_keep m c main_arg3 (by decide) (by decide) (by decide) (by decide) (by decide) (by decide)
theorem B6_main_arg4 : B6 m c (Proc.devRef .tc main_arg4) = (m ((c : Thread nD τ).loc main_arg4)) :=
  B6_keep m c main_arg4 (by decide) (by decide) (by decide) (by decide) (by decide) (by decide)
theorem B6_main_arg5 : B6 m c (Proc.devRef .tc main_arg5) = (m ((c : Thread nD τ).loc main_arg5)) :=
  B6_keep m c main_arg5 (by decide) (by decide) (by decide) (by decide) (by decide) (by decide)
theorem B6_main_arg6 : B6 m c (Proc.devRef .tc main_arg6) = (m ((c : Thread nD τ).loc main_arg6)) :=
  B6_keep m c main_arg6 (by decide) (by decide) (by decide) (by decide) (by decide) (by decide)
theorem B6_main_arg7 : B6 m c (Proc.devRef .tc main_arg7) = (m ((c : Thread nD τ).loc main_arg7)) :=
  B6_keep m c main_arg7 (by decide) (by decide) (by decide) (by decide) (by decide) (by decide)
theorem B6_main_arg8 : B6 m c (Proc.devRef .tc main_arg8) = (m ((c : Thread nD τ).loc main_arg8)) :=
  B6_keep m c main_arg8 (by decide) (by decide) (by decide) (by decide) (by decide) (by decide)
theorem B6_main_arg9 : B6 m c (Proc.devRef .tc main_arg9) = (m ((c : Thread nD τ).loc main_arg9)) :=
  B6_keep m c main_arg9 (by decide) (by decide) (by decide) (by decide) (by decide) (by decide)
theorem B6_main_arg10 : B6 m c (Proc.devRef .tc main_arg10) = (m ((c : Thread nD τ).loc main_arg10)) :=
  B6_keep m c main_arg10 (by decide) (by decide) (by decide) (by decide) (by decide) (by decide)

end Cert.Kernel.WalkArgs
-- ==== Proof.FrameWord.lean ====
/-
  The frame of the kernel as printed, at the word level: its whole run, read at the eleven argument arrays.

  The run ends with every unscoped buffer at the last fold of the contents through the program; at an argument's buffer the
  fold walks back to the launch memory, because no host operation writes an argument and a region either reads it through
  an input window, which the pipeline leaves as it found it, or does not touch it.
-/
import proofs.«149722_j50371376447949_2_alg».proof.Defs
import proofs.«149722_j50371376447949_2_alg».proof.Proof.KRun
import proofs.«149722_j50371376447949_2_alg».proof.Proof.KWalkArgs
import proofs.«149722_j50371376447949_2_alg».proof.Proof.Gen.Pre_finite_inputs

noncomputable section

namespace Cert.Proof.FrameKernel

open Idealize.ShloMosaic Idealize.ShloMosaic.TcCoe Idealize.SL.Sem
open Cert.Kernel Cert.Kernel.RunAll

/-- Every weakly fair execution of the program terminates, nothing faulting, with every argument array as launched. -/
theorem frame : Cert.frame_Kernel := fun m ρ _ =>
  (θ_run Cert.Kernel.defs _ _).mono (fun r h c =>
    ⟨(h c _ (mem_uc main_arg0 (by decide))).trans (Cert.Kernel.WalkArgs.B6_main_arg0 m c),
     (h c _ (mem_uc main_arg1 (by decide))).trans (Cert.Kernel.WalkArgs.B6_main_arg1 m c),
     (h c _ (mem_uc main_arg2 (by decide))).trans (Cert.Kernel.WalkArgs.B6_main_arg2 m c),
     (h c _ (mem_uc main_arg3 (by decide))).trans (Cert.Kernel.WalkArgs.B6_main_arg3 m c),
     (h c _ (mem_uc main_arg4 (by decide))).trans (Cert.Kernel.WalkArgs.B6_main_arg4 m c),
     (h c _ (mem_uc main_arg5 (by decide))).trans (Cert.Kernel.WalkArgs.B6_main_arg5 m c),
     (h c _ (mem_uc main_arg6 (by decide))).trans (Cert.Kernel.WalkArgs.B6_main_arg6 m c),
     (h c _ (mem_uc main_arg7 (by decide))).trans (Cert.Kernel.WalkArgs.B6_main_arg7 m c),
     (h c _ (mem_uc main_arg8 (by decide))).trans (Cert.Kernel.WalkArgs.B6_main_arg8 m c),
     (h c _ (mem_uc main_arg9 (by decide))).trans (Cert.Kernel.WalkArgs.B6_main_arg9 m c),
     (h c _ (mem_uc main_arg10 (by decide))).trans (Cert.Kernel.WalkArgs.B6_main_arg10 m c)⟩)
    (run (F := Bits) m ρ)

end Cert.Proof.FrameKernel

end
-- ==== Proof.R0Data.lean ====
/-
  The first kernel region (a grid of 2 × 125 points run in row-major order, a tile of 2000 edges per point): the proof
  data — what every staging buffer holds after the body at each point, and what the two scratch accumulators hold
  between points.

  At point `t` (row `t / 125`, position `t % 125` in the row) the body reads the tile's four row blocks (source,
  destination, edge features, gathered globals) and the four slices of the first layer's weights, forms the tile's
  2000 × 256 product as the sum of four partial products (`k0_pay5`), stores it (converted to the narrower float format,
  `k0_pay6`) over the whole first output block, and adds the tile's column sums and column sums of squares to two
  1 × 1 × 256 scratch accumulators, which it zeroes first when the point opens a row. At the last point of a row it
  copies the two accumulators into the second and third output blocks, which are written back there and only there.

  So the accumulators after point `t` are given by a recursion on the point: at a row's first point the tile's
  contribution added to zero, otherwise added to what the point before left. The invariant between points holds the two
  scratch buffers at these contents (before the first point: at anything) beside the scoped buffers of the later regions.
-/
import proofs.«149722_j50371376447949_2_alg».proof.Proof.Gen.KernelIdeal.Points
import proofs.«149722_j50371376447949_2_alg».proof.Proof.Gen.KernelIdeal.Launch
import proofs.«149722_j50371376447949_2_alg».proof.Proof.Gen.KernelIdeal.Skeleton
import Idealize.ShloMosaic.Lib.Tactic
import Idealize.ShloMosaic.Lib.Pipeline.FrameBody
import Idealize.ShloMosaic.Lib.Pipeline.Kit
import Idealize.ShloMosaic.Lib.Pipeline.Value
import Idealize.ShloMosaic.Lib.Pipeline.Regions
import proofs.«149722_j50371376447949_2_alg».proof.Proof.Gen.KernelIdeal.Regions

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch accumulators, as whole memrefs: the column sums and the column sums of squares. -/
abbrev scM0 : Memref sig .tc .vmem S1x1x256 .f32 := Memref.whole cc0_scratch0
abbrev scM1 : Memref sig .tc .vmem S1x1x256 .f32 := Memref.whole cc0_scratch1

section Data

variable (c : Dev nD) (A : (w : Fin cfg0.W) → Buf (Elt F) ((cfg0.win w).arr.view.loc (c.tc : Thread nD τ)))

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (A w)

/-- The tile's product at point `t`: the four partial products of its row blocks with the weight slices, summed. -/
def tile (t : Fin cfg0.N) : FVec F S2000x256 .f32 :=
  k0_pay5 (iblk c A 0 t) (iblk c A 1 t) (iblk c A 2 t) (iblk c A 3 t) (iblk c A 4 t) (iblk c A 5 t) (iblk c A 6 t) (iblk c A 7 t)

/-- The first output block at point `t`: the tile's product in the narrower float format. -/
def pre1 (t : Fin cfg0.N) : FVec F S2000x256 .bf16 :=
  k0_pay6 (iblk c A 0 t) (iblk c A 1 t) (iblk c A 2 t) (iblk c A 3 t) (iblk c A 4 t) (iblk c A 5 t) (iblk c A 6 t) (iblk c A 7 t)

/-- The column-sum accumulator after the body at point `n`: at a row's first point the tile's column sums added to
    zero, otherwise added to what the point before left. -/
def accSum : (n : ℕ) → n < cfg0.N → Vec F S1x1x256 .f32
  | 0, h => k0_pay1 (tile c A ⟨0, h⟩) (k0_pay3 (F := F))
  | n + 1, h =>
    if (n + 1) % 125 = 0 then k0_pay1 (tile c A ⟨n + 1, h⟩) (k0_pay3 (F := F))
    else k0_pay1 (tile c A ⟨n + 1, h⟩) (accSum n (Nat.lt_of_succ_lt h))

/-- The accumulator of the column sums of squares after the body at point `n`, likewise. -/
def accSq : (n : ℕ) → n < cfg0.N → Vec F S1x1x256 .f32
  | 0, h => k0_pay2 (tile c A ⟨0, h⟩) (k0_pay4 (F := F))
  | n + 1, h =>
    if (n + 1) % 125 = 0 then k0_pay2 (tile c A ⟨n + 1, h⟩) (k0_pay4 (F := F))
    else k0_pay2 (tile c A ⟨n + 1, h⟩) (accSq n (Nat.lt_of_succ_lt h))

/-- At a row's first point the accumulator restarts from zero; -/
theorem accSum_first (t : Fin cfg0.N) (h0 : t.val % 125 = 0) :
    accSum c A t.val t.isLt = k0_pay1 (tile c A t) (k0_pay3 (F := F)) := by
  obtain ⟨n, hn⟩ := t
  cases n with
  | zero => rfl
  | succ n => exact if_pos h0

/-- at any other point it adds to what the point before left. -/
theorem accSum_next (t : Fin cfg0.N) (h0 : ¬t.val % 125 = 0) :
    accSum c A t.val t.isLt
      = k0_pay1 (tile c A t) (accSum c A (t.val - 1) (Nat.lt_of_le_of_lt (Nat.sub_le _ _) t.isLt)) := by
  obtain ⟨n, hn⟩ := t
  cases n with
  | zero => exact absurd (Nat.zero_mod _) h0
  | succ n => exact if_neg h0

theorem accSq_first (t : Fin cfg0.N) (h0 : t.val % 125 = 0) :
    accSq c A t.val t.isLt = k0_pay2 (tile c A t) (k0_pay4 (F := F)) := by
  obtain ⟨n, hn⟩ := t
  cases n with
  | zero => rfl
  | succ n => exact if_pos h0

theorem accSq_next (t : Fin cfg0.N) (h0 : ¬t.val % 125 = 0) :
    accSq c A t.val t.isLt
      = k0_pay2 (tile c A t) (accSq c A (t.val - 1) (Nat.lt_of_le_of_lt (Nat.sub_le _ _) t.isLt)) := by
  obtain ⟨n, hn⟩ := t
  cases n with
  | zero => exact absurd (Nat.zero_mod _) h0
  | succ n => exact if_neg h0

/-- The scoped buffers of the two later regions, which this region never touches: each whole, at some contents. -/
def others : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- The invariant before point `n`: before the first point every scoped buffer no window stages at some contents;
    afterwards the two scratch accumulators at what the point before left, beside the later regions' buffers. -/
def Phi : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (accSum c A n hn) ∗ owns (c : Thread nD τ) scM1 fullShare (accSq c A n hn)
      ∗ others c)

theorem Phi_zero (n : ℕ) (h : n ≤ cfg0.N) (hz : n = 0) :
    Phi c A n h = Pipeline.scopedRest (Ix := Unit) (Name := ℕ) (U := UR sig nD τ) (Lvl := ℕ) (Val := Elt F) spec0 c := by
  subst hz; rfl

theorem Phi_succ (n : ℕ) (hn : n < cfg0.N) :
    Phi c A (n + 1) hn = iprop(owns (c : Thread nD τ) scM0 fullShare (accSum c A n hn) ∗ owns (c : Thread nD τ) scM1 fullShare (accSq c A n hn)
      ∗ others c) := rfl

theorem Phi_pos (n : ℕ) (h : n ≤ cfg0.N) (hz : n ≠ 0) :
    Phi c A n h = iprop(owns (c : Thread nD τ) scM0 fullShare (accSum c A (n - 1) (by omega)) ∗ owns (c : Thread nD τ) scM1 fullShare (accSq c A (n - 1) (by omega))
      ∗ others c) := by
  cases n with
  | zero => exact absurd rfl hz
  | succ n => rfl

/-- The proof data on core `c`, the eleven windows' arrays entering at `A`: after the body at point `t` each input's
    staging buffer at its block, the first output's at the tile's product, the two others' at the accumulators (they
    are stored at a row's last point only; elsewhere the window is idle and the entry is not consulted); between points
    the invariant above; nothing owed; full shares. -/
def dat : Dat τ (Elt F) Unit ℕ (UR sig nD τ) ℕ cfg0 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => iblk c A 5 t
    | ⟨6, _⟩ => iblk c A 6 t
    | ⟨7, _⟩ => iblk c A 7 t
    | ⟨8, _⟩ => pre1 c A t
    | ⟨9, _⟩ => accSum c A t.val t.isLt
    | ⟨10, _⟩ => accSq c A t.val t.isLt
  Φ t := Phi c A t.val (Nat.le_of_lt_succ t.isLt)
  q _ := fullShare
  owed _ := 0

theorem Phi_castSucc (t : Fin cfg0.N) : (dat c A).Φ t.castSucc = Phi c A t.val (Nat.le_of_lt t.isLt) := by
  dsimp only [dat]; simp only [Fin.coe_castSucc]

theorem Phi_succ' (t : Fin cfg0.N) : (dat c A).Φ t.succ = Phi c A (t.val + 1) t.isLt := rfl

theorem after_0 (t : Fin cfg0.N) : (dat c A).after 0 t = iblk c A 0 t := by dsimp only [dat]
theorem after_1 (t : Fin cfg0.N) : (dat c A).after 1 t = iblk c A 1 t := by dsimp only [dat]
theorem after_2 (t : Fin cfg0.N) : (dat c A).after 2 t = iblk c A 2 t := by dsimp only [dat]
theorem after_3 (t : Fin cfg0.N) : (dat c A).after 3 t = iblk c A 3 t := by dsimp only [dat]
theorem after_4 (t : Fin cfg0.N) : (dat c A).after 4 t = iblk c A 4 t := by dsimp only [dat]
theorem after_5 (t : Fin cfg0.N) : (dat c A).after 5 t = iblk c A 5 t := by dsimp only [dat]
theorem after_6 (t : Fin cfg0.N) : (dat c A).after 6 t = iblk c A 6 t := by dsimp only [dat]
theorem after_7 (t : Fin cfg0.N) : (dat c A).after 7 t = iblk c A 7 t := by dsimp only [dat]
theorem after_8 (t : Fin cfg0.N) : (dat c A).after 8 t = pre1 c A t := by dsimp only [dat]
theorem after_9 (t : Fin cfg0.N) : (dat c A).after 9 t = accSum c A t.val t.isLt := by dsimp only [dat]
theorem after_10 (t : Fin cfg0.N) : (dat c A).after 10 t = accSq c A t.val t.isLt := by dsimp only [dat]

/-- Each input's current staging buffer holds its block at every point, fetched there or not: unfetched (the weight
    slices, after the first point), the block index has not moved, and the body left the block in place. -/
theorem before_0 (t : Fin cfg0.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg0.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg0.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)
theorem before_3 (t : Fin cfg0.N) (d) : (dat c A).before 3 t d = iblk c A 3 t :=
  ((dat c A).before_in_eq_fetched 3 rfl (fun _ => rfl) (fun _ _ _ => rfl) (fun t => by rw [after_3]; rfl) t d).trans
    (by unfold Dat.fetched Dat.blockOf iblk; rfl)
theorem before_4 (t : Fin cfg0.N) (d) : (dat c A).before 4 t d = iblk c A 4 t :=
  ((dat c A).before_in_eq_fetched 4 rfl (fun _ => rfl) (fun _ _ _ => rfl) (fun t => by rw [after_4]; rfl) t d).trans
    (by unfold Dat.fetched Dat.blockOf iblk; rfl)
theorem before_5 (t : Fin cfg0.N) (d) : (dat c A).before 5 t d = iblk c A 5 t :=
  ((dat c A).before_in_eq_fetched 5 rfl (fun _ => rfl) (fun _ _ _ => rfl) (fun t => by rw [after_5]; rfl) t d).trans
    (by unfold Dat.fetched Dat.blockOf iblk; rfl)
theorem before_6 (t : Fin cfg0.N) (d) : (dat c A).before 6 t d = iblk c A 6 t :=
  ((dat c A).before_in_eq_fetched 6 rfl (fun _ => rfl) (fun _ _ _ => rfl) (fun t => by rw [after_6]; rfl) t d).trans
    (by unfold Dat.fetched Dat.blockOf iblk; rfl)
theorem before_7 (t : Fin cfg0.N) (d) : (dat c A).before 7 t d = iblk c A 7 t :=
  ((dat c A).before_in_eq_fetched 7 rfl (fun _ => rfl) (fun _ _ _ => rfl) (fun t => by rw [after_7]; rfl) t d).trans
    (by unfold Dat.fetched Dat.blockOf iblk; rfl)

end Data

section Ends

variable (c : Dev nD) (A : (w : Fin cfg0.W) → Buf (Elt F) ((cfg0.win w).arr.view.loc (c.tc : Thread nD τ)))

/-! ## The invariant's two ends

The region has no semaphore of its own and takes nothing into its invariant beside the scoped buffers no window stages:
it is entered with those at some contents, which is the invariant before the first point, and after the last point the
accumulators' contents are forgotten again. -/

/-- After any point the invariant gives the scoped buffers back, each at some contents. -/
theorem Phi_out (t : Fin (cfg0.N + 1)) (ht : t.val ≠ 0) :
    (dat c A).Φ t ⊢ Pipeline.scopedRest (Ix := Unit) (Name := ℕ) (U := UR sig nD τ) (Lvl := ℕ) (Val := Elt F) spec0 c := by
  rw [show (dat c A).Φ t = Phi c A t.val (Nat.le_of_lt_succ t.isLt) from rfl, Phi_pos c A _ _ ht, scopedRest0_eq]
  unfold others
  simp only [scM0, scM1, owns_whole]
  iintro ⟨HS0, HS1, Hr⟩
  isplitl [HS0]; · iexists _; iexact HS0
  isplitl [HS1]; · iexists _; iexact HS1
  iexact Hr

/-- ENTRY: nothing, no prefetched table, and the scoped buffers no window stages make the invariant before the first point. -/
theorem hin :
    iprop((BI.emp : sProp 𝕄) ∗ Pipeline.prefHeld (pcfgs (F := F) 0).pre c (fun _ => fullShare) (adm (F := F) 0).1
        ∗ Pipeline.scopedRest (Pipeline.pin (pcfgs (F := F)) adm 0).spec c)
      ⊢ (dat c A).Φ 0 := by
  rw [show (dat c A).Φ 0 = Pipeline.scopedRest (Ix := Unit) (Name := ℕ) (U := UR sig nD τ) (Lvl := ℕ) (Val := Elt F) spec0 c from rfl]
  iintro ⟨-, -, Hr⟩
  iexact Hr

/-- EXIT: the invariant after the last point gives back nothing, no semaphore, and those scoped buffers. -/
theorem hout :
    (dat c A).Φ (Fin.last cfg0.N)
      ⊢ iprop((BI.emp : sProp 𝕄)
          ∗ Pipeline.ownSems0 (Ix := Unit) (Name := ℕ) (U := UR sig nD τ) (Lvl := ℕ) (Val := Elt F) (τ := τ) (fun k : PEmpty => k.elim) c
          ∗ Pipeline.scopedRest (Pipeline.pin (pcfgs (F := F)) adm 0).spec c) := by
  rw [Pipeline.ownSems0_none]
  refine (Phi_out c A _ (by rw [Fin.val_last]; have : cfg0.N = 250 := N_0; omega)).trans ?_
  iintro Hr
  isplitr; · iempintro
  isplitr; · iempintro
  iexact Hr

end Ends

end Cert.KernelIdeal.R0

end
-- ==== Proof.R0Run.lean ====
/-
  The first kernel region's body, run once per control case on whole staging memrefs.

  The body branches twice on the second grid coordinate `j`: at `j = 0` it zeroes the two scratch accumulators before
  anything else, and at `j = 124` it copies them, after adding the tile's contribution, into the second and third output
  blocks. A row has 125 points, so the two never hold together and there are three cases: a row's first point, a point in
  the middle, a row's last point. In each the body loads the eight input blocks, stores the tile's product (`k0_pay6`)
  over the whole first output block, and stores into each accumulator the tile's column sums (`k0_pay1`), resp. column
  sums of squares (`k0_pay2`), of the product `k0_pay5` added to what it held (zero, at a first point).

  Every load and store is through a whole buffer at zero offsets, so what a buffer reads after the run is the payload of
  the last store into it, and a load after a store reads that store's payload.
-/
import proofs.«149722_j50371376447949_2_alg».proof.Proof.Gen.KernelIdeal.Points
import proofs.«149722_j50371376447949_2_alg».proof.Proof.Gen.KernelIdeal.Launch
import proofs.«149722_j50371376447949_2_alg».proof.Proof.Gen.KernelIdeal.Skeleton
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body is through a whole buffer: offsets zero. -/
theorem off2 : (![0, 0] : Fin 2 → ℕ) = fun _ => 0 := by funext a; fin_cases a <;> rfl
theorem off3 : (![0, 0, 0] : Fin 3 → ℕ) = fun _ => 0 := by funext a; fin_cases a <;> rfl

/-- A store through the whole buffer, made last, covers it whatever was stored before. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-- The body's first conditional, as the kernel computes it: the point opens a row (second grid coordinate zero). -/
abbrev cond1 (i : grid0.Coords) : Prop :=
  (Scalar.cmpi .ne (Scalar.extui (Scalar.cmpi .eq (BitVec.ofNat 32 (i 1).val) 0#32)) 0#32) = 1#1
/-- The second: the point closes a row (second grid coordinate 124). -/
abbrev cond2 (i : grid0.Coords) : Prop := k0_cond2 i = 1#1

set_option maxHeartbeats 2000000 in
/-- AT A ROW'S FIRST POINT (the first conditional taken, the second not). On whole staging memrefs — the eight inputs' at
    read contents, the first output's at anything, the two idle outputs' at contents handed back untouched, the two
    accumulators at anything — the body runs to its return with the first output's buffer at the tile's product and each
    accumulator at the tile's contribution added to zero. -/
theorem run_first (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : cond1 i) (hc2 : ¬cond2 i)
    (x0 x1 : Vec F S2000x128 .f32) (x2 x3 : Vec F S2000x64 .f32) (x4 x5 : Vec F S128x256 .bf16) (x6 x7 : Vec F S64x256 .bf16) (xi9 xi10 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare xi9 ∗ owns (c : Thread nD τ) arg12 fullShare xi10
            ∗ owns (c : Thread nD τ) arg13 fullShare (k0_pay1 (k0_pay5 x0 x1 x2 x3 x4 x5 x6 x7) (k0_pay3 (F := F))) ∗ owns (c : Thread nD τ) arg14 fullShare (k0_pay2 (k0_pay5 x0 x1 x2 x3 x4 x5 x6 x7) (k0_pay4 (F := F)))) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
  subst hf0 hf1 hf2 hf3 hf4 hf5 hf6 hf7 hf9 hf10
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists f9; isplitr; · ipureintro; rfl
    iexact H9
  isplitl [H10]
  · iexists f10; isplitr; · ipureintro; rfl
    iexact H10
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

set_option maxHeartbeats 2000000 in
/-- IN THE MIDDLE OF A ROW (neither conditional taken). The accumulators enter at what the point before left, and leave
    with the tile's contribution added; the rest as at a first point. -/
theorem run_mid (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : ¬cond1 i) (hc2 : ¬cond2 i)
    (x0 x1 : Vec F S2000x128 .f32) (x2 x3 : Vec F S2000x64 .f32) (x4 x5 : Vec F S128x256 .bf16) (x6 x7 : Vec F S64x256 .bf16) (xi9 xi10 s0 s1 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare xi9 ∗ owns (c : Thread nD τ) arg12 fullShare xi10
            ∗ owns (c : Thread nD τ) arg13 fullShare (k0_pay1 (k0_pay5 x0 x1 x2 x3 x4 x5 x6 x7) s0) ∗ owns (c : Thread nD τ) arg14 fullShare (k0_pay2 (k0_pay5 x0 x1 x2 x3 x4 x5 x6 x7) s1)) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
  subst hf0 hf1 hf2 hf3 hf4 hf5 hf6 hf7 hf9 hf10 hfs0 hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists f9; isplitr; · ipureintro; rfl
    iexact H9
  isplitl [H10]
  · iexists f10; isplitr; · ipureintro; rfl
    iexact H10
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

set_option maxHeartbeats 2000000 in
/-- AT A ROW'S LAST POINT (the second conditional taken, the first not). As in the middle of a row, and the two other
    outputs' buffers, entering at anything, leave holding the accumulators' new contents. -/
theorem run_last (c : Dev nD) (i : grid0.Coords) (arg2 : Memref sig .tc .vmem S2000x128 .f32) (harg2 : arg2.IsWhole) (arg3 : Memref sig .tc .vmem S2000x128 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S64x256 .bf16) (harg9 : arg9.IsWhole) (arg10 : Memref sig .tc .vmem S2000x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole)
    (hc1 : ¬cond1 i) (hc2 : cond2 i)
    (x0 x1 : Vec F S2000x128 .f32) (x2 x3 : Vec F S2000x64 .f32) (x4 x5 : Vec F S128x256 .bf16) (x6 x7 : Vec F S64x256 .bf16) (s0 s1 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ owns (c : Thread nD τ) arg14 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay6 x0 x1 x2 x3 x4 x5 x6 x7) ∗ owns (c : Thread nD τ) arg11 fullShare (k0_pay1 (k0_pay5 x0 x1 x2 x3 x4 x5 x6 x7) s0) ∗ owns (c : Thread nD τ) arg12 fullShare (k0_pay2 (k0_pay5 x0 x1 x2 x3 x4 x5 x6 x7) s1)
            ∗ owns (c : Thread nD τ) arg13 fullShare (k0_pay1 (k0_pay5 x0 x1 x2 x3 x4 x5 x6 x7) s0) ∗ owns (c : Thread nD τ) arg14 fullShare (k0_pay2 (k0_pay5 x0 x1 x2 x3 x4 x5 x6 x7) s1)) -∗ K ⟨⟩))
      ⊢ wp frame (wpE (defs₀ (F := F)) Variants.none c none) Set.univ
          (cc0__stage1_kernel i arg2 harg2 arg3 harg3 arg4 harg4 arg5 harg5 arg6 harg6 arg7 harg7 arg8 harg8 arg9 harg9 arg10 harg10 arg11 harg11 arg12 harg12 arg13 harg13 arg14 harg14) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  subst hf0 hf1 hf2 hf3 hf4 hf5 hf6 hf7 hfs0 hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_head off2 _ _ _), View.canon_cons_unit_zero off2]
    simp only [View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H9]
  · iexists _; isplitr
    swap; · iexact H9
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [H10]
  · iexists _; isplitr
    swap; · iexact H10
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  isplitl [HS0]
  · iexists _; isplitr
    swap; · iexact HS0
    ipureintro
    (try sl_unfold_run_names)
    rw [View.read_writes_eq_canon _ _ _ (cover_head off3 _ _ _), View.canon_cons_unit_zero off3]
    (try sl_unfold_run_names)
    simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]
  iexists _; isplitr
  swap; · iexact HS1
  ipureintro
  (try sl_unfold_run_names)
  rw [View.read_writes_eq_canon _ _ _ (cover_head off3 _ _ _), View.canon_cons_unit_zero off3]
  (try sl_unfold_run_names)
  simp only [View.readCov_unit_zero (S := S1x1x256) _ off3, View.readAt_eq_ld, View.ld_unit_zero (S := S2000x128) off2, View.ld_unit_zero (S := S2000x64) off2, View.ld_unit_zero (S := S128x256) off2, View.ld_unit_zero (S := S64x256) off2, View.ld_unit_zero (S := S1x1x256) off3]

end Cert.KernelIdeal.R0

end
-- ==== Proof.R0Body.lean ====
/-
  The first kernel region's body obligation: at every point of the grid, from the invariant and the eleven windows'
  current staging buffers at what they then hold, the kernel's body runs to the invariant at the next point and the
  buffers at what the proof data says it leaves.

  The point's position in its row decides which of the body's two conditionals are taken; both conditions are decided
  over the grid in closed form (the first holds exactly at the points ≡ 0 mod 125, the second at those ≡ 124). The three
  cases are the three runs of the body; what remains here is bookkeeping: each input's buffer holds its block; the first
  output's buffer, written back at every point, holds nothing the body relies on; the two other outputs' buffers are
  idle, and handed back as found, except at a row's last point, where they receive the accumulators; the accumulators
  come out of the invariant at what the point before left (at anything, before the very first point) and go back at this
  point's contents.
-/
import proofs.«149722_j50371376447949_2_alg».proof.Proof.R0Data
import proofs.«149722_j50371376447949_2_alg».proof.Proof.R0Run

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions and the idle windows, over the grid -/

/-- The first conditional holds exactly at the rows' first points; -/
theorem hcond1 : ∀ t : Fin cfg0.N, cond1 (grid0.coords t) ↔ t.val % 125 = 0 :=
  (by decide +kernel : ∀ t : Fin grid0.N, cond1 (grid0.coords t) ↔ t.val % 125 = 0)
/-- the second exactly at their last points. -/
theorem hcond2 : ∀ t : Fin cfg0.N, cond2 (grid0.coords t) ↔ t.val % 125 = 124 :=
  (by decide +kernel : ∀ t : Fin grid0.N, cond2 (grid0.coords t) ↔ t.val % 125 = 124)

/-- Away from a row's last point the second and third outputs are idle, and not written back; at it they are live. -/
theorem idle_9 : ∀ t : Fin cfg0.N, ¬cond2 (grid0.coords t) → cfg0.idle 9 (grid0.coords t) = true := by decide +kernel
theorem idle_10 : ∀ t : Fin cfg0.N, ¬cond2 (grid0.coords t) → cfg0.idle 10 (grid0.coords t) = true := by decide +kernel
theorem live_9 : ∀ t : Fin cfg0.N, cond2 (grid0.coords t) → cfg0.idle 9 (grid0.coords t) = false := by decide +kernel
theorem live_10 : ∀ t : Fin cfg0.N, cond2 (grid0.coords t) → cfg0.idle 10 (grid0.coords t) = false := by decide +kernel
theorem noFlush_9 (t : Fin cfg0.N) (h : ¬t.val % 125 = 124) : (cfg0.win 9).flush t = false :=
  Bool.eq_false_iff.mpr fun hf => h ((flush0_9 t).mp hf)
theorem noFlush_10 (t : Fin cfg0.N) (h : ¬t.val % 125 = 124) : (cfg0.win 10).flush t = false :=
  Bool.eq_false_iff.mpr fun hf => h ((flush0_10 t).mp hf)

section Body

variable (c : Dev nD) (A : (w : Fin cfg0.W) → Buf (Elt F) ((cfg0.win w).arr.view.loc (c.tc : Thread nD τ)))

/-- What the body is called with at point `t`, the windows one by one, -/
def bodyPre (t : Fin cfg0.N) : sProp 𝕄 :=
  iprop((dat c A).Φ t.castSucc ∗ (dat c A).owesAt () t.castSucc
    ∗ (∃ d, owns (c : Thread nD τ) (st0_0 t) fullShare ((dat c A).before 0 t d))
    ∗ (∃ d, owns (c : Thread nD τ) (st0_1 t) fullShare ((dat c A).before 1 t d))
    ∗ (∃ d, owns (c : Thread nD τ) (st0_2 t) fullShare ((dat c A).before 2 t d))
    ∗ (∃ d, owns (c : Thread nD τ) (st0_3 t) fullShare ((dat c A).before 3 t d))
    ∗ (∃ d, owns (c : Thread nD τ) (st0_4 t) fullShare ((dat c A).before 4 t d))
    ∗ (∃ d, owns (c : Thread nD τ) (st0_5 t) fullShare ((dat c A).before 5 t d))
    ∗ (∃ d, owns (c : Thread nD τ) (st0_6 t) fullShare ((dat c A).before 6 t d))
    ∗ (∃ d, owns (c : Thread nD τ) (st0_7 t) fullShare ((dat c A).before 7 t d))
    ∗ (∃ d, owns (c : Thread nD τ) (st0_8 t) fullShare ((dat c A).before 8 t d))
    ∗ (∃ d, owns (c : Thread nD τ) (st0_9 t) fullShare ((dat c A).before 9 t d))
    ∗ (∃ d, owns (c : Thread nD τ) (st0_10 t) fullShare ((dat c A).before 10 t d)))

/-- and what it returns: every live window's buffer at what the body leaves, an idle one's as it was found. -/
def bodyPost (t : Fin cfg0.N) : sProp 𝕄 :=
  iprop((dat c A).Φ t.succ ∗ (dat c A).owesAt () t.succ
    ∗ owns (c : Thread nD τ) (st0_0 t) fullShare ((dat c A).after 0 t)
    ∗ owns (c : Thread nD τ) (st0_1 t) fullShare ((dat c A).after 1 t)
    ∗ owns (c : Thread nD τ) (st0_2 t) fullShare ((dat c A).after 2 t)
    ∗ owns (c : Thread nD τ) (st0_3 t) fullShare ((dat c A).after 3 t)
    ∗ owns (c : Thread nD τ) (st0_4 t) fullShare ((dat c A).after 4 t)
    ∗ owns (c : Thread nD τ) (st0_5 t) fullShare ((dat c A).after 5 t)
    ∗ owns (c : Thread nD τ) (st0_6 t) fullShare ((dat c A).after 6 t)
    ∗ owns (c : Thread nD τ) (st0_7 t) fullShare ((dat c A).after 7 t)
    ∗ owns (c : Thread nD τ) (st0_8 t) fullShare ((dat c A).after 8 t)
    ∗ (dat c A).leavesExact 9 t
    ∗ (dat c A).leavesExact 10 t)

set_option maxHeartbeats 4000000 in
/-- The body at any point: the case its position in the row selects applies. -/
theorem sound_body (t : Fin cfg0.N) :
    bodyPre c A t ⊢ wp frame (wpE (defs₀ (F := F)) Variants.none c none) Set.univ (bodyAt0 t) (fun _ => bodyPost c A t) := by
  unfold bodyPre bodyPost bodyAt0
  simp only [before_0, before_1, before_2, before_3, before_4, before_5, before_6, before_7]
  rw [show (dat c A).owesAt () t.succ = (dat c A).owesAt () t.castSucc from rfl,
    Phi_succ' c A t, Phi_succ c A t.val t.isLt,
    after_0, after_1, after_2, after_3, after_4, after_5, after_6, after_7, after_8]
  have hN : t.val < 250 := lt_of_lt_of_eq t.isLt (show cfg0.N = 250 from N_0)
  by_cases h0 : t.val % 125 = 0
  · -- a row's first point
    have h1 : ¬t.val % 125 = 124 := by omega
    have hc1 : cond1 (grid0.coords t) := (hcond1 t).mpr h0
    have hc2 : ¬cond2 (grid0.coords t) := fun h => h1 ((hcond2 t).mp h)
    rw [Dat.leavesExact_idle (dat c A) 9 t (idle_9 t hc2) (noFlush_9 t h1),
      Dat.leavesExact_idle (dat c A) 10 t (idle_10 t hc2) (noFlush_10 t h1),
      accSum_first c A t h0, accSq_first c A t h0]
    unfold tile pre1
    by_cases hz : t.val = 0
    · rw [Phi_castSucc c A t, Phi_zero c A _ _ hz, scopedRest0_eq]
      unfold others
      iintro ⟨⟨⟨%fs0, HS0⟩, ⟨%fs1, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexists fs0; rw [owns_whole]; iexact HS0
      isplitl [HS1]; · iexists fs1; rw [owns_whole]; iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10
    · rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexists _; iexact HS0
      isplitl [HS1]; · iexists _; iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10
  · have hz : t.val ≠ 0 := fun hz => h0 (by rw [hz])
    have hc1 : ¬cond1 (grid0.coords t) := fun h => h0 ((hcond1 t).mp h)
    by_cases h1 : t.val % 125 = 124
    · -- a row's last point
      have hc2 : cond2 (grid0.coords t) := (hcond2 t).mpr h1
      rw [show (dat c A).leavesExact 9 t = owns (c : Thread nD τ) (st0_9 t) fullShare ((dat c A).after 9 t) from by
          unfold Dat.leavesExact; rw [live_9 t hc2],
        show (dat c A).leavesExact 10 t = owns (c : Thread nD τ) (st0_10 t) fullShare ((dat c A).after 10 t) from by
          unfold Dat.leavesExact; rw [live_10 t hc2],
        after_9, after_10, accSum_next c A t h0, accSq_next c A t h0]
      unfold tile pre1
      rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) (accSum c A (t.val - 1) (Nat.lt_of_le_of_lt (Nat.sub_le _ _) t.isLt))
        (accSq c A (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a point in the middle of a row
      have hc2 : ¬cond2 (grid0.coords t) := fun h => h1 ((hcond2 t).mp h)
      rw [Dat.leavesExact_idle (dat c A) 9 t (idle_9 t hc2) (noFlush_9 t h1),
        Dat.leavesExact_idle (dat c A) 10 t (idle_10 t hc2) (noFlush_10 t h1),
        accSum_next c A t h0, accSq_next c A t h0]
      unfold tile pre1
      rw [Phi_castSucc c A t, Phi_pos c A _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) _ _ _ _ _ _ _ _ _ _ _ _ _ _ _ _ _ _ _ _ _ _ _ _ _ _ hc1 hc2
        (iblk c A 0 t) (iblk c A 1 t) (iblk c A 2 t) (iblk c A 3 t) (iblk c A 4 t) (iblk c A 5 t) (iblk c A 6 t) (iblk c A 7 t) ((dat c A).before 9 t d9) ((dat c A).before 10 t d10)
        (accSum c A (t.val - 1) (Nat.lt_of_le_of_lt (Nat.sub_le _ _) t.isLt))
        (accSq c A (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10

/-- The library's body obligation, at every point. -/
theorem body_obligation : BodyObligation (dat c A) (defs₀ (F := F)) Variants.none () Set.univ := fun t => by
  rw [bigSep_W0, bigSep_W0]
  exact sound_body c A t

end Body

end Cert.KernelIdeal.R0

end
-- ==== Proof.I0.lean ====
/-
  Region 0 as the whole run takes it: its proof data over the entering arrays, the body obligation, and the two ends of
  its invariant against the scoped buffers no window stages (at entry the two accumulators are among them, at contents
  not chosen; at exit they are handed back).
-/
import proofs.«149722_j50371376447949_2_alg».proof.Proof.R0Data
import proofs.«149722_j50371376447949_2_alg».proof.Proof.R0Body

noncomputable section
namespace Cert.KernelIdeal.I0
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (c : Dev nD) (A : (w : Fin cfg0.W) → Buf (Elt F) ((cfg0.win w).arr.view.loc (c.tc : Thread nD τ)))

abbrev dat : Dat τ (Elt F) Unit ℕ (UR sig nD τ) ℕ cfg0 c := R0.dat c A

theorem body_obligation : BodyObligation (dat c A) (defs₀ (F := F)) Variants.none () Set.univ := R0.body_obligation c A

set_option backward.isDefEq.respectTransparency.types false in
theorem hin : (Pipeline.scopedRest (Ix := Unit) (Name := ℕ) (U := UR sig nD τ) (Lvl := ℕ) (Val := Elt F) spec0 c : sProp 𝕄) ⊢ (dat c A).Φ 0 := by
  iintro Hr
  iapply (R0.hin c A)
  isplitr; · iempintro
  isplitr; · unfold Pipeline.prefHeld; rw [show (Finset.univ : Finset (Fin 0)) = ∅ from rfl, BI.bigSep_empty]; iempintro
  iexact Hr

set_option backward.isDefEq.respectTransparency.types false in
theorem hout : (dat c A).Φ (Fin.last cfg0.N) ⊢ (Pipeline.scopedRest (Ix := Unit) (Name := ℕ) (U := UR sig nD τ) (Lvl := ℕ) (Val := Elt F) spec0 c : sProp 𝕄) := by
  iintro H
  ihave H' := (R0.hout c A) $$ H
  icases H' with ⟨-, -, Hr⟩
  iexact Hr

end Cert.KernelIdeal.I0
end
-- ==== Proof.R1Data.lean ====
import proofs.«149722_j50371376447949_2_alg».proof.Proof.Gen.KernelIdeal.Points
import proofs.«149722_j50371376447949_2_alg».proof.Proof.Gen.KernelIdeal.Launch
import proofs.«149722_j50371376447949_2_alg».proof.Proof.Gen.KernelIdeal.Skeleton
import proofs.«149722_j50371376447949_2_alg».proof.Proof.Gen.KernelIdeal.Regions
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: its proof data

The grid has 2 × 125 points, taken row by row: point `n` has first coordinate `n / 125` (the core's row) and second
coordinate `n % 125`. At each point the body reads three blocks — a tile of 2000 rows of the first layer's product
and the two rows of 256 numbers that scale and shift it — and adds the tile's contribution to two accumulators kept in
scratch memory: the column sums of the hidden activations `h = max(tile * scale + shift, 0)` and their Gram matrix
`hᵀ h`. The accumulators are reset at the first point of each row (`n % 125 = 0`) and copied into the two outputs'
staging buffers at the last (`n % 125 = 124`), where the pipeline writes those buffers back into row `n / 125` of the
output arrays.

The proof data names what every buffer holds between points. The accumulators' contents after point `n` are given by a
recursion on `n` (`acc`): this tile's contribution added to zero at the first point of a row, to the previous point's
contents otherwise. The invariant between points is the two scratch buffers at these contents beside the scoped buffers
this region never touches; before the first point the scratch buffers hold anything. -/

section Data

variable (c : Dev nD) (A : (w : Fin cfg1.W) → Buf (Elt F) ((cfg1.win w).arr.view.loc (c.tc : Thread nD τ)))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (A w)

/-- The tile of the first product at point `t`, and the scale and shift rows (the same at every point). -/
def tile (t : Fin cfg1.N) : Vec F S2000x256 .bf16 := iblk c A 0 t
def scale (t : Fin cfg1.N) : Vec F S1x256 .f32 := iblk c A 1 t
def shift (t : Fin cfg1.N) : Vec F S1x256 .f32 := iblk c A 2 t

/-- One point's work on the accumulators: the tile's column sums of the hidden activations added to the first, the
    tile's Gram matrix of them added to the second. -/
def step (t : Fin cfg1.N) (p : Vec F S1x1x256 .f32 × Vec F S1x256x256 .f32) : Vec F S1x1x256 .f32 × Vec F S1x256x256 .f32 :=
  (k1_pay4 (tile c A t) (scale c A t) (shift c A t) p.1, k1_pay5 (tile c A t) (scale c A t) (shift c A t) p.2)

/-- The accumulators as a row of the grid starts: both zero. -/
def zeros : Vec F S1x1x256 .f32 × Vec F S1x256x256 .f32 := (k1_pay1, k1_pay2)

/-- THE ACCUMULATION. What the two scratch accumulators hold after the body at point `n`: the point's work done on
    zeros at the first point of a row of the grid, on what the point before left otherwise. -/
def acc : (n : ℕ) → n < cfg1.N → Vec F S1x1x256 .f32 × Vec F S1x256x256 .f32
  | 0, hn => step c A ⟨0, hn⟩ zeros
  | n + 1, hn => step c A ⟨n + 1, hn⟩ (if (n + 1) % 125 = 0 then zeros else acc n (Nat.lt_of_succ_lt hn))

/-- At the first point of a row the accumulators restart from zero. -/
theorem acc_reset (t : Fin cfg1.N) (h : t.val % 125 = 0) : acc c A t.val t.isLt = step c A t zeros := by
  obtain ⟨n, hn⟩ := t
  cases n with
  | zero => rfl
  | succ n => exact congrArg (step c A ⟨n + 1, hn⟩) (if_pos h)

/-- At any other point they continue from the point before. -/
theorem acc_add (t : Fin cfg1.N) (h : ¬t.val % 125 = 0) :
    acc c A t.val t.isLt = step c A t (acc c A (t.val - 1) (Nat.lt_of_le_of_lt (Nat.sub_le _ _) t.isLt)) := by
  obtain ⟨n, hn⟩ := t
  cases n with
  | zero => exact absurd (Nat.zero_mod _) h
  | succ n => exact congrArg (step c A ⟨n + 1, hn⟩) (if_neg h)

/-- The region's scoped buffers that it neither stages nor uses as scratch: untouched throughout. -/
abbrev rest : sProp 𝕄 :=
  Pipeline.scopedRestBut (Ix := Unit) (Name := ℕ) (U := UR sig nD τ) (Lvl := ℕ) (Val := Elt F) spec1 c [cc1_scratch0, cc1_scratch1]

/-- The scoped buffers no window stages are the two scratch accumulators, at some contents, and the rest. -/
theorem scopedRest_owns :
    (Pipeline.scopedRest (Ix := Unit) (Name := ℕ) (U := UR sig nD τ) (Lvl := ℕ) (Val := Elt F) spec1 c : sProp 𝕄)
      = iprop(((∃ d, owns (c : Thread nD τ) (Memref.whole cc1_scratch0) fullShare d)
          ∗ (∃ d, owns (c : Thread nD τ) (Memref.whole cc1_scratch1) fullShare d)) ∗ rest (F := F) c) := by
  rw [scopedRest1_split]; simp only [owns_whole]

/-- The invariant before point `n` (after point `n - 1`): before the first point the scoped buffers no window stages,
    the scratch among them at anything; afterwards the two accumulators at what the point before left, and the rest. -/
def Phi : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) (Memref.whole cc1_scratch0) fullShare (acc c A n hn).1
      ∗ owns (c : Thread nD τ) (Memref.whole cc1_scratch1) fullShare (acc c A n hn).2 ∗ rest (F := F) c)

theorem Phi_zero (n : ℕ) (h : n ≤ cfg1.N) (hz : n = 0) :
    Phi c A n h = Pipeline.scopedRest (Ix := Unit) (Name := ℕ) (U := UR sig nD τ) (Lvl := ℕ) (Val := Elt F) spec1 c := by
  subst hz; rfl

theorem Phi_succ (n : ℕ) (hn : n < cfg1.N) :
    Phi c A (n + 1) hn = iprop(owns (c : Thread nD τ) (Memref.whole cc1_scratch0) fullShare (acc c A n hn).1
      ∗ owns (c : Thread nD τ) (Memref.whole cc1_scratch1) fullShare (acc c A n hn).2 ∗ rest (F := F) c) := rfl

theorem Phi_pos (n : ℕ) (h : n ≤ cfg1.N) (hz : n ≠ 0) :
    Phi c A n h = iprop(owns (c : Thread nD τ) (Memref.whole cc1_scratch0) fullShare (acc c A (n - 1) (by omega)).1
      ∗ owns (c : Thread nD τ) (Memref.whole cc1_scratch1) fullShare (acc c A (n - 1) (by omega)).2 ∗ rest (F := F) c) := by
  cases n with
  | zero => exact absurd rfl hz
  | succ n => rfl

/-- THE PROOF DATA on core `c`, the five windows' arrays entering at `A`: after the body at point `t` each input's
    staging buffer at its block and the two outputs' at the accumulators (the body copies them there at the last point
    of a row; at the other points, idle for the outputs, the entry is not consulted); between points `Phi`; nothing
    owed; full shares. -/
def dat : Dat τ (Elt F) Unit ℕ (UR sig nD τ) ℕ cfg1 c where
  A := A
  after w t := match w with
    | ⟨0, _⟩ => iblk c A 0 t
    | ⟨1, _⟩ => iblk c A 1 t
    | ⟨2, _⟩ => iblk c A 2 t
    | ⟨3, _⟩ => (acc c A t.val t.isLt).1
    | ⟨4, _⟩ => (acc c A t.val t.isLt).2
  Φ t := Phi c A t.val (Nat.le_of_lt_succ t.isLt)
  q _ := fullShare
  owed _ := 0

theorem dat_A (w : Fin cfg1.W) : (dat c A).A w = A w := rfl

theorem after_0 (t : Fin cfg1.N) : (dat c A).after 0 t = iblk c A 0 t := by dsimp only [dat]
theorem after_1 (t : Fin cfg1.N) : (dat c A).after 1 t = iblk c A 1 t := by dsimp only [dat]
theorem after_2 (t : Fin cfg1.N) : (dat c A).after 2 t = iblk c A 2 t := by dsimp only [dat]
theorem after_3 (t : Fin cfg1.N) : (dat c A).after 3 t = (acc c A t.val t.isLt).1 := by dsimp only [dat]
theorem after_4 (t : Fin cfg1.N) : (dat c A).after 4 t = (acc c A t.val t.isLt).2 := by dsimp only [dat]

/-- The invariant at a point's start and end, restated at the point's number. -/
theorem Phi_castSucc (t : Fin cfg1.N) : (dat c A).Φ t.castSucc = Phi c A t.val (Nat.le_of_lt t.isLt) := by
  dsimp only [dat]; simp only [Fin.coe_castSucc]
theorem Phi_at_succ (t : Fin cfg1.N) : (dat c A).Φ t.succ = Phi c A (t.val + 1) t.isLt := rfl

/-- Each input's current staging buffer holds its block at every point, fetched there or not: unfetched, the block
    index has not moved, and the body left the block in place. -/
theorem before_0 (t : Fin cfg1.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg1.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg1.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)

/-! ## The invariant's two ends -/

/-- ENTRY: the scoped buffers no window stages, as the launch hands them over, are the invariant before the first
    point (nothing else enters it: no table is prefetched and the kernel names no semaphore of its own). -/
theorem hin : iprop(BI.emp ∗ Pipeline.prefHeld (Ix := Unit) (Name := ℕ) (U := UR sig nD τ) (Lvl := ℕ) (pcfgs (F := F) 1).pre c (fun _ => fullShare) (Gen.adm (F := F) 1).1
      ∗ Pipeline.scopedRest (Ix := Unit) (Name := ℕ) (U := UR sig nD τ) (Lvl := ℕ) (Val := Elt F) (Pipeline.pin (pcfgs (F := F)) Gen.adm 1).spec c)
    ⊢ (dat c A).Φ 0 := by
  rw [show (dat c A).Φ 0 = Phi c A 0 (Nat.zero_le _) from rfl, Phi_zero c A 0 _ rfl]
  iintro ⟨-, -, Hr⟩
  iexact Hr

/-- EXIT: after the last point the accumulators' contents are forgotten, and the scoped buffers no window stages
    are handed back. -/
theorem hout : (dat c A).Φ (Fin.last (Pipeline.pin (pcfgs (F := F)) Gen.adm 1).N)
    ⊢ iprop(BI.emp ∗ Pipeline.ownSems0 (Ix := Unit) (Name := ℕ) (U := UR sig nD τ) (Lvl := ℕ) (Val := Elt F) (τ := τ) (fun k : PEmpty => k.elim) c
      ∗ Pipeline.scopedRest (Ix := Unit) (Name := ℕ) (U := UR sig nD τ) (Lvl := ℕ) (Val := Elt F) (Pipeline.pin (pcfgs (F := F)) Gen.adm 1).spec c) := by
  rw [Pipeline.ownSems0_none]
  rw [show (dat c A).Φ (Fin.last (Pipeline.pin (pcfgs (F := F)) Gen.adm 1).N) = Phi c A cfg1.N (Nat.le_refl _) from rfl,
    Phi_pos c A _ _ (by have : cfg1.N = 250 := N_1; omega)]
  rw [show (Pipeline.pin (pcfgs (F := F)) Gen.adm 1).spec = spec1 from rfl, scopedRest_owns]
  iintro ⟨H0, H1, Hr⟩
  isplitr; · iempintro
  isplitr; · iempintro
  isplitr [Hr]
  · isplitl [H0]
    · iexists _; iexact H0
    · iexists _; iexact H1
  · iexact Hr

end Data

end Cert.KernelIdeal.R1

end
-- ==== Proof.R1Run.lean ====
import proofs.«149722_j50371376447949_2_alg».proof.Proof.Gen.KernelIdeal.Launch
import proofs.«149722_j50371376447949_2_alg».proof.Proof.Gen.KernelIdeal.Skeleton
import proofs.«149722_j50371376447949_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once per control case

The body of the second kernel region reads a tile `x0` of the first layer's pre-activations (2000 rows, 256
columns) and the two rows `x1` (scale) and `x2` (shift), forms the hidden activations
`h = max(x0 * x1 + x2, 0)` of the tile, and adds to two accumulators it keeps in scratch memory from one grid
point to the next: the column sums of `h` (a row of 256 numbers) and the Gram matrix `hᵀ h` (256 × 256).
At the first point of a core's row of the grid (second coordinate 0) it first resets both accumulators to zero;
at the last one (second coordinate 124) it copies both accumulators into the two outputs' staging buffers.
Hence three control cases: reset-and-add, add, add-and-copy. In each the run is stated over arbitrary whole
memrefs and arbitrary contents, and says what every buffer holds at the end as a function of what it held
at the start. -/

/-- The first conditional of the body holds when the second grid coordinate is zero. -/
abbrev cond0 (i : grid1.Coords) : Prop :=
  (Scalar.cmpi .ne (Scalar.extui (Scalar.cmpi .eq (BitVec.ofNat 32 (i 1).val) 0#32)) 0#32) = 1#1
/-- The second conditional holds when the second grid coordinate is the last of its row. -/
abbrev cond1 (i : grid1.Coords) : Prop := k1_cond2 i = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole memref through the whole-shape rectangle reads the contents it holds. -/
theorem load_whole {S : Shape} {e : EltTy} (M : Memref sig .tc .vmem S e) (hM : M.IsWhole) {off : Fin S.rank → ℕ}
    (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- After stores the last of which fills the whole shape, a memref reads that store's payload. -/
theorem read_store_whole {S : Shape} {e : EltTy} (M : Memref sig .tc .vmem S e) (f : M.view.ty.Contents (Elt F)) {off : Fin S.rank → ℕ}
    (h : off = fun _ => 0) (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- THE MIDDLE CASE (neither conditional holds): both accumulators take this tile's contribution, every other
    buffer is handed back as found. -/
theorem runB (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : ¬cond0 i) (hc1 : ¬cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole _ _ hz3, load_whole _ harg2 hz2, load_whole _ harg3 hz2, load_whole _ harg4 hz2, load_whole _ harg7 hz3]
  · iexists _; isplitr; swap; · iexact HS1
    ipureintro
    rw [read_store_whole _ _ hz3, load_whole _ harg2 hz2, load_whole _ harg3 hz2, load_whole _ harg4 hz2, load_whole _ harg8 hz3]

/-- THE FIRST CASE (second coordinate zero): both accumulators are reset to zero and take this tile's
    contribution, whatever they held; every other buffer is handed back as found. -/
theorem runA (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : cond0 i) (hc1 : ¬cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4
            ∗ owns (c : Thread nD τ) arg7 fullShare (k1_pay4 x0 x1 x2 k1_pay1) ∗ owns (c : Thread nD τ) arg8 fullShare (k1_pay5 x0 x1 x2 k1_pay2)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    rw [read_store_whole _ _ hz3, load_whole _ harg2 hz2, load_whole _ harg3 hz2, load_whole _ harg4 hz2, View.readCov_unit_zero (S := S1x1x256) _ hz3]
  · iexists _; isplitr; swap; · iexact HS1
    ipureintro
    sl_unfold_run_names
    rw [read_store_whole _ _ hz3, load_whole _ harg2 hz2, load_whole _ harg3 hz2, load_whole _ harg4 hz2, View.readCov_unit_zero (S := S1x256x256) _ hz3]

/-- THE LAST CASE (second coordinate 124): both accumulators take this tile's contribution and are then copied
    into the two outputs' buffers, whatever those held. -/
theorem runC (c : Dev nD) (i : grid1.Coords)
    (arg2 : Memref sig .tc .vmem S2000x256 .bf16) (harg2 : arg2.IsWhole) (arg3 : Memref sig .tc .vmem S1x256 .f32) (harg3 : arg3.IsWhole)
    (arg4 : Memref sig .tc .vmem S1x256 .f32) (harg4 : arg4.IsWhole) (arg5 : Memref sig .tc .vmem S1x1x256 .f32) (harg5 : arg5.IsWhole)
    (arg6 : Memref sig .tc .vmem S1x256x256 .f32) (harg6 : arg6.IsWhole) (arg7 : Memref sig .tc .vmem S1x1x256 .f32) (harg7 : arg7.IsWhole)
    (arg8 : Memref sig .tc .vmem S1x256x256 .f32) (harg8 : arg8.IsWhole) (hc0 : ¬cond0 i) (hc1 : cond1 i)
    (x0 : Vec F S2000x256 .bf16) (x1 x2 : Vec F S1x256 .f32) (y3 : Vec F S1x1x256 .f32) (y4 : Vec F S1x256x256 .f32)
    (s0 : Vec F S1x1x256 .f32) (s1 : Vec F S1x256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 x0 x1 x2 s0) ∗ owns (c : Thread nD τ) arg6 fullShare (k1_pay5 x0 x1 x2 s1)
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) Set.univ
          (cc1__stage2_kernel i arg2 harg2 arg3 harg3 arg4 harg4 arg5 harg5 arg6 harg6 arg7 harg7 arg8 harg8) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    rw [read_store_whole _ _ hz3, View.readCov_unit_zero (S := S1x1x256) _ hz3, load_whole _ harg2 hz2, load_whole _ harg3 hz2, load_whole _ harg4 hz2, load_whole _ harg7 hz3]
  isplitl [H4]
  · iexists _; isplitr; swap; · iexact H4
    ipureintro
    sl_unfold_run_names
    rw [read_store_whole _ _ hz3, View.readCov_unit_zero (S := S1x256x256) _ hz3, load_whole _ harg2 hz2, load_whole _ harg3 hz2, load_whole _ harg4 hz2, load_whole _ harg8 hz3]
  isplitl [HS0]
  · iexists _; isplitr; swap; · iexact HS0
    ipureintro
    sl_unfold_run_names
    rw [read_store_whole _ _ hz3, load_whole _ harg2 hz2, load_whole _ harg3 hz2, load_whole _ harg4 hz2, load_whole _ harg7 hz3]
  · iexists _; isplitr; swap; · iexact HS1
    ipureintro
    sl_unfold_run_names
    rw [read_store_whole _ _ hz3, load_whole _ harg2 hz2, load_whole _ harg3 hz2, load_whole _ harg4 hz2, load_whole _ harg8 hz3]

end Cert.KernelIdeal.R1

end
-- ==== Proof.R1Body.lean ====
import proofs.«149722_j50371376447949_2_alg».proof.Proof.R1Run
import proofs.«149722_j50371376447949_2_alg».proof.Proof.R1Data

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: the body obligation

At every grid point the body, handed the invariant and every window's current staging buffer at what the proof data
says it holds, runs to the invariant at the next point and every buffer at what the proof data says it leaves. Which
of the three runs of the body applies is read off the point's number `n`: `n % 125 = 0` (reset and add), `n % 125 = 124`
(add and copy out), anything else (add). The two outputs are idle except at the points `n % 125 = 124`, which are also
exactly the points that write them back: elsewhere their buffers are handed back as found. -/

/-- The first conditional holds exactly at the first point of each row of the grid. -/
theorem hcond0 : ∀ t : Fin cfg1.N, cond0 (grid1.coords t) ↔ t.val % 125 = 0 :=
  (by decide +kernel : ∀ t : Fin grid1.N, cond0 (grid1.coords t) ↔ t.val % 125 = 0)
/-- The second exactly at the last. -/
theorem hcond1 : ∀ t : Fin cfg1.N, cond1 (grid1.coords t) ↔ t.val % 125 = 124 :=
  (by decide +kernel : ∀ t : Fin grid1.N, cond1 (grid1.coords t) ↔ t.val % 125 = 124)

/-- The inputs are never idle. -/
theorem live_0 (t : Fin cfg1.N) : cfg1.idle 0 (grid1.coords t) = false := rfl
theorem live_1 (t : Fin cfg1.N) : cfg1.idle 1 (grid1.coords t) = false := rfl
theorem live_2 (t : Fin cfg1.N) : cfg1.idle 2 (grid1.coords t) = false := rfl
/-- The outputs are idle where the second conditional fails, live where it holds. -/
theorem idle_3 (t : Fin cfg1.N) (h : ¬cond1 (grid1.coords t)) : cfg1.idle 3 (grid1.coords t) = true := by
  show (!(k1_cond2 (grid1.coords t) == 1#1)) = true
  rw [Bool.not_eq_true', beq_eq_false_iff_ne]; exact h
theorem idle_4 (t : Fin cfg1.N) (h : ¬cond1 (grid1.coords t)) : cfg1.idle 4 (grid1.coords t) = true := by
  show (!(k1_cond2 (grid1.coords t) == 1#1)) = true
  rw [Bool.not_eq_true', beq_eq_false_iff_ne]; exact h
theorem live_3 (t : Fin cfg1.N) (h : cond1 (grid1.coords t)) : cfg1.idle 3 (grid1.coords t) = false := by
  show (!(k1_cond2 (grid1.coords t) == 1#1)) = false
  rw [show k1_cond2 (grid1.coords t) = 1#1 from h]; rfl
theorem live_4 (t : Fin cfg1.N) (h : cond1 (grid1.coords t)) : cfg1.idle 4 (grid1.coords t) = false := by
  show (!(k1_cond2 (grid1.coords t) == 1#1)) = false
  rw [show k1_cond2 (grid1.coords t) = 1#1 from h]; rfl
/-- Away from the last point of a row the outputs are not written back. -/
theorem noFlush_3 (t : Fin cfg1.N) (h : ¬t.val % 125 = 124) : (cfg1.win 3).flush t = false :=
  Bool.eq_false_iff.mpr fun hf => h ((flush1_3 t).mp hf)
theorem noFlush_4 (t : Fin cfg1.N) (h : ¬t.val % 125 = 124) : (cfg1.win 4).flush t = false :=
  Bool.eq_false_iff.mpr fun hf => h ((flush1_4 t).mp hf)

section Body

variable (c : Dev nD) (A : (w : Fin cfg1.W) → Buf (Elt F) ((cfg1.win w).arr.view.loc (c.tc : Thread nD τ)))

/-- What the body is called with at point `t`, the windows one by one, -/
def bodyPre (t : Fin cfg1.N) : sProp 𝕄 :=
  iprop((dat c A).Φ t.castSucc ∗ (dat c A).owesAt () t.castSucc
    ∗ (∃ d, owns (c : Thread nD τ) (st1_0 t) fullShare ((dat c A).before 0 t d))
    ∗ (∃ d, owns (c : Thread nD τ) (st1_1 t) fullShare ((dat c A).before 1 t d))
    ∗ (∃ d, owns (c : Thread nD τ) (st1_2 t) fullShare ((dat c A).before 2 t d))
    ∗ (∃ d, owns (c : Thread nD τ) (st1_3 t) fullShare ((dat c A).before 3 t d))
    ∗ (∃ d, owns (c : Thread nD τ) (st1_4 t) fullShare ((dat c A).before 4 t d)))

/-- and what it returns. -/
def bodyPost (t : Fin cfg1.N) : sProp 𝕄 :=
  iprop((dat c A).Φ t.succ ∗ (dat c A).owesAt () t.succ
    ∗ (dat c A).leavesExact 0 t
    ∗ (dat c A).leavesExact 1 t
    ∗ (dat c A).leavesExact 2 t
    ∗ (dat c A).leavesExact 3 t
    ∗ (dat c A).leavesExact 4 t)

set_option maxHeartbeats 2000000 in
/-- The body at any point: the inputs' memrefs hold their blocks; the point's number says which run applies; the
    invariant hands the body the accumulators at what the point before left (at anything before the first point) and
    takes them back at this point's contents; the core owes nothing throughout. -/
theorem sound_body (t : Fin cfg1.N) :
    bodyPre c A t ⊢ wp frame (wpE (defs₀ (F := F)) Variants.none c none) Set.univ (bodyAt1 t) (fun _ => bodyPost c A t) := by
  unfold bodyPre bodyPost bodyAt1
  simp only [before_0, before_1, before_2]
  rw [show (dat c A).owesAt () t.succ = (dat c A).owesAt () t.castSucc from rfl, Phi_at_succ, Phi_succ, Phi_castSucc]
  rw [show (dat c A).leavesExact 0 t = owns (c : Thread nD τ) (st1_0 t) fullShare ((dat c A).after 0 t) from by
      unfold Dat.leavesExact; rw [live_0 t], after_0,
    show (dat c A).leavesExact 1 t = owns (c : Thread nD τ) (st1_1 t) fullShare ((dat c A).after 1 t) from by
      unfold Dat.leavesExact; rw [live_1 t], after_1,
    show (dat c A).leavesExact 2 t = owns (c : Thread nD τ) (st1_2 t) fullShare ((dat c A).after 2 t) from by
      unfold Dat.leavesExact; rw [live_2 t], after_2]
  have hN : t.val < 250 := lt_of_lt_of_eq t.isLt N_1
  by_cases h0 : t.val % 125 = 0
  · have h1 : ¬t.val % 125 = 124 := by omega
    have hc0 : cond0 (grid1.coords t) := (hcond0 t).mpr h0
    have hc1 : ¬cond1 (grid1.coords t) := fun h => h1 ((hcond1 t).mp h)
    rw [Dat.leavesExact_idle (dat c A) 3 t (idle_3 t hc1) (noFlush_3 t h1),
      Dat.leavesExact_idle (dat c A) 4 t (idle_4 t hc1) (noFlush_4 t h1)]
    rw [acc_reset c A t h0]
    dsimp only [step, zeros]
    by_cases hz : t.val = 0
    · rw [Phi_zero c A _ _ hz, scopedRest_owns]
      iintro ⟨⟨⟨⟨%s0, HS0⟩, ⟨%s1, HS1⟩⟩, Hr⟩, Ho, ⟨%d0, H0⟩, ⟨%d1, H1⟩, ⟨%d2, H2⟩, ⟨%d3, H3⟩, ⟨%d4, H4⟩⟩
      iapply (runA c (grid1.coords t) _ _ _ _ _ _ _ _ _ _ _ _ _ _ hc0 hc1 (tile c A t) (scale c A t) (shift c A t)
        ((dat c A).before 3 t d3) ((dat c A).before 4 t d4) s0 s1 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4
    · rw [Phi_pos c A _ _ hz]
      iintro ⟨⟨HS0, HS1, Hr⟩, Ho, ⟨%d0, H0⟩, ⟨%d1, H1⟩, ⟨%d2, H2⟩, ⟨%d3, H3⟩, ⟨%d4, H4⟩⟩
      iapply (runA c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    have hc0 : ¬cond0 (grid1.coords t) := fun h => h0 ((hcond0 t).mp h)
    rw [acc_add c A t h0, Phi_pos c A _ _ hz]
    dsimp only [step]
    by_cases h1 : t.val % 125 = 124
    · have hc1 : cond1 (grid1.coords t) := (hcond1 t).mpr h1
      rw [show (dat c A).leavesExact 3 t = owns (c : Thread nD τ) (st1_3 t) fullShare ((dat c A).after 3 t) from by
          unfold Dat.leavesExact; rw [live_3 t hc1], after_3,
        show (dat c A).leavesExact 4 t = owns (c : Thread nD τ) (st1_4 t) fullShare ((dat c A).after 4 t) from by
          unfold Dat.leavesExact; rw [live_4 t hc1], after_4]
      rw [acc_add c A t h0]
      dsimp only [step]
      iintro ⟨⟨HS0, HS1, Hr⟩, Ho, ⟨%d0, H0⟩, ⟨%d1, H1⟩, ⟨%d2, H2⟩, ⟨%d3, H3⟩, ⟨%d4, H4⟩⟩
      iapply (runC c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · have hc1 : ¬cond1 (grid1.coords t) := fun h => h1 ((hcond1 t).mp h)
      rw [Dat.leavesExact_idle (dat c A) 3 t (idle_3 t hc1) (noFlush_3 t h1),
        Dat.leavesExact_idle (dat c A) 4 t (idle_4 t hc1) (noFlush_4 t h1)]
      iintro ⟨⟨HS0, HS1, Hr⟩, Ho, ⟨%d0, H0⟩, ⟨%d1, H1⟩, ⟨%d2, H2⟩, ⟨%d3, H3⟩, ⟨%d4, H4⟩⟩
      iapply (runB c (grid1.coords t) _ _ _ _ _ _ _ _ _ _ _ _ _ _ hc0 hc1 (tile c A t) (scale c A t) (shift c A t)
        ((dat c A).before 3 t d3) ((dat c A).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation : BodyObligation (dat c A) (defs₀ (F := F)) Variants.none () Set.univ := fun t => by
  rw [bigSep_W1, bigSep_W1]
  exact sound_body c A t

end Body

end Cert.KernelIdeal.R1

end
-- ==== Proof.I1.lean ====
/-
  Region 1 as the whole run takes it: its proof data over the entering arrays, the body obligation, and the two ends of
  its invariant against the scoped buffers no window stages (at entry the two accumulators are among them, at contents
  not chosen; at exit they are handed back).
-/
import proofs.«149722_j50371376447949_2_alg».proof.Proof.R1Data
import proofs.«149722_j50371376447949_2_alg».proof.Proof.R1Body

noncomputable section
namespace Cert.KernelIdeal.I1
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (c : Dev nD) (A : (w : Fin cfg1.W) → Buf (Elt F) ((cfg1.win w).arr.view.loc (c.tc : Thread nD τ)))

abbrev dat : Dat τ (Elt F) Unit ℕ (UR sig nD τ) ℕ cfg1 c := R1.dat c A

theorem body_obligation : BodyObligation (dat c A) (defs₀ (F := F)) Variants.none () Set.univ := R1.body_obligation c A

set_option backward.isDefEq.respectTransparency.types false in
theorem hin : (Pipeline.scopedRest (Ix := Unit) (Name := ℕ) (U := UR sig nD τ) (Lvl := ℕ) (Val := Elt F) spec1 c : sProp 𝕄) ⊢ (dat c A).Φ 0 := by
  iintro Hr
  iapply (R1.hin c A)
  isplitr; · iempintro
  isplitr; · unfold Pipeline.prefHeld; rw [show (Finset.univ : Finset (Fin 0)) = ∅ from rfl, BI.bigSep_empty]; iempintro
  iexact Hr

set_option backward.isDefEq.respectTransparency.types false in
theorem hout : (dat c A).Φ (Fin.last cfg1.N) ⊢ (Pipeline.scopedRest (Ix := Unit) (Name := ℕ) (U := UR sig nD τ) (Lvl := ℕ) (Val := Elt F) spec1 c : sProp 𝕄) := by
  iintro H
  ihave H' := (R1.hout c A) $$ H
  icases H' with ⟨-, -, Hr⟩
  iexact Hr

end Cert.KernelIdeal.I1
end
-- ==== Proof.R2.lean ====
/-
  The third kernel region (one grid axis of 250 points, a tile of 2000 edges per point): the proof data and the body.

  At a point the body reads five blocks — the tile's rows of the first product, the first layer's scale and shift rows,
  the second layer's weights with its scale folded in, the second shift row —, recomputes the tile's hidden activations,
  multiplies by the weights and adds the shift, and stores the result over the whole output block. It keeps nothing from
  point to point and names no scratch: the invariant between points is the scoped buffers no window stages, untouched.

  What the body finds: each input's staging buffer holds that window's block at the point, whether or not the point
  fetched it (the four one-row / weight windows have a constant block index and are fetched once); the output's staging
  buffer, written back at every point, holds nothing the body may rely on. What it leaves: the inputs as found, the
  output's buffer at `k2_pay1` of the five blocks.
-/
import proofs.«149722_j50371376447949_2_alg».proof.Proof.Gen.KernelIdeal.Points
import proofs.«149722_j50371376447949_2_alg».proof.Proof.Gen.KernelIdeal.Launch
import proofs.«149722_j50371376447949_2_alg».proof.Proof.Gen.KernelIdeal.Skeleton
import Idealize.ShloMosaic.Lib.Tactic
import Idealize.ShloMosaic.Lib.Pipeline.FrameBody
import Idealize.ShloMosaic.Lib.Pipeline.Kit
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, run once on whole staging memrefs -/

/-- Every access of the body is through the whole buffer: offsets zero. -/
theorem off2 : (![0, 0] : Fin 2 → ℕ) = fun _ => 0 := by funext a; fin_cases a <;> rfl

abbrev rOut : Rect S2000x256 := Rect.unit (s := S2000x256) ![0, 0] S2000x256.size inb_S2000x256_S2000x256_0_0

/-- The one store covers the output block. -/
theorem cover_out (p : Vec F S2000x256 .f32) (y : S2000x256.Idx) :
    ∃ pc ∈ ([⟨rOut, p⟩] : List (View.Piece (Elt F) S2000x256 .f32)), y ∈ pc.1.set :=
  View.cover_of_tiled [⟨rOut, p⟩] S2000x256.size (by rfl) y

set_option maxHeartbeats 1000000 in
/-- On whole staging memrefs, the five inputs' at read contents `x0 … x4` and the output's at anything, the body runs
    to its return with the inputs' as they were and the output's at the payload of its one store. -/
theorem sound_kernel (c : Dev nD) (i : grid2.Coords)
    (arg1 : Memref sig .tc .vmem S2000x256 .bf16) (h1 : arg1.IsWhole) (arg2 : Memref sig .tc .vmem S1x256 .f32) (h2 : arg2.IsWhole)
    (arg3 : Memref sig .tc .vmem S1x256 .f32) (h3 : arg3.IsWhole) (arg4 : Memref sig .tc .vmem S256x256 .bf16) (h4 : arg4.IsWhole)
    (arg5 : Memref sig .tc .vmem S1x256 .f32) (h5 : arg5.IsWhole) (arg6 : Memref sig .tc .vmem S2000x256 .f32) (h6 : arg6.IsWhole)
    (x0 : Vec F S2000x256 .bf16) (x1 x2 : Vec F S1x256 .f32) (x3 : Vec F S256x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) Set.univ
          (cc2__stage3_kernel i arg1 h1 arg2 h2 arg3 h3 arg4 h4 arg5 h5 arg6 h6) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_out _), View.canon_unit_zero off2]
  simp only [View.readAt_eq_ld, View.ld_unit_zero (S := S2000x256) off2, View.ld_unit_zero (S := S1x256) off2,
    View.ld_unit_zero (S := S256x256) off2]

/-! ## The proof data -/

section Data

variable (c : Dev nD) (A : (w : Fin cfg2.W) → Buf (Elt F) ((cfg2.win w).arr.view.loc (c.tc : Thread nD τ)))

/-- Window `w`'s block at point `t`, read off its array as the region finds it. -/
def iblk (w : Fin cfg2.W) (t : Fin cfg2.N) : ((cfg2.win w).xblock (cfg2.grid.coords t)).Idx → Elt F (cfg2.win w).elt :=
  ((cfg2.win w).blk t).view.read (Elt F) (A w)

/-- The proof data on core `c`, the six windows' arrays entering at `A`: after the body at point `t` each input's
    staging buffer at its block, the output's at the payload of the five blocks; between points the scoped buffers no
    window stages; nothing owed; full shares. -/
def dat : Dat τ (Elt F) Unit ℕ (UR sig nD τ) ℕ cfg2 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => k2_pay1 (iblk c A 0 t) (iblk c A 1 t) (iblk c A 2 t) (iblk c A 3 t) (iblk c A 4 t)
  Φ _ := Pipeline.scopedRest (Ix := Unit) (Name := ℕ) (U := UR sig nD τ) (Lvl := ℕ) (Val := Elt F) spec2 c
  q _ := fullShare
  owed _ := 0

theorem after_0 (t : Fin cfg2.N) : (dat c A).after 0 t = iblk c A 0 t := by dsimp only [dat]
theorem after_1 (t : Fin cfg2.N) : (dat c A).after 1 t = iblk c A 1 t := by dsimp only [dat]
theorem after_2 (t : Fin cfg2.N) : (dat c A).after 2 t = iblk c A 2 t := by dsimp only [dat]
theorem after_3 (t : Fin cfg2.N) : (dat c A).after 3 t = iblk c A 3 t := by dsimp only [dat]
theorem after_4 (t : Fin cfg2.N) : (dat c A).after 4 t = iblk c A 4 t := by dsimp only [dat]
theorem after_5 (t : Fin cfg2.N) : (dat c A).after 5 t
    = k2_pay1 (iblk c A 0 t) (iblk c A 1 t) (iblk c A 2 t) (iblk c A 3 t) (iblk c A 4 t) := by dsimp only [dat]

/-- Each input's current staging buffer holds its block at every point, fetched there or not: unfetched, the block
    index has not moved, and the body left the block in place. -/
theorem before_0 (t : Fin cfg2.N) (d) : (dat c A).before 0 t d = iblk c A 0 t :=
  ((dat c A).before_in_eq_fetched 0 rfl (fun _ => rfl) (fun _ _ _ => rfl) (fun t => by rw [after_0]; rfl) t d).trans
    (by unfold Dat.fetched Dat.blockOf iblk; rfl)
theorem before_1 (t : Fin cfg2.N) (d) : (dat c A).before 1 t d = iblk c A 1 t :=
  ((dat c A).before_in_eq_fetched 1 rfl (fun _ => rfl) (fun _ _ _ => rfl) (fun t => by rw [after_1]; rfl) t d).trans
    (by unfold Dat.fetched Dat.blockOf iblk; rfl)
theorem before_2 (t : Fin cfg2.N) (d) : (dat c A).before 2 t d = iblk c A 2 t :=
  ((dat c A).before_in_eq_fetched 2 rfl (fun _ => rfl) (fun _ _ _ => rfl) (fun t => by rw [after_2]; rfl) t d).trans
    (by unfold Dat.fetched Dat.blockOf iblk; rfl)
theorem before_3 (t : Fin cfg2.N) (d) : (dat c A).before 3 t d = iblk c A 3 t :=
  ((dat c A).before_in_eq_fetched 3 rfl (fun _ => rfl) (fun _ _ _ => rfl) (fun t => by rw [after_3]; rfl) t d).trans
    (by unfold Dat.fetched Dat.blockOf iblk; rfl)
theorem before_4 (t : Fin cfg2.N) (d) : (dat c A).before 4 t d = iblk c A 4 t :=
  ((dat c A).before_in_eq_fetched 4 rfl (fun _ => rfl) (fun _ _ _ => rfl) (fun t => by rw [after_4]; rfl) t d).trans
    (by unfold Dat.fetched Dat.blockOf iblk; rfl)

/-! ## The body obligation, at a generic point -/

/-- What the body is called with at point `t`, the windows one by one, -/
def bodyPre (t : Fin cfg2.N) : sProp 𝕄 :=
  iprop((dat c A).Φ t.castSucc ∗ (dat c A).owesAt () t.castSucc
    ∗ (∃ d, owns (c : Thread nD τ) (st2_0 t) fullShare ((dat c A).before 0 t d))
    ∗ (∃ d, owns (c : Thread nD τ) (st2_1 t) fullShare ((dat c A).before 1 t d))
    ∗ (∃ d, owns (c : Thread nD τ) (st2_2 t) fullShare ((dat c A).before 2 t d))
    ∗ (∃ d, owns (c : Thread nD τ) (st2_3 t) fullShare ((dat c A).before 3 t d))
    ∗ (∃ d, owns (c : Thread nD τ) (st2_4 t) fullShare ((dat c A).before 4 t d))
    ∗ (∃ d, owns (c : Thread nD τ) (st2_5 t) fullShare ((dat c A).before 5 t d)))

/-- and what it returns. -/
def bodyPost (t : Fin cfg2.N) : sProp 𝕄 :=
  iprop((dat c A).Φ t.succ ∗ (dat c A).owesAt () t.succ
    ∗ owns (c : Thread nD τ) (st2_0 t) fullShare ((dat c A).after 0 t)
    ∗ owns (c : Thread nD τ) (st2_1 t) fullShare ((dat c A).after 1 t)
    ∗ owns (c : Thread nD τ) (st2_2 t) fullShare ((dat c A).after 2 t)
    ∗ owns (c : Thread nD τ) (st2_3 t) fullShare ((dat c A).after 3 t)
    ∗ owns (c : Thread nD τ) (st2_4 t) fullShare ((dat c A).after 4 t)
    ∗ owns (c : Thread nD τ) (st2_5 t) fullShare ((dat c A).after 5 t))

/-- The body at any point: the inputs' memrefs hold their blocks, so the run applies; the invariant and the core's dues
    pass through unread. -/
theorem sound_body (t : Fin cfg2.N) :
    bodyPre c A t ⊢ wp frame (wpE (defs₀ (F := F)) Variants.none c none) Set.univ (bodyAt2 t) (fun _ => bodyPost c A t) := by
  unfold bodyPre bodyPost bodyAt2
  simp only [before_0, before_1, before_2, before_3, before_4]
  rw [show (dat c A).Φ t.succ = (dat c A).Φ t.castSucc from rfl,
    show (dat c A).owesAt () t.succ = (dat c A).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c (grid2.coords t) _ _ _ _ _ _ _ _ _ _ _ _
    (iblk c A 0 t) (iblk c A 1 t) (iblk c A 2 t) (iblk c A 3 t) (iblk c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation : BodyObligation (dat c A) (defs₀ (F := F)) Variants.none () Set.univ := fun t => by
  rw [bigSep_W2, bigSep_W2]
  exact sound_body c A t

end Data

end Cert.KernelIdeal.R2

end
-- ==== Proof.Run.lean ====
/-
  The kernel's whole run: three kernel regions among three stretches of host operations, from the launch to the return.

  Between two items a core holds every unscoped buffer whole, at contents that fold through the program: the launch
  memory; after a host stretch, the stretch's operations applied; after a region, that region's windowed arrays at what
  the pipeline leaves there (the inputs as entered, each output's write-backs folded in) and every other buffer as
  entered. A region takes its arrays out of the unscoped buffers at entry and puts them back at exit; its invariant is
  made of the scoped buffers no window stages and gives them back; nothing is owed to another core and the kernels name no
  semaphore of their own. Read against the final state, the last fold says what every unscoped buffer ends holding.
-/
import proofs.«149722_j50371376447949_2_alg».proof.Proof.Gen.KernelIdeal.Launch
import proofs.«149722_j50371376447949_2_alg».proof.Proof.Gen.KernelIdeal.Regions
import proofs.«149722_j50371376447949_2_alg».proof.Proof.I0
import proofs.«149722_j50371376447949_2_alg».proof.Proof.I1
import proofs.«149722_j50371376447949_2_alg».proof.Proof.R2
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.RunAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- At launch. -/
abbrev B0 : Dev nD → Valuation τ sig (Elt F) := fun c b => m (c, b)
/-- After the first host stretch (region 0's entry). -/
abbrev B1 (c : Dev nD) : Valuation τ sig (Elt F) := StableHlo.after hostOps0 (B0 m c)
/-- The same read at the TensorCore's references. -/
abbrev V1 (c : Dev nD) (b : Ref sig .tc) : Buf (Elt F) ((c : Thread nD τ).loc b) := B1 m c b
/-- Region 0's arrays as it finds them. -/
abbrev A0 (c : Dev nD) (w : Fin cfg0.W) : Buf (Elt F) ((cfg0.win w).arr.view.loc (c.tc : Thread nD τ)) := V1 m c (Pipeline.arrRef spec0 w)
/-- After region 0: its arrays at what the pipeline leaves, every other buffer as entered. -/
def B2 (c : Dev nD) : Valuation τ sig (Elt F) :=
  Pipeline.withArrays spec0 c (B1 m c) fun w => (I0.dat c (A0 m c)).arrAt w cfg0.N
abbrev V2 (c : Dev nD) (b : Ref sig .tc) : Buf (Elt F) ((c : Thread nD τ).loc b) := B2 m c b
/-- After the second host stretch (region 1's entry). -/
abbrev B3 (c : Dev nD) : Valuation τ sig (Elt F) := StableHlo.after hostOps1 (B2 m c)
abbrev V3 (c : Dev nD) (b : Ref sig .tc) : Buf (Elt F) ((c : Thread nD τ).loc b) := B3 m c b
abbrev A1 (c : Dev nD) (w : Fin cfg1.W) : Buf (Elt F) ((cfg1.win w).arr.view.loc (c.tc : Thread nD τ)) := V3 m c (Pipeline.arrRef spec1 w)
/-- After region 1. -/
def B4 (c : Dev nD) : Valuation τ sig (Elt F) :=
  Pipeline.withArrays spec1 c (B3 m c) fun w => (I1.dat c (A1 m c)).arrAt w cfg1.N
abbrev V4 (c : Dev nD) (b : Ref sig .tc) : Buf (Elt F) ((c : Thread nD τ).loc b) := B4 m c b
/-- After the third host stretch (region 2's entry). -/
abbrev B5 (c : Dev nD) : Valuation τ sig (Elt F) := StableHlo.after hostOps2 (B4 m c)
abbrev V5 (c : Dev nD) (b : Ref sig .tc) : Buf (Elt F) ((c : Thread nD τ).loc b) := B5 m c b
abbrev A2 (c : Dev nD) (w : Fin cfg2.W) : Buf (Elt F) ((cfg2.win w).arr.view.loc (c.tc : Thread nD τ)) := V5 m c (Pipeline.arrRef spec2 w)
/-- After region 2: the end. -/
def B6 (c : Dev nD) : Valuation τ sig (Elt F) :=
  Pipeline.withArrays spec2 c (B5 m c) fun w => (R2.dat c (A2 m c)).arrAt w cfg2.N
abbrev V6 (c : Dev nD) (b : Ref sig .tc) : Buf (Elt F) ((c : Thread nD τ).loc b) := B6 m c b

theorem B2_arr (c : Dev nD) (w : Fin cfg0.W) : B2 m c (Proc.devRef .tc (Pipeline.arrRef spec0 w)) = (I0.dat c (A0 m c)).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem B4_arr (c : Dev nD) (w : Fin cfg1.W) : B4 m c (Proc.devRef .tc (Pipeline.arrRef spec1 w)) = (I1.dat c (A1 m c)).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem B6_arr (c : Dev nD) (w : Fin cfg2.W) : B6 m c (Proc.devRef .tc (Pipeline.arrRef spec2 w)) = (R2.dat c (A2 m c)).arrAt w cfg2.N := by
  unfold B6; exact Pipeline.withArrays_arr spec2 launch2.win.arr_inj c _ _ w
theorem B6_of_ne (c : Dev nD) (b : Ref sig .tc) (hb : ∀ w, Pipeline.arrRef spec2 w ≠ b) : B6 m c (Proc.devRef .tc b) = B5 m c (Proc.devRef .tc b) := by
  unfold B6; exact Pipeline.withArrays_of_ne spec2 c _ _ b hb

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => I0.dat c (A0 m c)
  | ⟨1, _⟩ => fun c => I1.dat c (A1 m c)
  | ⟨2, _⟩ => fun c => R2.dat c (A2 m c)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core owing nothing. -/
abbrev R (c : Dev nD) : sProp 𝕄 := iprop(∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- Region 2's invariant is the scoped rest itself, at both ends. -/
theorem r2_hin (c : Dev nD) (A : (w : Fin cfg2.W) → Buf (Elt F) ((cfg2.win w).arr.view.loc (c.tc : Thread nD τ))) :
    (Pipeline.scopedRest (Ix := Unit) (Name := ℕ) (U := UR sig nD τ) (Lvl := ℕ) (Val := Elt F) spec2 c : sProp 𝕄) ⊢ (R2.dat c A).Φ 0 := .rfl
theorem r2_hout (c : Dev nD) (A : (w : Fin cfg2.W) → Buf (Elt F) ((cfg2.win w).arr.view.loc (c.tc : Thread nD τ))) :
    (R2.dat c A).Φ (Fin.last cfg2.N) ⊢ (Pipeline.scopedRest (Ix := Unit) (Name := ℕ) (U := UR sig nD τ) (Lvl := ℕ) (Val := Elt F) spec2 c : sProp 𝕄) := .rfl

theorem hF0 (c : Dev nD) (w : Fin cfg0.W) : (I0.dat c (A0 m c)).arrAt w cfg0.N = V2 m c (Pipeline.arrRef spec0 w) :=
  (B2_arr m c w).symm
theorem hrest0 (c : Dev nD) : ∀ b, b ∉ Finset.univ.image (Pipeline.arrRef spec0) → V2 m c b = V1 m c b :=
  fun b hb => B2_of_ne m c b fun w e => hb (Finset.mem_image.mpr ⟨w, Finset.mem_univ _, e⟩)

set_option backward.isDefEq.respectTransparency.types false in
/-- Region 0 over the thread state: entered from every unscoped buffer at the fold before it, left at the fold after
    it. Its arrays split out of the unscoped buffers and put back at the exit contents; the scoped rest into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (I0.body_obligation c (A0 m c)).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(emp)
  Y c := iprop(emp)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (I0.dat c (A0 m c)).Φ 0 from rfl]
    iintro ⟨-, -, Hr⟩
    iapply (I0.hin c (A0 m c))
    iexact Hr
  hout c := by
    rw [Pipeline.ownSems0_none, show (pdats m 0 c).Φ (Fin.last _) = (I0.dat c (A0 m c)).Φ (Fin.last cfg0.N) from rfl]
    iintro H
    ihave Hr := (I0.hout c (A0 m c)) $$ H
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem hF1 (c : Dev nD) (w : Fin cfg1.W) : (I1.dat c (A1 m c)).arrAt w cfg1.N = V4 m c (Pipeline.arrRef spec1 w) :=
  (B4_arr m c w).symm
theorem hrest1 (c : Dev nD) : ∀ b, b ∉ Finset.univ.image (Pipeline.arrRef spec1) → V4 m c b = V3 m c b :=
  fun b hb => B4_of_ne m c b fun w e => hb (Finset.mem_image.mpr ⟨w, Finset.mem_univ _, e⟩)

set_option backward.isDefEq.respectTransparency.types false in
/-- Region 1 over the thread state: entered from every unscoped buffer at the fold before it, left at the fold after
    it. Its arrays split out of the unscoped buffers and put back at the exit contents; the scoped rest into the invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (I1.body_obligation c (A1 m c)).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(emp)
  Y c := iprop(emp)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (I1.dat c (A1 m c)).Φ 0 from rfl]
    iintro ⟨-, -, Hr⟩
    iapply (I1.hin c (A1 m c))
    iexact Hr
  hout c := by
    rw [Pipeline.ownSems0_none, show (pdats m 1 c).Φ (Fin.last _) = (I1.dat c (A1 m c)).Φ (Fin.last cfg1.N) from rfl]
    iintro H
    ihave Hr := (I1.hout c (A1 m c)) $$ H
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem hF2 (c : Dev nD) (w : Fin cfg2.W) : (R2.dat c (A2 m c)).arrAt w cfg2.N = V6 m c (Pipeline.arrRef spec2 w) :=
  (B6_arr m c w).symm
theorem hrest2 (c : Dev nD) : ∀ b, b ∉ Finset.univ.image (Pipeline.arrRef spec2) → V6 m c b = V5 m c b :=
  fun b hb => B6_of_ne m c b fun w e => hb (Finset.mem_image.mpr ⟨w, Finset.mem_univ _, e⟩)

set_option backward.isDefEq.respectTransparency.types false in
/-- Region 2 over the thread state: entered from every unscoped buffer at the fold before it, left at the fold after
    it. Its arrays split out of the unscoped buffers and put back at the exit contents; the scoped rest into the invariant
    and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation c (A2 m c)).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(emp)
  Y c := iprop(emp)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (R2.dat c (A2 m c)).Φ 0 from rfl]
    iintro ⟨-, -, Hr⟩
    iapply (r2_hin c (A2 m c))
    iexact Hr
  hout c := by
    rw [Pipeline.ownSems0_none, show (pdats m 2 c).Φ (Fin.last _) = (R2.dat c (A2 m c)).Φ (Fin.last cfg2.N) from rfl]
    iintro H
    ihave Hr := (r2_hout c (A2 m c)) $$ H
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

set_option backward.isDefEq.respectTransparency.types false in
/-- THE RUN. At the compiled mesh, from any memory with zero counters, every weakly fair execution of @main on the
    TensorCores terminates, nothing faulting, and in every final state every unscoped buffer holds the last fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (B6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = B6 m c b)
    (hfin := fun c s' => by
      iintro ⟨Hh, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

end Cert.KernelIdeal.RunAll

end
-- ==== Proof.WalkArgs.lean ====
import proofs.«149722_j50371376447949_2_alg».proof.Proof.Run
import proofs.«149722_j50371376447949_2_alg».proof.Proof.Gen.KernelIdeal.Regions

/-!
# Every argument ends holding its launch contents

The contents of the unscoped buffers fold through the program: the launch memory, then each stretch of host
operations applied, then each region's arrays replaced by what its pipeline leaves. No item writes an argument: a host
operation writes only its own result buffer, and a region changes only its output windows' arrays. Eight of the eleven
arguments are no region's window, so each step of the fold leaves them as they were. The other three are the first
region's input windows; a pipeline never writes back an input window's array, so they come out of the first region as
they entered it, and no later item touches them.
-/

set_option maxRecDepth 16384

noncomputable section

namespace Cert.KernelIdeal.WalkArgs

open Cert.KernelIdeal
open Cert.KernelIdeal.Gen hiding V0 V1 V2 V3 V4 V5 V6 Outs
open Idealize.ShloMosaic Idealize.ShloMosaic.TcCoe
open Idealize.SL Idealize.SL.Sem
open Idealize.ShloMosaic.Pipeline (Dat Cfg Window)
open Cert.KernelIdeal.RunAll

/-! ## A reference no item writes keeps its launch contents -/

variable {F : FTy → Type} [FloatOps F]
variable (m : (ℓ : Loc nD τ sig) → Buf (Elt F) ℓ) (c : Dev nD)

theorem B1_keep (r : Ref sig .tc) (h0 : r ∉ hostOps0_W) :
    B1 m c (Proc.devRef .tc r) = m ((c : Thread nD τ).loc r) :=
  StableHlo.after_of_writes_sub hostOps0 _ hostOps0_writes h0

theorem B2_keep (r : Ref sig .tc) (h0 : r ∉ hostOps0_W) (hw0 : ∀ w, Pipeline.arrRef spec0 w ≠ r) :
    B2 m c (Proc.devRef .tc r) = m ((c : Thread nD τ).loc r) :=
  (B2_of_ne m c r hw0).trans (B1_keep m c r h0)

theorem B3_keep (r : Ref sig .tc) (h0 : r ∉ hostOps0_W) (hw0 : ∀ w, Pipeline.arrRef spec0 w ≠ r) (h1 : r ∉ hostOps1_W) :
    B3 m c (Proc.devRef .tc r) = m ((c : Thread nD τ).loc r) :=
  (StableHlo.after_of_writes_sub hostOps1 _ hostOps1_writes h1).trans (B2_keep m c r h0 hw0)

theorem B4_keep (r : Ref sig .tc) (h0 : r ∉ hostOps0_W) (hw0 : ∀ w, Pipeline.arrRef spec0 w ≠ r) (h1 : r ∉ hostOps1_W)
    (hw1 : ∀ w, Pipeline.arrRef spec1 w ≠ r) : B4 m c (Proc.devRef .tc r) = m ((c : Thread nD τ).loc r) :=
  (B4_of_ne m c r hw1).trans (B3_keep m c r h0 hw0 h1)

theorem B5_keep (r : Ref sig .tc) (h0 : r ∉ hostOps0_W) (hw0 : ∀ w, Pipeline.arrRef spec0 w ≠ r) (h1 : r ∉ hostOps1_W)
    (hw1 : ∀ w, Pipeline.arrRef spec1 w ≠ r) (h2 : r ∉ hostOps2_W) :
    B5 m c (Proc.devRef .tc r) = m ((c : Thread nD τ).loc r) :=
  (StableHlo.after_of_writes_sub hostOps2 _ hostOps2_writes h2).trans (B4_keep m c r h0 hw0 h1 hw1)

theorem B6_keep (r : Ref sig .tc) (h0 : r ∉ hostOps0_W) (hw0 : ∀ w, Pipeline.arrRef spec0 w ≠ r) (h1 : r ∉ hostOps1_W)
    (hw1 : ∀ w, Pipeline.arrRef spec1 w ≠ r) (h2 : r ∉ hostOps2_W) (hw2 : ∀ w, Pipeline.arrRef spec2 w ≠ r) :
    B6 m c (Proc.devRef .tc r) = m ((c : Thread nD τ).loc r) :=
  (B6_of_ne m c r hw2).trans (B5_keep m c r h0 hw0 h1 hw1 h2)

/-- What a buffer holds after the first region it still holds at the end, if nothing later writes it. -/
theorem B6_of_B2 (r : Ref sig .tc) (x : (Proc.devRef (τ := τ) .tc r).ty.Contents (Elt F)) (hx : B2 m c (Proc.devRef .tc r) = x)
    (h1 : r ∉ hostOps1_W) (hw1 : ∀ w, Pipeline.arrRef spec1 w ≠ r) (h2 : r ∉ hostOps2_W)
    (hw2 : ∀ w, Pipeline.arrRef spec2 w ≠ r) : B6 m c (Proc.devRef .tc r) = x :=
  (B6_of_ne m c r hw2).trans <| (StableHlo.after_of_writes_sub hostOps2 _ hostOps2_writes h2).trans <|
    (B4_of_ne m c r hw1).trans <| (StableHlo.after_of_writes_sub hostOps1 _ hostOps1_writes h1).trans hx

/-! ## The first region's three argument windows enter as launched -/

theorem A0_0 : A0 m c 0 = (m ((c : Thread nD τ).loc main_arg0)) := B1_keep m c main_arg0 (by decide)
theorem A0_1 : A0 m c 1 = (m ((c : Thread nD τ).loc main_arg1)) := B1_keep m c main_arg1 (by decide)
theorem A0_2 : A0 m c 2 = (m ((c : Thread nD τ).loc main_arg2)) := B1_keep m c main_arg2 (by decide)

/-! ## The eleven arguments at the end -/

theorem B6_main_arg0 : B6 m c (Proc.devRef .tc main_arg0) = (m ((c : Thread nD τ).loc main_arg0)) :=
  B6_of_B2 m c main_arg0 _ ((B2_arr m c 0).trans (((I0.dat c (A0 m c)).arrAt_in 0 rfl _).trans (A0_0 m c)))
    (by decide) (by decide) (by decide) (by decide)
theorem B6_main_arg1 : B6 m c (Proc.devRef .tc main_arg1) = (m ((c : Thread nD τ).loc main_arg1)) :=
  B6_of_B2 m c main_arg1 _ ((B2_arr m c 1).trans (((I0.dat c (A0 m c)).arrAt_in 1 rfl _).trans (A0_1 m c)))
    (by decide) (by decide) (by decide) (by decide)
theorem B6_main_arg2 : B6 m c (Proc.devRef .tc main_arg2) = (m ((c : Thread nD τ).loc main_arg2)) :=
  B6_of_B2 m c main_arg2 _ ((B2_arr m c 2).trans (((I0.dat c (A0 m c)).arrAt_in 2 rfl _).trans (A0_2 m c)))
    (by decide) (by decide) (by decide) (by decide)
theorem B6_main_arg3 : B6 m c (Proc.devRef .tc main_arg3) = (m ((c : Thread nD τ).loc main_arg3)) :=
  B6_keep m c main_arg3 (by decide) (by decide) (by decide) (by decide) (by decide) (by decide)
theorem B6_main_arg4 : B6 m c (Proc.devRef .tc main_arg4) = (m ((c : Thread nD τ).loc main_arg4)) :=
  B6_keep m c main_arg4 (by decide) (by decide) (by decide) (by decide) (by decide) (by decide)
theorem B6_main_arg5 : B6 m c (Proc.devRef .tc main_arg5) = (m ((c : Thread nD τ).loc main_arg5)) :=
  B6_keep m c main_arg5 (by decide) (by decide) (by decide) (by decide) (by decide) (by decide)
theorem B6_main_arg6 : B6 m c (Proc.devRef .tc main_arg6) = (m ((c : Thread nD τ).loc main_arg6)) :=
  B6_keep m c main_arg6 (by decide) (by decide) (by decide) (by decide) (by decide) (by decide)
theorem B6_main_arg7 : B6 m c (Proc.devRef .tc main_arg7) = (m ((c : Thread nD τ).loc main_arg7)) :=
  B6_keep m c main_arg7 (by decide) (by decide) (by decide) (by decide) (by decide) (by decide)
theorem B6_main_arg8 : B6 m c (Proc.devRef .tc main_arg8) = (m ((c : Thread nD τ).loc main_arg8)) :=
  B6_keep m c main_arg8 (by decide) (by decide) (by decide) (by decide) (by decide) (by decide)
theorem B6_main_arg9 : B6 m c (Proc.devRef .tc main_arg9) = (m ((c : Thread nD τ).loc main_arg9)) :=
  B6_keep m c main_arg9 (by decide) (by decide) (by decide) (by decide) (by decide) (by decide)
theorem B6_main_arg10 : B6 m c (Proc.devRef .tc main_arg10) = (m ((c : Thread nD τ).loc main_arg10)) :=
  B6_keep m c main_arg10 (by decide) (by decide) (by decide) (by decide) (by decide) (by decide)

end Cert.KernelIdeal.WalkArgs
-- ==== Proof.FrameIdeal.lean ====
/-
  The idealized kernel's frame: its whole run, read at the eleven argument arrays.

  The run ends with every unscoped buffer at the last fold of the contents through the program; at an argument's buffer the
  fold walks back to the launch memory, because no host operation writes an argument and a region either reads it through
  an input window, which the pipeline leaves as it found it, or does not touch it.
-/
import proofs.«149722_j50371376447949_2_alg».proof.Defs
import proofs.«149722_j50371376447949_2_alg».proof.Proof.Run
import proofs.«149722_j50371376447949_2_alg».proof.Proof.WalkArgs
import proofs.«149722_j50371376447949_2_alg».proof.Proof.Gen.Pre_finite_inputs

noncomputable section

namespace Cert.Proof.FrameKernelIdeal

open Idealize.ShloMosaic Idealize.ShloMosaic.TcCoe Idealize.SL.Sem
open Cert.KernelIdeal Cert.KernelIdeal.RunAll

/-- Every weakly fair execution of the program terminates, nothing faulting, with every argument array as launched. -/
theorem frame : Cert.frame_KernelIdeal := fun m ρ _ =>
  (θ_run Cert.KernelIdeal.defs _ _).mono (fun r h c =>
    ⟨(h c _ (mem_uc main_arg0 (by decide))).trans (Cert.KernelIdeal.WalkArgs.B6_main_arg0 m c),
     (h c _ (mem_uc main_arg1 (by decide))).trans (Cert.KernelIdeal.WalkArgs.B6_main_arg1 m c),
     (h c _ (mem_uc main_arg2 (by decide))).trans (Cert.KernelIdeal.WalkArgs.B6_main_arg2 m c),
     (h c _ (mem_uc main_arg3 (by decide))).trans (Cert.KernelIdeal.WalkArgs.B6_main_arg3 m c),
     (h c _ (mem_uc main_arg4 (by decide))).trans (Cert.KernelIdeal.WalkArgs.B6_main_arg4 m c),
     (h c _ (mem_uc main_arg5 (by decide))).trans (Cert.KernelIdeal.WalkArgs.B6_main_arg5 m c),
     (h c _ (mem_uc main_arg6 (by decide))).trans (Cert.KernelIdeal.WalkArgs.B6_main_arg6 m c),
     (h c _ (mem_uc main_arg7 (by decide))).trans (Cert.KernelIdeal.WalkArgs.B6_main_arg7 m c),
     (h c _ (mem_uc main_arg8 (by decide))).trans (Cert.KernelIdeal.WalkArgs.B6_main_arg8 m c),
     (h c _ (mem_uc main_arg9 (by decide))).trans (Cert.KernelIdeal.WalkArgs.B6_main_arg9 m c),
     (h c _ (mem_uc main_arg10 (by decide))).trans (Cert.KernelIdeal.WalkArgs.B6_main_arg10 m c)⟩)
    (run (F := Ideal) m ρ)

end Cert.Proof.FrameKernelIdeal

end
-- ==== Proof.Arrays.lean ====
/- The vocabulary both sides of the comparison share: the two float literals the programs spell, as the reals
   their patterns denote, and the real matrices and vectors read off buffers of extended reals. No program is
   imported here. -/
import Idealize.ShloMosaic.PureOps.Ideal
import Idealize.ShloMosaic.PureOps.Ideal.Laws
import Idealize.ShloMosaic.Lib.ValueIdx

noncomputable section

namespace Cert.Arrays

open Idealize.ShloMosaic

/-- The regulariser under the square root: the dyadic rational the pattern `0x3727C5AC` denotes,
    `(2^23 + 2606508) · 2^(110 - 127 - 23) = 10995116 / 2^40` (the single-precision neighbour of `1e-5`). -/
def eps : ℝ := 10995116 / 2 ^ 40

theorem eps_pos : 0 < eps := by unfold eps; positivity

/-- The pattern `0x3727C5AC` denotes `eps`. -/
theorem ofBits_eps : Ideal.ofBits .f32 0x3727C5AC#32 = ((eps : ℝ) : EReal) := by
  simp [Ideal.ofBits, Ideal.ieee, -EReal.coe_mul, eps]; norm_num

/-- The pattern `0x48F42400` denotes the row count `500000`. -/
theorem ofBits_n : Ideal.ofBits .f32 0x48F42400#32 = ((500000 : ℝ) : EReal) := by
  simp [Ideal.ofBits, Ideal.ieee, -EReal.coe_mul]; norm_num

/-- The zero pattern denotes `0`. -/
theorem ofBits_zero : Ideal.ofBits .f32 0#32 = 0 := Ideal.ofBits_zero_f32

/-- The real matrix read off a rank-2 buffer of extended reals. -/
def mat {A B : Nat} (a : (⟨2, ![A, B]⟩ : Shape).Idx → EReal) (p : Fin A) (q : Fin B) : ℝ :=
  (a (ValueIdx.ix2 p q)).toReal

/-- The real vector read off a rank-1 buffer of extended reals. -/
def vec {A : Nat} (a : (⟨1, ![A]⟩ : Shape).Idx → EReal) (p : Fin A) : ℝ :=
  (a (ValueIdx.ix1 p)).toReal

/-- Where every entry of the buffer is a real, the buffer's entry is the coercion of the matrix entry. -/
theorem coe_mat {A B : Nat} (a : (⟨2, ![A, B]⟩ : Shape).Idx → EReal) (h : ∀ i, ∃ r : ℝ, a i = (r : EReal))
    (p : Fin A) (q : Fin B) : a (ValueIdx.ix2 p q) = ((mat a p q : ℝ) : EReal) := by
  obtain ⟨r, hr⟩ := h (ValueIdx.ix2 p q)
  rw [mat, hr, EReal.toReal_coe]

/-- Where every entry of the buffer is a real, the buffer's entry is the coercion of the vector entry. -/
theorem coe_vec {A : Nat} (a : (⟨1, ![A]⟩ : Shape).Idx → EReal) (h : ∀ i, ∃ r : ℝ, a i = (r : EReal))
    (p : Fin A) : a (ValueIdx.ix1 p) = ((vec a p : ℝ) : EReal) := by
  obtain ⟨r, hr⟩ := h (ValueIdx.ix1 p)
  rw [vec, hr, EReal.toReal_coe]

/-- The feature matrix: four blocks side by side along the columns, columns `0..127` from `a0`, `128..255` from
    `a1`, `256..319` from `a2`, `320..383` from `ug`. -/
def feat (a0 a1 : (⟨2, ![500000, 128]⟩ : Shape).Idx → EReal) (a2 ug : (⟨2, ![500000, 64]⟩ : Shape).Idx → EReal)
    (e : Fin 500000) (i : Fin 384) : ℝ :=
  if h0 : i.val < 128 then mat a0 e ⟨i.val, h0⟩
  else if h1 : i.val < 256 then mat a1 e ⟨i.val - 128, by omega⟩
  else if h2 : i.val < 320 then mat a2 e ⟨i.val - 256, by omega⟩
  else mat ug e ⟨i.val - 320, by omega⟩

theorem feat_block0 (a0 a1 : (⟨2, ![500000, 128]⟩ : Shape).Idx → EReal)
    (a2 ug : (⟨2, ![500000, 64]⟩ : Shape).Idx → EReal) (e : Fin 500000) (i : Fin 384) (h : i.val < 128) :
    feat a0 a1 a2 ug e i = mat a0 e ⟨i.val, h⟩ := by
  rw [feat, dif_pos h]

theorem feat_block1 (a0 a1 : (⟨2, ![500000, 128]⟩ : Shape).Idx → EReal)
    (a2 ug : (⟨2, ![500000, 64]⟩ : Shape).Idx → EReal) (e : Fin 500000) (i : Fin 384) (h0 : ¬ i.val < 128)
    (h : i.val < 256) : feat a0 a1 a2 ug e i = mat a1 e ⟨i.val - 128, by omega⟩ := by
  rw [feat, dif_neg h0, dif_pos h]

theorem feat_block2 (a0 a1 : (⟨2, ![500000, 128]⟩ : Shape).Idx → EReal)
    (a2 ug : (⟨2, ![500000, 64]⟩ : Shape).Idx → EReal) (e : Fin 500000) (i : Fin 384) (h1 : ¬ i.val < 256)
    (h : i.val < 320) : feat a0 a1 a2 ug e i = mat a2 e ⟨i.val - 256, by omega⟩ := by
  rw [feat, dif_neg (by omega), dif_neg h1, dif_pos h]

theorem feat_block3 (a0 a1 : (⟨2, ![500000, 128]⟩ : Shape).Idx → EReal)
    (a2 ug : (⟨2, ![500000, 64]⟩ : Shape).Idx → EReal) (e : Fin 500000) (i : Fin 384) (h2 : ¬ i.val < 320) :
    feat a0 a1 a2 ug e i = mat ug e ⟨i.val - 320, by omega⟩ := by
  rw [feat, dif_neg (by omega), dif_neg (by omega), dif_neg h2]

end Cert.Arrays

end
-- ==== Proof.Gathered.lean ====
/- The per-edge globals: the table of globals read at each edge's graph number. Both programs spell this one gather,
   with the same index arithmetic in front of it (a negative number is first moved up by the table's height), and
   neither proof opens it: it is named here once, over the literal shapes, so that both sides can state their results
   over the same array. -/
import Idealize.ShloMosaic.PureOps
import Idealize.ShloMosaic.Lib.ValueIdx

noncomputable section

namespace Cert.Arrays

open Idealize.ShloMosaic

/-- The gather's dimension numbers: one start index per edge, naming a row of the table; the row is copied whole. -/
def gdims : GatherDims (⟨2, ![512, 64]⟩ : Shape) (⟨2, ![500000, 1]⟩ : Shape) (⟨2, ![500000, 64]⟩ : Shape) where
  offsetDims := [1]
  collapsedSliceDims := [0]
  operandBatchingDims := []
  startIndicesBatchingDims := []
  startIndexMap := [0]
  indexVectorDim := 1
  sliceSizes := ![1, 64]
  wf := by decide

/-- The start indices: the graph numbers, a negative one moved up by `512`, as one column. -/
def startIdx (a4 : IVec (⟨1, ![500000]⟩ : Shape) 32) : IVec (⟨2, ![500000, 1]⟩ : Shape) 32 :=
  broadcastInDim (⟨2, ![500000, 1]⟩ : Shape) ![0] (by decide)
    (select (cmpi .slt a4 (broadcastInDim (⟨1, ![500000]⟩ : Shape) ![] (by decide) (constantI (⟨0, ![]⟩ : Shape) 32 0#32)))
      (addi a4 (broadcastInDim (⟨1, ![500000]⟩ : Shape) ![] (by decide) (constantI (⟨0, ![]⟩ : Shape) 32 512#32))) a4)

/-- The per-edge globals `u[batch]`. -/
def ug {α : Type} (a3 : (⟨2, ![512, 64]⟩ : Shape).Idx → α) (a4 : IVec (⟨1, ![500000]⟩ : Shape) 32) :
    (⟨2, ![500000, 64]⟩ : Shape).Idx → α :=
  Host.gather gdims a3 (startIdx a4)

/-- Every gathered entry is an entry of the table: where the table's entries are real, so are the gathered ones
    (whatever the graph numbers are: an out-of-range one is clamped into the table). -/
theorem ug_real (a3 : (⟨2, ![512, 64]⟩ : Shape).Idx → EReal) (a4 : IVec (⟨1, ![500000]⟩ : Shape) 32)
    (h : ∀ i, ∃ r : ℝ, a3 i = (r : EReal)) : ∀ i, ∃ r : ℝ, ug a3 a4 i = (r : EReal) :=
  fun i => h (gdims.operandIdx i (startIdx a4))

end Cert.Arrays

end
-- ==== Proof.LibBatchNorm.lean ====
/-
  Batch normalisation of a finite column, in the two spellings programs use, and why they agree.

  A column `x : ι → ℝ` over a finite, non-empty set of rows, `n` its number of rows as a real.

  * The CENTRED spelling takes the mean `μ = (∑ x) / n`, the variance `(∑ (x - μ)²) / n`, and sends an entry to
    `(x e - μ) · (√(var + ε))⁻¹ · γ + β`.
  * The FOLDED spelling never forms `x - μ`: from the two sums `∑ x` and `∑ x²` it takes the uncentred variance
    `(∑ x²) / n - μ²`, clamps it at zero, and sends an entry to `x e · s + (β - μ · s)` with the scale
    `s = γ · (√(max var 0 + ε))⁻¹`.

  Over the reals the uncentred variance IS the centred one (expand the square; `∑ μ² = n μ²`), the centred one is a sum
  of squares over a positive number, so the clamp is the identity, and the rest is distributivity (`bn_fold`).

  When the column is a matrix product `y e = ∑ k, h e k · w k`, its two sums need no pass over `y`: `∑ y` is the column
  sums of `h` against `w`, and `∑ y²` is the quadratic form of the Gram matrix `hᵀh` at `w` (`sum_matvec`,
  `sum_matvec_sq`); and a scale folded into the weights is the scale applied after the product (`matvec_scaled`).

  The last section carries real arithmetic through the exact operations on the extended reals (a quotient by a non-zero
  real, a reciprocal square root of a positive real, a maximum with zero, a finite sum): on finite values they are the
  real operations, which is what lets the identities above be used at the exact-arithmetic reading of a program.
-/
import Idealize.ShloMosaic.PureOps.Ideal

noncomputable section

namespace Cert.BatchNorm

open Idealize.ShloMosaic

/-! ## Mean and variance of a column -/

section Column

variable {ι : Type*} [Fintype ι]

/-- The mean of a column over `n` rows. -/
def mean (n : ℝ) (x : ι → ℝ) : ℝ := (∑ e, x e) / n

/-- The variance about the mean (biased: divided by `n`). -/
def cvar (n : ℝ) (x : ι → ℝ) : ℝ := (∑ e, (x e - mean n x) * (x e - mean n x)) / n

/-- The mean of the squares less the square of the mean. -/
def uvar (n : ℝ) (x : ι → ℝ) : ℝ := (∑ e, x e * x e) / n - mean n x * mean n x

/-- Expanding the square: the variance about the mean is the mean of squares less the squared mean. -/
theorem cvar_eq_uvar {n : ℝ} (hn : (Fintype.card ι : ℝ) = n) (h0 : n ≠ 0) (x : ι → ℝ) : cvar n x = uvar n x := by
  unfold cvar uvar mean
  have hexp : ∀ e, (x e - (∑ e, x e) / n) * (x e - (∑ e, x e) / n)
      = x e * x e - 2 * ((∑ e, x e) / n) * x e + ((∑ e, x e) / n) * ((∑ e, x e) / n) := fun e => by ring
  simp only [hexp]
  rw [Finset.sum_add_distrib, Finset.sum_sub_distrib, ← Finset.mul_sum, Finset.sum_const, Finset.card_univ,
    nsmul_eq_mul, hn]
  field_simp
  ring

/-- A variance is not negative. -/
theorem cvar_nonneg {n : ℝ} (hpos : 0 < n) (x : ι → ℝ) : 0 ≤ cvar n x :=
  div_nonneg (Finset.sum_nonneg fun _ _ => mul_self_nonneg _) hpos.le

/-- Clamping the uncentred variance at zero changes nothing: it is the centred one. -/
theorem max_uvar_zero {n : ℝ} (hn : (Fintype.card ι : ℝ) = n) (hpos : 0 < n) (x : ι → ℝ) :
    max (uvar n x) 0 = cvar n x := by
  rw [← cvar_eq_uvar hn hpos.ne' x]
  exact max_eq_left (cvar_nonneg hpos x)

/-- ONE LAYER, TWO SPELLINGS: the folded scale-and-shift of the clamped uncentred statistics is the centred
    normalisation. -/
theorem bn_fold {n : ℝ} (hn : (Fintype.card ι : ℝ) = n) (hpos : 0 < n) (x : ι → ℝ) (eps γ β : ℝ) (e : ι) :
    x e * (γ * (Real.sqrt (max (uvar n x) 0 + eps))⁻¹)
        + (β - mean n x * (γ * (Real.sqrt (max (uvar n x) 0 + eps))⁻¹))
      = (x e - mean n x) * (Real.sqrt (cvar n x + eps))⁻¹ * γ + β := by
  rw [max_uvar_zero hn hpos]
  ring

end Column

/-! ## The statistics of a matrix product's column, from column sums and the Gram matrix -/

section Product

variable {ι κ : Type*} [Fintype ι] [Fintype κ]

/-- The sum over the rows of a product's column is the column sums of the left factor against the weights. -/
theorem sum_matvec (h : ι → κ → ℝ) (w : κ → ℝ) :
    ∑ e, ∑ k, h e k * w k = ∑ k, (∑ e, h e k) * w k := by
  rw [Finset.sum_comm]
  exact Finset.sum_congr rfl fun k _ => (Finset.sum_mul _ _ _).symm

/-- The sum of the squares of a product's column is the Gram matrix's quadratic form at the weights. -/
theorem sum_matvec_sq (h : ι → κ → ℝ) (w : κ → ℝ) :
    ∑ e, (∑ k, h e k * w k) * (∑ l, h e l * w l) = ∑ k, w k * ∑ l, (∑ e, h e k * h e l) * w l := by
  have hL : ∀ e, (∑ k, h e k * w k) * (∑ l, h e l * w l) = ∑ k, ∑ l, w k * ((h e k * h e l) * w l) := fun e => by
    rw [Finset.sum_mul_sum]
    exact Finset.sum_congr rfl fun k _ => Finset.sum_congr rfl fun l _ => by ring
  have hR : ∀ k, w k * ∑ l, (∑ e, h e k * h e l) * w l = ∑ e, ∑ l, w k * ((h e k * h e l) * w l) := fun k => by
    rw [Finset.mul_sum, Finset.sum_comm]
    refine Finset.sum_congr rfl fun l _ => ?_
    rw [Finset.sum_mul, Finset.mul_sum]
  simp only [hL, hR]
  exact Finset.sum_comm

/-- A scale folded into the weights is the scale applied to the product. -/
theorem matvec_scaled (h : κ → ℝ) (w : κ → ℝ) (s : ℝ) : ∑ k, h k * (w k * s) = (∑ k, h k * w k) * s := by
  rw [Finset.sum_mul]
  exact Finset.sum_congr rfl fun k _ => by ring

end Product

/-! ## Real arithmetic inside the exact operations on the extended reals -/

section Coe

/-- A finite sum of reals, read on the extended reals, is the sum of the readings. -/
theorem coe_sum {α : Type*} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (a : ℝ) {n : ℝ} (h : n ≠ 0) : Ideal.div (a : EReal) (n : EReal) = ((a / n : ℝ) : EReal) := by
  rw [Ideal.div_coe h, ← EReal.coe_mul, mul_one_div]

/-- The exact reciprocal square root of a positive real is the real one. -/
theorem rsqrt_coe_pos {v : ℝ} (h : 0 < v) : Ideal.rsqrt (v : EReal) = (((Real.sqrt v)⁻¹ : ℝ) : EReal) := by
  rw [Ideal.rsqrt_coe, if_neg (not_lt.mpr h.le), if_neg h.ne']

/-- The maximum of a real and zero, on the extended reals, is the real maximum. -/
theorem max_coe_zero (a : ℝ) : max (a : EReal) 0 = ((max a 0 : ℝ) : EReal) := by
  rw [← EReal.coe_zero]
  exact (EReal.coe_strictMono.monotone.map_max).symm

end Coe

end Cert.BatchNorm

end
-- ==== Proof.LibTwoLayerNorm.lean ====
/-
  Two dense layers, each followed by batch normalisation over the rows, a rectifier between them — written twice.

  Rows `e : ι` (the edges), input features `i : α`, hidden features `k : κ`, output features `j : ο`; `n` the number of
  rows as a real, `ε > 0`.

  THE CENTRED FORM (`outC`) is the textbook one: `p1 = x · w1`; normalise every column of `p1` about its mean by its
  variance, scale by `γ1`, shift by `β1`, clamp below at zero: `hC`; `p2 = hC · w2`; normalise every column of `p2` the
  same way with `γ2`, `β2`.

  THE FOLDED FORM (`outF`) makes one pass for the statistics and never forms a centred array:
    * layer 1's statistics are the column sums of `p1` and of its squares; the variance is the mean of squares less the
      squared mean, clamped at zero; normalisation is one multiply-add per entry, `p1 · s1 + t1`, then the clamp: `hF`;
    * layer 2's statistics are never taken from `p2`: the column sums of `p2` are the column sums of `hF` against `w2`,
      and the column sums of `p2²` are the quadratic form of the Gram matrix `hFᵀ hF` at the columns of `w2`;
    * the second scale is folded into the weights: the output is `hF · (w2 · s2) + t2`.

  `outF_eq_outC`: the two are the same function of the arrays. Column by column it is the one-layer identity of
  Proof/LibBatchNorm.lean (`bn_fold`), after the Gram-matrix forms of the sums (`sum_matvec`, `sum_matvec_sq`) and the
  scale moved out of the weights (`matvec_scaled`).
-/
import proofs.«149722_j50371376447949_2_alg».proof.Proof.LibBatchNorm

noncomputable section

namespace Cert.TwoLayerNorm

open Cert.BatchNorm

variable {ι α κ ο : Type*} [Fintype ι] [Fintype α] [Fintype κ] [Fintype ο]

/-- A dense layer: the matrix product. -/
def dense {β δ : Type*} [Fintype β] (x : ι → β → ℝ) (w : β → δ → ℝ) (e : ι) (d : δ) : ℝ := ∑ b, x e b * w b d

/-! ## The centred form -/

/-- Normalise the column `d` of `p` about its mean, scale and shift. -/
def normC {δ : Type*} (n eps : ℝ) (p : ι → δ → ℝ) (g b : δ → ℝ) (e : ι) (d : δ) : ℝ :=
  (p e d - mean n fun e => p e d) * (Real.sqrt (cvar n (fun e => p e d) + eps))⁻¹ * g d + b d

/-- The hidden activations, centred form. -/
def hC (n eps : ℝ) (x : ι → α → ℝ) (w1 : α → κ → ℝ) (g1 b1 : κ → ℝ) (e : ι) (k : κ) : ℝ :=
  max (normC n eps (dense x w1) g1 b1 e k) 0

/-- The result, centred form. -/
def outC (n eps : ℝ) (x : ι → α → ℝ) (w1 : α → κ → ℝ) (g1 b1 : κ → ℝ) (w2 : κ → ο → ℝ) (g2 b2 : ο → ℝ) (e : ι) (j : ο) : ℝ :=
  normC n eps (dense (hC n eps x w1 g1 b1) w2) g2 b2 e j

/-! ## The folded form -/

/-- The scale a column's two sums `s` (of the entries) and `q` (of their squares) give. -/
def scaleOf (n eps s q g : ℝ) : ℝ := g * (Real.sqrt (max (q / n - s / n * (s / n)) 0 + eps))⁻¹

/-- The shift they give. -/
def shiftOf (n eps s q g b : ℝ) : ℝ := b - s / n * scaleOf n eps s q g

/-- Layer 1's column sums. -/
def sum1 (x : ι → α → ℝ) (w1 : α → κ → ℝ) (k : κ) : ℝ := ∑ e, dense x w1 e k
/-- Layer 1's column sums of squares. -/
def sumsq1 (x : ι → α → ℝ) (w1 : α → κ → ℝ) (k : κ) : ℝ := ∑ e, dense x w1 e k * dense x w1 e k

/-- The hidden activations, folded form: one multiply-add and the clamp. -/
def hF (n eps : ℝ) (x : ι → α → ℝ) (w1 : α → κ → ℝ) (g1 b1 : κ → ℝ) (e : ι) (k : κ) : ℝ :=
  max (dense x w1 e k * scaleOf n eps (sum1 x w1 k) (sumsq1 x w1 k) (g1 k)
    + shiftOf n eps (sum1 x w1 k) (sumsq1 x w1 k) (g1 k) (b1 k)) 0

/-- The column sums of the hidden activations. -/
def colsum (h : ι → κ → ℝ) (k : κ) : ℝ := ∑ e, h e k
/-- Their Gram matrix. -/
def gram (h : ι → κ → ℝ) (k l : κ) : ℝ := ∑ e, h e k * h e l

/-- Layer 2's column sums, from the column sums of the hidden activations. -/
def sum2 (h : ι → κ → ℝ) (w2 : κ → ο → ℝ) (j : ο) : ℝ := ∑ k, colsum h k * w2 k j
/-- Layer 2's column sums of squares, from the Gram matrix. -/
def sumsq2 (h : ι → κ → ℝ) (w2 : κ → ο → ℝ) (j : ο) : ℝ := ∑ k, w2 k j * ∑ l, gram h k l * w2 l j

/-- The result, folded form. -/
def outF (n eps : ℝ) (x : ι → α → ℝ) (w1 : α → κ → ℝ) (g1 b1 : κ → ℝ) (w2 : κ → ο → ℝ) (g2 b2 : ο → ℝ) (e : ι) (j : ο) : ℝ :=
  (∑ k, hF n eps x w1 g1 b1 e k
      * (w2 k j * scaleOf n eps (sum2 (hF n eps x w1 g1 b1) w2 j) (sumsq2 (hF n eps x w1 g1 b1) w2 j) (g2 j)))
    + shiftOf n eps (sum2 (hF n eps x w1 g1 b1) w2 j) (sumsq2 (hF n eps x w1 g1 b1) w2 j) (g2 j) (b2 j)

/-! ## They agree -/

/-- A column's multiply-add by the scale and shift of its own two sums is its centred normalisation. -/
theorem fold_column {δ : Type*} {n : ℝ} (hn : (Fintype.card ι : ℝ) = n) (hpos : 0 < n) (eps : ℝ) (p : ι → δ → ℝ)
    (g b : δ → ℝ) (e : ι) (d : δ) :
    p e d * scaleOf n eps (∑ e, p e d) (∑ e, p e d * p e d) (g d)
        + shiftOf n eps (∑ e, p e d) (∑ e, p e d * p e d) (g d) (b d)
      = normC n eps p g b e d := by
  have h := bn_fold hn hpos (fun e => p e d) eps (g d) (b d) e
  simpa only [scaleOf, shiftOf, normC, uvar, mean] using h

/-- The hidden activations agree. -/
theorem hF_eq_hC {n : ℝ} (hn : (Fintype.card ι : ℝ) = n) (hpos : 0 < n) (eps : ℝ) (x : ι → α → ℝ) (w1 : α → κ → ℝ)
    (g1 b1 : κ → ℝ) : hF n eps x w1 g1 b1 = hC n eps x w1 g1 b1 := by
  funext e k
  unfold hF hC sum1 sumsq1
  rw [fold_column hn hpos eps (dense x w1) g1 b1 e k]

/-- THE TWO FORMS ARE ONE FUNCTION of the arrays. -/
theorem outF_eq_outC {n : ℝ} (hn : (Fintype.card ι : ℝ) = n) (hpos : 0 < n) (eps : ℝ) (x : ι → α → ℝ) (w1 : α → κ → ℝ)
    (g1 b1 : κ → ℝ) (w2 : κ → ο → ℝ) (g2 b2 : ο → ℝ) :
    outF n eps x w1 g1 b1 w2 g2 b2 = outC n eps x w1 g1 b1 w2 g2 b2 := by
  funext e j
  unfold outF outC
  rw [hF_eq_hC hn hpos]
  -- layer 2's sums, from the column sums and the Gram matrix, are the sums over the product's column
  have hs : sum2 (hC n eps x w1 g1 b1) w2 j = ∑ e, dense (hC n eps x w1 g1 b1) w2 e j := by
    unfold sum2 colsum dense
    exact (sum_matvec (hC n eps x w1 g1 b1) fun k => w2 k j).symm
  have hq : sumsq2 (hC n eps x w1 g1 b1) w2 j
      = ∑ e, dense (hC n eps x w1 g1 b1) w2 e j * dense (hC n eps x w1 g1 b1) w2 e j := by
    unfold sumsq2 gram dense
    exact (sum_matvec_sq (hC n eps x w1 g1 b1) fun k => w2 k j).symm
  rw [hs, hq, matvec_scaled (hC n eps x w1 g1 b1 e) (fun k => w2 k j)]
  exact fold_column hn hpos eps (dense (hC n eps x w1 g1 b1) w2) g2 b2 e j

end Cert.TwoLayerNorm

end
-- ==== Proof.RefNorm.lean ====
/- The exact-arithmetic reading of one batch normalisation, on finite values, is the real one.

   A column of reals read on the extended reals: its exact mean is the coercion of the real mean, its exact variance
   about that mean the coercion of the real variance, the exact reciprocal square root of that variance plus a positive
   regulariser the coercion of the real one, and so the whole normalised, scaled and shifted entry is the coercion of
   the centred form `normC`. The same with a clamp at zero after it, and for a dense layer's entry. -/
import proofs.«149722_j50371376447949_2_alg».proof.Proof.LibTwoLayerNorm
import Idealize.ShloMosaic.PureOps.Ideal

noncomputable section

namespace Cert.RefSide

open Idealize.ShloMosaic Cert.BatchNorm Cert.TwoLayerNorm

variable {ι : Type*} [Fintype ι]

/-- The exact mean of a column of reals is the real mean. -/
theorem mean_exact {n : ℝ} (hn : n ≠ 0) (p : ι → ℝ) :
    Ideal.div (∑ e, ((p e : ℝ) : EReal)) (n : EReal) = ((mean n p : ℝ) : EReal) := by
  rw [← coe_sum, div_coe_coe _ hn]
  rfl

/-- The exact variance of a column of reals about its real mean is the real variance. -/
theorem cvar_exact {n : ℝ} (hn : n ≠ 0) (p : ι → ℝ) :
    Ideal.div (∑ e, (((p e : ℝ) : EReal) - ((mean n p : ℝ) : EReal)) * (((p e : ℝ) : EReal) - ((mean n p : ℝ) : EReal)))
        (n : EReal) = ((cvar n p : ℝ) : EReal) := by
  simp only [← EReal.coe_sub, ← EReal.coe_mul]
  rw [← coe_sum, div_coe_coe _ hn]
  rfl

/-- The exact reciprocal square root of a real variance plus a positive regulariser is the real one. -/
theorem rstd_exact {n eps : ℝ} (hn : 0 < n) (he : 0 < eps) (p : ι → ℝ) :
    Ideal.rsqrt (((cvar n p : ℝ) : EReal) + (eps : EReal)) = (((Real.sqrt (cvar n p + eps))⁻¹ : ℝ) : EReal) := by
  rw [← EReal.coe_add, rsqrt_coe_pos (add_pos_of_nonneg_of_pos (cvar_nonneg hn p) he)]

/-- ONE NORMALISATION, EXACTLY: the entry less the exact mean, times the exact reciprocal square root of the exact
    variance plus the regulariser, times the scale, plus the shift — all on the extended reals, over a column of reals
    — is the coercion of the centred form. -/
theorem norm_exact {δ : Type*} {n eps : ℝ} (hn : 0 < n) (he : 0 < eps) (p : ι → δ → ℝ) (g b : δ → ℝ) (e : ι) (d : δ) :
    (((p e d : ℝ) : EReal) - Ideal.div (∑ e', ((p e' d : ℝ) : EReal)) (n : EReal))
        * Ideal.rsqrt (Ideal.div (∑ e', (((p e' d : ℝ) : EReal) - Ideal.div (∑ e'', ((p e'' d : ℝ) : EReal)) (n : EReal))
            * (((p e' d : ℝ) : EReal) - Ideal.div (∑ e'', ((p e'' d : ℝ) : EReal)) (n : EReal))) (n : EReal) + (eps : EReal))
        * ((g d : ℝ) : EReal) + ((b d : ℝ) : EReal)
      = ((normC n eps p g b e d : ℝ) : EReal) := by
  rw [mean_exact hn.ne' (fun e' => p e' d), cvar_exact hn.ne' (fun e' => p e' d), rstd_exact hn he (fun e' => p e' d),
    ← EReal.coe_sub, ← EReal.coe_mul, ← EReal.coe_mul, ← EReal.coe_add]
  rfl

/-- A dense layer's entry, exactly: the sum of products of coercions is the coercion of the real entry. -/
theorem dense_exact {β δ : Type*} [Fintype β] (x : ι → β → ℝ) (w : β → δ → ℝ) (e : ι) (d : δ) :
    ∑ i, ((x e i : ℝ) : EReal) * ((w i d : ℝ) : EReal) = ((dense x w e d : ℝ) : EReal) := by
  simp only [← EReal.coe_mul]
  rw [← coe_sum]
  rfl

end Cert.RefSide

end
-- ==== Proof.RefFinite.lean ====
/- From the precondition to "every float entry is a real". The precondition is a conjunction, over the ten float
   arguments, of "every entry's absolute value is below +∞"; an extended real whose absolute value is below +∞ is a
   real. -/
import proofs.«149722_j50371376447949_2_alg».proof.Proof.Gen.Pre_finite_inputs
import Idealize.ShloMosaic.PureOps.Ideal
import Idealize.ShloMosaic.Lib.ValueIdx
import Idealize.ShloMosaic.Lib.ReduceAll

noncomputable section

namespace Cert.RefSide

open Idealize.ShloMosaic Cert.Pre_finite_inputs

/-- Every entry of the buffer is a real. -/
def AllReal {s : Shape} (a : s.Idx → EReal) : Prop := ∀ i, ∃ r : ℝ, a i = (r : EReal)

/-- An extended real whose absolute value is below `+∞` is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

instance : Subsingleton (S_.Idx) := ⟨fun a b => funext fun d => d.elim0⟩

/-- One conjunct of the precondition: where "all entries have absolute value below `+∞`" holds, all entries are real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ValueIdx.ix0 = 1#1) : AllReal a := by
  intro i
  have hi := Host.reduce_andi_all _ _ hr hu ValueIdx.ix0 h i
  exact real_of_abs_lt_top (a i) hi

/-- The two operands of an `and` that is `1` are `1`. -/
theorem and_split {s : Shape} (x y : IVec s 1) (i : s.Idx) (h : andi x y i = 1#1) : x i = 1#1 ∧ y i = 1#1 :=
  IntOp.andi_eq_one.1 h

/-- Under the precondition every entry of each of the ten float arguments is a real. -/
theorem finite_inputs (a0 a1 : FVec Ideal S500000x128 .f32) (a2 : FVec Ideal S500000x64 .f32)
    (a3 : FVec Ideal S512x64 .f32) (a4 : IVec S500000 32) (a5 : FVec Ideal S384x256 .f32)
    (a6 a7 : FVec Ideal S256 .f32) (a8 : FVec Ideal S256x256 .f32) (a9 a10 : FVec Ideal S256 .f32)
    (h : fn (F := Ideal) a0 a1 a2 a3 a4 a5 a6 a7 a8 a9 a10 = fun _ => 1#1) :
    AllReal a0 ∧ AllReal a1 ∧ AllReal a2 ∧ AllReal a3 ∧ AllReal a5 ∧ AllReal a6 ∧ AllReal a7 ∧ AllReal a8
      ∧ AllReal a9 ∧ AllReal a10 := by
  have h0 := congrFun h ValueIdx.ix0
  dsimp only [fn, fn_part1, fn_part2] at h0
  obtain ⟨h0, e10⟩ := and_split _ _ _ h0
  obtain ⟨h0, e9⟩ := and_split _ _ _ h0
  obtain ⟨h0, e8⟩ := and_split _ _ _ h0
  obtain ⟨h0, e7⟩ := and_split _ _ _ h0
  obtain ⟨h0, e6⟩ := and_split _ _ _ h0
  obtain ⟨h0, e5⟩ := and_split _ _ _ h0
  obtain ⟨h0, e3⟩ := and_split _ _ _ h0
  obtain ⟨h0, e2⟩ := and_split _ _ _ h0
  obtain ⟨e0, e1⟩ := and_split _ _ _ h0
  exact ⟨allReal_of_all a0 _ _ _ e0, allReal_of_all a1 _ _ _ e1, allReal_of_all a2 _ _ _ e2,
    allReal_of_all a3 _ _ _ e3, allReal_of_all a5 _ _ _ e5, allReal_of_all a6 _ _ _ e6,
    allReal_of_all a7 _ _ _ e7, allReal_of_all a8 _ _ _ e8, allReal_of_all a9 _ _ _ e9,
    allReal_of_all a10 _ _ _ e10⟩

end Cert.RefSide

end
-- ==== Proof.RefLayer1.lean ====
/- The reference's first layer, entry by entry.

   The feature matrix is the four blocks side by side; the first product is the real dense layer on it; the chain of
   host operations after it — column sums, the division by the row count, the centring, the squares, their column
   sums, the regulariser, the reciprocal square root, the scale and the shift — is one batch normalisation of each
   column about its own mean; the clamp at zero after it gives the hidden activations of the centred form. -/
import proofs.«149722_j50371376447949_2_alg».proof.Proof.Gen.ReferenceIdeal.Read
import proofs.«149722_j50371376447949_2_alg».proof.Proof.Arrays
import proofs.«149722_j50371376447949_2_alg».proof.Proof.Gathered
import proofs.«149722_j50371376447949_2_alg».proof.Proof.RefNorm
import proofs.«149722_j50371376447949_2_alg».proof.Proof.RefFinite

noncomputable section

namespace Cert.RefSide

open Idealize.ShloMosaic Idealize.ShloMosaic.ValueIdx Cert.ReferenceIdeal Cert.ReferenceIdeal.Gen Cert.ReferenceIdeal.Read
open Cert.BatchNorm Cert.TwoLayerNorm

section Layer1

variable (x0 x1 : (⟨S500000x128, .f32⟩ : BufTy).Contents (Elt Ideal)) (x2 : (⟨S500000x64, .f32⟩ : BufTy).Contents (Elt Ideal))
  (x3 : (⟨S512x64, .f32⟩ : BufTy).Contents (Elt Ideal)) (x4 : (⟨S500000, .i32⟩ : BufTy).Contents (Elt Ideal))
  (x5 : (⟨S384x256, .f32⟩ : BufTy).Contents (Elt Ideal)) (x6 x7 : (⟨S256, .f32⟩ : BufTy).Contents (Elt Ideal))

/-- The reference's gather is the shared array of per-edge globals. -/
theorem v6_eq : val_main_v6 (F := Ideal) x3 x4 = Arrays.ug x3 x4 := rfl

/-- The feature matrix's entry, read off the concatenation: the block the column falls in. -/
theorem v7_val (h0 : AllReal x0) (h1 : AllReal x1) (h2 : AllReal x2) (h3 : AllReal x3) (e : Fin 500000) (i : Fin 384) :
    val_main_v7 (F := Ideal) x0 x1 x2 x3 x4 (ix2 e i)
      = ((Arrays.feat x0 x1 x2 (Arrays.ug x3 x4) e i : ℝ) : EReal) := by
  unfold val_main_v7
  rw [v6_eq]
  have hg : AllReal (Arrays.ug x3 x4) := Arrays.ug_real x3 x4 h3
  by_cases c0 : i.val < 128
  · rw [Arrays.feat_block0 _ _ _ _ e i c0, ← Arrays.coe_mat (A := 500000) (B := 128) x0 h0]
    exact concatenate_apply_piece _ _ _ (ix2 e i) 0 (by show 0 < 4; omega) S500000x128 x0 rfl rfl 0 rfl (ix2 e ⟨i.val, c0⟩)
      (fun b hb => by match b with | ⟨0, _⟩ => rfl | ⟨1, _⟩ => exact absurd rfl hb) (Nat.zero_add _)
  · by_cases c1 : i.val < 256
    · rw [Arrays.feat_block1 _ _ _ _ e i c0 c1, ← Arrays.coe_mat (A := 500000) (B := 128) x1 h1]
      exact concatenate_apply_piece _ _ _ (ix2 e i) 1 (by show 1 < 4; omega) S500000x128 x1 rfl rfl 128 rfl
        (ix2 e ⟨i.val - 128, by omega⟩)
        (fun b hb => by match b with | ⟨0, _⟩ => rfl | ⟨1, _⟩ => exact absurd rfl hb)
        (by show 128 + (i.val - 128) = i.val; omega)
    · by_cases c2 : i.val < 320
      · rw [Arrays.feat_block2 _ _ _ _ e i c1 c2, ← Arrays.coe_mat (A := 500000) (B := 64) x2 h2]
        exact concatenate_apply_piece _ _ _ (ix2 e i) 2 (by show 2 < 4; omega) S500000x64 x2 rfl rfl 256 rfl
          (ix2 e ⟨i.val - 256, by omega⟩)
          (fun b hb => by match b with | ⟨0, _⟩ => rfl | ⟨1, _⟩ => exact absurd rfl hb)
          (by show 256 + (i.val - 256) = i.val; omega)
      · rw [Arrays.feat_block3 _ _ _ _ e i c2, ← Arrays.coe_mat (A := 500000) (B := 64) (Arrays.ug x3 x4) hg]
        exact concatenate_apply_piece _ _ _ (ix2 e i) 3 (by show 3 < 4; omega) S500000x64 (Arrays.ug x3 x4) rfl rfl 320 rfl
          (ix2 e ⟨i.val - 320, by have := i.isLt; omega⟩)
          (fun b hb => by match b with | ⟨0, _⟩ => rfl | ⟨1, _⟩ => exact absurd rfl hb)
          (by show 320 + (i.val - 320) = i.val; omega)

/-- The first product's entry is the real dense layer's. -/
theorem v8_val (h0 : AllReal x0) (h1 : AllReal x1) (h2 : AllReal x2) (h3 : AllReal x3) (h5 : AllReal x5)
    (e : Fin 500000) (k : Fin 256) :
    val_main_v8 (F := Ideal) x0 x1 x2 x3 x4 x5 (ix2 e k)
      = ((dense (Arrays.feat x0 x1 x2 (Arrays.ug x3 x4)) (Arrays.mat x5) e k : ℝ) : EReal) := by
  rw [val_main_v8_apply]
  have hl : ∀ i : Fin 384, lidx_main_v8 (ix2 e k) i = ix2 e i :=
    fun i => funext fun a => by match a with | ⟨0, _⟩ => rfl | ⟨1, _⟩ => rfl
  have hr : ∀ i : Fin 384, ridx_main_v8 (ix2 e k) i = ix2 i k :=
    fun i => funext fun a => by match a with | ⟨0, _⟩ => rfl | ⟨1, _⟩ => rfl
  simp only [hl, hr, v7_val x0 x1 x2 x3 x4 h0 h1 h2 h3, Arrays.coe_mat (A := 384) (B := 256) x5 h5]
  exact dense_exact _ _ e k

/-! ### Where the broadcasts and the column sums read

A vector laid along every row reads, at row `e` and column `k`, its entry `k`; a column sum's term `e` at column `k` is
the entry at row `e`, column `k`. -/

theorem ib12 (e : Fin 500000) (k : Fin 256) : idx_main_v12 (idx_main_v13 (ix2 e k)) = ix1 k :=
  funext fun a => by match a with | ⟨0, _⟩ => rfl
theorem ib19 (e : Fin 500000) (k : Fin 256) : idx_main_v19 (idx_main_v20 (ix2 e k)) = ix1 k :=
  funext fun a => by match a with | ⟨0, _⟩ => rfl
theorem ib25 (e : Fin 500000) (k : Fin 256) : idx_main_v25 (idx_main_v26 (ix2 e k)) = ix1 k :=
  funext fun a => by match a with | ⟨0, _⟩ => rfl
theorem ib28 (e : Fin 500000) (k : Fin 256) : idx_main_v28 (idx_main_v29 (ix2 e k)) = ix1 k :=
  funext fun a => by match a with | ⟨0, _⟩ => rfl
theorem ib31 (e : Fin 500000) (k : Fin 256) : idx_main_v31 (idx_main_v32 (ix2 e k)) = ix1 k :=
  funext fun a => by match a with | ⟨0, _⟩ => rfl
theorem ir9 (k : Fin 256) (e : Fin 500000) : idx_main_v9 (ix1 k) e = ix2 e k :=
  funext fun a => by match a with | ⟨0, _⟩ => rfl | ⟨1, _⟩ => rfl
theorem ir16 (k : Fin 256) (e : Fin 500000) : idx_main_v16 (ix1 k) e = ix2 e k :=
  funext fun a => by match a with | ⟨0, _⟩ => rfl | ⟨1, _⟩ => rfl

/-- The first normalisation: over a first product whose entries are the reals `pr`, the chain's result is the centred
    normalisation of `pr`'s columns. -/
theorem v33_val (pr : Fin 500000 → Fin 256 → ℝ)
    (hP : ∀ e k, val_main_v8 (F := Ideal) x0 x1 x2 x3 x4 x5 (ix2 e k) = ((pr e k : ℝ) : EReal))
    (h6 : AllReal x6) (h7 : AllReal x7) (e : Fin 500000) (k : Fin 256) :
    val_main_v33 (F := Ideal) x0 x1 x2 x3 x4 x5 x6 x7 (ix2 e k)
      = ((normC 500000 Arrays.eps pr (Arrays.vec x6) (Arrays.vec x7) e k : ℝ) : EReal) := by
  simp only [val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_cst_4_apply, val_main_v21_apply, val_main_v20_apply,
    val_main_v19_apply, val_main_v18_apply, val_main_v17_apply, val_main_cst_3_apply, val_main_v16_apply,
    val_main_cst_2_apply, val_main_v15_apply, val_main_v14_apply, val_main_v13_apply, val_main_v12_apply,
    val_main_v11_apply, val_main_v10_apply, val_main_cst_1_apply, val_main_v9_apply, val_main_cst_apply,
    ib12, ib19, ib25, ib28, ib31, ir9, ir16,
    Ideal.addf_def, Ideal.subf_def, Ideal.mulf_def, Ideal.hostDivf_def, Ideal.hostUnary_rsqrt_def, Ideal.ofBits_def,
    Ideal.ofBits_zero_f32, zero_add, Arrays.ofBits_n, Arrays.ofBits_eps,
    hP, Arrays.coe_vec (A := 256) x6 h6, Arrays.coe_vec (A := 256) x7 h7]
  exact norm_exact (by norm_num) Arrays.eps_pos pr (Arrays.vec x6) (Arrays.vec x7) e k

/-- THE FIRST LAYER: the reference's hidden activations are the centred form's. -/
theorem v34_val (h0 : AllReal x0) (h1 : AllReal x1) (h2 : AllReal x2) (h3 : AllReal x3) (h5 : AllReal x5)
    (h6 : AllReal x6) (h7 : AllReal x7) (e : Fin 500000) (k : Fin 256) :
    val_main_v34 (F := Ideal) x0 x1 x2 x3 x4 x5 x6 x7 (ix2 e k)
      = ((hC 500000 Arrays.eps (Arrays.feat x0 x1 x2 (Arrays.ug x3 x4)) (Arrays.mat x5) (Arrays.vec x6) (Arrays.vec x7) e k : ℝ)
          : EReal) := by
  rw [val_main_v34_apply, val_main_call0_v0_apply, val_main_call0_cst_apply,
    v33_val x0 x1 x2 x3 x4 x5 x6 x7 _ (v8_val x0 x1 x2 x3 x4 x5 h0 h1 h2 h3 h5) h6 h7 e k]
  simp only [Ideal.maximumf_def, Ideal.ofBits_def, Ideal.ofBits_zero_f32]
  rw [max_coe_zero]
  rfl

end Layer1

end Cert.RefSide

end
-- ==== Proof.RefValue.lean ====
/- The reference's result, entry by entry, is the centred two-layer form.

   The second product is the real dense layer on the hidden activations; the chain of host operations after it is,
   as in the first layer, one batch normalisation of each column about its own mean. -/
import proofs.«149722_j50371376447949_2_alg».proof.Proof.RefLayer1

noncomputable section

namespace Cert.RefSide

open Idealize.ShloMosaic Idealize.ShloMosaic.ValueIdx Cert.ReferenceIdeal Cert.ReferenceIdeal.Gen Cert.ReferenceIdeal.Read
open Idealize.SL.Sem Cert.BatchNorm Cert.TwoLayerNorm

section Layer2

variable (x0 x1 : (⟨S500000x128, .f32⟩ : BufTy).Contents (Elt Ideal)) (x2 : (⟨S500000x64, .f32⟩ : BufTy).Contents (Elt Ideal))
  (x3 : (⟨S512x64, .f32⟩ : BufTy).Contents (Elt Ideal)) (x4 : (⟨S500000, .i32⟩ : BufTy).Contents (Elt Ideal))
  (x5 : (⟨S384x256, .f32⟩ : BufTy).Contents (Elt Ideal)) (x6 x7 : (⟨S256, .f32⟩ : BufTy).Contents (Elt Ideal))
  (x8 : (⟨S256x256, .f32⟩ : BufTy).Contents (Elt Ideal)) (x9 x10 : (⟨S256, .f32⟩ : BufTy).Contents (Elt Ideal))

/-- The second product's entry is the real dense layer's on the hidden activations. -/
theorem v35_val (h0 : AllReal x0) (h1 : AllReal x1) (h2 : AllReal x2) (h3 : AllReal x3) (h5 : AllReal x5)
    (h6 : AllReal x6) (h7 : AllReal x7) (h8 : AllReal x8) (e : Fin 500000) (j : Fin 256) :
    val_main_v35 (F := Ideal) x0 x1 x2 x3 x4 x5 x6 x7 x8 (ix2 e j)
      = ((dense (hC 500000 Arrays.eps (Arrays.feat x0 x1 x2 (Arrays.ug x3 x4)) (Arrays.mat x5) (Arrays.vec x6) (Arrays.vec x7))
          (Arrays.mat x8) e j : ℝ) : EReal) := by
  rw [val_main_v35_apply]
  have hl : ∀ k : Fin 256, lidx_main_v35 (ix2 e j) k = ix2 e k :=
    fun k => funext fun a => by match a with | ⟨0, _⟩ => rfl | ⟨1, _⟩ => rfl
  have hr : ∀ k : Fin 256, ridx_main_v35 (ix2 e j) k = ix2 k j :=
    fun k => funext fun a => by match a with | ⟨0, _⟩ => rfl | ⟨1, _⟩ => rfl
  simp only [hl, hr, v34_val x0 x1 x2 x3 x4 x5 x6 x7 h0 h1 h2 h3 h5 h6 h7, Arrays.coe_mat (A := 256) (B := 256) x8 h8]
  exact dense_exact _ _ e j

theorem ib39 (e : Fin 500000) (k : Fin 256) : idx_main_v39 (idx_main_v40 (ix2 e k)) = ix1 k :=
  funext fun a => by match a with | ⟨0, _⟩ => rfl
theorem ib46 (e : Fin 500000) (k : Fin 256) : idx_main_v46 (idx_main_v47 (ix2 e k)) = ix1 k :=
  funext fun a => by match a with | ⟨0, _⟩ => rfl
theorem ib52 (e : Fin 500000) (k : Fin 256) : idx_main_v52 (idx_main_v53 (ix2 e k)) = ix1 k :=
  funext fun a => by match a with | ⟨0, _⟩ => rfl
theorem ib55 (e : Fin 500000) (k : Fin 256) : idx_main_v55 (idx_main_v56 (ix2 e k)) = ix1 k :=
  funext fun a => by match a with | ⟨0, _⟩ => rfl
theorem ib58 (e : Fin 500000) (k : Fin 256) : idx_main_v58 (idx_main_v59 (ix2 e k)) = ix1 k :=
  funext fun a => by match a with | ⟨0, _⟩ => rfl
theorem ir36 (k : Fin 256) (e : Fin 500000) : idx_main_v36 (ix1 k) e = ix2 e k :=
  funext fun a => by match a with | ⟨0, _⟩ => rfl | ⟨1, _⟩ => rfl
theorem ir43 (k : Fin 256) (e : Fin 500000) : idx_main_v43 (ix1 k) e = ix2 e k :=
  funext fun a => by match a with | ⟨0, _⟩ => rfl | ⟨1, _⟩ => rfl

/-- The second normalisation: over a second product whose entries are the reals `pr`, the chain's result is the centred
    normalisation of `pr`'s columns. -/
theorem v60_val (pr : Fin 500000 → Fin 256 → ℝ)
    (hP : ∀ e j, val_main_v35 (F := Ideal) x0 x1 x2 x3 x4 x5 x6 x7 x8 (ix2 e j) = ((pr e j : ℝ) : EReal))
    (h9 : AllReal x9) (h10 : AllReal x10) (e : Fin 500000) (j : Fin 256) :
    val_main_v60 (F := Ideal) x0 x1 x2 x3 x4 x5 x6 x7 x8 x9 x10 (ix2 e j)
      = ((normC 500000 Arrays.eps pr (Arrays.vec x9) (Arrays.vec x10) e j : ℝ) : EReal) := by
  simp only [val_main_v60_apply, val_main_v59_apply, val_main_v58_apply, val_main_v57_apply, val_main_v56_apply,
    val_main_v55_apply, val_main_v54_apply, val_main_v53_apply, val_main_v52_apply, val_main_v51_apply,
    val_main_v50_apply, val_main_v49_apply, val_main_cst_9_apply, val_main_v48_apply, val_main_v47_apply,
    val_main_v46_apply, val_main_v45_apply, val_main_v44_apply, val_main_cst_8_apply, val_main_v43_apply,
    val_main_cst_7_apply, val_main_v42_apply, val_main_v41_apply, val_main_v40_apply, val_main_v39_apply,
    val_main_v38_apply, val_main_v37_apply, val_main_cst_6_apply, val_main_v36_apply, val_main_cst_5_apply,
    ib39, ib46, ib52, ib55, ib58, ir36, ir43,
    Ideal.addf_def, Ideal.subf_def, Ideal.mulf_def, Ideal.hostDivf_def, Ideal.hostUnary_rsqrt_def, Ideal.ofBits_def,
    Ideal.ofBits_zero_f32, zero_add, Arrays.ofBits_n, Arrays.ofBits_eps,
    hP, Arrays.coe_vec (A := 256) x9 h9, Arrays.coe_vec (A := 256) x10 h10]
  exact norm_exact (by norm_num) Arrays.eps_pos pr (Arrays.vec x9) (Arrays.vec x10) e j

/-- The reference's last stage, over variable arrays, is the centred two-layer form. -/
theorem out_val (h0 : AllReal x0) (h1 : AllReal x1) (h2 : AllReal x2) (h3 : AllReal x3) (h5 : AllReal x5)
    (h6 : AllReal x6) (h7 : AllReal x7) (h8 : AllReal x8) (h9 : AllReal x9) (h10 : AllReal x10)
    (e : Fin 500000) (j : Fin 256) :
    val_main_v60 (F := Ideal) x0 x1 x2 x3 x4 x5 x6 x7 x8 x9 x10 (ix2 e j)
      = ((outC 500000 Arrays.eps (Arrays.feat x0 x1 x2 (Arrays.ug x3 x4)) (Arrays.mat x5) (Arrays.vec x6) (Arrays.vec x7)
          (Arrays.mat x8) (Arrays.vec x9) (Arrays.vec x10) e j : ℝ) : EReal) :=
  v60_val x0 x1 x2 x3 x4 x5 x6 x7 x8 x9 x10 _
    (v35_val x0 x1 x2 x3 x4 x5 x6 x7 x8 h0 h1 h2 h3 h5 h6 h7 h8) h9 h10 e j

end Layer2

/-- Every entry of each of the ten float arguments, as a memory holds them on a core, is a real. -/
def ArgsReal (m' : (ℓ : Loc nD τ sig) → Buf (Elt Ideal) ℓ) (c : Dev nD) : Prop :=
  AllReal (s := S500000x128) (m' ((c.tc : Thread nD τ).loc main_arg0))
    ∧ AllReal (s := S500000x128) (m' ((c.tc : Thread nD τ).loc main_arg1))
    ∧ AllReal (s := S500000x64) (m' ((c.tc : Thread nD τ).loc main_arg2))
    ∧ AllReal (s := S512x64) (m' ((c.tc : Thread nD τ).loc main_arg3))
    ∧ AllReal (s := S384x256) (m' ((c.tc : Thread nD τ).loc main_arg5))
    ∧ AllReal (s := S256) (m' ((c.tc : Thread nD τ).loc main_arg6))
    ∧ AllReal (s := S256) (m' ((c.tc : Thread nD τ).loc main_arg7))
    ∧ AllReal (s := S256x256) (m' ((c.tc : Thread nD τ).loc main_arg8))
    ∧ AllReal (s := S256) (m' ((c.tc : Thread nD τ).loc main_arg9))
    ∧ AllReal (s := S256) (m' ((c.tc : Thread nD τ).loc main_arg10))

/-- The precondition, read on a memory's arguments, makes them real. -/
theorem argsReal_of_pre (m' : (ℓ : Loc nD τ sig) → Buf (Elt Ideal) ℓ) (c : Dev nD)
    (h : Cert.Pre_finite_inputs.fn (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) = fun _ => 1#1) :
    ArgsReal m' c :=
  finite_inputs _ _ _ _ _ _ _ _ _ _ _ h

/-- THE REFERENCE'S VALUE: its result, entry by entry, is the centred two-layer form of the real arrays read off its
    arguments (the per-edge globals as the shared gathered array). -/
theorem ref_value (m' : (ℓ : Loc nD τ sig) → Buf (Elt Ideal) ℓ) (c : Dev nD) (hfin : ArgsReal m' c)
    (e : Fin 500000) (j : Fin 256) :
    Cert.ReferenceIdeal.Value.res_out0 (F := Ideal) m' c (ix2 e j)
      = ((outC 500000 Arrays.eps
            (Arrays.feat (m' ((c.tc : Thread nD τ).loc main_arg0)) (m' ((c.tc : Thread nD τ).loc main_arg1)) (m' ((c.tc : Thread nD τ).loc main_arg2)) (Arrays.ug (m' ((c.tc : Thread nD τ).loc main_arg3)) (m' ((c.tc : Thread nD τ).loc main_arg4))))
            (Arrays.mat (A := 384) (B := 256) (m' ((c.tc : Thread nD τ).loc main_arg5))) (Arrays.vec (A := 256) (m' ((c.tc : Thread nD τ).loc main_arg6))) (Arrays.vec (A := 256) (m' ((c.tc : Thread nD τ).loc main_arg7)))
            (Arrays.mat (A := 256) (B := 256) (m' ((c.tc : Thread nD τ).loc main_arg8))) (Arrays.vec (A := 256) (m' ((c.tc : Thread nD τ).loc main_arg9))) (Arrays.vec (A := 256) (m' ((c.tc : Thread nD τ).loc main_arg10))) e j : ℝ) : EReal) := by
  obtain ⟨h0, h1, h2, h3, h5, h6, h7, h8, h9, h10⟩ := hfin
  show Cert.ReferenceIdeal.Value.res_main_v60 (F := Ideal) m' c (ix2 e j) = _
  rw [val_main_v60_eq]
  exact out_val _ _ _ _ _ _ _ _ _ _ _ h0 h1 h2 h3 h5 h6 h7 h8 h9 h10 e j

end Cert.RefSide

end
-- ==== Proof.R0Value.lean ====
/-
  The first kernel region's three output arrays, entry by entry.

  The region's 250 grid points run row by row over a 2 × 125 grid; point t handles the tile of edges 2000·t … 2000·t + 1999.
  It stores the tile's product over rows 2000·t … of the first output, all 256 columns; the tiles cover the 500000 rows,
  so after the region entry (e, k) of the first output is entry (e mod 2000, k) of what point e / 2000 stored.
  The second and third outputs have one 1 × 256 row per grid row: row q is written back once, at the grid row's last
  point 125·q + 124, from the accumulator of column sums (of column sums of squares), so after the region it holds the
  accumulator's contents after that point. Those contents are a fold over the grid row: the tile's contribution added to
  zero at the row's first point, to what the point before left at each later one.

  The four row inputs' blocks at point t are rows 2000·t … of their arrays; the four weight slices' blocks are their whole
  arrays.
-/
import proofs.«149722_j50371376447949_2_alg».proof.Proof.R0Data
import Idealize.ShloMosaic.Lib.ValueIdx

noncomputable section

namespace Cert.KernelIdeal.R0Out

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)
open scoped BigOperators

variable {F : FTy → Type} [FloatOps F]

/-! ## The block indices over the grid -/

/-- At point `t` the four row inputs' and the first output's block index is (t, 0); -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_8.index t (0 : Fin 2) = t.val ∧ win0_8.index t (1 : Fin 2) = 0 :=
  (by decide +kernel : ∀ t : Fin grid0.N, _)

/-- the four weight slices' is (0, 0); -/
theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- the two statistics outputs' is (the grid row, 0, 0). -/
theorem idx_stats : ∀ t : Fin cfg0.N,
    win0_9.index t (0 : Fin 3) = t.val / 125 ∧ win0_9.index t (1 : Fin 3) = 0 ∧ win0_9.index t (2 : Fin 3) = 0
    ∧ win0_10.index t (0 : Fin 3) = t.val / 125 ∧ win0_10.index t (1 : Fin 3) = 0 ∧ win0_10.index t (2 : Fin 3) = 0 :=
  (by decide +kernel : ∀ t : Fin grid0.N, _)

section Data

variable (c : Dev nD) (A : (w : Fin cfg0.W) → Buf (Elt F) ((cfg0.win w).arr.view.loc (c.tc : Thread nD τ)))

/-! ## The first output: the tiles' products -/

/-- The point whose tile holds row `i 0`. -/
def tileOf (i : S500000x256.Idx) : Fin cfg0.N :=
  ⟨(i 0).val / 2000, by have h := idx2_lt0 i; have hN : cfg0.N = 250 := N_0; omega⟩

/-- The first output array as one function of its index: the entry of the covering point's product. -/
def pre1Arr : S500000x256.Idx → Elt F .bf16 := fun i =>
  pre1 c A (tileOf i) (ix2 (⟨(i 0).val % 2000, Nat.mod_lt _ (by decide)⟩ : Fin 2000) (⟨(i 1).val, idx2_lt1 i⟩ : Fin 256))

/-- What point `t` writes back is block `t` of that function. -/
theorem flushed8_eq (t : Fin cfg0.N) :
    (dat c A).flushed 8 t = ((cfg0.win 8).blk t).view.read (Elt F) (pre1Arr c A) := by
  show (cfg0.win 8).cut (grid0.coords t) ((dat c A).after 8 t) = _
  rw [after_8]
  funext y
  obtain ⟨-, -, -, -, -, -, -, -, h80, h81⟩ := idx_rows t
  have hy0 : (y 0).val < 2000 := (y 0).isLt
  have hy1 : (y 1).val < 256 := (y 1).isLt
  have e0 : ((((cfg0.win 8).blk t).view.emb y) 0).val = win0_8.index t (0 : Fin 2) * 2000 + 1 * (y 0).val := rfl
  have e1 : ((((cfg0.win 8).blk t).view.emb y) 1).val = win0_8.index t (1 : Fin 2) * 256 + 1 * (y 1).val := rfl
  have hT : tileOf (((cfg0.win 8).blk t).view.emb y) = t := Fin.ext (by
    show ((((cfg0.win 8).blk t).view.emb y) 0).val / 2000 = t.val
    rw [e0, h80]; omega)
  show pre1 c A t ((cfg0.win 8).xinj (grid0.coords t) y)
    = pre1 c A (tileOf (((cfg0.win 8).blk t).view.emb y))
        (ix2 (⟨((((cfg0.win 8).blk t).view.emb y) 0).val % 2000, _⟩ : Fin 2000) (⟨((((cfg0.win 8).blk t).view.emb y) 1).val, _⟩ : Fin 256))
  rw [hT]
  refine congrArg (pre1 c A t) ?_
  funext a
  apply Fin.ext
  match a with
  | ⟨0, _⟩ => show (y 0).val = ((((cfg0.win 8).blk t).view.emb y) 0).val % 2000; rw [e0, h80]; omega
  | ⟨1, _⟩ => show (y 1).val = ((((cfg0.win 8).blk t).view.emb y) 1).val; rw [e1, h81]; omega

/-- An index of the first output is in point `t`'s block iff each coordinate is in the block's range on its axis. -/
theorem mem_blk8 (t : Fin cfg0.N) (i : S500000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v15_0).slice (win0_8.rect t)).set ↔ _
  rw [View.set_slice_whole, Rect.mem_set_unit]
  exact Iff.rfl

/-- Every index of the first output is in the block of the point its row's tile names. -/
theorem cover8 (i : S500000x256.Idx) :
    ∃ t : Fin cfg0.N, (cfg0.win 8).flush t = true ∧ i ∈ ((cfg0.win 8).blk t).view.set := by
  have hi0 := idx2_lt0 i
  have hi1 := idx2_lt1 i
  obtain ⟨-, -, -, -, -, -, -, -, h80, h81⟩ := idx_rows (tileOf i)
  have hv : (tileOf i).val = (i 0).val / 2000 := rfl
  refine ⟨tileOf i, flush0_8 _, ?_⟩
  rw [mem_blk8]
  intro a
  match a with
  | ⟨0, _⟩ =>
    show win0_8.index (tileOf i) (0 : Fin 2) * 2000 ≤ (i 0).val ∧ (i 0).val < win0_8.index (tileOf i) (0 : Fin 2) * 2000 + 2000
    rw [h80, hv]; omega
  | ⟨1, _⟩ =>
    show win0_8.index (tileOf i) (1 : Fin 2) * 256 ≤ (i 1).val ∧ (i 1).val < win0_8.index (tileOf i) (1 : Fin 2) * 256 + 256
    rw [h81]; omega

/-- The first output array after the region is that one function. -/
theorem pre1_eq : (dat c A).arrAt 8 cfg0.N = pre1Arr c A :=
  (dat c A).arrAt_eq_of_cover 8 (pre1Arr c A) (fun t _ => flushed8_eq c A t) cover8

/-- The point whose tile holds row `e`, and the row's place in the tile. -/
def tileAt (e : Fin 500000) : Fin cfg0.N := ⟨e.val / 2000, by have h := e.isLt; have hN : cfg0.N = 250 := N_0; omega⟩
def rowAt (e : Fin 500000) : Fin 2000 := ⟨e.val % 2000, Nat.mod_lt _ (by decide)⟩

/-- Entry (e, k) of the first output after the region: entry (e mod 2000, k) of the product point e / 2000 stored. -/
theorem pre1_entry (e : Fin 500000) (k : Fin 256) :
    (dat c A).arrAt 8 cfg0.N (ix2 e k) = pre1 c A (tileAt e) (ix2 (rowAt e) k) :=
  congrFun (pre1_eq c A) (ix2 e k)

/-! ## The second and third outputs: the accumulators at the rows' ends -/

/-- The accumulators depend on the point only through its number. -/
theorem accSum_congr (n n' : ℕ) (h : n < cfg0.N) (h' : n' < cfg0.N) (e : n = n') : accSum c A n h = accSum c A n' h' := by
  subst e; rfl
theorem accSq_congr (n n' : ℕ) (h : n < cfg0.N) (h' : n' < cfg0.N) (e : n = n') : accSq c A n h = accSq c A n' h' := by
  subst e; rfl

/-- The second output as one function of its index: row q holds the accumulator after grid row q's last point. -/
def sumArr : S2x1x256.Idx → Elt F .f32 := fun i =>
  accSum c A (125 * (i 0).val + 124) (by have h : (i 0).val < 2 := (i 0).isLt; have hN : cfg0.N = 250 := N_0; omega)
    (ix3 (0 : Fin 1) (0 : Fin 1) (⟨(i 2).val, (i 2).isLt⟩ : Fin 256))

/-- What a grid row's last point writes back is that row's block of the function. -/
theorem flushed9_eq (t : Fin cfg0.N) (hf : (cfg0.win 9).flush t = true) :
    (dat c A).flushed 9 t = ((cfg0.win 9).blk t).view.read (Elt F) (sumArr c A) := by
  have h124 : t.val % 125 = 124 := (flush0_9 t).mp hf
  show (cfg0.win 9).cut (grid0.coords t) ((dat c A).after 9 t) = _
  rw [after_9]
  funext y
  obtain ⟨h0, h1, h2, -, -, -⟩ := idx_stats t
  have hy0 : (y 0).val < 1 := (y 0).isLt
  have hy1 : (y 1).val < 1 := (y 1).isLt
  have hy2 : (y 2).val < 256 := (y 2).isLt
  have e0 : ((((cfg0.win 9).blk t).view.emb y) 0).val = win0_9.index t (0 : Fin 3) * 1 + 1 * (y 0).val := rfl
  have e2 : ((((cfg0.win 9).blk t).view.emb y) 2).val = win0_9.index t (2 : Fin 3) * 256 + 1 * (y 2).val := rfl
  have hn : t.val = 125 * ((((cfg0.win 9).blk t).view.emb y) 0).val + 124 := by rw [e0, h0]; omega
  show accSum c A t.val t.isLt ((cfg0.win 9).xinj (grid0.coords t) y)
    = accSum c A (125 * ((((cfg0.win 9).blk t).view.emb y) 0).val + 124) _
        (ix3 (0 : Fin 1) (0 : Fin 1) (⟨((((cfg0.win 9).blk t).view.emb y) 2).val, _⟩ : Fin 256))
  refine Eq.trans ?_ (congrFun (accSum_congr c A _ _ t.isLt _ hn) _)
  refine congrArg (accSum c A t.val t.isLt) ?_
  funext a
  apply Fin.ext
  match a with
  | ⟨0, _⟩ => show (y 0).val = 0; omega
  | ⟨1, _⟩ => show (y 1).val = 0; omega
  | ⟨2, _⟩ => show (y 2).val = ((((cfg0.win 9).blk t).view.emb y) 2).val; rw [e2, h2]; omega

/-- An index of the second output is in point `t`'s block iff each coordinate is in the block's range on its axis. -/
theorem mem_blk9 (t : Fin cfg0.N) (i : S2x1x256.Idx) :
    i ∈ ((cfg0.win 9).blk t).view.set ↔ ∀ a : Fin 3, win0_9.index t a * S1x1x256.size a ≤ (i a).val
      ∧ (i a).val < win0_9.index t a * S1x1x256.size a + S1x1x256.size a := by
  show i ∈ ((View.whole main_v15_1).slice (win0_9.rect t)).set ↔ _
  rw [View.set_slice_whole, Rect.mem_set_unit]
  exact Iff.rfl

/-- Every index of the second output is in the block its grid row's last point writes back. -/
theorem cover9 (i : S2x1x256.Idx) :
    ∃ t : Fin cfg0.N, (cfg0.win 9).flush t = true ∧ i ∈ ((cfg0.win 9).blk t).view.set := by
  have hi0 : (i 0).val < 2 := (i 0).isLt
  have hi1 : (i 1).val < 1 := (i 1).isLt
  have hi2 : (i 2).val < 256 := (i 2).isLt
  have hN : cfg0.N = 250 := N_0
  obtain ⟨h0, h1, h2, -, -, -⟩ := idx_stats (⟨125 * (i 0).val + 124, by omega⟩ : Fin cfg0.N)
  have hv : ((⟨125 * (i 0).val + 124, by omega⟩ : Fin cfg0.N)).val = 125 * (i 0).val + 124 := rfl
  refine ⟨⟨125 * (i 0).val + 124, by omega⟩, (flush0_9 _).mpr (by rw [hv]; omega), ?_⟩
  rw [mem_blk9]
  intro a
  match a with
  | ⟨0, _⟩ =>
    show win0_9.index _ (0 : Fin 3) * 1 ≤ (i 0).val ∧ (i 0).val < win0_9.index _ (0 : Fin 3) * 1 + 1
    rw [h0, hv]; omega
  | ⟨1, _⟩ =>
    show win0_9.index _ (1 : Fin 3) * 1 ≤ (i 1).val ∧ (i 1).val < win0_9.index _ (1 : Fin 3) * 1 + 1
    rw [h1]; omega
  | ⟨2, _⟩ =>
    show win0_9.index _ (2 : Fin 3) * 256 ≤ (i 2).val ∧ (i 2).val < win0_9.index _ (2 : Fin 3) * 256 + 256
    rw [h2]; omega

/-- The second output array after the region is that one function. -/
theorem sumArr_eq : (dat c A).arrAt 9 cfg0.N = sumArr c A :=
  (dat c A).arrAt_eq_of_cover 9 (sumArr c A) (fun t hf => flushed9_eq c A t hf) cover9

/-- The third output as one function of its index: row q holds the accumulator after grid row q's last point. -/
def sqArr : S2x1x256.Idx → Elt F .f32 := fun i =>
  accSq c A (125 * (i 0).val + 124) (by have h : (i 0).val < 2 := (i 0).isLt; have hN : cfg0.N = 250 := N_0; omega)
    (ix3 (0 : Fin 1) (0 : Fin 1) (⟨(i 2).val, (i 2).isLt⟩ : Fin 256))

/-- What a grid row's last point writes back is that row's block of the function. -/
theorem flushed10_eq (t : Fin cfg0.N) (hf : (cfg0.win 10).flush t = true) :
    (dat c A).flushed 10 t = ((cfg0.win 10).blk t).view.read (Elt F) (sqArr c A) := by
  have h124 : t.val % 125 = 124 := (flush0_10 t).mp hf
  show (cfg0.win 10).cut (grid0.coords t) ((dat c A).after 10 t) = _
  rw [after_10]
  funext y
  obtain ⟨-, -, -, h0, h1, h2⟩ := idx_stats t
  have hy0 : (y 0).val < 1 := (y 0).isLt
  have hy1 : (y 1).val < 1 := (y 1).isLt
  have hy2 : (y 2).val < 256 := (y 2).isLt
  have e0 : ((((cfg0.win 10).blk t).view.emb y) 0).val = win0_10.index t (0 : Fin 3) * 1 + 1 * (y 0).val := rfl
  have e2 : ((((cfg0.win 10).blk t).view.emb y) 2).val = win0_10.index t (2 : Fin 3) * 256 + 1 * (y 2).val := rfl
  have hn : t.val = 125 * ((((cfg0.win 10).blk t).view.emb y) 0).val + 124 := by rw [e0, h0]; omega
  show accSq c A t.val t.isLt ((cfg0.win 10).xinj (grid0.coords t) y)
    = accSq c A (125 * ((((cfg0.win 10).blk t).view.emb y) 0).val + 124) _
        (ix3 (0 : Fin 1) (0 : Fin 1) (⟨((((cfg0.win 10).blk t).view.emb y) 2).val, _⟩ : Fin 256))
  refine Eq.trans ?_ (congrFun (accSq_congr c A _ _ t.isLt _ hn) _)
  refine congrArg (accSq c A t.val t.isLt) ?_
  funext a
  apply Fin.ext
  match a with
  | ⟨0, _⟩ => show (y 0).val = 0; omega
  | ⟨1, _⟩ => show (y 1).val = 0; omega
  | ⟨2, _⟩ => show (y 2).val = ((((cfg0.win 10).blk t).view.emb y) 2).val; rw [e2, h2]; omega

/-- An index of the third output is in point `t`'s block iff each coordinate is in the block's range on its axis. -/
theorem mem_blk10 (t : Fin cfg0.N) (i : S2x1x256.Idx) :
    i ∈ ((cfg0.win 10).blk t).view.set ↔ ∀ a : Fin 3, win0_10.index t a * S1x1x256.size a ≤ (i a).val
      ∧ (i a).val < win0_10.index t a * S1x1x256.size a + S1x1x256.size a := by
  show i ∈ ((View.whole main_v15_2).slice (win0_10.rect t)).set ↔ _
  rw [View.set_slice_whole, Rect.mem_set_unit]
  exact Iff.rfl

/-- Every index of the third output is in the block its grid row's last point writes back. -/
theorem cover10 (i : S2x1x256.Idx) :
    ∃ t : Fin cfg0.N, (cfg0.win 10).flush t = true ∧ i ∈ ((cfg0.win 10).blk t).view.set := by
  have hi0 : (i 0).val < 2 := (i 0).isLt
  have hi1 : (i 1).val < 1 := (i 1).isLt
  have hi2 : (i 2).val < 256 := (i 2).isLt
  have hN : cfg0.N = 250 := N_0
  obtain ⟨-, -, -, h0, h1, h2⟩ := idx_stats (⟨125 * (i 0).val + 124, by omega⟩ : Fin cfg0.N)
  have hv : ((⟨125 * (i 0).val + 124, by omega⟩ : Fin cfg0.N)).val = 125 * (i 0).val + 124 := rfl
  refine ⟨⟨125 * (i 0).val + 124, by omega⟩, (flush0_10 _).mpr (by rw [hv]; omega), ?_⟩
  rw [mem_blk10]
  intro a
  match a with
  | ⟨0, _⟩ =>
    show win0_10.index _ (0 : Fin 3) * 1 ≤ (i 0).val ∧ (i 0).val < win0_10.index _ (0 : Fin 3) * 1 + 1
    rw [h0, hv]; omega
  | ⟨1, _⟩ =>
    show win0_10.index _ (1 : Fin 3) * 1 ≤ (i 1).val ∧ (i 1).val < win0_10.index _ (1 : Fin 3) * 1 + 1
    rw [h1]; omega
  | ⟨2, _⟩ =>
    show win0_10.index _ (2 : Fin 3) * 256 ≤ (i 2).val ∧ (i 2).val < win0_10.index _ (2 : Fin 3) * 256 + 256
    rw [h2]; omega

/-- The third output array after the region is that one function. -/
theorem sqArr_eq : (dat c A).arrAt 10 cfg0.N = sqArr c A :=
  (dat c A).arrAt_eq_of_cover 10 (sqArr c A) (fun t hf => flushed10_eq c A t hf) cover10

/-- The last point of grid row `q`. -/
theorem last_lt (q : Fin 2) : 125 * q.val + 124 < cfg0.N := by have h := q.isLt; have hN : cfg0.N = 250 := N_0; omega

/-- Entry (q, 0, k) of the second output after the region: the column-sum accumulator after grid row q's last point. -/
theorem sum_entry (q : Fin 2) (k : Fin 256) :
    (dat c A).arrAt 9 cfg0.N (ix3 q (0 : Fin 1) k) = accSum c A (125 * q.val + 124) (last_lt q) (ix3 (0 : Fin 1) (0 : Fin 1) k) :=
  congrFun (sumArr_eq c A) (ix3 q (0 : Fin 1) k)

/-- Entry (q, 0, k) of the third output after the region: the accumulator of squares after grid row q's last point. -/
theorem sq_entry (q : Fin 2) (k : Fin 256) :
    (dat c A).arrAt 10 cfg0.N (ix3 q (0 : Fin 1) k) = accSq c A (125 * q.val + 124) (last_lt q) (ix3 (0 : Fin 1) (0 : Fin 1) k) :=
  congrFun (sqArr_eq c A) (ix3 q (0 : Fin 1) k)

/-! ## The accumulators as folds over a grid row -/

/-- The column-sum accumulator after point 125·q + j (j < 125) is the fold over the row's points so far: the first
    point's contribution added to zero, each later point's added to what the point before left. -/
theorem accSum_fold (q j : ℕ) (hj : j < 125) (h : 125 * q + j < cfg0.N) :
    accSum c A (125 * q + j) h
      = Pipeline.accAt (fun n hn => k0_pay1 (tile c A ⟨n, hn⟩) (k0_pay3 (F := F)))
          (fun n hn acc => k0_pay1 (tile c A ⟨n, hn⟩) acc) (125 * q) j h :=
  Pipeline.eq_accAt (accSum c A) 125
    (fun n hn => k0_pay1 (tile c A ⟨n, hn⟩) (k0_pay3 (F := F)))
    (fun n hn acc => k0_pay1 (tile c A ⟨n, hn⟩) acc)
    (fun n hn h0 => accSum_first c A ⟨n, hn⟩ h0)
    (fun n hn hne => (if_neg hne :
      accSum c A (n + 1) hn = k0_pay1 (tile c A ⟨n + 1, hn⟩) (accSum c A n (Nat.lt_of_succ_lt hn)))) q j hj h

theorem accSq_fold (q j : ℕ) (hj : j < 125) (h : 125 * q + j < cfg0.N) :
    accSq c A (125 * q + j) h
      = Pipeline.accAt (fun n hn => k0_pay2 (tile c A ⟨n, hn⟩) (k0_pay4 (F := F)))
          (fun n hn acc => k0_pay2 (tile c A ⟨n, hn⟩) acc) (125 * q) j h :=
  Pipeline.eq_accAt (accSq c A) 125
    (fun n hn => k0_pay2 (tile c A ⟨n, hn⟩) (k0_pay4 (F := F)))
    (fun n hn acc => k0_pay2 (tile c A ⟨n, hn⟩) acc)
    (fun n hn h0 => accSq_first c A ⟨n, hn⟩ h0)
    (fun n hn hne => (if_neg hne :
      accSq c A (n + 1) hn = k0_pay2 (tile c A ⟨n + 1, hn⟩) (accSq c A n (Nat.lt_of_succ_lt hn)))) q j hj h

end Data

end Cert.KernelIdeal.R0Out

end
-- ==== Proof.R0Pay.lean ====
/-
  The first kernel region's arithmetic, read at one entry of what it stores.

  At a grid point the body holds a tile of 2000 rows of each of the four feature blocks (`x0`, `x1` of 128 columns,
  `x2`, `x3` of 64) and the four matching row blocks of the first layer's weights (`w0` … `w3`). Entry (r, k) of the
  tile of the first product it forms is

      ∑ i, x0[r, i] · w0[i, k]  +  ∑ i, x1[r, i] · w1[i, k]  +  ∑ i, x2[r, i] · w2[i, k]  +  ∑ i, x3[r, i] · w3[i, k] :

  the row r of the concatenated features against column k of the weights, block by block. It stores that tile (a
  change of float format is the identity at the exact values), and adds to two running rows: the tile's column sums,
  and the column sums of its squares. At the first point of a core's sweep the two running rows are set to zero.
-/
import proofs.«149722_j50371376447949_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0V

open Cert.KernelIdeal Cert.KernelIdeal.Gen
open Idealize.ShloMosaic Idealize.ShloMosaic.ValueIdx
open scoped BigOperators

/-! ## The products' operand indices

Each product contracts the left operand's columns with the right operand's rows: at output entry `i` and contraction
coordinate `q` the left operand is read at (i 0, q) and the right at (q, i 1). -/

theorem lhs_d128_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem lhs_d128_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_d128_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_d128_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

theorem lhs_d64_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide),
    dif_pos (show (0 : Fin S2000x64.rank) ∈ dot_S2000x64_S64x256_S2000x256_1_0_0_1_n_n.lhsNonContracting by decide)]
  rfl
theorem lhs_d64_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhs_d64_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhs_d64_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide),
    dif_pos (show (1 : Fin S64x256.rank) ∈ dot_S2000x64_S64x256_S2000x256_1_0_0_1_n_n.rhsNonContracting by decide)]
  rfl

/-- A tile's product with a 128-row weight block into the zero array, at entry (r, k): the sum over the contracted
    coordinate `i` of the left operand at (r, i) times the right at (i, k). -/
theorem mm128_apply (l : FVec Ideal S2000x128 .bf16) (w : FVec Ideal S128x256 .bf16) (r : Fin 2000) (k : Fin 256) :
    matmul dot_S2000x128_S128x256_S2000x256_1_0_0_1_n_n none l w (constant S2000x256 .f32 0x00000000#32) (ix2 r k)
      = ∑ i : Fin 128, l (ix2 r i) * w (ix2 i k) := by
  refine (Ideal.matmul_constant_zero_apply dot_S2000x128_S128x256_S2000x256_1_0_0_1_n_n none l w (ix2 r k)).trans ?_
  rw [← Equiv.sum_comp (ValueIdx.contrEquiv1 dot_S2000x128_S128x256_S2000x256_1_0_0_1_n_n 128 rfl rfl).symm]
  refine Finset.sum_congr rfl fun i _ => ?_
  have hi := ValueIdx.contrEquiv1_symm_val dot_S2000x128_S128x256_S2000x256_1_0_0_1_n_n 128 rfl rfl i
  have el : dot_S2000x128_S128x256_S2000x256_1_0_0_1_n_n.lhsIdx (ix2 r k)
      ((ValueIdx.contrEquiv1 dot_S2000x128_S128x256_S2000x256_1_0_0_1_n_n 128 rfl rfl).symm i) = ix2 r i :=
    funext fun a => Fin.ext (by
      match a with
      | ⟨0, _⟩ => exact lhs_d128_0 _ _
      | ⟨1, _⟩ => exact (lhs_d128_1 _ _).trans hi)
  have er : dot_S2000x128_S128x256_S2000x256_1_0_0_1_n_n.rhsIdx (ix2 r k)
      ((ValueIdx.contrEquiv1 dot_S2000x128_S128x256_S2000x256_1_0_0_1_n_n 128 rfl rfl).symm i) = ix2 i k :=
    funext fun a => Fin.ext (by
      match a with
      | ⟨0, _⟩ => exact (rhs_d128_0 _ _).trans hi
      | ⟨1, _⟩ => exact rhs_d128_1 _ _)
  rw [el, er]

/-- A tile's product with a 64-row weight block into the zero array, at entry (r, k): the sum over the contracted
    coordinate `i` of the left operand at (r, i) times the right at (i, k). -/
theorem mm64_apply (l : FVec Ideal S2000x64 .bf16) (w : FVec Ideal S64x256 .bf16) (r : Fin 2000) (k : Fin 256) :
    matmul dot_S2000x64_S64x256_S2000x256_1_0_0_1_n_n none l w (constant S2000x256 .f32 0x00000000#32) (ix2 r k)
      = ∑ i : Fin 64, l (ix2 r i) * w (ix2 i k) := by
  refine (Ideal.matmul_constant_zero_apply dot_S2000x64_S64x256_S2000x256_1_0_0_1_n_n none l w (ix2 r k)).trans ?_
  rw [← Equiv.sum_comp (ValueIdx.contrEquiv1 dot_S2000x64_S64x256_S2000x256_1_0_0_1_n_n 64 rfl rfl).symm]
  refine Finset.sum_congr rfl fun i _ => ?_
  have hi := ValueIdx.contrEquiv1_symm_val dot_S2000x64_S64x256_S2000x256_1_0_0_1_n_n 64 rfl rfl i
  have el : dot_S2000x64_S64x256_S2000x256_1_0_0_1_n_n.lhsIdx (ix2 r k)
      ((ValueIdx.contrEquiv1 dot_S2000x64_S64x256_S2000x256_1_0_0_1_n_n 64 rfl rfl).symm i) = ix2 r i :=
    funext fun a => Fin.ext (by
      match a with
      | ⟨0, _⟩ => exact lhs_d64_0 _ _
      | ⟨1, _⟩ => exact (lhs_d64_1 _ _).trans hi)
  have er : dot_S2000x64_S64x256_S2000x256_1_0_0_1_n_n.rhsIdx (ix2 r k)
      ((ValueIdx.contrEquiv1 dot_S2000x64_S64x256_S2000x256_1_0_0_1_n_n 64 rfl rfl).symm i) = ix2 i k :=
    funext fun a => Fin.ext (by
      match a with
      | ⟨0, _⟩ => exact (rhs_d64_0 _ _).trans hi
      | ⟨1, _⟩ => exact rhs_d64_1 _ _)
  rw [el, er]

/-! ## The tile of the first product -/

/-- Entry (r, k) of the tile of the first product: the four blocks' partial products, added left to right. -/
theorem tile_apply (x0 x1 : Vec Ideal S2000x128 .f32) (x2 x3 : Vec Ideal S2000x64 .f32)
    (w0 w1 : Vec Ideal S128x256 .bf16) (w2 w3 : Vec Ideal S64x256 .bf16) (r : Fin 2000) (k : Fin 256) :
    k0_pay5 x0 x1 x2 x3 w0 w1 w2 w3 (ix2 r k)
      = (∑ i : Fin 128, x0 (ix2 r i) * w0 (ix2 i k)) + (∑ i : Fin 128, x1 (ix2 r i) * w1 (ix2 i k))
        + (∑ i : Fin 64, x2 (ix2 r i) * w2 (ix2 i k)) + (∑ i : Fin 64, x3 (ix2 r i) * w3 (ix2 i k)) := by
  unfold k0_pay5
  simp only [shapeCast_self]
  refine (addf_apply _ _ (ix2 r k)).trans ?_
  refine congrArg₂ (· + ·) ?_ (mm64_apply _ w3 r k)
  refine (addf_apply _ _ (ix2 r k)).trans ?_
  refine congrArg₂ (· + ·) ?_ (mm64_apply _ w2 r k)
  refine (addf_apply _ _ (ix2 r k)).trans ?_
  exact congrArg₂ (· + ·) (mm128_apply _ w0 r k) (mm128_apply _ w1 r k)

/-- What is stored as the first product's tile is that tile: the change of format is the identity. -/
theorem pre1_apply (x0 x1 : Vec Ideal S2000x128 .f32) (x2 x3 : Vec Ideal S2000x64 .f32)
    (w0 w1 : Vec Ideal S128x256 .bf16) (w2 w3 : Vec Ideal S64x256 .bf16) (r : Fin 2000) (k : Fin 256) :
    k0_pay6 x0 x1 x2 x3 w0 w1 w2 w3 (ix2 r k) = k0_pay5 x0 x1 x2 x3 w0 w1 w2 w3 (ix2 r k) := rfl

/-! ## The running rows -/

/-- A tile's column sums, laid out as the one row of a [1, 1, 256] array: entry k is the sum of column k. -/
theorem colsum_apply (v : FVec Ideal S2000x256 .f32) (k : Fin 256) :
    shapeCast S1x1x256 (shapeCast S1x256
        (multiReduction (F := Ideal) .add [0] S256 v 0x00000000#32 reduces_S2000x256_S256 (.inl rfl) rfl)
        shapeCasts_S256_S1x256) shapeCasts_S1x256_S1x1x256 (ix3 (0 : Fin 1) (0 : Fin 1) k)
      = ∑ r : Fin 2000, v (ix2 r k) := by
  refine (shapeCast_ab_1ab_apply _ shapeCasts_S1x256_S1x1x256 (0 : Fin 1) (0 : Fin 1) k).trans ?_
  refine (shapeCast_a_1a_apply _ shapeCasts_S256_S1x256 (0 : Fin 1) k).trans ?_
  refine (Ideal.multiReduction_add_single v 0x00000000#32 reduces_S2000x256_S256 _ _ (ix1 k)).trans ?_
  show ∑ r : Fin 2000, v (reduces_S2000x256_S256.lift (ix1 k) r) = _
  refine Finset.sum_congr rfl fun r _ => congrArg v ?_
  exact funext fun c => Fin.ext (by match c with | ⟨0, _⟩ => rfl | ⟨1, _⟩ => rfl)

/-- The running row of column sums after a point: what it held plus the tile's column sums. -/
theorem sum_apply (v : FVec Ideal S2000x256 .f32) (s : Vec Ideal S1x1x256 .f32) (k : Fin 256) :
    k0_pay1 v s (ix3 (0 : Fin 1) (0 : Fin 1) k) = s (ix3 (0 : Fin 1) (0 : Fin 1) k) + ∑ r : Fin 2000, v (ix2 r k) := by
  unfold k0_pay1
  simp only [shapeCast_self]
  refine (addf_apply _ _ _).trans ?_
  exact congrArg (s (ix3 (0 : Fin 1) (0 : Fin 1) k) + ·) (colsum_apply v k)

/-- The running row of column sums of squares after a point: what it held plus the column sums of the tile's squares. -/
theorem sq_apply (v : FVec Ideal S2000x256 .f32) (s : Vec Ideal S1x1x256 .f32) (k : Fin 256) :
    k0_pay2 v s (ix3 (0 : Fin 1) (0 : Fin 1) k)
      = s (ix3 (0 : Fin 1) (0 : Fin 1) k) + ∑ r : Fin 2000, v (ix2 r k) * v (ix2 r k) := by
  unfold k0_pay2
  simp only [shapeCast_self]
  refine (addf_apply _ _ _).trans ?_
  exact congrArg (s (ix3 (0 : Fin 1) (0 : Fin 1) k) + ·) (colsum_apply (mulf v v) k)

/-- The first running row's initial value is zero everywhere. -/
theorem zero3 (i : S1x1x256.Idx) : k0_pay3 (F := Ideal) i = 0 := by
  unfold k0_pay3
  simp only [shapeCast_self]
  exact Ideal.ofBits_zero_f32

/-- The second running row's initial value is zero everywhere. -/
theorem zero4 (i : S1x1x256.Idx) : k0_pay4 (F := Ideal) i = 0 := by
  unfold k0_pay4
  simp only [shapeCast_self]
  exact Ideal.ofBits_zero_f32

end Cert.KernelIdeal.R0V

end
-- ==== Proof.HostStretch0.lean ====
import proofs.«149722_j50371376447949_2_alg».proof.Proof.Gen.KernelIdeal.Launch
import Idealize.ShloMosaic.Lib.Pipeline.Value
import Idealize.ShloMosaic.Lib.ValueIdx
import Idealize.ShloMosaic.PureOps.Ideal.Laws

/-!
# The first region's operands, read back from the host operations before it

Before the first kernel region the program prepares two kinds of operand from its arguments. The per-edge rows of the
table `u` (512 × 64) are gathered by the edge's batch number, a negative number b standing for b + 512. And the first
layer's weight matrix W₁ (384 × 256) is cut into the four row blocks that multiply the four pieces of the
concatenated input — rows 0–127, 128–255, 256–319 and 320–383 — each converted to the matrix unit's input format.

This module names these functions of the arrays (for any float model), shows that the host operations before the
first region write exactly them whatever the buffers held before, and reads the four weight blocks entry by entry
over the extended reals, where the change of format is the identity: block entry (i, j) is W₁ at (offset + i, j).
The gathered rows are kept as one function of the table and the batch numbers.
-/

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The functions of the arrays -/

/-- The rows of the table `u` gathered by batch number, a negative number b read as b + 512. -/
def gatheredRows (u : FVec F S512x64 .f32) (b : IVec S500000 32) : FVec F S500000x64 .f32 :=
  Host.gather gather_S512x64_S500000x1_S500000x64_1_0_n_n_0_1_164 u
    (broadcastInDim S500000x1 ![0] bcast_S500000_S500000x1_0
      (select (cmpi .slt b (broadcastInDim S500000 ![] bcast_S_S500000 (constantI S_ 32 0#32)))
        (addi b (broadcastInDim S500000 ![] bcast_S_S500000 (constantI S_ 32 512#32))) b))

/-- Rows 0–127 of W₁, which multiply the first piece of the input. -/
def w1Rows0 (w : FVec F S384x256 .f32) : FVec F S128x256 .bf16 :=
  truncf .bf16 (extractStridedSlice S128x256 ![0, 0] w slices_S384x256_S128x256_0_0) bitsLt_bf16_f32

/-- Rows 128–255 of W₁, which multiply the second piece. -/
def w1Rows128 (w : FVec F S384x256 .f32) : FVec F S128x256 .bf16 :=
  truncf .bf16 (extractStridedSlice S128x256 ![128, 0] w slices_S384x256_S128x256_128_0) bitsLt_bf16_f32

/-- Rows 256–319 of W₁, which multiply the third piece. -/
def w1Rows256 (w : FVec F S384x256 .f32) : FVec F S64x256 .bf16 :=
  truncf .bf16 (extractStridedSlice S64x256 ![256, 0] w slices_S384x256_S64x256_256_0) bitsLt_bf16_f32

/-- Rows 320–383 of W₁, which multiply the gathered rows. -/
def w1Rows320 (w : FVec F S384x256 .f32) : FVec F S64x256 .bf16 :=
  truncf .bf16 (extractStridedSlice S64x256 ![320, 0] w slices_S384x256_S64x256_320_0) bitsLt_bf16_f32

/-! ## What the host operations write

After the host operations before the first region, each of the five operand buffers holds its function of the table,
the batch numbers and W₁ as the buffers held them before. -/

theorem after0_gatheredRows (W : Valuation τ sig (Elt F)) :
    (StableHlo.after (hostOps0 (F := F)) W main_v6 : S500000x64.Idx → F .f32)
      = gatheredRows (W main_arg3) (W main_arg4) := by
  after_results_simp
  rfl

theorem after0_w1Rows0 (W : Valuation τ sig (Elt F)) :
    (StableHlo.after (hostOps0 (F := F)) W main_v8 : S128x256.Idx → F .bf16) = w1Rows0 (W main_arg5) := by
  after_results_simp
  rfl

theorem after0_w1Rows128 (W : Valuation τ sig (Elt F)) :
    (StableHlo.after (hostOps0 (F := F)) W main_v10 : S128x256.Idx → F .bf16) = w1Rows128 (W main_arg5) := by
  after_results_simp
  rfl

theorem after0_w1Rows256 (W : Valuation τ sig (Elt F)) :
    (StableHlo.after (hostOps0 (F := F)) W main_v12 : S64x256.Idx → F .bf16) = w1Rows256 (W main_arg5) := by
  after_results_simp
  rfl

theorem after0_w1Rows320 (W : Valuation τ sig (Elt F)) :
    (StableHlo.after (hostOps0 (F := F)) W main_v14 : S64x256.Idx → F .bf16) = w1Rows320 (W main_arg5) := by
  after_results_simp
  rfl

/-! ## The weight blocks entry by entry, over the extended reals

Entry (i, j) of a block is W₁ at row offset + i and column j; the row of W₁ is named by the caller, with the
arithmetic as a hypothesis. -/

theorem w1Rows0_apply (w : FVec Ideal S384x256 .f32) (i : Fin 128) (j : Fin 256) (i' : Fin 384)
    (hi : i'.val = 0 + i.val) : w1Rows0 (F := Ideal) w (ix2 i j) = w (ix2 i' j) := by
  unfold w1Rows0
  show extractStridedSlice S128x256 ![0, 0] w slices_S384x256_S128x256_0_0 (ix2 i j) = _
  refine extractStridedSlice_apply _ w _ (ix2 i j) (ix2 i' j) fun a => ?_
  match a with
  | ⟨0, _⟩ => exact hi
  | ⟨1, _⟩ => exact (Nat.zero_add _).symm

theorem w1Rows128_apply (w : FVec Ideal S384x256 .f32) (i : Fin 128) (j : Fin 256) (i' : Fin 384)
    (hi : i'.val = 128 + i.val) : w1Rows128 (F := Ideal) w (ix2 i j) = w (ix2 i' j) := by
  unfold w1Rows128
  show extractStridedSlice S128x256 ![128, 0] w slices_S384x256_S128x256_128_0 (ix2 i j) = _
  refine extractStridedSlice_apply _ w _ (ix2 i j) (ix2 i' j) fun a => ?_
  match a with
  | ⟨0, _⟩ => exact hi
  | ⟨1, _⟩ => exact (Nat.zero_add _).symm

theorem w1Rows256_apply (w : FVec Ideal S384x256 .f32) (i : Fin 64) (j : Fin 256) (i' : Fin 384)
    (hi : i'.val = 256 + i.val) : w1Rows256 (F := Ideal) w (ix2 i j) = w (ix2 i' j) := by
  unfold w1Rows256
  show extractStridedSlice S64x256 ![256, 0] w slices_S384x256_S64x256_256_0 (ix2 i j) = _
  refine extractStridedSlice_apply _ w _ (ix2 i j) (ix2 i' j) fun a => ?_
  match a with
  | ⟨0, _⟩ => exact hi
  | ⟨1, _⟩ => exact (Nat.zero_add _).symm

theorem w1Rows320_apply (w : FVec Ideal S384x256 .f32) (i : Fin 64) (j : Fin 256) (i' : Fin 384)
    (hi : i'.val = 320 + i.val) : w1Rows320 (F := Ideal) w (ix2 i j) = w (ix2 i' j) := by
  unfold w1Rows320
  show extractStridedSlice S64x256 ![320, 0] w slices_S384x256_S64x256_320_0 (ix2 i j) = _
  refine extractStridedSlice_apply _ w _ (ix2 i j) (ix2 i' j) fun a => ?_
  match a with
  | ⟨0, _⟩ => exact hi
  | ⟨1, _⟩ => exact (Nat.zero_add _).symm

end Cert.KernelIdeal.HostSide
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.FeatParts.lean ====
/- A product against the feature matrix, block by block.

   The feature matrix is four blocks side by side (128, 128, 64 and 64 columns); the weight matrix's 384 rows split the
   same way. So a row of the features against a column of the weights is the sum of four partial products, one per
   block — each block's own columns against the matching rows of the weights. On real entries, read on the extended
   reals, the four exact partial sums add up to the coercion of the real dense layer's entry. -/
import proofs.«149722_j50371376447949_2_alg».proof.Proof.Arrays
import proofs.«149722_j50371376447949_2_alg».proof.Proof.LibSumRegroup
import proofs.«149722_j50371376447949_2_alg».proof.Proof.LibTwoLayerNorm

noncomputable section

namespace Cert.Arrays

open Idealize.ShloMosaic Idealize.ShloMosaic.ValueIdx Cert.BatchNorm Cert.TwoLayerNorm

/-- The four partial products of row `e` of the four blocks with the matching row blocks of the weights, at column
    `k`, add up to the real dense layer's entry on the feature matrix. -/
theorem parts_eq_dense (a0 a1 : (⟨2, ![500000, 128]⟩ : Shape).Idx → EReal) (a2 ug : (⟨2, ![500000, 64]⟩ : Shape).Idx → EReal)
    (a5 : (⟨2, ![384, 256]⟩ : Shape).Idx → EReal)
    (h0 : ∀ i, ∃ r : ℝ, a0 i = (r : EReal)) (h1 : ∀ i, ∃ r : ℝ, a1 i = (r : EReal)) (h2 : ∀ i, ∃ r : ℝ, a2 i = (r : EReal))
    (hg : ∀ i, ∃ r : ℝ, ug i = (r : EReal)) (h5 : ∀ i, ∃ r : ℝ, a5 i = (r : EReal)) (e : Fin 500000) (k : Fin 256) :
    (∑ i : Fin 128, a0 (ix2 e i) * a5 (ix2 (⟨i.val, by omega⟩ : Fin 384) k))
        + (∑ i : Fin 128, a1 (ix2 e i) * a5 (ix2 (⟨128 + i.val, by omega⟩ : Fin 384) k))
        + (∑ i : Fin 64, a2 (ix2 e i) * a5 (ix2 (⟨256 + i.val, by omega⟩ : Fin 384) k))
        + (∑ i : Fin 64, ug (ix2 e i) * a5 (ix2 (⟨320 + i.val, by omega⟩ : Fin 384) k))
      = ((dense (feat a0 a1 a2 ug) (mat a5) e k : ℝ) : EReal) := by
  unfold dense
  rw [Cert.SumRegroup.sum_cols_by_part (fun i => feat a0 a1 a2 ug e i * mat a5 i k),
    EReal.coe_add, EReal.coe_add, EReal.coe_add, coe_sum, coe_sum, coe_sum, coe_sum]
  refine congrArg₂ (· + ·) (congrArg₂ (· + ·) (congrArg₂ (· + ·) ?_ ?_) ?_) ?_
  · refine Finset.sum_congr rfl fun i _ => ?_
    have hi : (⟨i.val, by omega⟩ : Fin 384).val < 128 := i.isLt
    rw [EReal.coe_mul, feat_block0 a0 a1 a2 ug e _ hi, ← coe_mat a0 h0, ← coe_mat a5 h5]
  · refine Finset.sum_congr rfl fun i _ => ?_
    have hn : ¬ (⟨128 + i.val, by omega⟩ : Fin 384).val < 128 := by show ¬ 128 + i.val < 128; omega
    have hi : (⟨128 + i.val, by omega⟩ : Fin 384).val < 256 := by show 128 + i.val < 256; omega
    have hj : (⟨(⟨128 + i.val, by omega⟩ : Fin 384).val - 128, by show 128 + i.val - 128 < 128; omega⟩ : Fin 128) = i :=
      Fin.ext (by show 128 + i.val - 128 = i.val; omega)
    rw [EReal.coe_mul, feat_block1 a0 a1 a2 ug e _ hn hi, hj, ← coe_mat a1 h1, ← coe_mat a5 h5]
  · refine Finset.sum_congr rfl fun i _ => ?_
    have hn : ¬ (⟨256 + i.val, by omega⟩ : Fin 384).val < 256 := by show ¬ 256 + i.val < 256; omega
    have hi : (⟨256 + i.val, by omega⟩ : Fin 384).val < 320 := by show 256 + i.val < 320; omega
    have hj : (⟨(⟨256 + i.val, by omega⟩ : Fin 384).val - 256, by show 256 + i.val - 256 < 64; omega⟩ : Fin 64) = i :=
      Fin.ext (by show 256 + i.val - 256 = i.val; omega)
    rw [EReal.coe_mul, feat_block2 a0 a1 a2 ug e _ hn hi, hj, ← coe_mat a2 h2, ← coe_mat a5 h5]
  · refine Finset.sum_congr rfl fun i _ => ?_
    have hn : ¬ (⟨320 + i.val, by omega⟩ : Fin 384).val < 320 := by show ¬ 320 + i.val < 320; omega
    have hj : (⟨(⟨320 + i.val, by omega⟩ : Fin 384).val - 320, by show 320 + i.val - 320 < 64; omega⟩ : Fin 64) = i :=
      Fin.ext (by show 320 + i.val - 320 = i.val; omega)
    rw [EReal.coe_mul, feat_block3 a0 a1 a2 ug e _ hn, hj, ← coe_mat ug hg, ← coe_mat a5 h5]

end Cert.Arrays

end
-- ==== Proof.KTile.lean ====
/-
  The first kernel region's tile of the first product, and its first output array, in real terms.

  At point t the four row inputs' blocks are rows 2000·t … of their arrays and the four weight blocks are the whole
  arrays of the four row blocks of the first layer's weights. So entry (r, k) of the tile — the four partial products —
  is row 2000·t + r of the feature matrix against column k of the weights: the real dense layer's entry there. The
  first output array after the region holds, at (e, k), entry (e mod 2000, k) of the tile of point e / 2000: the dense
  layer's entry at (e, k).
-/
import proofs.«149722_j50371376447949_2_alg».proof.Proof.R0Value
import proofs.«149722_j50371376447949_2_alg».proof.Proof.R0Pay
import proofs.«149722_j50371376447949_2_alg».proof.Proof.HostStretch0
import proofs.«149722_j50371376447949_2_alg».proof.Proof.FeatParts
import proofs.«149722_j50371376447949_2_alg».proof.Proof.RefFinite

noncomputable section

namespace Cert.KernelIdeal.KL1

open Cert.KernelIdeal Cert.KernelIdeal.Gen Cert.KernelIdeal.R0 Cert.KernelIdeal.R0Out Cert.KernelIdeal.HostSide
open Idealize.ShloMosaic Idealize.ShloMosaic.TcCoe Idealize.ShloMosaic.ValueIdx Idealize.SL.Sem
open Cert.RefSide (AllReal)
open Cert.BatchNorm Cert.TwoLayerNorm
open scoped BigOperators

/-! ## The input blocks read at an index -/

section Blocks

variable {F : FTy → Type} [FloatOps F]
variable (c : Dev nD) (A : (w : Fin cfg0.W) → Buf (Elt F) ((cfg0.win w).arr.view.loc (c.tc : Thread nD τ)))

theorem iblk0_apply (t : Fin cfg0.N) (r : Fin 2000) (j : Fin 128) (h : 2000 * t.val + r.val < 500000) :
    (iblk c A 0 t : Vec F S2000x128 .f32) (ix2 r j) = (A 0 : Vec F S500000x128 .f32) (ix2 ⟨2000 * t.val + r.val, h⟩ j) := by
  obtain ⟨h00, h01, h10, h11, h20, h21, h30, h31, -⟩ := idx_rows t
  show (A 0 : Vec F S500000x128 .f32) (((cfg0.win 0).blk t).view.emb (ix2 r j)) = _
  refine congrArg (A 0 : Vec F S500000x128 .f32) ?_
  funext a
  apply Fin.ext
  match a with
  | ⟨0, _⟩ => show win0_0.index t (0 : Fin 2) * 2000 + 1 * r.val = 2000 * t.val + r.val; rw [h00]; omega
  | ⟨1, _⟩ => show win0_0.index t (1 : Fin 2) * 128 + 1 * j.val = j.val; rw [h01]; omega

theorem iblk1_apply (t : Fin cfg0.N) (r : Fin 2000) (j : Fin 128) (h : 2000 * t.val + r.val < 500000) :
    (iblk c A 1 t : Vec F S2000x128 .f32) (ix2 r j) = (A 1 : Vec F S500000x128 .f32) (ix2 ⟨2000 * t.val + r.val, h⟩ j) := by
  obtain ⟨h00, h01, h10, h11, h20, h21, h30, h31, -⟩ := idx_rows t
  show (A 1 : Vec F S500000x128 .f32) (((cfg0.win 1).blk t).view.emb (ix2 r j)) = _
  refine congrArg (A 1 : Vec F S500000x128 .f32) ?_
  funext a
  apply Fin.ext
  match a with
  | ⟨0, _⟩ => show win0_1.index t (0 : Fin 2) * 2000 + 1 * r.val = 2000 * t.val + r.val; rw [h10]; omega
  | ⟨1, _⟩ => show win0_1.index t (1 : Fin 2) * 128 + 1 * j.val = j.val; rw [h11]; omega

theorem iblk2_apply (t : Fin cfg0.N) (r : Fin 2000) (j : Fin 64) (h : 2000 * t.val + r.val < 500000) :
    (iblk c A 2 t : Vec F S2000x64 .f32) (ix2 r j) = (A 2 : Vec F S500000x64 .f32) (ix2 ⟨2000 * t.val + r.val, h⟩ j) := by
  obtain ⟨h00, h01, h10, h11, h20, h21, h30, h31, -⟩ := idx_rows t
  show (A 2 : Vec F S500000x64 .f32) (((cfg0.win 2).blk t).view.emb (ix2 r j)) = _
  refine congrArg (A 2 : Vec F S500000x64 .f32) ?_
  funext a
  apply Fin.ext
  match a with
  | ⟨0, _⟩ => show win0_2.index t (0 : Fin 2) * 2000 + 1 * r.val = 2000 * t.val + r.val; rw [h20]; omega
  | ⟨1, _⟩ => show win0_2.index t (1 : Fin 2) * 64 + 1 * j.val = j.val; rw [h21]; omega

theorem iblk3_apply (t : Fin cfg0.N) (r : Fin 2000) (j : Fin 64) (h : 2000 * t.val + r.val < 500000) :
    (iblk c A 3 t : Vec F S2000x64 .f32) (ix2 r j) = (A 3 : Vec F S500000x64 .f32) (ix2 ⟨2000 * t.val + r.val, h⟩ j) := by
  obtain ⟨h00, h01, h10, h11, h20, h21, h30, h31, -⟩ := idx_rows t
  show (A 3 : Vec F S500000x64 .f32) (((cfg0.win 3).blk t).view.emb (ix2 r j)) = _
  refine congrArg (A 3 : Vec F S500000x64 .f32) ?_
  funext a
  apply Fin.ext
  match a with
  | ⟨0, _⟩ => show win0_3.index t (0 : Fin 2) * 2000 + 1 * r.val = 2000 * t.val + r.val; rw [h30]; omega
  | ⟨1, _⟩ => show win0_3.index t (1 : Fin 2) * 64 + 1 * j.val = j.val; rw [h31]; omega

theorem iblk4_apply (t : Fin cfg0.N) (p : Fin 128) (q : Fin 256) :
    (iblk c A 4 t : Vec F S128x256 .bf16) (ix2 p q) = (A 4 : Vec F S128x256 .bf16) (ix2 p q) := by
  obtain ⟨h40, h41, h50, h51, h60, h61, h70, h71⟩ := idx_weights t
  show (A 4 : Vec F S128x256 .bf16) (((cfg0.win 4).blk t).view.emb (ix2 p q)) = _
  refine congrArg (A 4 : Vec F S128x256 .bf16) ?_
  funext a
  apply Fin.ext
  match a with
  | ⟨0, _⟩ => show win0_4.index t (0 : Fin 2) * 128 + 1 * p.val = p.val; rw [h40]; omega
  | ⟨1, _⟩ => show win0_4.index t (1 : Fin 2) * 256 + 1 * q.val = q.val; rw [h41]; omega

theorem iblk5_apply (t : Fin cfg0.N) (p : Fin 128) (q : Fin 256) :
    (iblk c A 5 t : Vec F S128x256 .bf16) (ix2 p q) = (A 5 : Vec F S128x256 .bf16) (ix2 p q) := by
  obtain ⟨h40, h41, h50, h51, h60, h61, h70, h71⟩ := idx_weights t
  show (A 5 : Vec F S128x256 .bf16) (((cfg0.win 5).blk t).view.emb (ix2 p q)) = _
  refine congrArg (A 5 : Vec F S128x256 .bf16) ?_
  funext a
  apply Fin.ext
  match a with
  | ⟨0, _⟩ => show win0_5.index t (0 : Fin 2) * 128 + 1 * p.val = p.val; rw [h50]; omega
  | ⟨1, _⟩ => show win0_5.index t (1 : Fin 2) * 256 + 1 * q.val = q.val; rw [h51]; omega

theorem iblk6_apply (t : Fin cfg0.N) (p : Fin 64) (q : Fin 256) :
    (iblk c A 6 t : Vec F S64x256 .bf16) (ix2 p q) = (A 6 : Vec F S64x256 .bf16) (ix2 p q) := by
  obtain ⟨h40, h41, h50, h51, h60, h61, h70, h71⟩ := idx_weights t
  show (A 6 : Vec F S64x256 .bf16) (((cfg0.win 6).blk t).view.emb (ix2 p q)) = _
  refine congrArg (A 6 : Vec F S64x256 .bf16) ?_
  funext a
  apply Fin.ext
  match a with
  | ⟨0, _⟩ => show win0_6.index t (0 : Fin 2) * 64 + 1 * p.val = p.val; rw [h60]; omega
  | ⟨1, _⟩ => show win0_6.index t (1 : Fin 2) * 256 + 1 * q.val = q.val; rw [h61]; omega

theorem iblk7_apply (t : Fin cfg0.N) (p : Fin 64) (q : Fin 256) :
    (iblk c A 7 t : Vec F S64x256 .bf16) (ix2 p q) = (A 7 : Vec F S64x256 .bf16) (ix2 p q) := by
  obtain ⟨h40, h41, h50, h51, h60, h61, h70, h71⟩ := idx_weights t
  show (A 7 : Vec F S64x256 .bf16) (((cfg0.win 7).blk t).view.emb (ix2 p q)) = _
  refine congrArg (A 7 : Vec F S64x256 .bf16) ?_
  funext a
  apply Fin.ext
  match a with
  | ⟨0, _⟩ => show win0_7.index t (0 : Fin 2) * 64 + 1 * p.val = p.val; rw [h70]; omega
  | ⟨1, _⟩ => show win0_7.index t (1 : Fin 2) * 256 + 1 * q.val = q.val; rw [h71]; omega

end Blocks

/-! ## The tile and the first output array at the exact values -/

section AtIdeal

variable (c : Dev nD) (A : (w : Fin cfg0.W) → Buf (Elt Ideal) ((cfg0.win w).arr.view.loc (c.tc : Thread nD τ)))
variable (a0 a1 : Vec Ideal S500000x128 .f32) (a2 a3 : Vec Ideal S500000x64 .f32) (a5 : Vec Ideal S384x256 .f32)

/-- Entry (r, k) of the tile at point t, the region's arrays named at their literal types: the real dense layer's
    entry at row 2000·t + r. -/
theorem tile_val
    (e0 : (A 0 : Vec Ideal S500000x128 .f32) = a0) (e1 : (A 1 : Vec Ideal S500000x128 .f32) = a1)
    (e2 : (A 2 : Vec Ideal S500000x64 .f32) = a2) (e3 : (A 3 : Vec Ideal S500000x64 .f32) = a3)
    (e4 : (A 4 : Vec Ideal S128x256 .bf16) = w1Rows0 (F := Ideal) a5) (e5 : (A 5 : Vec Ideal S128x256 .bf16) = w1Rows128 (F := Ideal) a5)
    (e6 : (A 6 : Vec Ideal S64x256 .bf16) = w1Rows256 (F := Ideal) a5) (e7 : (A 7 : Vec Ideal S64x256 .bf16) = w1Rows320 (F := Ideal) a5)
    (h0 : AllReal a0) (h1 : AllReal a1) (h2 : AllReal a2) (h3 : AllReal a3) (h5 : AllReal a5)
    (t : Fin cfg0.N) (r : Fin 2000) (k : Fin 256) (h : 2000 * t.val + r.val < 500000) :
    tile (F := Ideal) c A t (ix2 r k)
      = ((dense (Arrays.feat a0 a1 a2 a3) (Arrays.mat a5) ⟨2000 * t.val + r.val, h⟩ k : ℝ) : EReal) := by
  unfold R0.tile
  refine (R0V.tile_apply _ _ _ _ _ _ _ _ r k).trans ?_
  refine Eq.trans ?_ (Arrays.parts_eq_dense a0 a1 a2 a3 a5 h0 h1 h2 h3 h5 ⟨2000 * t.val + r.val, h⟩ k)
  refine congrArg₂ (· + ·) (congrArg₂ (· + ·) (congrArg₂ (· + ·) ?_ ?_) ?_) ?_
  · refine Finset.sum_congr rfl fun i _ => ?_
    rw [iblk0_apply c A t r i h, iblk4_apply c A t i k, e0, e4,
      w1Rows0_apply a5 i k ⟨i.val, by omega⟩ (Nat.zero_add _).symm]
  · refine Finset.sum_congr rfl fun i _ => ?_
    rw [iblk1_apply c A t r i h, iblk5_apply c A t i k, e1, e5, w1Rows128_apply a5 i k ⟨128 + i.val, by omega⟩ rfl]
  · refine Finset.sum_congr rfl fun i _ => ?_
    rw [iblk2_apply c A t r i h, iblk6_apply c A t i k, e2, e6, w1Rows256_apply a5 i k ⟨256 + i.val, by omega⟩ rfl]
  · refine Finset.sum_congr rfl fun i _ => ?_
    rw [iblk3_apply c A t r i h, iblk7_apply c A t i k, e3, e7, w1Rows320_apply a5 i k ⟨320 + i.val, by omega⟩ rfl]

/-- Entry (e, k) of the first output array after the region: the real dense layer's entry. -/
theorem pre1_arr_val
    (e0 : (A 0 : Vec Ideal S500000x128 .f32) = a0) (e1 : (A 1 : Vec Ideal S500000x128 .f32) = a1)
    (e2 : (A 2 : Vec Ideal S500000x64 .f32) = a2) (e3 : (A 3 : Vec Ideal S500000x64 .f32) = a3)
    (e4 : (A 4 : Vec Ideal S128x256 .bf16) = w1Rows0 (F := Ideal) a5) (e5 : (A 5 : Vec Ideal S128x256 .bf16) = w1Rows128 (F := Ideal) a5)
    (e6 : (A 6 : Vec Ideal S64x256 .bf16) = w1Rows256 (F := Ideal) a5) (e7 : (A 7 : Vec Ideal S64x256 .bf16) = w1Rows320 (F := Ideal) a5)
    (h0 : AllReal a0) (h1 : AllReal a1) (h2 : AllReal a2) (h3 : AllReal a3) (h5 : AllReal a5)
    (e : Fin 500000) (k : Fin 256) :
    (R0.dat (F := Ideal) c A).arrAt 8 cfg0.N (ix2 e k)
      = ((dense (Arrays.feat a0 a1 a2 a3) (Arrays.mat a5) e k : ℝ) : EReal) := by
  have he : 2000 * (tileAt e).val + (rowAt e).val < 500000 := by
    show 2000 * (e.val / 2000) + e.val % 2000 < 500000
    have := e.isLt; omega
  have hE : (⟨2000 * (tileAt e).val + (rowAt e).val, he⟩ : Fin 500000) = e :=
    Fin.ext (by show 2000 * (e.val / 2000) + e.val % 2000 = e.val; omega)
  refine (pre1_entry c A e k).trans ?_
  refine (R0V.pre1_apply _ _ _ _ _ _ _ _ (rowAt e) k).trans ?_
  have ht := tile_val c A a0 a1 a2 a3 a5 e0 e1 e2 e3 e4 e5 e6 e7 h0 h1 h2 h3 h5 (tileAt e) (rowAt e) k he
  rw [hE] at ht
  exact ht

end AtIdeal

end Cert.KernelIdeal.KL1

end
-- ==== Proof.HostStretch1.lean ====
import proofs.«149722_j50371376447949_2_alg».proof.Proof.Gen.KernelIdeal.Launch
import Idealize.ShloMosaic.Lib.Pipeline.Value
import Idealize.ShloMosaic.Lib.ValueIdx
import Idealize.ShloMosaic.PureOps.Ideal.Laws

/-!
# The first normalisation's scale and shift, read back from the host arithmetic

Between the first and the second kernel region the program combines the two cores' partial column sums `s` and
partial column sums of squares `q` (each of shape [2, 1, 256]) into the first batch normalisation's affine map. With
n = 500000 rows, for every column k,

    mean k  = (s₀ k + s₁ k) / n,        msq k = (q₀ k + q₁ k) / n,
    scale k = γ k · rsqrt (max (msq k − mean k · mean k) 0 + ε),
    shift k = β k − mean k · scale k.

This module names these functions of the arrays (for any float model), shows that the host operations between the two
regions write exactly them whatever the buffers held before, and reads each of them entry by entry over the extended
reals, where the sum over the two cores is a sum of two entries and every other step acts entry by entry.
-/

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The functions of the arrays -/

/-- A per-core pair of column totals, added over the two cores and divided by the number of rows. -/
def colMean (s : FVec F S2x1x256 .f32) : FVec F S1x256 .f32 :=
  Host.divf (Host.reduceAdd s (constant S_ .f32 0x00000000#32) reducesTo_S2x1x256_S1x256_d0 h_S_)
    (broadcastInDim S1x256 ![] bcast_S_S1x256 (constant S_ .f32 0x48F42400#32))

/-- The first normalisation's scale: γ · rsqrt (max (E[x²] − E[x]²) 0 + ε), from the per-core sums `s` and sums of
    squares `q`. -/
def scale1 (s q : FVec F S2x1x256 .f32) (g : FVec F S256 .f32) : FVec F S1x256 .f32 :=
  mulf (shapeCast S1x256 g shapeCasts_S256_S1x256)
    (Host.rsqrt
      (addf
        (maximumf (subf (colMean q) (mulf (colMean s) (colMean s)))
          (broadcastInDim S1x256 ![] bcast_S_S1x256 (constant S_ .f32 0x00000000#32)))
        (broadcastInDim S1x256 ![] bcast_S_S1x256 (constant S_ .f32 0x3727C5AC#32))))

/-- The first normalisation's shift: β − mean · scale. -/
def shift1 (s q : FVec F S2x1x256 .f32) (g b : FVec F S256 .f32) : FVec F S1x256 .f32 :=
  subf (shapeCast S1x256 b shapeCasts_S256_S1x256) (mulf (colMean s) (scale1 s q g))

/-! ## What the host operations write -/

/-- After the host operations between the first two regions, the scale buffer holds `scale1` of the per-core sums,
    the per-core sums of squares and γ as the buffers held them before. -/
theorem after1_scale (W : Valuation τ sig (Elt F)) :
    (StableHlo.after (hostOps1 (F := F)) W main_v30 : S1x256.Idx → F .f32)
      = scale1 (W main_v15_1) (W main_v15_2) (W main_arg6) := by
  after_results_simp
  rfl

/-- … and the shift buffer holds `shift1` of the same and β. -/
theorem after1_shift (W : Valuation τ sig (Elt F)) :
    (StableHlo.after (hostOps1 (F := F)) W main_v33 : S1x256.Idx → F .f32)
      = shift1 (W main_v15_1) (W main_v15_2) (W main_arg6) (W main_arg7) := by
  after_results_simp
  rfl

/-! ## Entry by entry, over the extended reals -/

/-- The sum over the two cores, starting from zero, is the sum of the two cores' entries. -/
theorem coreSum_apply (s : FVec Ideal S2x1x256 .f32) (r : Fin 1) (k : Fin 256) :
    Host.reduceAdd (F := Ideal) s (constant (F := Ideal) S_ .f32 0x00000000#32) reducesTo_S2x1x256_S1x256_d0 h_S_ (ix2 r k)
      = s (ix3 (0 : Fin 2) r k) + s (ix3 (1 : Fin 2) r k) := by
  simp only [Host.reduceAdd, Ideal.hostReduceAdd_def]
  rw [Ideal.hostReduceAdd_single reducesTo_S2x1x256_S1x256_d0 (by decide)]
  have hz : constant (F := Ideal) S_ .f32 0x00000000#32 (Shape.Idx.first h_S_) = 0 := Ideal.ofBits_zero_f32
  rw [hz, zero_add]
  refine (Fin.sum_univ_two _).trans ?_
  refine congrArg₂ (· + ·) (congrArg s (funext fun a => Fin.ext ?_)) (congrArg s (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The mean of a column: the two cores' totals added, over the number of rows. -/
theorem colMean_apply (s : FVec Ideal S2x1x256 .f32) (r : Fin 1) (k : Fin 256) :
    colMean (F := Ideal) s (ix2 r k)
      = Ideal.div (s (ix3 (0 : Fin 2) r k) + s (ix3 (1 : Fin 2) r k)) (Ideal.ofBits .f32 0x48F42400#32) := by
  unfold colMean
  exact congrArg₂ Ideal.div (coreSum_apply s r k) rfl

/-- A vector of 256 entries viewed as one row reads its k-th entry in column k. -/
theorem row_apply (g : FVec Ideal S256 .f32) (r : Fin 1) (k : Fin 256) :
    shapeCast S1x256 g shapeCasts_S256_S1x256 (ix2 r k) = g (ix1 k) := by
  refine shapeCast_apply g _ (ix2 r k) (ix1 k) ?_
  rw [Shape.rowMajor_val_one, Shape.rowMajor_val_two]
  show k.val = r.val * 256 + k.val
  have := r.isLt
  omega

/-- The scale at column k. -/
theorem scale1_apply (s q : FVec Ideal S2x1x256 .f32) (g : FVec Ideal S256 .f32) (r : Fin 1) (k : Fin 256) :
    scale1 (F := Ideal) s q g (ix2 r k)
      = g (ix1 k) * Ideal.rsqrt
          (max (colMean (F := Ideal) q (ix2 r k) - colMean (F := Ideal) s (ix2 r k) * colMean (F := Ideal) s (ix2 r k)) 0
            + Ideal.ofBits .f32 0x3727C5AC#32) := by
  unfold scale1
  show shapeCast S1x256 g shapeCasts_S256_S1x256 (ix2 r k) * Ideal.rsqrt
      (max (colMean (F := Ideal) q (ix2 r k) - colMean (F := Ideal) s (ix2 r k) * colMean (F := Ideal) s (ix2 r k))
          (Ideal.ofBits .f32 0x00000000#32) + Ideal.ofBits .f32 0x3727C5AC#32) = _
  rw [row_apply, Ideal.ofBits_zero_f32]

/-- The shift at column k. -/
theorem shift1_apply (s q : FVec Ideal S2x1x256 .f32) (g b : FVec Ideal S256 .f32) (r : Fin 1) (k : Fin 256) :
    shift1 (F := Ideal) s q g b (ix2 r k)
      = b (ix1 k) - colMean (F := Ideal) s (ix2 r k) * scale1 (F := Ideal) s q g (ix2 r k) := by
  unfold shift1
  show shapeCast S1x256 b shapeCasts_S256_S1x256 (ix2 r k)
      - colMean (F := Ideal) s (ix2 r k) * scale1 (F := Ideal) s q g (ix2 r k) = _
  rw [row_apply]

end Cert.KernelIdeal.HostSide
-- ==== Proof.HostStretch2.lean ====
import proofs.«149722_j50371376447949_2_alg».proof.Proof.HostStretch1

/-!
# The second normalisation's shift and scaled weights, read back from the host arithmetic

Between the second and the third kernel region the program has, per core, the column sums `s` of the rectified
activations h (shape [2, 1, 256]) and their Gram matrices `G` = hᵀ h (shape [2, 256, 256]). The second layer's
pre-activations are h · W₂, so their column statistics need no further pass over the rows: with S = s₀ + s₁,
Γ = G₀ + G₁ and n = 500000 rows, for every output column j,

    mean j  = (Σ_k S k · W₂ k j) / n,
    msq j   = (Σ_k W₂ k j · Σ_l Γ k l · W₂ l j) / n          (the j-th diagonal entry of W₂ᵀ Γ W₂, over n),
    scale j = γ j · rsqrt (max (msq j − mean j · mean j) 0 + ε),
    shift j = β j − mean j · scale j,

and the third region multiplies by the weights with the scale folded in, W₂ k j · scale j. This module names these
functions of the arrays (for any float model), shows that the host operations between the two regions write exactly
them whatever the buffers held before, and reads each of them entry by entry over the extended reals: the sums over
the two cores are sums of two entries, the two matrix products and the column sum are sums over one index, and every
other step acts entry by entry (a change of float format is the identity there).
-/

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The functions of the arrays -/

/-- The column sums added over the two cores. -/
def colTotal (s : FVec F S2x1x256 .f32) : FVec F S1x256 .f32 :=
  Host.reduceAdd s (constant S_ .f32 0x00000000#32) reducesTo_S2x1x256_S1x256_d0 h_S_

/-- The Gram matrices added over the two cores. -/
def gramTotal (G : FVec F S2x256x256 .f32) : FVec F S256x256 .f32 :=
  Host.reduceAdd G (constant S_ .f32 0x00000000#32) reducesTo_S2x256x256_S256x256_d0 h_S_

/-- The second layer's column means: the total column sums times the weights, over the number of rows. -/
def mean2 (s : FVec F S2x1x256 .f32) (w : FVec F S256x256 .f32) : FVec F S1x256 .f32 :=
  Host.divf (Host.dotGeneral dot_S1x256_S256x256_S1x256_1_0_0_1_n_n none (colTotal s) w)
    (broadcastInDim S1x256 ![] bcast_S_S1x256 (constant S_ .f32 0x48F42400#32))

/-- The second layer's column means of squares: the diagonal of W₂ᵀ Γ W₂, over the number of rows. -/
def msq2 (G : FVec F S2x256x256 .f32) (w : FVec F S256x256 .f32) : FVec F S1x256 .f32 :=
  Host.divf
    (broadcastInDim S1x256 ![1] bcast_S256_S1x256_1
      (Host.reduceAdd (mulf w (Host.dotGeneral dot_S256x256_S256x256_S256x256_1_0_0_1_n_n none (gramTotal G) w))
        (constant S_ .f32 0x00000000#32) reducesTo_S256x256_S256_d0 h_S_))
    (broadcastInDim S1x256 ![] bcast_S_S1x256 (constant S_ .f32 0x48F42400#32))

/-- The second normalisation's scale. -/
def scale2 (s : FVec F S2x1x256 .f32) (G : FVec F S2x256x256 .f32) (w : FVec F S256x256 .f32) (g : FVec F S256 .f32) :
    FVec F S1x256 .f32 :=
  mulf (shapeCast S1x256 g shapeCasts_S256_S1x256)
    (Host.rsqrt
      (addf
        (maximumf (subf (msq2 G w) (mulf (mean2 s w) (mean2 s w)))
          (broadcastInDim S1x256 ![] bcast_S_S1x256 (constant S_ .f32 0x00000000#32)))
        (broadcastInDim S1x256 ![] bcast_S_S1x256 (constant S_ .f32 0x3727C5AC#32))))

/-- The second normalisation's shift: β − mean · scale. -/
def shift2 (s : FVec F S2x1x256 .f32) (G : FVec F S2x256x256 .f32) (w : FVec F S256x256 .f32) (g b : FVec F S256 .f32) :
    FVec F S1x256 .f32 :=
  subf (shapeCast S1x256 b shapeCasts_S256_S1x256) (mulf (mean2 s w) (scale2 s G w g))

/-- The second layer's weights with the scale folded into each column, in the matrix unit's input format. -/
def scaledW2 (s : FVec F S2x1x256 .f32) (G : FVec F S2x256x256 .f32) (w : FVec F S256x256 .f32) (g : FVec F S256 .f32) :
    FVec F S256x256 .bf16 :=
  truncf .bf16 (mulf w (broadcastInDim S256x256 ![0, 1] bcast_S1x256_S256x256_0_1 (scale2 s G w g))) bitsLt_bf16_f32

/-! ## What the host operations write -/

/-- After the host operations between the last two regions, the shift buffer holds `shift2` of the per-core column
    sums, the per-core Gram matrices, the weights, γ and β as the buffers held them before. -/
theorem after2_shift (W : Valuation τ sig (Elt F)) :
    (StableHlo.after (hostOps2 (F := F)) W main_v57 : S1x256.Idx → F .f32)
      = shift2 (W main_v34_0) (W main_v34_1) (W main_arg8) (W main_arg9) (W main_arg10) := by
  after_results_simp
  rfl

/-- … and the weight buffer holds `scaledW2` of the same without β. -/
theorem after2_scaledW2 (W : Valuation τ sig (Elt F)) :
    (StableHlo.after (hostOps2 (F := F)) W main_v60 : S256x256.Idx → F .bf16)
      = scaledW2 (W main_v34_0) (W main_v34_1) (W main_arg8) (W main_arg9) := by
  after_results_simp
  rfl

/-! ## Entry by entry, over the extended reals -/

/-- The total column sum: the two cores' entries added. -/
theorem colTotal_apply (s : FVec Ideal S2x1x256 .f32) (r : Fin 1) (k : Fin 256) :
    colTotal (F := Ideal) s (ix2 r k) = s (ix3 (0 : Fin 2) r k) + s (ix3 (1 : Fin 2) r k) :=
  coreSum_apply s r k

/-- The total Gram matrix: the two cores' entries added. -/
theorem gramTotal_apply (G : FVec Ideal S2x256x256 .f32) (k l : Fin 256) :
    gramTotal (F := Ideal) G (ix2 k l) = G (ix3 (0 : Fin 2) k l) + G (ix3 (1 : Fin 2) k l) := by
  unfold gramTotal
  simp only [Host.reduceAdd, Ideal.hostReduceAdd_def]
  rw [Ideal.hostReduceAdd_single reducesTo_S2x256x256_S256x256_d0 (by decide)]
  have hz : constant (F := Ideal) S_ .f32 0x00000000#32 (Shape.Idx.first h_S_) = 0 := Ideal.ofBits_zero_f32
  rw [hz, zero_add]
  refine (Fin.sum_univ_two _).trans ?_
  refine congrArg₂ (· + ·) (congrArg G (funext fun a => Fin.ext ?_)) (congrArg G (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The sum of a 256 × 256 matrix down its rows, starting from zero, at column j. -/
theorem colSum_apply (x : FVec Ideal S256x256 .f32) (j : Fin 256) :
    Host.reduceAdd (F := Ideal) x (constant (F := Ideal) S_ .f32 0x00000000#32) reducesTo_S256x256_S256_d0 h_S_ (ix1 j)
      = ∑ k : Fin 256, x (ix2 k j) := by
  simp only [Host.reduceAdd, Ideal.hostReduceAdd_def]
  rw [Ideal.hostReduceAdd_single reducesTo_S256x256_S256_d0 (by decide)]
  have hz : constant (F := Ideal) S_ .f32 0x00000000#32 (Shape.Idx.first h_S_) = 0 := Ideal.ofBits_zero_f32
  rw [hz, zero_add]
  refine Finset.sum_congr rfl fun k _ => congrArg x (funext fun a => Fin.ext ?_)
  match a with
  | ⟨0, _⟩ => rfl
  | ⟨1, _⟩ => rfl

/-! The two matrix products: the operands' indices at an output index and a contraction index, then the product as a
sum over the contraction index. -/

theorem dotRow_lhs0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem dotRow_rhs1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- A row vector times a 256 × 256 matrix, at column j. -/
theorem dotRow_apply (a : FVec Ideal S1x256 .f32) (w : FVec Ideal S256x256 .f32) (r : Fin 1) (j : Fin 256) :
    Host.dotGeneral dot_S1x256_S256x256_S1x256_1_0_0_1_n_n none a w (ix2 r j) = ∑ k : Fin 256, a (ix2 r k) * w (ix2 k j) := by
  simp only [Host.dotGeneral]
  rw [Ideal.dotGeneral_apply, ← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 r j) ((contrEquiv1 dot_S1x256_S256x256_S1x256_1_0_0_1_n_n 256 rfl rfl).symm k) = ix2 r k :=
    funext fun c => Fin.ext (by
      match c with
      | ⟨0, _⟩ => exact dotRow_lhs0 _ _
      | ⟨1, _⟩ => exact (dot_S1x256_S256x256_S1x256_1_0_0_1_n_n.lhsIdx_val_of_single rfl _ _).trans hk)
  have er : dot_S1x256_S256x256_S1x256_1_0_0_1_n_n.rhsIdx (ix2 r j) ((contrEquiv1 dot_S1x256_S256x256_S1x256_1_0_0_1_n_n 256 rfl rfl).symm k) = ix2 k j :=
    funext fun c => Fin.ext (by
      match c with
      | ⟨0, _⟩ => exact (dot_S1x256_S256x256_S1x256_1_0_0_1_n_n.rhsIdx_val_of_single rfl _ _).trans hk
      | ⟨1, _⟩ => exact dotRow_rhs1 _ _)
  rw [el, er]

theorem dotSq_lhs0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem dotSq_rhs1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- A 256 × 256 matrix times a 256 × 256 matrix, at row k and column j. -/
theorem dotSq_apply (a w : FVec Ideal S256x256 .f32) (k j : Fin 256) :
    Host.dotGeneral dot_S256x256_S256x256_S256x256_1_0_0_1_n_n none a w (ix2 k j) = ∑ l : Fin 256, a (ix2 k l) * w (ix2 l j) := by
  simp only [Host.dotGeneral]
  rw [Ideal.dotGeneral_apply, ← Equiv.sum_comp (contrEquiv1 dot_S256x256_S256x256_S256x256_1_0_0_1_n_n 256 rfl rfl).symm]
  refine Finset.sum_congr rfl fun l _ => ?_
  have hl := contrEquiv1_symm_val dot_S256x256_S256x256_S256x256_1_0_0_1_n_n 256 rfl rfl l
  have el : dot_S256x256_S256x256_S256x256_1_0_0_1_n_n.lhsIdx (ix2 k j) ((contrEquiv1 dot_S256x256_S256x256_S256x256_1_0_0_1_n_n 256 rfl rfl).symm l) = ix2 k l :=
    funext fun c => Fin.ext (by
      match c with
      | ⟨0, _⟩ => exact dotSq_lhs0 _ _
      | ⟨1, _⟩ => exact (dot_S256x256_S256x256_S256x256_1_0_0_1_n_n.lhsIdx_val_of_single rfl _ _).trans hl)
  have er : dot_S256x256_S256x256_S256x256_1_0_0_1_n_n.rhsIdx (ix2 k j) ((contrEquiv1 dot_S256x256_S256x256_S256x256_1_0_0_1_n_n 256 rfl rfl).symm l) = ix2 l j :=
    funext fun c => Fin.ext (by
      match c with
      | ⟨0, _⟩ => exact (dot_S256x256_S256x256_S256x256_1_0_0_1_n_n.rhsIdx_val_of_single rfl _ _).trans hl
      | ⟨1, _⟩ => exact dotSq_rhs1 _ _)
  rw [el, er]

/-- The mean of output column j. -/
theorem mean2_apply (s : FVec Ideal S2x1x256 .f32) (w : FVec Ideal S256x256 .f32) (r : Fin 1) (j : Fin 256) :
    mean2 (F := Ideal) s w (ix2 r j)
      = Ideal.div (∑ k : Fin 256, colTotal (F := Ideal) s (ix2 r k) * w (ix2 k j)) (Ideal.ofBits .f32 0x48F42400#32) := by
  unfold mean2
  exact congrArg₂ Ideal.div (dotRow_apply (colTotal (F := Ideal) s) w r j) rfl

/-- The mean of squares of output column j. -/
theorem msq2_apply (G : FVec Ideal S2x256x256 .f32) (w : FVec Ideal S256x256 .f32) (r : Fin 1) (j : Fin 256) :
    msq2 (F := Ideal) G w (ix2 r j)
      = Ideal.div (∑ k : Fin 256, w (ix2 k j) * ∑ l : Fin 256, gramTotal (F := Ideal) G (ix2 k l) * w (ix2 l j))
          (Ideal.ofBits .f32 0x48F42400#32) := by
  unfold msq2
  refine congrArg₂ Ideal.div ?_ rfl
  refine (broadcastInDim_apply _ bcast_S256_S1x256_1 _ (ix2 r j) (ix1 j) (fun a => match a with
    | ⟨0, _⟩ => by show j.val = if (256 : Nat) = 1 then 0 else j.val; rw [if_neg (by decide)])).trans ?_
  rw [colSum_apply]
  refine Finset.sum_congr rfl fun k _ => ?_
  show w (ix2 k j) * Host.dotGeneral dot_S256x256_S256x256_S256x256_1_0_0_1_n_n none (gramTotal (F := Ideal) G) w (ix2 k j) = _
  rw [dotSq_apply]

/-- The scale at output column j. -/
theorem scale2_apply (s : FVec Ideal S2x1x256 .f32) (G : FVec Ideal S2x256x256 .f32) (w : FVec Ideal S256x256 .f32)
    (g : FVec Ideal S256 .f32) (r : Fin 1) (j : Fin 256) :
    scale2 (F := Ideal) s G w g (ix2 r j)
      = g (ix1 j) * Ideal.rsqrt
          (max (msq2 (F := Ideal) G w (ix2 r j) - mean2 (F := Ideal) s w (ix2 r j) * mean2 (F := Ideal) s w (ix2 r j)) 0
            + Ideal.ofBits .f32 0x3727C5AC#32) := by
  unfold scale2
  show shapeCast S1x256 g shapeCasts_S256_S1x256 (ix2 r j) * Ideal.rsqrt
      (max (msq2 (F := Ideal) G w (ix2 r j) - mean2 (F := Ideal) s w (ix2 r j) * mean2 (F := Ideal) s w (ix2 r j))
          (Ideal.ofBits .f32 0x00000000#32) + Ideal.ofBits .f32 0x3727C5AC#32) = _
  rw [row_apply, Ideal.ofBits_zero_f32]

/-- The shift at output column j. -/
theorem shift2_apply (s : FVec Ideal S2x1x256 .f32) (G : FVec Ideal S2x256x256 .f32) (w : FVec Ideal S256x256 .f32)
    (g b : FVec Ideal S256 .f32) (r : Fin 1) (j : Fin 256) :
    shift2 (F := Ideal) s G w g b (ix2 r j)
      = b (ix1 j) - mean2 (F := Ideal) s w (ix2 r j) * scale2 (F := Ideal) s G w g (ix2 r j) := by
  unfold shift2
  show shapeCast S1x256 b shapeCasts_S256_S1x256 (ix2 r j)
      - mean2 (F := Ideal) s w (ix2 r j) * scale2 (F := Ideal) s G w g (ix2 r j) = _
  rw [row_apply]

/-- The scaled weight at row k and column j: the weight times column j's scale. -/
theorem scaledW2_apply (s : FVec Ideal S2x1x256 .f32) (G : FVec Ideal S2x256x256 .f32) (w : FVec Ideal S256x256 .f32)
    (g : FVec Ideal S256 .f32) (k j : Fin 256) :
    scaledW2 (F := Ideal) s G w g (ix2 k j) = w (ix2 k j) * scale2 (F := Ideal) s G w g (ix2 (0 : Fin 1) j) := by
  unfold scaledW2
  show w (ix2 k j) * broadcastInDim S256x256 ![0, 1] bcast_S1x256_S256x256_0_1 (scale2 (F := Ideal) s G w g) (ix2 k j) = _
  rw [broadcastInDim_apply _ bcast_S1x256_S256x256_0_1 _ (ix2 k j) (ix2 (0 : Fin 1) j) (fun a => match a with
    | ⟨0, _⟩ => by show 0 = if (1 : Nat) = 1 then 0 else k.val; rw [if_pos rfl]
    | ⟨1, _⟩ => by show j.val = if (256 : Nat) = 1 then 0 else j.val; rw [if_neg (by decide)])]

end Cert.KernelIdeal.HostSide
-- ==== Proof.Walk.lean ====
import proofs.«149722_j50371376447949_2_alg».proof.Proof.WalkArgs
import proofs.«149722_j50371376447949_2_alg».proof.Proof.HostStretch0
import proofs.«149722_j50371376447949_2_alg».proof.Proof.HostStretch2

/-!
# What each region finds, and what the result buffer ends holding

The contents of the unscoped buffers fold through the program: the launch memory, then each stretch of host
operations applied, then each region's arrays replaced by what its pipeline leaves. This module walks that fold
backwards from each region's entry to the things its arrays are made of.

* The first region enters with the gathered rows of the table and the four row blocks of the first weight matrix
  (its other three inputs are arguments, as launched).
* The second region enters with the pre-activations the first region left, and the first normalisation's scale and
  shift computed from the per-core sums and sums of squares the first region left.
* The third region enters with the same three arrays (the second region only reads them), and the scaled second
  weight matrix and second shift computed from the per-core column sums and Gram matrices the second region left.
* The result buffer ends at what the third region's pipeline leaves in its output window.
-/

set_option maxRecDepth 16384

noncomputable section

namespace Cert.KernelIdeal.Walk

open Cert.KernelIdeal
open Cert.KernelIdeal.Gen hiding V0 V1 V2 V3 V4 V5 V6 Outs
open Idealize.ShloMosaic Idealize.ShloMosaic.TcCoe
open Idealize.SL Idealize.SL.Sem
open Idealize.ShloMosaic.Pipeline (Dat Cfg Window)
open Cert.KernelIdeal.RunAll Cert.KernelIdeal.HostSide Cert.KernelIdeal.WalkArgs

variable {F : FTy → Type} [FloatOps F]
variable (m : (ℓ : Loc nD τ sig) → Buf (Elt F) ℓ) (c : Dev nD)

/-! ## The first region's entering arrays -/

theorem A0_3 : A0 m c 3 = gatheredRows (m ((c : Thread nD τ).loc main_arg3)) (m ((c : Thread nD τ).loc main_arg4)) :=
  after0_gatheredRows (B0 m c)
theorem A0_4 : A0 m c 4 = w1Rows0 (m ((c : Thread nD τ).loc main_arg5)) := after0_w1Rows0 (B0 m c)
theorem A0_5 : A0 m c 5 = w1Rows128 (m ((c : Thread nD τ).loc main_arg5)) := after0_w1Rows128 (B0 m c)
theorem A0_6 : A0 m c 6 = w1Rows256 (m ((c : Thread nD τ).loc main_arg5)) := after0_w1Rows256 (B0 m c)
theorem A0_7 : A0 m c 7 = w1Rows320 (m ((c : Thread nD τ).loc main_arg5)) := after0_w1Rows320 (B0 m c)

/-! ## The second region's entering arrays -/

/-- The first layer's pre-activations as the first region left them. -/
theorem A1_0 : A1 m c 0 = ((I0.dat c (A0 m c)).arrAt 8 cfg0.N) :=
  (StableHlo.after_of_writes_sub hostOps1 (B2 m c) hostOps1_writes (r := main_v15_0) (by decide)).trans (B2_arr m c 8)

theorem B2_main_v15_1 : B2 m c (Proc.devRef .tc main_v15_1) = ((I0.dat c (A0 m c)).arrAt 9 cfg0.N) := B2_arr m c 9
theorem B2_main_v15_2 : B2 m c (Proc.devRef .tc main_v15_2) = ((I0.dat c (A0 m c)).arrAt 10 cfg0.N) := B2_arr m c 10
theorem B2_main_arg6 : B2 m c (Proc.devRef .tc main_arg6) = (m ((c : Thread nD τ).loc main_arg6)) := B2_keep m c main_arg6 (by decide) (by decide)
theorem B2_main_arg7 : B2 m c (Proc.devRef .tc main_arg7) = (m ((c : Thread nD τ).loc main_arg7)) := B2_keep m c main_arg7 (by decide) (by decide)

/-- The scale, from the sums and sums of squares the first region left. -/
theorem A1_1 : A1 m c 1 = scale1 ((I0.dat c (A0 m c)).arrAt 9 cfg0.N) ((I0.dat c (A0 m c)).arrAt 10 cfg0.N) (m ((c : Thread nD τ).loc main_arg6)) := by
  refine (after1_scale (B2 m c)).trans ?_
  rw [B2_main_v15_1, B2_main_v15_2, B2_main_arg6]

/-- The shift, from the same. -/
theorem A1_2 : A1 m c 2 = shift1 ((I0.dat c (A0 m c)).arrAt 9 cfg0.N) ((I0.dat c (A0 m c)).arrAt 10 cfg0.N) (m ((c : Thread nD τ).loc main_arg6)) (m ((c : Thread nD τ).loc main_arg7)) := by
  refine (after1_shift (B2 m c)).trans ?_
  rw [B2_main_v15_1, B2_main_v15_2, B2_main_arg6, B2_main_arg7]

/-! ## The third region's entering arrays -/

/-- The pre-activations again: the second region only reads them. -/
theorem A2_0 : A2 m c 0 = ((I0.dat c (A0 m c)).arrAt 8 cfg0.N) :=
  (StableHlo.after_of_writes_sub hostOps2 (B4 m c) hostOps2_writes (r := main_v15_0) (by decide)).trans <|
    (B4_arr m c 0).trans <| ((I1.dat c (A1 m c)).arrAt_in 0 rfl _).trans (A1_0 m c)

/-- The first normalisation's scale again. -/
theorem A2_1 : A2 m c 1 = scale1 ((I0.dat c (A0 m c)).arrAt 9 cfg0.N) ((I0.dat c (A0 m c)).arrAt 10 cfg0.N) (m ((c : Thread nD τ).loc main_arg6)) :=
  (StableHlo.after_of_writes_sub hostOps2 (B4 m c) hostOps2_writes (r := main_v30) (by decide)).trans <|
    (B4_arr m c 1).trans <| ((I1.dat c (A1 m c)).arrAt_in 1 rfl _).trans (A1_1 m c)

/-- The first normalisation's shift again. -/
theorem A2_2 : A2 m c 2 = shift1 ((I0.dat c (A0 m c)).arrAt 9 cfg0.N) ((I0.dat c (A0 m c)).arrAt 10 cfg0.N) (m ((c : Thread nD τ).loc main_arg6)) (m ((c : Thread nD τ).loc main_arg7)) :=
  (StableHlo.after_of_writes_sub hostOps2 (B4 m c) hostOps2_writes (r := main_v33) (by decide)).trans <|
    (B4_arr m c 2).trans <| ((I1.dat c (A1 m c)).arrAt_in 2 rfl _).trans (A1_2 m c)

theorem B4_main_v34_0 : B4 m c (Proc.devRef .tc main_v34_0) = ((I1.dat c (A1 m c)).arrAt 3 cfg1.N) := B4_arr m c 3
theorem B4_main_v34_1 : B4 m c (Proc.devRef .tc main_v34_1) = ((I1.dat c (A1 m c)).arrAt 4 cfg1.N) := B4_arr m c 4
theorem B4_main_arg8 : B4 m c (Proc.devRef .tc main_arg8) = (m ((c : Thread nD τ).loc main_arg8)) :=
  B4_keep m c main_arg8 (by decide) (by decide) (by decide) (by decide)
theorem B4_main_arg9 : B4 m c (Proc.devRef .tc main_arg9) = (m ((c : Thread nD τ).loc main_arg9)) :=
  B4_keep m c main_arg9 (by decide) (by decide) (by decide) (by decide)
theorem B4_main_arg10 : B4 m c (Proc.devRef .tc main_arg10) = (m ((c : Thread nD τ).loc main_arg10)) :=
  B4_keep m c main_arg10 (by decide) (by decide) (by decide) (by decide)

/-- The second layer's weights with the second scale folded in, from the column sums and Gram matrices the second
    region left. -/
theorem A2_3 : A2 m c 3 = scaledW2 ((I1.dat c (A1 m c)).arrAt 3 cfg1.N) ((I1.dat c (A1 m c)).arrAt 4 cfg1.N) (m ((c : Thread nD τ).loc main_arg8)) (m ((c : Thread nD τ).loc main_arg9)) := by
  refine (after2_scaledW2 (B4 m c)).trans ?_
  rw [B4_main_v34_0, B4_main_v34_1, B4_main_arg8, B4_main_arg9]

/-- The second shift, from the same. -/
theorem A2_4 : A2 m c 4 = shift2 ((I1.dat c (A1 m c)).arrAt 3 cfg1.N) ((I1.dat c (A1 m c)).arrAt 4 cfg1.N) (m ((c : Thread nD τ).loc main_arg8)) (m ((c : Thread nD τ).loc main_arg9)) (m ((c : Thread nD τ).loc main_arg10)) := by
  refine (after2_shift (B4 m c)).trans ?_
  rw [B4_main_v34_0, B4_main_v34_1, B4_main_arg8, B4_main_arg9, B4_main_arg10]

/-! ## The result -/

/-- The result buffer ends at what the third region's pipeline leaves in its output window. -/
theorem B6_main_v61 : B6 m c (Proc.devRef .tc main_v61) = (R2.dat c (A2 m c)).arrAt 5 cfg2.N := B6_arr m c 5

end Cert.KernelIdeal.Walk
-- ==== Proof.KPre1.lean ====
/-
  The kernel's first product, over the launch memory, in real terms.

  The second kernel region enters with the first region's first output array in its first window. The first region
  entered with the three row arguments as launched, the gathered per-edge globals, and the four row blocks of the first
  layer's weights; so that array holds, at (e, k), the real dense layer's entry of the feature matrix against the
  weights.
-/
import proofs.«149722_j50371376447949_2_alg».proof.Proof.KTile
import proofs.«149722_j50371376447949_2_alg».proof.Proof.Walk
import proofs.«149722_j50371376447949_2_alg».proof.Proof.Gathered

noncomputable section

namespace Cert.KernelIdeal.KL1

open Cert.KernelIdeal Cert.KernelIdeal.Gen Cert.KernelIdeal.HostSide
open Idealize.ShloMosaic Idealize.ShloMosaic.TcCoe Idealize.ShloMosaic.ValueIdx Idealize.SL.Sem
open Cert.RefSide (AllReal)
open Cert.BatchNorm Cert.TwoLayerNorm

/-- The kernel's gather is the shared array of per-edge globals. -/
theorem gatheredRows_eq (a3 : FVec Ideal S512x64 .f32) (a4 : IVec S500000 32) :
    gatheredRows (F := Ideal) a3 a4 = Arrays.ug a3 a4 := rfl

variable (m : (ℓ : Loc nD τ sig) → Buf (Elt Ideal) ℓ) (c : Dev nD)

/-- The feature matrix read off the launch memory. -/
abbrev X : Fin 500000 → Fin 384 → ℝ :=
  Arrays.feat (m ((c.tc : Thread nD τ).loc main_arg0)) (m ((c.tc : Thread nD τ).loc main_arg1)) (m ((c.tc : Thread nD τ).loc main_arg2)) (Arrays.ug (m ((c.tc : Thread nD τ).loc main_arg3)) (m ((c.tc : Thread nD τ).loc main_arg4)))
/-- The first layer's weights, scale and shift parameters read off the launch memory. -/
abbrev W1 : Fin 384 → Fin 256 → ℝ := Arrays.mat (A := 384) (B := 256) (m ((c.tc : Thread nD τ).loc main_arg5))
abbrev g1 : Fin 256 → ℝ := Arrays.vec (A := 256) (m ((c.tc : Thread nD τ).loc main_arg6))
abbrev b1 : Fin 256 → ℝ := Arrays.vec (A := 256) (m ((c.tc : Thread nD τ).loc main_arg7))

/-- The first region's first output array, over the launch memory: the real dense layer's entries. -/
theorem pre1_out_val
    (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5))) (e : Fin 500000) (k : Fin 256) :
    (R0.dat (F := Ideal) c (RunAll.A0 m c)).arrAt 8 cfg0.N (ix2 e k) = ((dense (X m c) (W1 m c) e k : ℝ) : EReal) :=
  pre1_arr_val c (RunAll.A0 m c) (m ((c.tc : Thread nD τ).loc main_arg0)) (m ((c.tc : Thread nD τ).loc main_arg1)) (m ((c.tc : Thread nD τ).loc main_arg2)) (Arrays.ug (m ((c.tc : Thread nD τ).loc main_arg3)) (m ((c.tc : Thread nD τ).loc main_arg4))) (m ((c.tc : Thread nD τ).loc main_arg5))
    (WalkArgs.A0_0 m c) (WalkArgs.A0_1 m c) (WalkArgs.A0_2 m c) ((Walk.A0_3 m c).trans (gatheredRows_eq _ _))
    (Walk.A0_4 m c) (Walk.A0_5 m c) (Walk.A0_6 m c) (Walk.A0_7 m c)
    h0 h1 h2 (Arrays.ug_real _ _ h3) h5 e k

/-- THE FIRST PRODUCT as the second region finds it. -/
theorem pre1_val
    (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5))) (e : Fin 500000) (k : Fin 256) :
    (RunAll.A1 m c 0 : Vec Ideal S500000x256 .bf16) (ix2 e k) = ((dense (X m c) (W1 m c) e k : ℝ) : EReal) := by
  rw [Walk.A1_0 m c]
  exact pre1_out_val m c h0 h1 h2 h3 h5 e k

end Cert.KernelIdeal.KL1

end
-- ==== Proof.R0Sums.lean ====
/-
  The first kernel region's inputs and statistics read at an index.

  First, the blocks: at point t each of the four row inputs' blocks is rows 2000·t … 2000·t + 1999 of its array, and each
  of the four weight slices' blocks is its whole array.

  Then, at the exact values, the two statistics outputs in closed form. The accumulator of column sums after a grid row's
  last point is a fold over the row's 125 points that starts from zero and adds, at each point, the column sums of that
  point's tile product; addition of extended reals is associative and commutative with zero as its unit, so the fold is
  the double sum over the row's tiles and the tile's 2000 rows. The same for the sums of squares. What the body's
  accumulator update does at a column (add the tile's contribution to what it held) and that its starting fill is zero
  are taken as hypotheses here, in the form the payload lemmas state them.
-/
import proofs.«149722_j50371376447949_2_alg».proof.Proof.R0Value

noncomputable section

namespace Cert.KernelIdeal.R0Out

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)
open scoped BigOperators

section Blocks

variable {F : FTy → Type} [FloatOps F]
variable (c : Dev nD) (A : (w : Fin cfg0.W) → Buf (Elt F) ((cfg0.win w).arr.view.loc (c.tc : Thread nD τ)))

/-! ## The input blocks read at an index -/

/-- A row input's block at point `t` is rows 2000·t … of its array. -/
theorem iblk0_apply (t : Fin cfg0.N) (r : Fin 2000) (j : Fin 128) (h : 2000 * t.val + r.val < 500000) :
    (iblk c A 0 t : Vec F S2000x128 .f32) (ix2 r j) = (A 0 : Vec F S500000x128 .f32) (ix2 ⟨2000 * t.val + r.val, h⟩ j) := by
  obtain ⟨h0, h1, -, -, -, -, -, -, -, -⟩ := idx_rows t
  show (A 0 : Vec F S500000x128 .f32) (((cfg0.win 0).blk t).view.emb (ix2 r j)) = _
  refine congrArg (A 0 : Vec F S500000x128 .f32) ?_
  funext a
  apply Fin.ext
  match a with
  | ⟨0, _⟩ => show win0_0.index t (0 : Fin 2) * 2000 + 1 * r.val = 2000 * t.val + r.val; rw [h0]; omega
  | ⟨1, _⟩ => show win0_0.index t (1 : Fin 2) * 128 + 1 * j.val = j.val; rw [h1]; omega
theorem iblk1_apply (t : Fin cfg0.N) (r : Fin 2000) (j : Fin 128) (h : 2000 * t.val + r.val < 500000) :
    (iblk c A 1 t : Vec F S2000x128 .f32) (ix2 r j) = (A 1 : Vec F S500000x128 .f32) (ix2 ⟨2000 * t.val + r.val, h⟩ j) := by
  obtain ⟨-, -, h0, h1, -, -, -, -, -, -⟩ := idx_rows t
  show (A 1 : Vec F S500000x128 .f32) (((cfg0.win 1).blk t).view.emb (ix2 r j)) = _
  refine congrArg (A 1 : Vec F S500000x128 .f32) ?_
  funext a
  apply Fin.ext
  match a with
  | ⟨0, _⟩ => show win0_1.index t (0 : Fin 2) * 2000 + 1 * r.val = 2000 * t.val + r.val; rw [h0]; omega
  | ⟨1, _⟩ => show win0_1.index t (1 : Fin 2) * 128 + 1 * j.val = j.val; rw [h1]; omega
theorem iblk2_apply (t : Fin cfg0.N) (r : Fin 2000) (j : Fin 64) (h : 2000 * t.val + r.val < 500000) :
    (iblk c A 2 t : Vec F S2000x64 .f32) (ix2 r j) = (A 2 : Vec F S500000x64 .f32) (ix2 ⟨2000 * t.val + r.val, h⟩ j) := by
  obtain ⟨-, -, -, -, h0, h1, -, -, -, -⟩ := idx_rows t
  show (A 2 : Vec F S500000x64 .f32) (((cfg0.win 2).blk t).view.emb (ix2 r j)) = _
  refine congrArg (A 2 : Vec F S500000x64 .f32) ?_
  funext a
  apply Fin.ext
  match a with
  | ⟨0, _⟩ => show win0_2.index t (0 : Fin 2) * 2000 + 1 * r.val = 2000 * t.val + r.val; rw [h0]; omega
  | ⟨1, _⟩ => show win0_2.index t (1 : Fin 2) * 64 + 1 * j.val = j.val; rw [h1]; omega
theorem iblk3_apply (t : Fin cfg0.N) (r : Fin 2000) (j : Fin 64) (h : 2000 * t.val + r.val < 500000) :
    (iblk c A 3 t : Vec F S2000x64 .f32) (ix2 r j) = (A 3 : Vec F S500000x64 .f32) (ix2 ⟨2000 * t.val + r.val, h⟩ j) := by
  obtain ⟨-, -, -, -, -, -, h0, h1, -, -⟩ := idx_rows t
  show (A 3 : Vec F S500000x64 .f32) (((cfg0.win 3).blk t).view.emb (ix2 r j)) = _
  refine congrArg (A 3 : Vec F S500000x64 .f32) ?_
  funext a
  apply Fin.ext
  match a with
  | ⟨0, _⟩ => show win0_3.index t (0 : Fin 2) * 2000 + 1 * r.val = 2000 * t.val + r.val; rw [h0]; omega
  | ⟨1, _⟩ => show win0_3.index t (1 : Fin 2) * 64 + 1 * j.val = j.val; rw [h1]; omega

/-- A weight slice's block is its whole array. -/
theorem iblk4_apply (t : Fin cfg0.N) (p : Fin 128) (q : Fin 256) :
    (iblk c A 4 t : Vec F S128x256 .bf16) (ix2 p q) = (A 4 : Vec F S128x256 .bf16) (ix2 p q) := by
  obtain ⟨h0, h1, -, -, -, -, -, -⟩ := idx_weights t
  show (A 4 : Vec F S128x256 .bf16) (((cfg0.win 4).blk t).view.emb (ix2 p q)) = _
  refine congrArg (A 4 : Vec F S128x256 .bf16) ?_
  funext a
  apply Fin.ext
  match a with
  | ⟨0, _⟩ => show win0_4.index t (0 : Fin 2) * 128 + 1 * p.val = p.val; rw [h0]; omega
  | ⟨1, _⟩ => show win0_4.index t (1 : Fin 2) * 256 + 1 * q.val = q.val; rw [h1]; omega
theorem iblk5_apply (t : Fin cfg0.N) (p : Fin 128) (q : Fin 256) :
    (iblk c A 5 t : Vec F S128x256 .bf16) (ix2 p q) = (A 5 : Vec F S128x256 .bf16) (ix2 p q) := by
  obtain ⟨-, -, h0, h1, -, -, -, -⟩ := idx_weights t
  show (A 5 : Vec F S128x256 .bf16) (((cfg0.win 5).blk t).view.emb (ix2 p q)) = _
  refine congrArg (A 5 : Vec F S128x256 .bf16) ?_
  funext a
  apply Fin.ext
  match a with
  | ⟨0, _⟩ => show win0_5.index t (0 : Fin 2) * 128 + 1 * p.val = p.val; rw [h0]; omega
  | ⟨1, _⟩ => show win0_5.index t (1 : Fin 2) * 256 + 1 * q.val = q.val; rw [h1]; omega
theorem iblk6_apply (t : Fin cfg0.N) (p : Fin 64) (q : Fin 256) :
    (iblk c A 6 t : Vec F S64x256 .bf16) (ix2 p q) = (A 6 : Vec F S64x256 .bf16) (ix2 p q) := by
  obtain ⟨-, -, -, -, h0, h1, -, -⟩ := idx_weights t
  show (A 6 : Vec F S64x256 .bf16) (((cfg0.win 6).blk t).view.emb (ix2 p q)) = _
  refine congrArg (A 6 : Vec F S64x256 .bf16) ?_
  funext a
  apply Fin.ext
  match a with
  | ⟨0, _⟩ => show win0_6.index t (0 : Fin 2) * 64 + 1 * p.val = p.val; rw [h0]; omega
  | ⟨1, _⟩ => show win0_6.index t (1 : Fin 2) * 256 + 1 * q.val = q.val; rw [h1]; omega
theorem iblk7_apply (t : Fin cfg0.N) (p : Fin 64) (q : Fin 256) :
    (iblk c A 7 t : Vec F S64x256 .bf16) (ix2 p q) = (A 7 : Vec F S64x256 .bf16) (ix2 p q) := by
  obtain ⟨-, -, -, -, -, -, h0, h1⟩ := idx_weights t
  show (A 7 : Vec F S64x256 .bf16) (((cfg0.win 7).blk t).view.emb (ix2 p q)) = _
  refine congrArg (A 7 : Vec F S64x256 .bf16) ?_
  funext a
  apply Fin.ext
  match a with
  | ⟨0, _⟩ => show win0_7.index t (0 : Fin 2) * 64 + 1 * p.val = p.val; rw [h0]; omega
  | ⟨1, _⟩ => show win0_7.index t (1 : Fin 2) * 256 + 1 * q.val = q.val; rw [h1]; omega

end Blocks

section Sums

variable (c : Dev nD) (A : (w : Fin cfg0.W) → Buf (Elt Ideal) ((cfg0.win w).arr.view.loc (c.tc : Thread nD τ)))

/-! ## The statistics in closed form, at the exact values -/

/-- Point `n`'s tile product, named at every natural number (zero past the grid, where nothing reads it). -/
def tileN (n : ℕ) : FVec Ideal S2000x256 .f32 := if h : n < cfg0.N then tile (F := Ideal) c A ⟨n, h⟩ else fun _ => 0

theorem tileN_eq (n : ℕ) (h : n < cfg0.N) : tileN c A n = tile (F := Ideal) c A ⟨n, h⟩ := dif_pos h

/-- The column of an accumulator's index; -/
def col (i : S1x1x256.Idx) : Fin 256 := ⟨(i 2).val, (i 2).isLt⟩

/-- every index of an accumulator is (0, 0, its column). -/
theorem idx_eq (i : S1x1x256.Idx) : i = ix3 (0 : Fin 1) (0 : Fin 1) (col i) := by
  funext a
  apply Fin.ext
  match a with
  | ⟨0, _⟩ => show (i 0).val = 0; have h : (i 0).val < 1 := (i 0).isLt; omega
  | ⟨1, _⟩ => show (i 1).val = 0; have h : (i 1).val < 1 := (i 1).isLt; omega
  | ⟨2, _⟩ => rfl

/-- Entry (q, 0, k) of the second output after the region: the column sums of the tiles' products, summed over the 125 tiles of grid row q — given that
    the body's accumulator update adds the tile's contribution at a column to what it held, and starts from zero. -/
theorem sum_closed
    (hstep : ∀ (v : FVec Ideal S2000x256 .f32) (s : Vec Ideal S1x1x256 .f32) (k : Fin 256),
      k0_pay1 v s (ix3 (0 : Fin 1) (0 : Fin 1) k) = s (ix3 (0 : Fin 1) (0 : Fin 1) k) + ∑ r : Fin 2000, v (ix2 r k))
    (hzero : ∀ i : S1x1x256.Idx, k0_pay3 (F := Ideal) i = 0) (q : Fin 2) (k : Fin 256) :
    (dat (F := Ideal) c A).arrAt 9 cfg0.N (ix3 q (0 : Fin 1) k)
      = ∑ s ∈ Finset.range 125, ∑ r : Fin 2000, tileN c A (125 * q.val + s) (ix2 r k) := by
  have hN : cfg0.N = 250 := N_0
  have hq := q.isLt
  rw [sum_entry c A q k, accSum_fold c A q.val 124 (by omega) (last_lt q)]
  have key := Pipeline.accAt_add_apply (N := cfg0.N)
    (fun n hn => k0_pay1 (tile (F := Ideal) c A ⟨n, hn⟩) (k0_pay3 (F := Ideal)))
    (fun n hn acc => k0_pay1 (tile (F := Ideal) c A ⟨n, hn⟩) acc)
    (fun _ => (0 : EReal))
    (fun n (i : S1x1x256.Idx) => ∑ r : Fin 2000, tileN c A n (ix2 r (col i)))
    (125 * q.val) 124
    (fun h i => by
      obtain ⟨k', rfl⟩ : ∃ k', i = ix3 (0 : Fin 1) (0 : Fin 1) k' := ⟨col i, idx_eq i⟩
      beta_reduce
      rw [hstep, hzero, tileN_eq c A _ h]; rfl)
    (fun n h acc i _ _ => by
      obtain ⟨k', rfl⟩ : ∃ k', i = ix3 (0 : Fin 1) (0 : Fin 1) k' := ⟨col i, idx_eq i⟩
      beta_reduce
      rw [hstep, tileN_eq c A _ h]; rfl)
    124 (le_refl _) (last_lt q) (ix3 (0 : Fin 1) (0 : Fin 1) k)
  refine key.trans ?_
  beta_reduce
  rw [zero_add]
  rfl

/-- Entry (q, 0, k) of the third output after the region: the column sums of squares of the tiles' products, summed over the 125 tiles of grid row q — given that
    the body's accumulator update adds the tile's contribution at a column to what it held, and starts from zero. -/
theorem sq_closed
    (hstep : ∀ (v : FVec Ideal S2000x256 .f32) (s : Vec Ideal S1x1x256 .f32) (k : Fin 256),
      k0_pay2 v s (ix3 (0 : Fin 1) (0 : Fin 1) k) = s (ix3 (0 : Fin 1) (0 : Fin 1) k) + ∑ r : Fin 2000, v (ix2 r k) * v (ix2 r k))
    (hzero : ∀ i : S1x1x256.Idx, k0_pay4 (F := Ideal) i = 0) (q : Fin 2) (k : Fin 256) :
    (dat (F := Ideal) c A).arrAt 10 cfg0.N (ix3 q (0 : Fin 1) k)
      = ∑ s ∈ Finset.range 125, ∑ r : Fin 2000, tileN c A (125 * q.val + s) (ix2 r k) * tileN c A (125 * q.val + s) (ix2 r k) := by
  have hN : cfg0.N = 250 := N_0
  have hq := q.isLt
  rw [sq_entry c A q k, accSq_fold c A q.val 124 (by omega) (last_lt q)]
  have key := Pipeline.accAt_add_apply (N := cfg0.N)
    (fun n hn => k0_pay2 (tile (F := Ideal) c A ⟨n, hn⟩) (k0_pay4 (F := Ideal)))
    (fun n hn acc => k0_pay2 (tile (F := Ideal) c A ⟨n, hn⟩) acc)
    (fun _ => (0 : EReal))
    (fun n (i : S1x1x256.Idx) => ∑ r : Fin 2000, tileN c A n (ix2 r (col i)) * tileN c A n (ix2 r (col i)))
    (125 * q.val) 124
    (fun h i => by
      obtain ⟨k', rfl⟩ : ∃ k', i = ix3 (0 : Fin 1) (0 : Fin 1) k' := ⟨col i, idx_eq i⟩
      beta_reduce
      rw [hstep, hzero, tileN_eq c A _ h]; rfl)
    (fun n h acc i _ _ => by
      obtain ⟨k', rfl⟩ : ∃ k', i = ix3 (0 : Fin 1) (0 : Fin 1) k' := ⟨col i, idx_eq i⟩
      beta_reduce
      rw [hstep, tileN_eq c A _ h]; rfl)
    124 (le_refl _) (last_lt q) (ix3 (0 : Fin 1) (0 : Fin 1) k)
  refine key.trans ?_
  beta_reduce
  rw [zero_add]
  rfl

end Sums

end Cert.KernelIdeal.R0Out

end
-- ==== Proof.Join.lean ====
/-
  The kernel's arithmetic, stage by stage, is the folded two-layer form — with no program in sight.

  Given, on the extended reals and entry by entry: the first product `P` as the coercion of the real product; the two
  cores' partial column sums of `P` and of its squares adding up to the sums over all rows; the first scale and shift
  computed from those totals exactly as the host computes them (quotients by the row count, the clamp at zero, the
  reciprocal square root of the variance plus epsilon); the hidden activations `max (P · scale + shift) 0`; the two cores'
  partial column sums and Gram matrices of the hidden activations adding up to the totals; the second layer's mean and
  mean of squares from those totals against the weights; its scale and shift; and the output
  `Σ_k hidden · (weights · scale₂) + shift₂` — the output is the coercion of `outF` of the real arrays.

  Every step is the same remark: on finite values the exact operations are the real ones (Proof/LibBatchNorm.lean's last
  section), so each stage's value is the coercion of the stage's real formula, and the formulas are `outF`'s by definition.
-/
import proofs.«149722_j50371376447949_2_alg».proof.Proof.LibTwoLayerNorm

noncomputable section

namespace Cert.Join

open Idealize.ShloMosaic Cert.BatchNorm Cert.TwoLayerNorm

/-- The host's scale from a column's two sums, all real: the real `scaleOf`. -/
theorem scale_exact {n eps : ℝ} (hn : n ≠ 0) (he : 0 < eps) (s q g : ℝ) :
    (g : EReal) * Ideal.rsqrt (max (Ideal.div (q : EReal) (n : EReal) - Ideal.div (s : EReal) (n : EReal) * Ideal.div (s : EReal) (n : EReal)) 0 + (eps : EReal))
      = ((scaleOf n eps s q g : ℝ) : EReal) := by
  have hpos : 0 < max (q / n - s / n * (s / n)) 0 + eps := add_pos_of_nonneg_of_pos (le_max_right _ _) he
  rw [div_coe_coe q hn, div_coe_coe s hn, ← EReal.coe_mul, ← EReal.coe_sub, max_coe_zero, ← EReal.coe_add,
    rsqrt_coe_pos hpos, ← EReal.coe_mul]
  rfl

/-- The host's shift, all real: the real `shiftOf`. -/
theorem shift_exact {n eps : ℝ} (hn : n ≠ 0) (s q g b : ℝ) :
    (b : EReal) - Ideal.div (s : EReal) (n : EReal) * ((scaleOf n eps s q g : ℝ) : EReal) = ((shiftOf n eps s q g b : ℝ) : EReal) := by
  rw [div_coe_coe s hn, ← EReal.coe_mul, ← EReal.coe_sub]
  rfl

section Stages

variable {ι α κ ο : Type*} [Fintype ι] [Fintype α] [Fintype κ] [Fintype ο]
variable {n eps : ℝ}
variable (x : ι → α → ℝ) (w1 : α → κ → ℝ) (g1 b1 : κ → ℝ) (w2 : κ → ο → ℝ) (g2 b2 : ο → ℝ)

/-- The first layer's two-core totals are the real column sums. -/
theorem total1 (P : ι → κ → EReal) (hP : ∀ e k, P e k = ((dense x w1 e k : ℝ) : EReal))
    (s0 s1 : κ → EReal) (hs : ∀ k, s0 k + s1 k = ∑ e, P e k) (k : κ) : s0 k + s1 k = ((sum1 x w1 k : ℝ) : EReal) := by
  rw [hs]; simp only [hP]; rw [← coe_sum]; rfl

theorem totalsq1 (P : ι → κ → EReal) (hP : ∀ e k, P e k = ((dense x w1 e k : ℝ) : EReal))
    (q0 q1 : κ → EReal) (hq : ∀ k, q0 k + q1 k = ∑ e, P e k * P e k) (k : κ) : q0 k + q1 k = ((sumsq1 x w1 k : ℝ) : EReal) := by
  rw [hq]; simp only [hP, ← EReal.coe_mul]; rw [← coe_sum]; rfl

/-- The hidden activations: one multiply-add and the clamp, on reals. -/
theorem hidden_val (hn : n ≠ 0) (he : 0 < eps) (P : ι → κ → EReal) (hP : ∀ e k, P e k = ((dense x w1 e k : ℝ) : EReal))
    (SC SH : κ → EReal)
    (hSC : ∀ k, SC k = ((scaleOf n eps (sum1 x w1 k) (sumsq1 x w1 k) (g1 k) : ℝ) : EReal))
    (hSH : ∀ k, SH k = ((shiftOf n eps (sum1 x w1 k) (sumsq1 x w1 k) (g1 k) (b1 k) : ℝ) : EReal)) (e : ι) (k : κ) :
    max (P e k * SC k + SH k) 0 = ((hF n eps x w1 g1 b1 e k : ℝ) : EReal) := by
  rw [hP, hSC, hSH, ← EReal.coe_mul, ← EReal.coe_add, max_coe_zero]
  rfl

/-- The second layer's column sums from the hidden column sums: the real `sum2`. -/
theorem sum2_val (h : ι → κ → ℝ) (C : κ → EReal) (hC : ∀ k, C k = ((colsum h k : ℝ) : EReal)) (j : ο) :
    ∑ k, C k * ((w2 k j : ℝ) : EReal) = ((sum2 h w2 j : ℝ) : EReal) := by
  simp only [hC, ← EReal.coe_mul]; rw [← coe_sum]; rfl

/-- The second layer's column sums of squares from the Gram matrix: the real `sumsq2`. -/
theorem sumsq2_val (h : ι → κ → ℝ) (G : κ → κ → EReal) (hG : ∀ k l, G k l = ((gram h k l : ℝ) : EReal)) (j : ο) :
    ∑ k, ((w2 k j : ℝ) : EReal) * ∑ l, G k l * ((w2 l j : ℝ) : EReal) = ((sumsq2 h w2 j : ℝ) : EReal) := by
  have inner : ∀ k, ∑ l, G k l * ((w2 l j : ℝ) : EReal) = ((∑ l, gram h k l * w2 l j : ℝ) : EReal) := fun k => by
    simp only [hG, ← EReal.coe_mul]; rw [← coe_sum]
  simp only [inner, ← EReal.coe_mul]; rw [← coe_sum]; rfl

/-- The hidden totals are the real column sums and Gram matrix. -/
theorem colsum_val (h : ι → κ → ℝ) (H : ι → κ → EReal) (hH : ∀ e k, H e k = ((h e k : ℝ) : EReal))
    (c0 c1 : κ → EReal) (hc : ∀ k, c0 k + c1 k = ∑ e, H e k) (k : κ) : c0 k + c1 k = ((colsum h k : ℝ) : EReal) := by
  rw [hc]; simp only [hH]; rw [← coe_sum]; rfl

theorem gram_val (h : ι → κ → ℝ) (H : ι → κ → EReal) (hH : ∀ e k, H e k = ((h e k : ℝ) : EReal))
    (m0 m1 : κ → κ → EReal) (hm : ∀ k l, m0 k l + m1 k l = ∑ e, H e k * H e l) (k l : κ) :
    m0 k l + m1 k l = ((gram h k l : ℝ) : EReal) := by
  rw [hm]; simp only [hH, ← EReal.coe_mul]; rw [← coe_sum]; rfl

/-- THE OUTPUT ENTRY: hidden against the scaled weights, plus the second shift, is the folded form. -/
theorem out_val (e : ι) (j : ο) (Hrow : κ → EReal) (hH : ∀ k, Hrow k = ((hF n eps x w1 g1 b1 e k : ℝ) : EReal))
    (WS : κ → EReal)
    (hWS : ∀ k, WS k = ((w2 k j * scaleOf n eps (sum2 (hF n eps x w1 g1 b1) w2 j) (sumsq2 (hF n eps x w1 g1 b1) w2 j) (g2 j) : ℝ) : EReal))
    (T : EReal)
    (hT : T = ((shiftOf n eps (sum2 (hF n eps x w1 g1 b1) w2 j) (sumsq2 (hF n eps x w1 g1 b1) w2 j) (g2 j) (b2 j) : ℝ) : EReal)) :
    (∑ k, Hrow k * WS k) + T = ((outF n eps x w1 g1 b1 w2 g2 b2 e j : ℝ) : EReal) := by
  simp only [hH, hWS, hT, ← EReal.coe_mul]; rw [← coe_sum, ← EReal.coe_add]; rfl

end Stages

end Cert.Join

end
-- ==== Proof.KLayer1.lean ====
/-
  The kernel's first normalisation, over the launch memory, in real terms.

  The first region leaves, beside the first product, each core's column sums of its half of the tiles and the column
  sums of their squares. A core's row of 125 tiles of 2000 rows is a quarter of a million consecutive rows, so the two
  cores' sums add up to the sums over all 500000 rows: the real column sums of the dense layer and of its squares. The
  host arithmetic between the regions turns them into the first normalisation's scale and shift; on real values those
  are the folded form's scale and shift.
-/
import proofs.«149722_j50371376447949_2_alg».proof.Proof.KPre1
import proofs.«149722_j50371376447949_2_alg».proof.Proof.R0Sums
import proofs.«149722_j50371376447949_2_alg».proof.Proof.Join
import proofs.«149722_j50371376447949_2_alg».proof.Proof.LibSumRegroup

noncomputable section

namespace Cert.KernelIdeal.KL1

open Cert.KernelIdeal Cert.KernelIdeal.Gen Cert.KernelIdeal.HostSide
open Idealize.ShloMosaic Idealize.ShloMosaic.TcCoe Idealize.ShloMosaic.ValueIdx Idealize.SL.Sem
open Cert.RefSide (AllReal)
open Cert.BatchNorm Cert.TwoLayerNorm
open scoped BigOperators

/-! ## A core's tiles are consecutive rows -/

section Regroup

variable {M : Type*} [AddCommMonoid M]

/-- A core's 125 tiles of 2000 rows, summed tile by tile, when tile `n`'s row `r` is row `2000·n + r` of a column. -/
theorem core_rows (f : Fin 500000 → M) (g : ℕ → Fin 2000 → M)
    (hg : ∀ (n : ℕ) (r : Fin 2000) (h : 2000 * n + r.val < 500000), g n r = f ⟨2000 * n + r.val, h⟩) (q : Fin 2) :
    ∑ s ∈ Finset.range 125, ∑ r : Fin 2000, g (125 * q.val + s) r
      = ∑ j : Fin 125, ∑ r : Fin 2000,
          f ⟨(q.val * 125 + j.val) * 2000 + r.val, Cert.SumRegroup.mul_add_mul_add_lt (a := 2) q j r⟩ := by
  rw [← Fin.sum_univ_eq_sum_range (fun s => ∑ r : Fin 2000, g (125 * q.val + s) r) 125]
  refine Finset.sum_congr rfl fun j _ => Finset.sum_congr rfl fun r _ => ?_
  have hq := q.isLt
  have hj := j.isLt
  have hr := r.isLt
  rw [hg (125 * q.val + j.val) r (by omega)]
  exact congrArg f (Fin.ext (by
    show 2000 * (125 * q.val + j.val) + r.val = (q.val * 125 + j.val) * 2000 + r.val
    omega))

/-- The two cores' sums add up to the sum over all rows. -/
theorem two_cores (f : Fin 500000 → M) (g : ℕ → Fin 2000 → M)
    (hg : ∀ (n : ℕ) (r : Fin 2000) (h : 2000 * n + r.val < 500000), g n r = f ⟨2000 * n + r.val, h⟩) :
    (∑ s ∈ Finset.range 125, ∑ r : Fin 2000, g (125 * (0 : Fin 2).val + s) r)
        + (∑ s ∈ Finset.range 125, ∑ r : Fin 2000, g (125 * (1 : Fin 2).val + s) r)
      = ∑ e, f e := by
  rw [Cert.SumRegroup.sum_rows_by_tile f, Fin.sum_univ_two, core_rows f g hg 0, core_rows f g hg 1]

end Regroup

/-! ## The sums the first region leaves -/

variable (m : (ℓ : Loc nD τ sig) → Buf (Elt Ideal) ℓ) (c : Dev nD)

/-- Row `r` of tile `n`, over the launch memory: the real dense layer's entry at row `2000·n + r`. -/
theorem tileN_val (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5)))
    (k : Fin 256) (n : ℕ) (r : Fin 2000) (h : 2000 * n + r.val < 500000) :
    R0Out.tileN c (RunAll.A0 m c) n (ix2 r k) = ((dense (X m c) (W1 m c) ⟨2000 * n + r.val, h⟩ k : ℝ) : EReal) := by
  have hn : n < cfg0.N := by
    have hN : cfg0.N = 250 := N_0
    omega
  rw [R0Out.tileN_eq c (RunAll.A0 m c) n hn]
  exact tile_val c (RunAll.A0 m c) (m ((c.tc : Thread nD τ).loc main_arg0)) (m ((c.tc : Thread nD τ).loc main_arg1)) (m ((c.tc : Thread nD τ).loc main_arg2)) (Arrays.ug (m ((c.tc : Thread nD τ).loc main_arg3)) (m ((c.tc : Thread nD τ).loc main_arg4))) (m ((c.tc : Thread nD τ).loc main_arg5))
    (WalkArgs.A0_0 m c) (WalkArgs.A0_1 m c) (WalkArgs.A0_2 m c) ((Walk.A0_3 m c).trans (gatheredRows_eq _ _))
    (Walk.A0_4 m c) (Walk.A0_5 m c) (Walk.A0_6 m c) (Walk.A0_7 m c)
    h0 h1 h2 (Arrays.ug_real _ _ h3) h5 ⟨n, hn⟩ r k h

/-- The two cores' column sums add up to the real column sums of the dense layer. -/
theorem sums_val (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5)))
    (s : Vec Ideal S2x1x256 .f32) (hs : (R0.dat (F := Ideal) c (RunAll.A0 m c)).arrAt 9 cfg0.N = s) (k : Fin 256) :
    s (ix3 (0 : Fin 2) (0 : Fin 1) k) + s (ix3 (1 : Fin 2) (0 : Fin 1) k)
      = ((sum1 (X m c) (W1 m c) k : ℝ) : EReal) := by
  subst hs
  rw [R0Out.sum_closed c (RunAll.A0 m c) R0V.sum_apply R0V.zero3 0 k, R0Out.sum_closed c (RunAll.A0 m c) R0V.sum_apply R0V.zero3 1 k]
  refine (two_cores (fun e => ((dense (X m c) (W1 m c) e k : ℝ) : EReal))
    (fun n r => R0Out.tileN c (RunAll.A0 m c) n (ix2 r k)) (fun n r h => tileN_val m c h0 h1 h2 h3 h5 k n r h)).trans ?_
  rw [← coe_sum]
  rfl

/-- The two cores' column sums of squares add up to the real ones. -/
theorem sumsqs_val (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5)))
    (q : Vec Ideal S2x1x256 .f32) (hq : (R0.dat (F := Ideal) c (RunAll.A0 m c)).arrAt 10 cfg0.N = q) (k : Fin 256) :
    q (ix3 (0 : Fin 2) (0 : Fin 1) k) + q (ix3 (1 : Fin 2) (0 : Fin 1) k)
      = ((sumsq1 (X m c) (W1 m c) k : ℝ) : EReal) := by
  subst hq
  rw [R0Out.sq_closed c (RunAll.A0 m c) R0V.sq_apply R0V.zero4 0 k, R0Out.sq_closed c (RunAll.A0 m c) R0V.sq_apply R0V.zero4 1 k]
  refine (two_cores
    (fun e => ((dense (X m c) (W1 m c) e k : ℝ) : EReal) * ((dense (X m c) (W1 m c) e k : ℝ) : EReal))
    (fun n r => R0Out.tileN c (RunAll.A0 m c) n (ix2 r k) * R0Out.tileN c (RunAll.A0 m c) n (ix2 r k))
    (fun n r h => by
      show R0Out.tileN c (RunAll.A0 m c) n (ix2 r k) * R0Out.tileN c (RunAll.A0 m c) n (ix2 r k) = _
      rw [tileN_val m c h0 h1 h2 h3 h5 k n r h])).trans ?_
  simp only [← EReal.coe_mul]
  rw [← coe_sum]
  rfl

/-! ## The scale and the shift -/

/-- The host's scale from the sums the first region leaves: the folded form's. -/
theorem scale1_core (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5))) (h6 : AllReal (s := S256) (m ((c.tc : Thread nD τ).loc main_arg6)))
    (s : Vec Ideal S2x1x256 .f32) (hs : (R0.dat (F := Ideal) c (RunAll.A0 m c)).arrAt 9 cfg0.N = s)
    (q : Vec Ideal S2x1x256 .f32) (hq : (R0.dat (F := Ideal) c (RunAll.A0 m c)).arrAt 10 cfg0.N = q) (k : Fin 256) :
    scale1 (F := Ideal) s q (m ((c.tc : Thread nD τ).loc main_arg6)) (ix2 (0 : Fin 1) k)
      = ((scaleOf 500000 Arrays.eps (sum1 (X m c) (W1 m c) k) (sumsq1 (X m c) (W1 m c) k) (g1 m c k) : ℝ) : EReal) := by
  refine (scale1_apply _ _ _ (0 : Fin 1) k).trans ?_
  rw [colMean_apply, colMean_apply, sums_val m c h0 h1 h2 h3 h5 s hs k, sumsqs_val m c h0 h1 h2 h3 h5 q hq k, Arrays.ofBits_n,
    Arrays.ofBits_eps, Arrays.coe_vec (A := 256) (m ((c.tc : Thread nD τ).loc main_arg6)) h6]
  exact Cert.Join.scale_exact (by norm_num) Arrays.eps_pos _ _ _

/-- THE FIRST SCALE as the second region finds it. -/
theorem scale1_val (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5))) (h6 : AllReal (s := S256) (m ((c.tc : Thread nD τ).loc main_arg6))) (k : Fin 256) :
    (RunAll.A1 m c 1 : Vec Ideal S1x256 .f32) (ix2 (0 : Fin 1) k)
      = ((scaleOf 500000 Arrays.eps (sum1 (X m c) (W1 m c) k) (sumsq1 (X m c) (W1 m c) k) (g1 m c k) : ℝ) : EReal) :=
  (congrFun (Walk.A1_1 m c) (ix2 (0 : Fin 1) k)).trans (scale1_core m c h0 h1 h2 h3 h5 h6 _ rfl _ rfl k)

/-- THE FIRST SHIFT as the second region finds it. -/
theorem shift1_val (h0 : AllReal (s := S500000x128) (m ((c.tc : Thread nD τ).loc main_arg0))) (h1 : AllReal (s := S500000x128) (m ((c.tc : Thread nD τ).loc main_arg1)))
    (h2 : AllReal (s := S500000x64) (m ((c.tc : Thread nD τ).loc main_arg2))) (h3 : AllReal (s := S512x64) (m ((c.tc : Thread nD τ).loc main_arg3)))
    (h5 : AllReal (s := S384x256) (m ((c.tc : Thread nD τ).loc main_arg5))) (h6 : AllReal (s := S256) (m ((c.tc : Thread nD τ).loc main_arg6))) (h7 : AllReal (s := S256) (m ((c.tc : Thread nD τ).loc main_arg7))) (k : Fin 256) :
    (RunAll.A1 m c 2 : Vec Ideal S1x256 .f32) (ix2 (0 : Fin 1) k)
      = ((shiftOf 500000 Arrays.eps (sum1 (X m c) (W1 m c) k) (sumsq1 (X m c) (W1 m c) k) (g1 m c k) (b1 m c k) : ℝ)
          : EReal) := by
  refine (congrFun (Walk.A1_2 m c) (ix2 (0 : Fin 1) k)).trans ?_
  refine (shift1_apply _ _ _ _ (0 : Fin 1) k).trans ?_
  rw [scale1_core m c h0 h1 h2 h3 h5 h6 _ rfl _ rfl k, colMean_apply, sums_val m c h0 h1 h2 h3 h5 _ rfl k, Arrays.ofBits_n,
    Arrays.coe_vec (A := 256) (m ((c.tc : Thread nD τ).loc main_arg7)) h7]
  exact Cert.Join.shift_exact (by norm_num) _ _ _ _

end Cert.KernelIdeal.KL1

end
-- ==== Proof.LibFoldedExact.lean ====
/-
  The folded form of two normalised dense layers, computed by the exact operations on the extended reals, is the
  real arithmetic of Proof/LibTwoLayerNorm.lean.

  * THE FIRST PRODUCT, PART BY PART. The feature matrix is four blocks side by side, so a row of it against a weight
    column is the sum of four partial products, one per block against the matching rows of the weights
    (`dense_feat`).
  * THE STATISTICS' ARITHMETIC. From a column's two sums `s` (of the entries) and `q` (of their squares), both reals,
    the exact quotients by the row count, the exact difference `q/n - (s/n)²`, its maximum with zero, the regulariser
    added, the exact reciprocal square root (of a positive real), and the product with the scale parameter are all
    real operations on real values: the result is the coercion of `scaleOf` (`scale_exact`), and
    `β - (s/n) · scale` is the coercion of `shiftOf` (`shift_exact`). The row count and the regulariser enter as the
    single-precision patterns that denote `500000` and `eps`.
  * THE HIDDEN ENTRY: a multiply-add of reals and a maximum with zero (`hidden_exact`), which at the first layer's
    scale and shift is `hF` (`hF_exact`).
  * THE SECOND LAYER'S STATISTICS from the column sums and the Gram matrix (`sum2_exact`, `sumsq2_exact`).
  * THE OUTPUT ENTRY: a sum of products of reals against the scaled weights, plus the shift (`out_exact`), which at
    the second layer's scale and shift is `outF` (`outF_exact`).
-/
import proofs.«149722_j50371376447949_2_alg».proof.Proof.LibTwoLayerNorm
import proofs.«149722_j50371376447949_2_alg».proof.Proof.LibSumRegroup
import proofs.«149722_j50371376447949_2_alg».proof.Proof.Arrays
import Idealize.ShloMosaic.PureOps.Ideal

noncomputable section

namespace Cert.FoldedExact

open Idealize.ShloMosaic Cert.BatchNorm Cert.TwoLayerNorm Cert.Arrays

/-! ## The first product, part by part -/

/-- A row of the four-block feature matrix against a weight column is the sum of the four partial products: each
    block against the rows of the weights at the block's columns. -/
theorem dense_feat {δ : Type*} (a0 a1 : (⟨2, ![500000, 128]⟩ : Shape).Idx → EReal)
    (a2 ug : (⟨2, ![500000, 64]⟩ : Shape).Idx → EReal) (w1 : Fin 384 → δ → ℝ) (e : Fin 500000) (k : δ) :
    dense (feat a0 a1 a2 ug) w1 e k
      = (∑ i : Fin 128, mat a0 e i * w1 ⟨i.val, by omega⟩ k)
        + (∑ i : Fin 128, mat a1 e i * w1 ⟨128 + i.val, by omega⟩ k)
        + (∑ i : Fin 64, mat a2 e i * w1 ⟨256 + i.val, by omega⟩ k)
        + (∑ i : Fin 64, mat ug e i * w1 ⟨320 + i.val, by omega⟩ k) := by
  have e0 : ∀ i : Fin 128, feat a0 a1 a2 ug e ⟨i.val, by omega⟩ = mat a0 e i := fun i =>
    feat_block0 a0 a1 a2 ug e ⟨i.val, by omega⟩ i.isLt
  have e1 : ∀ i : Fin 128, feat a0 a1 a2 ug e ⟨128 + i.val, by omega⟩ = mat a1 e i := fun i => by
    rw [feat_block1 a0 a1 a2 ug e ⟨128 + i.val, by omega⟩ (by show ¬ 128 + i.val < 128; omega)
      (by show 128 + i.val < 256; omega)]
    exact congrArg (mat a1 e) (Fin.ext (by show 128 + i.val - 128 = i.val; omega))
  have e2 : ∀ i : Fin 64, feat a0 a1 a2 ug e ⟨256 + i.val, by omega⟩ = mat a2 e i := fun i => by
    rw [feat_block2 a0 a1 a2 ug e ⟨256 + i.val, by omega⟩ (by show ¬ 256 + i.val < 256; omega)
      (by show 256 + i.val < 320; omega)]
    exact congrArg (mat a2 e) (Fin.ext (by show 256 + i.val - 256 = i.val; omega))
  have e3 : ∀ i : Fin 64, feat a0 a1 a2 ug e ⟨320 + i.val, by omega⟩ = mat ug e i := fun i => by
    rw [feat_block3 a0 a1 a2 ug e ⟨320 + i.val, by omega⟩ (by show ¬ 320 + i.val < 320; omega)]
    exact congrArg (mat ug e) (Fin.ext (by show 320 + i.val - 320 = i.val; omega))
  unfold dense
  rw [Cert.SumRegroup.sum_cols_by_part]
  simp only [e0, e1, e2, e3]

/-! ## Quotients by the row count -/

/-- The exact quotient of a real by the pattern that denotes the row count is the real quotient. -/
theorem div_n (a : ℝ) :
    Ideal.div (a : EReal) (Ideal.ofBits .f32 0x48F42400#32) = ((a / 500000 : ℝ) : EReal) := by
  rw [ofBits_n, div_coe_coe a (by norm_num)]

/-- The two halves' totals added, then divided by the row count. -/
theorem div_add_n (x y : ℝ) :
    Ideal.div ((x : EReal) + (y : EReal)) (Ideal.ofBits .f32 0x48F42400#32) = (((x + y) / 500000 : ℝ) : EReal) := by
  rw [← EReal.coe_add, div_n]

/-! ## The scale and the shift from a column's two sums -/

/-- The scale, for any non-zero row count and positive regulariser given as reals. -/
theorem scale_exact_of {n eps : ℝ} (hn : n ≠ 0) (he : 0 < eps) (s q γ : ℝ) :
    (γ : EReal) * Ideal.rsqrt (max (Ideal.div (q : EReal) (n : EReal)
        - Ideal.div (s : EReal) (n : EReal) * Ideal.div (s : EReal) (n : EReal)) 0 + (eps : EReal))
      = ((scaleOf n eps s q γ : ℝ) : EReal) := by
  rw [div_coe_coe q hn, div_coe_coe s hn, ← EReal.coe_mul, ← EReal.coe_sub, max_coe_zero, ← EReal.coe_add,
    rsqrt_coe_pos (add_pos_of_nonneg_of_pos (le_max_right _ _) he), ← EReal.coe_mul]
  rfl

/-- The shift, for any non-zero row count given as a real. -/
theorem shift_exact_of {n : ℝ} (hn : n ≠ 0) (eps s q γ β : ℝ) :
    (β : EReal) - Ideal.div (s : EReal) (n : EReal) * ((scaleOf n eps s q γ : ℝ) : EReal)
      = ((shiftOf n eps s q γ β : ℝ) : EReal) := by
  rw [div_coe_coe s hn, ← EReal.coe_mul, ← EReal.coe_sub]
  rfl

/-- THE SCALE, with the row count and the regulariser as the patterns that denote them. -/
theorem scale_exact (s q γ : ℝ) :
    (γ : EReal) * Ideal.rsqrt (max (Ideal.div (q : EReal) (Ideal.ofBits .f32 0x48F42400#32)
        - Ideal.div (s : EReal) (Ideal.ofBits .f32 0x48F42400#32)
          * Ideal.div (s : EReal) (Ideal.ofBits .f32 0x48F42400#32)) 0 + Ideal.ofBits .f32 0x3727C5AC#32)
      = ((scaleOf 500000 eps s q γ : ℝ) : EReal) := by
  rw [ofBits_n, ofBits_eps]
  exact scale_exact_of (by norm_num) eps_pos s q γ

/-- THE SHIFT, with the row count as the pattern that denotes it. -/
theorem shift_exact (s q γ β : ℝ) :
    (β : EReal) - Ideal.div (s : EReal) (Ideal.ofBits .f32 0x48F42400#32)
        * ((scaleOf 500000 eps s q γ : ℝ) : EReal)
      = ((shiftOf 500000 eps s q γ β : ℝ) : EReal) := by
  rw [ofBits_n]
  exact shift_exact_of (by norm_num) eps s q γ β

/-! ## The hidden entry -/

/-- A multiply-add of reals and the maximum with zero. -/
theorem hidden_exact (p sc sh : ℝ) :
    max ((p : EReal) * (sc : EReal) + (sh : EReal)) 0 = ((max (p * sc + sh) 0 : ℝ) : EReal) := by
  rw [← EReal.coe_mul, ← EReal.coe_add, max_coe_zero]

/-- At the first layer's scale and shift the hidden entry is the folded form's. -/
theorem hF_exact {ι α κ : Type*} [Fintype ι] [Fintype α] (n eps : ℝ) (x : ι → α → ℝ) (w1 : α → κ → ℝ)
    (g1 b1 : κ → ℝ) (e : ι) (k : κ) :
    max (((dense x w1 e k : ℝ) : EReal) * ((scaleOf n eps (sum1 x w1 k) (sumsq1 x w1 k) (g1 k) : ℝ) : EReal)
        + ((shiftOf n eps (sum1 x w1 k) (sumsq1 x w1 k) (g1 k) (b1 k) : ℝ) : EReal)) 0
      = ((hF n eps x w1 g1 b1 e k : ℝ) : EReal) :=
  hidden_exact _ _ _

/-! ## The second layer's statistics, from the column sums and the Gram matrix -/

/-- A finite sum of products of reals, on the extended reals. -/
theorem sum_mul_exact {κ : Type*} [Fintype κ] (u v : κ → ℝ) :
    ∑ k, ((u k : ℝ) : EReal) * ((v k : ℝ) : EReal) = ((∑ k, u k * v k : ℝ) : EReal) := by
  simp only [← EReal.coe_mul]
  rw [← coe_sum]

/-- The column sums of the second product: the hidden column sums against the weights. -/
theorem sum2_exact {ι κ ο : Type*} [Fintype ι] [Fintype κ] (h : ι → κ → ℝ) (w2 : κ → ο → ℝ) (j : ο) :
    ∑ k, ((colsum h k : ℝ) : EReal) * ((w2 k j : ℝ) : EReal) = ((sum2 h w2 j : ℝ) : EReal) :=
  sum_mul_exact _ _

/-- The column sums of squares of the second product: the Gram matrix's quadratic form at the weights. -/
theorem sumsq2_exact {ι κ ο : Type*} [Fintype ι] [Fintype κ] (h : ι → κ → ℝ) (w2 : κ → ο → ℝ) (j : ο) :
    ∑ k, ((w2 k j : ℝ) : EReal) * ∑ l, ((gram h k l : ℝ) : EReal) * ((w2 l j : ℝ) : EReal)
      = ((sumsq2 h w2 j : ℝ) : EReal) := by
  have hin : ∀ k, ∑ l, ((gram h k l : ℝ) : EReal) * ((w2 l j : ℝ) : EReal)
      = ((∑ l, gram h k l * w2 l j : ℝ) : EReal) := fun k => sum_mul_exact _ _
  simp only [hin]
  exact sum_mul_exact (fun k => w2 k j) fun k => ∑ l, gram h k l * w2 l j

/-! ## The output entry -/

/-- A row of reals against the scaled weights, plus the shift. -/
theorem out_exact {κ : Type*} [Fintype κ] (h w : κ → ℝ) (s2 t2 : ℝ) :
    (∑ k, ((h k : ℝ) : EReal) * ((w k * s2 : ℝ) : EReal)) + ((t2 : ℝ) : EReal)
      = (((∑ k, h k * (w k * s2)) + t2 : ℝ) : EReal) := by
  rw [sum_mul_exact, ← EReal.coe_add]

/-- At the second layer's scale and shift the output entry is the folded form's. -/
theorem outF_exact {ι α κ ο : Type*} [Fintype ι] [Fintype α] [Fintype κ] (n eps : ℝ) (x : ι → α → ℝ)
    (w1 : α → κ → ℝ) (g1 b1 : κ → ℝ) (w2 : κ → ο → ℝ) (g2 b2 : ο → ℝ) (e : ι) (j : ο) :
    (∑ k, ((hF n eps x w1 g1 b1 e k : ℝ) : EReal)
        * ((w2 k j * scaleOf n eps (sum2 (hF n eps x w1 g1 b1) w2 j) (sumsq2 (hF n eps x w1 g1 b1) w2 j) (g2 j) : ℝ) : EReal))
      + ((shiftOf n eps (sum2 (hF n eps x w1 g1 b1) w2 j) (sumsq2 (hF n eps x w1 g1 b1) w2 j) (g2 j) (b2 j) : ℝ) : EReal)
      = ((outF n eps x w1 g1 b1 w2 g2 b2 e j : ℝ) : EReal) :=
  out_exact _ _ _ _

end Cert.FoldedExact

end
-- ==== Proof.R2Pay.lean ====
/-
  The third kernel region's arithmetic, read at one entry of the output block.

  At a grid point the body holds a tile of 2000 rows of the first product `x0`, the first layer's scale and shift rows
  `x1`, `x2`, the second layer's weights with its scale folded in `x3`, and the second shift row `x4`. Entry (r, j) of
  what it stores is

      ∑ k, max (x0[r, k] · x1[0, k] + x2[0, k]) 0 · x3[k, j]  +  x4[0, j] :

  the hidden activation of row r (the normalised first product, rectified), contracted with column j of the weights,
  plus the shift. At the exact values a change of float format is the identity, a one-row array broadcast down the rows
  reads its one row, and a matrix product accumulated into the zero array is the plain sum over the contracted axis.
-/
import proofs.«149722_j50371376447949_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2V

open Cert.KernelIdeal Cert.KernelIdeal.Gen
open Idealize.ShloMosaic Idealize.ShloMosaic.ValueIdx
open scoped BigOperators

/-! ## The product's operand indices

The product contracts the left operand's columns with the right operand's rows: at output entry `i` and contraction
coordinate `q` the left operand is read at (i 0, q) and the right at (q, i 1). -/

theorem lhs_dot_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs_dot_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_dot_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_dot_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A tile's product into the zero array, at entry (r, j): the sum over the contracted coordinate `k` of the left
    operand at (r, k) times the right at (k, j). -/
theorem matmul_zero_apply (l : FVec Ideal S2000x256 .bf16) (w : FVec Ideal S256x256 .bf16) (r : Fin 2000) (j : Fin 256) :
    matmul dot_S2000x256_S256x256_S2000x256_1_0_0_1_n_n none l w (constant S2000x256 .f32 0x00000000#32) (ix2 r j)
      = ∑ k : Fin 256, l (ix2 r k) * w (ix2 k j) := by
  refine (Ideal.matmul_constant_zero_apply dot_S2000x256_S256x256_S2000x256_1_0_0_1_n_n none l w (ix2 r j)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r j)
      ((ValueIdx.contrEquiv1 dot_S2000x256_S256x256_S2000x256_1_0_0_1_n_n 256 rfl rfl).symm k) = ix2 r k :=
    funext fun a => Fin.ext (by
      match a with
      | ⟨0, _⟩ => exact lhs_dot_0 _ _
      | ⟨1, _⟩ => exact (lhs_dot_1 _ _).trans hk)
  have er : dot_S2000x256_S256x256_S2000x256_1_0_0_1_n_n.rhsIdx (ix2 r j)
      ((ValueIdx.contrEquiv1 dot_S2000x256_S256x256_S2000x256_1_0_0_1_n_n 256 rfl rfl).symm k) = ix2 k j :=
    funext fun a => Fin.ext (by
      match a with
      | ⟨0, _⟩ => exact (rhs_dot_0 _ _).trans hk
      | ⟨1, _⟩ => exact rhs_dot_1 _ _)
  rw [el, er]

/-! ## The stored value at an entry -/

/-- Entry (r, j) of the block the body stores, from the five blocks it read. -/
theorem pay_apply (x0 : Vec Ideal S2000x256 .bf16) (x1 x2 : Vec Ideal S1x256 .f32) (x3 : Vec Ideal S256x256 .bf16)
    (x4 : Vec Ideal S1x256 .f32) (r : Fin 2000) (j : Fin 256) :
    k2_pay1 x0 x1 x2 x3 x4 (ix2 r j)
      = (∑ k : Fin 256, max (x0 (ix2 r k) * x1 (ix2 (0 : Fin 1) k) + x2 (ix2 (0 : Fin 1) k)) 0 * x3 (ix2 k j))
        + x4 (ix2 (0 : Fin 1) j) := by
  unfold k2_pay1
  simp only [shapeCast_self]
  refine (addf_apply _ _ (ix2 r j)).trans ?_
  refine congrArg₂ (· + ·) ?_ (broadcastTo_1b_ab_apply x4 broadcasts_S1x256_S2000x256 r j)
  refine (matmul_zero_apply _ x3 r j).trans ?_
  refine Finset.sum_congr rfl fun k _ => ?_
  refine congrArg (· * x3 (ix2 k j)) ?_
  show max (x0 (ix2 r k) * broadcastTo S2000x256 x1 broadcasts_S1x256_S2000x256 (ix2 r k)
      + broadcastTo S2000x256 x2 broadcasts_S1x256_S2000x256 (ix2 r k)) (Ideal.ofBits .f32 0x00000000#32) = _
  rw [broadcastTo_1b_ab_apply x1 broadcasts_S1x256_S2000x256 r k, broadcastTo_1b_ab_apply x2 broadcasts_S1x256_S2000x256 r k,
    Ideal.ofBits_zero_f32]

end Cert.KernelIdeal.R2V

end
-- ==== Proof.R2Value.lean ====
/-
  The third kernel region's output array, entry by entry.

  The region's 250 grid points each store a tile of 2000 rows of the output: point t writes rows 2000·t … 2000·t + 1999,
  all 256 columns, and the tiles cover the 500000 rows. So after the region, entry (e, j) of the output is entry
  (e mod 2000, j) of what point e / 2000 stored: the body's arithmetic on that point's five input blocks. The first
  input's block at point t is rows 2000·t … of its array; the four others' blocks are their whole arrays.
-/
import proofs.«149722_j50371376447949_2_alg».proof.Proof.R2
import proofs.«149722_j50371376447949_2_alg».proof.Proof.R2Pay

noncomputable section

namespace Cert.KernelIdeal.R2V

open Cert.KernelIdeal Cert.KernelIdeal.Gen Cert.KernelIdeal.R2
open Idealize.ShloMosaic Idealize.ShloMosaic.TcCoe Idealize.ShloMosaic.ValueIdx Idealize.SL.Sem
open Idealize.ShloMosaic.Pipeline (Dat)
open scoped BigOperators

variable {F : FTy → Type} [FloatOps F]

/-! ## The block indices over the grid -/

/-- At point `t` the first input's and the output's block index is (t, 0); the four other inputs' is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Data

variable (c : Dev nD) (A : (w : Fin cfg2.W) → Buf (Elt F) ((cfg2.win w).arr.view.loc (c.tc : Thread nD τ)))

/-- Entry (r, j) of the tile point `t` stores. -/
def stored (t : Fin cfg2.N) (r : Fin 2000) (j : Fin 256) : Elt F .f32 :=
  k2_pay1 (iblk c A 0 t) (iblk c A 1 t) (iblk c A 2 t) (iblk c A 3 t) (iblk c A 4 t) (ix2 r j)

/-- The point whose tile holds row `i 0`. -/
def tileOf (i : S500000x256.Idx) : Fin cfg2.N :=
  ⟨(i 0).val / 2000, by have h := idx2_lt0 i; have hN : cfg2.N = 250 := N_2; omega⟩

/-- The output array as one function of its index: the entry of the covering point's tile. -/
def outArr : S500000x256.Idx → Elt F .f32 := fun i =>
  stored c A (tileOf i) ⟨(i 0).val % 2000, Nat.mod_lt _ (by decide)⟩ ⟨(i 1).val, idx2_lt1 i⟩

/-- What point `t` writes back is block `t` of that function. -/
theorem flushed_eq (t : Fin cfg2.N) :
    (dat c A).flushed 5 t = ((cfg2.win 5).blk t).view.read (Elt F) (outArr c A) := by
  show (cfg2.win 5).cut (grid2.coords t) ((dat c A).after 5 t) = _
  rw [after_5]
  funext y
  obtain ⟨-, -, -, -, -, -, -, -, -, -, h50, h51⟩ := idx_facts t
  have hy0 : (y 0).val < 2000 := (y 0).isLt
  have hy1 : (y 1).val < 256 := (y 1).isLt
  have e0 : ((((cfg2.win 5).blk t).view.emb y) 0).val = win2_5.index t (0 : Fin 2) * 2000 + 1 * (y 0).val := rfl
  have e1 : ((((cfg2.win 5).blk t).view.emb y) 1).val = win2_5.index t (1 : Fin 2) * 256 + 1 * (y 1).val := rfl
  have hT : tileOf (((cfg2.win 5).blk t).view.emb y) = t := Fin.ext (by
    show ((((cfg2.win 5).blk t).view.emb y) 0).val / 2000 = t.val
    rw [e0, h50]; omega)
  show k2_pay1 (iblk c A 0 t) (iblk c A 1 t) (iblk c A 2 t) (iblk c A 3 t) (iblk c A 4 t) ((cfg2.win 5).xinj (grid2.coords t) y)
    = stored c A (tileOf (((cfg2.win 5).blk t).view.emb y)) ⟨((((cfg2.win 5).blk t).view.emb y) 0).val % 2000, _⟩
        ⟨((((cfg2.win 5).blk t).view.emb y) 1).val, _⟩
  rw [hT]
  unfold stored
  refine congrArg (k2_pay1 (iblk c A 0 t) (iblk c A 1 t) (iblk c A 2 t) (iblk c A 3 t) (iblk c A 4 t)) ?_
  funext a
  apply Fin.ext
  match a with
  | ⟨0, _⟩ => show (y 0).val = ((((cfg2.win 5).blk t).view.emb y) 0).val % 2000; rw [e0, h50]; omega
  | ⟨1, _⟩ => show (y 1).val = ((((cfg2.win 5).blk t).view.emb y) 1).val; rw [e1, h51]; omega

/-- An index of the output array is in point `t`'s block iff each coordinate is in the block's range on its axis. -/
theorem mem_blk (t : Fin cfg2.N) (i : S500000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v61).slice (win2_5.rect t)).set ↔ _
  rw [View.set_slice_whole, Rect.mem_set_unit]
  exact Iff.rfl

/-- Every index of the output array is in the block of the point its row's tile names. -/
theorem cover (i : S500000x256.Idx) :
    ∃ t : Fin cfg2.N, (cfg2.win 5).flush t = true ∧ i ∈ ((cfg2.win 5).blk t).view.set := by
  have hi0 := idx2_lt0 i
  have hi1 := idx2_lt1 i
  obtain ⟨-, -, -, -, -, -, -, -, -, -, h50, h51⟩ := idx_facts (tileOf i)
  have hv : (tileOf i).val = (i 0).val / 2000 := rfl
  refine ⟨tileOf i, flush2_5 _, ?_⟩
  rw [mem_blk]
  intro a
  match a with
  | ⟨0, _⟩ =>
    show win2_5.index (tileOf i) (0 : Fin 2) * 2000 ≤ (i 0).val ∧ (i 0).val < win2_5.index (tileOf i) (0 : Fin 2) * 2000 + 2000
    rw [h50, hv]; omega
  | ⟨1, _⟩ =>
    show win2_5.index (tileOf i) (1 : Fin 2) * 256 ≤ (i 1).val ∧ (i 1).val < win2_5.index (tileOf i) (1 : Fin 2) * 256 + 256
    rw [h51]; omega

/-- The output array after the region is that one function. -/
theorem out_eq : (dat c A).arrAt 5 cfg2.N = outArr c A :=
  (dat c A).arrAt_eq_of_cover 5 (outArr c A) (fun t _ => flushed_eq c A t) cover

/-- The point whose tile holds row `e`, and the row's place in the tile. -/
def tileAt (e : Fin 500000) : Fin cfg2.N := ⟨e.val / 2000, by have h := e.isLt; have hN : cfg2.N = 250 := N_2; omega⟩
def rowAt (e : Fin 500000) : Fin 2000 := ⟨e.val % 2000, Nat.mod_lt _ (by decide)⟩

/-- Entry (e, j) of the output array after the region: entry (e mod 2000, j) of what point e / 2000 stored. -/
theorem out_apply (e : Fin 500000) (j : Fin 256) :
    (dat c A).arrAt 5 cfg2.N (ix2 e j)
      = k2_pay1 (iblk c A 0 (tileAt e)) (iblk c A 1 (tileAt e)) (iblk c A 2 (tileAt e)) (iblk c A 3 (tileAt e))
          (iblk c A 4 (tileAt e)) (ix2 (rowAt e) j) :=
  congrFun (out_eq c A) (ix2 e j)

/-! ## The input blocks read at an index -/

/-- The first input's block at point `t` is rows 2000·t … of its array. -/
theorem iblk0_apply (t : Fin cfg2.N) (r : Fin 2000) (k : Fin 256) (h : 2000 * t.val + r.val < 500000) :
    (iblk c A 0 t : Vec F S2000x256 .bf16) (ix2 r k) = (A 0 : Vec F S500000x256 .bf16) (ix2 ⟨2000 * t.val + r.val, h⟩ k) := by
  obtain ⟨h00, h01, -⟩ := idx_facts t
  show (A 0 : Vec F S500000x256 .bf16) (((cfg2.win 0).blk t).view.emb (ix2 r k)) = _
  refine congrArg (A 0 : Vec F S500000x256 .bf16) ?_
  funext a
  apply Fin.ext
  match a with
  | ⟨0, _⟩ => show win2_0.index t (0 : Fin 2) * 2000 + 1 * r.val = 2000 * t.val + r.val; rw [h00]; omega
  | ⟨1, _⟩ => show win2_0.index t (1 : Fin 2) * 256 + 1 * k.val = k.val; rw [h01]; omega

/-- The four other inputs' blocks are their whole arrays. -/
theorem iblk1_apply (t : Fin cfg2.N) (p : Fin 1) (q : Fin 256) :
    (iblk c A 1 t : Vec F S1x256 .f32) (ix2 p q) = (A 1 : Vec F S1x256 .f32) (ix2 p q) := by
  obtain ⟨-, -, h10, h11, -⟩ := idx_facts t
  show (A 1 : Vec F S1x256 .f32) (((cfg2.win 1).blk t).view.emb (ix2 p q)) = _
  refine congrArg (A 1 : Vec F S1x256 .f32) ?_
  funext a
  apply Fin.ext
  match a with
  | ⟨0, _⟩ => show win2_1.index t (0 : Fin 2) * 1 + 1 * p.val = p.val; rw [h10]; omega
  | ⟨1, _⟩ => show win2_1.index t (1 : Fin 2) * 256 + 1 * q.val = q.val; rw [h11]; omega
theorem iblk2_apply (t : Fin cfg2.N) (p : Fin 1) (q : Fin 256) :
    (iblk c A 2 t : Vec F S1x256 .f32) (ix2 p q) = (A 2 : Vec F S1x256 .f32) (ix2 p q) := by
  obtain ⟨-, -, -, -, h20, h21, -⟩ := idx_facts t
  show (A 2 : Vec F S1x256 .f32) (((cfg2.win 2).blk t).view.emb (ix2 p q)) = _
  refine congrArg (A 2 : Vec F S1x256 .f32) ?_
  funext a
  apply Fin.ext
  match a with
  | ⟨0, _⟩ => show win2_2.index t (0 : Fin 2) * 1 + 1 * p.val = p.val; rw [h20]; omega
  | ⟨1, _⟩ => show win2_2.index t (1 : Fin 2) * 256 + 1 * q.val = q.val; rw [h21]; omega
theorem iblk3_apply (t : Fin cfg2.N) (p : Fin 256) (q : Fin 256) :
    (iblk c A 3 t : Vec F S256x256 .bf16) (ix2 p q) = (A 3 : Vec F S256x256 .bf16) (ix2 p q) := by
  obtain ⟨-, -, -, -, -, -, h30, h31, -⟩ := idx_facts t
  show (A 3 : Vec F S256x256 .bf16) (((cfg2.win 3).blk t).view.emb (ix2 p q)) = _
  refine congrArg (A 3 : Vec F S256x256 .bf16) ?_
  funext a
  apply Fin.ext
  match a with
  | ⟨0, _⟩ => show win2_3.index t (0 : Fin 2) * 256 + 1 * p.val = p.val; rw [h30]; omega
  | ⟨1, _⟩ => show win2_3.index t (1 : Fin 2) * 256 + 1 * q.val = q.val; rw [h31]; omega
theorem iblk4_apply (t : Fin cfg2.N) (p : Fin 1) (q : Fin 256) :
    (iblk c A 4 t : Vec F S1x256 .f32) (ix2 p q) = (A 4 : Vec F S1x256 .f32) (ix2 p q) := by
  obtain ⟨-, -, -, -, -, -, -, -, h40, h41, -⟩ := idx_facts t
  show (A 4 : Vec F S1x256 .f32) (((cfg2.win 4).blk t).view.emb (ix2 p q)) = _
  refine congrArg (A 4 : Vec F S1x256 .f32) ?_
  funext a
  apply Fin.ext
  match a with
  | ⟨0, _⟩ => show win2_4.index t (0 : Fin 2) * 1 + 1 * p.val = p.val; rw [h40]; omega
  | ⟨1, _⟩ => show win2_4.index t (1 : Fin 2) * 256 + 1 * q.val = q.val; rw [h41]; omega

end Data

/-! ## The output array at the exact values -/

section AtIdeal

variable (c : Dev nD) (A : (w : Fin cfg2.W) → Buf (Elt Ideal) ((cfg2.win w).arr.view.loc (c.tc : Thread nD τ)))

/-- Entry (e, j) of the output array after the region, from the five arrays as the region finds them (named `a0 … a4`
    at their literal types): row `e` of the first product normalised by the first layer's scale and shift and rectified,
    contracted with column `j` of the scaled weights, plus the second shift. -/
theorem out_value (e : Fin 500000) (j : Fin 256)
    (a0 : Vec Ideal S500000x256 .bf16) (a1 a2 : Vec Ideal S1x256 .f32) (a3 : Vec Ideal S256x256 .bf16) (a4 : Vec Ideal S1x256 .f32)
    (h0 : (A 0 : Vec Ideal S500000x256 .bf16) = a0) (h1 : (A 1 : Vec Ideal S1x256 .f32) = a1)
    (h2 : (A 2 : Vec Ideal S1x256 .f32) = a2) (h3 : (A 3 : Vec Ideal S256x256 .bf16) = a3)
    (h4 : (A 4 : Vec Ideal S1x256 .f32) = a4) :
    (dat (F := Ideal) c A).arrAt 5 cfg2.N (ix2 e j)
      = (∑ k : Fin 256, max (a0 (ix2 e k) * a1 (ix2 (0 : Fin 1) k) + a2 (ix2 (0 : Fin 1) k)) 0 * a3 (ix2 k j))
        + a4 (ix2 (0 : Fin 1) j) := by
  subst h0 h1 h2 h3 h4
  refine (out_apply c A e j).trans ?_
  refine (pay_apply (iblk c A 0 (tileAt e)) (iblk c A 1 (tileAt e)) (iblk c A 2 (tileAt e)) (iblk c A 3 (tileAt e))
    (iblk c A 4 (tileAt e)) (rowAt e) j).trans ?_
  have he : 2000 * (tileAt e).val + (rowAt e).val < 500000 := by
    show 2000 * (e.val / 2000) + e.val % 2000 < 500000
    have := e.isLt; omega
  have hE : (⟨2000 * (tileAt e).val + (rowAt e).val, he⟩ : Fin 500000) = e :=
    Fin.ext (by show 2000 * (e.val / 2000) + e.val % 2000 = e.val; omega)
  refine congrArg₂ (· + ·) (Finset.sum_congr rfl fun k _ => ?_) (iblk4_apply c A (tileAt e) 0 j)
  rw [iblk0_apply c A (tileAt e) (rowAt e) k he, hE, iblk1_apply c A (tileAt e) 0 k, iblk2_apply c A (tileAt e) 0 k,
    iblk3_apply c A (tileAt e) k j]

end AtIdeal

end Cert.KernelIdeal.R2V

end
-- ==== Proof.R1Value.lean ====
import proofs.«149722_j50371376447949_2_alg».proof.Proof.R1Data
import Idealize.ShloMosaic.Lib.ValueIdx

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The second kernel region: what its two output arrays hold afterwards

The pipeline writes the outputs' staging buffers back at the last point of each row of the grid, point
`125 q + 124` of row `q`, into block `q` of the output arrays (one block per core's row: the first axis of either
array). By then the staging buffers hold the accumulators over the row's 125 tiles. So after the region, entry
`(q, 0, k)` of the first output is entry `(0, 0, k)` of the first accumulator after point `125 q + 124`, and entry
`(q, k, l)` of the second output is entry `(0, k, l)` of the second accumulator after that point. -/

section Value

variable (c : Dev nD) (A : (w : Fin cfg1.W) → Buf (Elt F) ((cfg1.win w).arr.view.loc (c.tc : Thread nD τ)))

/-- The accumulators at equal points are equal (the bound proofs play no part). -/
theorem acc_congr {n n' : ℕ} (e : n = n') (h : n < cfg1.N) (h' : n' < cfg1.N) : acc c A n h = acc c A n' h' := by
  subst e; rfl

/-- The first output array after the region: row `q` holds the column sums accumulated over row `q` of the grid. -/
def G3 : S2x1x256.Idx → Elt F .f32 := fun i =>
  if h : 125 * (i 0).val + 124 < 250 then
    (acc c A (125 * (i 0).val + 124) (lt_of_lt_of_eq h N_1.symm)).1 (ix3 (0 : Fin 1) (0 : Fin 1) (⟨(i 2).val, (i 2).isLt⟩ : Fin 256))
  else k1_pay1 (F := F) (ix3 (0 : Fin 1) (0 : Fin 1) (⟨(i 2).val, (i 2).isLt⟩ : Fin 256))

/-- The second: slab `q` holds the Gram matrix accumulated over row `q` of the grid. -/
def G4 : S2x256x256.Idx → Elt F .f32 := fun i =>
  if h : 125 * (i 0).val + 124 < 250 then
    (acc c A (125 * (i 0).val + 124) (lt_of_lt_of_eq h N_1.symm)).2 (ix3 (0 : Fin 1) (⟨(i 1).val, (i 1).isLt⟩ : Fin 256) (⟨(i 2).val, (i 2).isLt⟩ : Fin 256))
  else k1_pay2 (F := F) (ix3 (0 : Fin 1) (⟨(i 1).val, (i 1).isLt⟩ : Fin 256) (⟨(i 2).val, (i 2).isLt⟩ : Fin 256))

/-- The outputs' block index at a point: the point's row along the first axis, zero along the others. -/
theorem idx_facts3 : ∀ t : Fin cfg1.N, win1_3.index t (0 : Fin 3) = t.val / 125 ∧ win1_3.index t (1 : Fin 3) = 0 ∧ win1_3.index t (2 : Fin 3) = 0 :=
  (by decide +kernel : ∀ t : Fin grid1.N, _)
theorem idx_facts4 : ∀ t : Fin cfg1.N, win1_4.index t (0 : Fin 3) = t.val / 125 ∧ win1_4.index t (1 : Fin 3) = 0 ∧ win1_4.index t (2 : Fin 3) = 0 :=
  (by decide +kernel : ∀ t : Fin grid1.N, _)

/-- An index of the first output array is in point `t`'s block iff each coordinate is in the block's range. -/
theorem mem_blk3 (t : Fin cfg1.N) (i : S2x1x256.Idx) :
    i ∈ ((cfg1.win 3).blk t).view.set ↔ ∀ a : Fin 3, win1_3.index t a * S1x1x256.size a ≤ (i a).val ∧ (i a).val < win1_3.index t a * S1x1x256.size a + S1x1x256.size a := by
  show i ∈ ((View.whole main_v34_0).slice (win1_3.rect t)).set ↔ _
  rw [View.set_slice_whole, Rect.mem_set_unit]
  exact Iff.rfl
theorem mem_blk4 (t : Fin cfg1.N) (i : S2x256x256.Idx) :
    i ∈ ((cfg1.win 4).blk t).view.set ↔ ∀ a : Fin 3, win1_4.index t a * S1x256x256.size a ≤ (i a).val ∧ (i a).val < win1_4.index t a * S1x256x256.size a + S1x256x256.size a := by
  show i ∈ ((View.whole main_v34_1).slice (win1_4.rect t)).set ↔ _
  rw [View.set_slice_whole, Rect.mem_set_unit]
  exact Iff.rfl

/-- WHAT A WRITING POINT WRITES BACK into the first output is its block of `G3`. -/
theorem flushed3_eq (t : Fin cfg1.N) (hf : (cfg1.win 3).flush t = true) :
    (dat c A).flushed 3 t = ((cfg1.win 3).blk t).view.read (Elt F) (G3 c A) := by
  show (cfg1.win 3).cut (grid1.coords t) ((dat c A).after 3 t) = _
  rw [after_3]
  have h124 : t.val % 125 = 124 := (flush1_3 t).mp hf
  have hN : t.val < 250 := lt_of_lt_of_eq t.isLt N_1
  obtain ⟨e0, e1, e2⟩ := idx_facts3 t
  funext j
  show (acc c A t.val t.isLt).1 j = G3 c A (((cfg1.win 3).blk t).view.emb j)
  have hj0 : (j 0).val < 1 := (j 0).isLt
  have hj1 : (j 1).val < 1 := (j 1).isLt
  have hi0 : ((((cfg1.win 3).blk t).view.emb j) 0).val = t.val / 125 := by
    show win1_3.index t (0 : Fin 3) * 1 + 1 * (j 0).val = _; omega
  have hi2 : ((((cfg1.win 3).blk t).view.emb j) 2).val = (j 2).val := by
    show win1_3.index t (2 : Fin 3) * 256 + 1 * (j 2).val = _; omega
  unfold G3
  rw [dif_pos (by rw [hi0]; omega)]
  have hj : j = ix3 (0 : Fin 1) (0 : Fin 1) (⟨((((cfg1.win 3).blk t).view.emb j) 2).val, ((((cfg1.win 3).blk t).view.emb j) 2).isLt⟩ : Fin 256) := by
    funext a
    match a with
    | ⟨0, _⟩ => exact Fin.ext (by show (j 0).val = 0; omega)
    | ⟨1, _⟩ => exact Fin.ext (by show (j 1).val = 0; omega)
    | ⟨2, _⟩ => exact Fin.ext (by show (j 2).val = _; exact hi2.symm)
  rw [acc_congr c A (show t.val = 125 * ((((cfg1.win 3).blk t).view.emb j) 0).val + 124 by rw [hi0]; omega) t.isLt]
  exact congrArg _ hj

/-- WHAT A WRITING POINT WRITES BACK into the second output is its block of `G4`. -/
theorem flushed4_eq (t : Fin cfg1.N) (hf : (cfg1.win 4).flush t = true) :
    (dat c A).flushed 4 t = ((cfg1.win 4).blk t).view.read (Elt F) (G4 c A) := by
  show (cfg1.win 4).cut (grid1.coords t) ((dat c A).after 4 t) = _
  rw [after_4]
  have h124 : t.val % 125 = 124 := (flush1_4 t).mp hf
  have hN : t.val < 250 := lt_of_lt_of_eq t.isLt N_1
  obtain ⟨e0, e1, e2⟩ := idx_facts4 t
  funext j
  show (acc c A t.val t.isLt).2 j = G4 c A (((cfg1.win 4).blk t).view.emb j)
  have hj0 : (j 0).val < 1 := (j 0).isLt
  have hi0 : ((((cfg1.win 4).blk t).view.emb j) 0).val = t.val / 125 := by
    show win1_4.index t (0 : Fin 3) * 1 + 1 * (j 0).val = _; omega
  have hi1 : ((((cfg1.win 4).blk t).view.emb j) 1).val = (j 1).val := by
    show win1_4.index t (1 : Fin 3) * 256 + 1 * (j 1).val = _; omega
  have hi2 : ((((cfg1.win 4).blk t).view.emb j) 2).val = (j 2).val := by
    show win1_4.index t (2 : Fin 3) * 256 + 1 * (j 2).val = _; omega
  unfold G4
  rw [dif_pos (by rw [hi0]; omega)]
  have hj : j = ix3 (0 : Fin 1)
      (⟨((((cfg1.win 4).blk t).view.emb j) 1).val, ((((cfg1.win 4).blk t).view.emb j) 1).isLt⟩ : Fin 256)
      (⟨((((cfg1.win 4).blk t).view.emb j) 2).val, ((((cfg1.win 4).blk t).view.emb j) 2).isLt⟩ : Fin 256) := by
    funext a
    match a with
    | ⟨0, _⟩ => exact Fin.ext (by show (j 0).val = 0; omega)
    | ⟨1, _⟩ => exact Fin.ext (by show (j 1).val = _; exact hi1.symm)
    | ⟨2, _⟩ => exact Fin.ext (by show (j 2).val = _; exact hi2.symm)
  rw [acc_congr c A (show t.val = 125 * ((((cfg1.win 4).blk t).view.emb j) 0).val + 124 by rw [hi0]; omega) t.isLt]
  exact congrArg _ hj

/-- Every entry of the first output array is in the block of the last point of its row of the grid, which writes it. -/
theorem cover3 (i : S2x1x256.Idx) : ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 256 := (i 2).isLt
  have hlt : 125 * (i 0).val + 124 < cfg1.N := lt_of_lt_of_eq (show 125 * (i 0).val + 124 < 250 by omega) N_1.symm
  refine ⟨⟨125 * (i 0).val + 124, hlt⟩, (flush1_3 _).mpr (by show (125 * (i 0).val + 124) % 125 = 124; omega), ?_⟩
  obtain ⟨e0, e1, e2⟩ := idx_facts3 ⟨125 * (i 0).val + 124, hlt⟩
  have e0' : win1_3.index ⟨125 * (i 0).val + 124, hlt⟩ (0 : Fin 3) = (i 0).val := by
    rw [e0]; show (125 * (i 0).val + 124) / 125 = _; omega
  rw [mem_blk3]
  intro a
  match a with
  | ⟨0, _⟩ => show win1_3.index ⟨125 * (i 0).val + 124, hlt⟩ (0 : Fin 3) * 1 ≤ (i 0).val ∧ (i 0).val < win1_3.index ⟨125 * (i 0).val + 124, hlt⟩ (0 : Fin 3) * 1 + 1; omega
  | ⟨1, _⟩ => show win1_3.index ⟨125 * (i 0).val + 124, hlt⟩ (1 : Fin 3) * 1 ≤ (i 1).val ∧ (i 1).val < win1_3.index ⟨125 * (i 0).val + 124, hlt⟩ (1 : Fin 3) * 1 + 1; omega
  | ⟨2, _⟩ => show win1_3.index ⟨125 * (i 0).val + 124, hlt⟩ (2 : Fin 3) * 256 ≤ (i 2).val ∧ (i 2).val < win1_3.index ⟨125 * (i 0).val + 124, hlt⟩ (2 : Fin 3) * 256 + 256; omega

theorem cover4 (i : S2x256x256.Idx) : ∃ t : Fin cfg1.N, (cfg1.win 4).flush t = true ∧ i ∈ ((cfg1.win 4).blk t).view.set := by
  have hi0 : (i 0).val < 2 := (i 0).isLt
  have hi1 : (i 1).val < 256 := (i 1).isLt
  have hi2 : (i 2).val < 256 := (i 2).isLt
  have hlt : 125 * (i 0).val + 124 < cfg1.N := lt_of_lt_of_eq (show 125 * (i 0).val + 124 < 250 by omega) N_1.symm
  refine ⟨⟨125 * (i 0).val + 124, hlt⟩, (flush1_4 _).mpr (by show (125 * (i 0).val + 124) % 125 = 124; omega), ?_⟩
  obtain ⟨e0, e1, e2⟩ := idx_facts4 ⟨125 * (i 0).val + 124, hlt⟩
  have e0' : win1_4.index ⟨125 * (i 0).val + 124, hlt⟩ (0 : Fin 3) = (i 0).val := by
    rw [e0]; show (125 * (i 0).val + 124) / 125 = _; omega
  rw [mem_blk4]
  intro a
  match a with
  | ⟨0, _⟩ => show win1_4.index ⟨125 * (i 0).val + 124, hlt⟩ (0 : Fin 3) * 1 ≤ (i 0).val ∧ (i 0).val < win1_4.index ⟨125 * (i 0).val + 124, hlt⟩ (0 : Fin 3) * 1 + 1; omega
  | ⟨1, _⟩ => show win1_4.index ⟨125 * (i 0).val + 124, hlt⟩ (1 : Fin 3) * 256 ≤ (i 1).val ∧ (i 1).val < win1_4.index ⟨125 * (i 0).val + 124, hlt⟩ (1 : Fin 3) * 256 + 256; omega
  | ⟨2, _⟩ => show win1_4.index ⟨125 * (i 0).val + 124, hlt⟩ (2 : Fin 3) * 256 ≤ (i 2).val ∧ (i 2).val < win1_4.index ⟨125 * (i 0).val + 124, hlt⟩ (2 : Fin 3) * 256 + 256; omega

/-- THE FIRST OUTPUT ARRAY after the region. -/
theorem final3 : (dat c A).arrAt 3 cfg1.N = G3 c A :=
  (dat c A).arrAt_eq_of_cover 3 (G3 c A) (fun t hf => flushed3_eq c A t hf) (cover3)
/-- THE SECOND OUTPUT ARRAY after the region. -/
theorem final4 : (dat c A).arrAt 4 cfg1.N = G4 c A :=
  (dat c A).arrAt_eq_of_cover 4 (G4 c A) (fun t hf => flushed4_eq c A t hf) (cover4)

/-- The last point of row `q` of the grid. -/
theorem rowEnd_lt (q : Fin 2) : 125 * q.val + 124 < cfg1.N :=
  lt_of_lt_of_eq (show 125 * q.val + 124 < 250 by have := q.isLt; omega) N_1.symm

/-- Entry `(q, 0, k)` of the first output array: entry `k` of the first accumulator after the last point of row `q`. -/
theorem arr3_apply (q : Fin 2) (k : Fin 256) :
    (dat c A).arrAt 3 cfg1.N (ix3 q (0 : Fin 1) k) = (acc c A (125 * q.val + 124) (rowEnd_lt q)).1 (ix3 (0 : Fin 1) (0 : Fin 1) k) := by
  rw [final3]; unfold G3
  rw [dif_pos (show 125 * ((ix3 q (0 : Fin 1) k : S2x1x256.Idx) 0).val + 124 < 250 by show 125 * q.val + 124 < 250; have := q.isLt; omega)]

/-- Entry `(q, k, l)` of the second output array: entry `(k, l)` of the second accumulator after the last point of row `q`. -/
theorem arr4_apply (q : Fin 2) (k l : Fin 256) :
    (dat c A).arrAt 4 cfg1.N (ix3 q k l) = (acc c A (125 * q.val + 124) (rowEnd_lt q)).2 (ix3 (0 : Fin 1) k l) := by
  rw [final4]; unfold G4
  rw [dif_pos (show 125 * ((ix3 q k l : S2x256x256.Idx) 0).val + 124 < 250 by show 125 * q.val + 124 < 250; have := q.isLt; omega)]

end Value

end Cert.KernelIdeal.R1

end
-- ==== Proof.R1Pay.lean ====
/-
  The second kernel region's arithmetic, read at one entry.

  At a grid point the body holds a tile of 2000 rows of the first product `x0` and the first layer's scale and shift
  rows `x1`, `x2`. The hidden activation of row r, column k is

      h[r, k] = max (x0[r, k] · x1[0, k] + x2[0, k]) 0.

  The body adds to its first accumulator the column sums of h, and to its second the Gram matrix of h:

      s0[0, 0, k] + ∑ r, h[r, k]          and          s1[0, k, l] + ∑ r, h[r, k] · h[r, l].

  At the exact values a change of float format is the identity, a one-row array broadcast down the rows reads its one
  row, a sum reduction over the row axis is the plain sum over the rows, and a matrix product accumulated into the zero
  array is the plain sum over the contracted axis (here the row axis of both operands).
-/
import proofs.«149722_j50371376447949_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1V

open Cert.KernelIdeal Cert.KernelIdeal.Gen
open Idealize.ShloMosaic Idealize.ShloMosaic.ValueIdx
open scoped BigOperators

/-! ## The hidden activations -/

/-- Entry (r, k) of the tile's hidden activations. -/
theorem pay3_apply (x0 : Vec Ideal S2000x256 .bf16) (x1 x2 : Vec Ideal S1x256 .f32) (r : Fin 2000) (k : Fin 256) :
    k1_pay3 x0 x1 x2 (ix2 r k) = max (x0 (ix2 r k) * x1 (ix2 (0 : Fin 1) k) + x2 (ix2 (0 : Fin 1) k)) 0 := by
  unfold k1_pay3
  simp only [shapeCast_self]
  show max (x0 (ix2 r k) * broadcastTo S2000x256 x1 broadcasts_S1x256_S2000x256 (ix2 r k)
      + broadcastTo S2000x256 x2 broadcasts_S1x256_S2000x256 (ix2 r k)) (Ideal.ofBits .f32 0x00000000#32) = _
  rw [broadcastTo_1b_ab_apply x1 broadcasts_S1x256_S2000x256 r k, broadcastTo_1b_ab_apply x2 broadcasts_S1x256_S2000x256 r k,
    Ideal.ofBits_zero_f32]

/-! ## The zero accumulators -/

theorem pay1_apply (j : S1x1x256.Idx) : k1_pay1 (F := Ideal) j = 0 := by
  unfold k1_pay1
  simp only [shapeCast_self]
  show Ideal.ofBits .f32 0x00000000#32 = 0
  exact Ideal.ofBits_zero_f32

theorem pay2_apply (j : S1x256x256.Idx) : k1_pay2 (F := Ideal) j = 0 := by
  unfold k1_pay2
  simp only [shapeCast_self]
  show Ideal.ofBits .f32 0x00000000#32 = 0
  exact Ideal.ofBits_zero_f32

/-! ## The column sums -/

/-- The reduced index `k` with row `r` put back is (r, k). -/
theorem lift_row (h : S2000x256.Reduces [0] S256) (k : Fin 256) (r : Fin (S2000x256.size 0)) :
    h.lift (ix1 k) r = ix2 (⟨r.val, r.isLt⟩ : Fin 2000) k := by
  funext c; apply Fin.ext
  fin_cases c <;> rfl

/-- A sum reduction over the rows, at column `k`. -/
theorem colsum_apply (v : FVec Ideal S2000x256 .f32) (k : Fin 256) :
    multiReduction .add [0] S256 v 0x00000000#32 reduces_S2000x256_S256 (.inl rfl) rfl (ix1 k) = ∑ r : Fin 2000, v (ix2 r k) := by
  refine (Ideal.multiReduction_add_single v 0x00000000#32 reduces_S2000x256_S256 (.inl rfl) rfl (ix1 k)).trans ?_
  exact Finset.sum_congr rfl fun r _ => congrArg v (lift_row _ k r)

/-- Entry (0, 0, k) of what the body stores into the first accumulator, from what it held (`s`). -/
theorem pay4_apply (x0 : Vec Ideal S2000x256 .bf16) (x1 x2 : Vec Ideal S1x256 .f32) (s : Vec Ideal S1x1x256 .f32) (k : Fin 256) :
    k1_pay4 x0 x1 x2 s (ix3 (0 : Fin 1) (0 : Fin 1) k)
      = s (ix3 (0 : Fin 1) (0 : Fin 1) k) + ∑ r : Fin 2000, k1_pay3 x0 x1 x2 (ix2 r k) := by
  unfold k1_pay4
  simp only [shapeCast_self]
  refine (addf_apply _ _ _).trans ?_
  refine congrArg (s (ix3 (0 : Fin 1) (0 : Fin 1) k) + ·) ?_
  refine (shapeCast_addUnit_apply ![1, 256] _ _ _).trans ?_
  refine (shapeCast_addUnit_apply ![256] _ _ _).trans ?_
  have e : (fun a : Fin 1 => (fun a : Fin 2 => (ix3 (0 : Fin 1) (0 : Fin 1) k : S1x1x256.Idx) a.succ) a.succ) = (ix1 k : S256.Idx) :=
    funext fun a => by match a with | ⟨0, _⟩ => rfl
  exact (congrArg (multiReduction .add [0] S256 (k1_pay3 x0 x1 x2) 0x00000000#32 reduces_S2000x256_S256 (.inl rfl) rfl) e).trans
    (colsum_apply _ k)

/-! ## The Gram matrix

The product contracts the ROW axis of both operands: at output entry (k, l) and contraction coordinate `q` the left
operand is read at (q, k) and the right at (q, l). -/

theorem lhs_dot_0 (i : S256x256.Idx) (q : dot_S2000x256_S2000x256_S256x256_0_0_1_1_n_n.contr.Idx) :
    (dot_S2000x256_S2000x256_S256x256_0_0_1_1_n_n.lhsIdx i q 0).val = (q ⟨0, by decide⟩).val :=
  dot_S2000x256_S2000x256_S256x256_0_0_1_1_n_n.lhsIdx_val_of_single rfl i q
theorem lhs_dot_1 (i : S256x256.Idx) (q : dot_S2000x256_S2000x256_S256x256_0_0_1_1_n_n.contr.Idx) :
    (dot_S2000x256_S2000x256_S256x256_0_0_1_1_n_n.lhsIdx i q 1).val = (i 0).val := by
  unfold DotDims.lhsIdx
  rw [dif_neg (show ¬(1 : Fin S2000x256.rank) ∈ dot_S2000x256_S2000x256_S256x256_0_0_1_1_n_n.lhsBatch by decide),
    dif_pos (show (1 : Fin S2000x256.rank) ∈ dot_S2000x256_S2000x256_S256x256_0_0_1_1_n_n.lhsNonContracting by decide)]
  rfl
theorem rhs_dot_0 (i : S256x256.Idx) (q : dot_S2000x256_S2000x256_S256x256_0_0_1_1_n_n.contr.Idx) :
    (dot_S2000x256_S2000x256_S256x256_0_0_1_1_n_n.rhsIdx i q 0).val = (q ⟨0, by decide⟩).val :=
  dot_S2000x256_S2000x256_S256x256_0_0_1_1_n_n.rhsIdx_val_of_single rfl i q
theorem rhs_dot_1 (i : S256x256.Idx) (q : dot_S2000x256_S2000x256_S256x256_0_0_1_1_n_n.contr.Idx) :
    (dot_S2000x256_S2000x256_S256x256_0_0_1_1_n_n.rhsIdx i q 1).val = (i 1).val := by
  unfold DotDims.rhsIdx
  rw [dif_neg (show ¬(1 : Fin S2000x256.rank) ∈ dot_S2000x256_S2000x256_S256x256_0_0_1_1_n_n.rhsBatch by decide),
    dif_pos (show (1 : Fin S2000x256.rank) ∈ dot_S2000x256_S2000x256_S256x256_0_0_1_1_n_n.rhsNonContracting by decide)]
  rfl

/-- A tile's product with itself over the rows, into the zero array, at entry (k, l). -/
theorem gram_zero_apply (a b : FVec Ideal S2000x256 .bf16) (k l : Fin 256) :
    matmul dot_S2000x256_S2000x256_S256x256_0_0_1_1_n_n none a b (constant S256x256 .f32 0x00000000#32) (ix2 k l)
      = ∑ r : Fin 2000, a (ix2 r k) * b (ix2 r l) := by
  refine (Ideal.matmul_constant_zero_apply dot_S2000x256_S2000x256_S256x256_0_0_1_1_n_n none a b (ix2 k l)).trans ?_
  rw [← Equiv.sum_comp (ValueIdx.contrEquiv1 dot_S2000x256_S2000x256_S256x256_0_0_1_1_n_n 2000 rfl rfl).symm]
  refine Finset.sum_congr rfl fun r _ => ?_
  have hr := ValueIdx.contrEquiv1_symm_val dot_S2000x256_S2000x256_S256x256_0_0_1_1_n_n 2000 rfl rfl r
  have el : dot_S2000x256_S2000x256_S256x256_0_0_1_1_n_n.lhsIdx (ix2 k l)
      ((ValueIdx.contrEquiv1 dot_S2000x256_S2000x256_S256x256_0_0_1_1_n_n 2000 rfl rfl).symm r) = ix2 r k :=
    funext fun ax => Fin.ext (by
      match ax with
      | ⟨0, _⟩ => exact (lhs_dot_0 _ _).trans hr
      | ⟨1, _⟩ => exact lhs_dot_1 _ _)
  have er : dot_S2000x256_S2000x256_S256x256_0_0_1_1_n_n.rhsIdx (ix2 k l)
      ((ValueIdx.contrEquiv1 dot_S2000x256_S2000x256_S256x256_0_0_1_1_n_n 2000 rfl rfl).symm r) = ix2 r l :=
    funext fun ax => Fin.ext (by
      match ax with
      | ⟨0, _⟩ => exact (rhs_dot_0 _ _).trans hr
      | ⟨1, _⟩ => exact rhs_dot_1 _ _)
  rw [el, er]

/-- Entry (0, k, l) of what the body stores into the second accumulator, from what it held (`s`). -/
theorem pay5_apply (x0 : Vec Ideal S2000x256 .bf16) (x1 x2 : Vec Ideal S1x256 .f32) (s : Vec Ideal S1x256x256 .f32) (k l : Fin 256) :
    k1_pay5 x0 x1 x2 s (ix3 (0 : Fin 1) k l)
      = s (ix3 (0 : Fin 1) k l) + ∑ r : Fin 2000, k1_pay3 x0 x1 x2 (ix2 r k) * k1_pay3 x0 x1 x2 (ix2 r l) := by
  unfold k1_pay5
  simp only [shapeCast_self]
  refine (addf_apply _ _ _).trans ?_
  refine congrArg (s (ix3 (0 : Fin 1) k l) + ·) ?_
  refine (shapeCast_addUnit_apply ![256, 256] _ _ _).trans ?_
  have e : (fun a : Fin 2 => (ix3 (0 : Fin 1) k l : S1x256x256.Idx) a.succ) = (ix2 k l : S256x256.Idx) :=
    funext fun a => by match a with | ⟨0, _⟩ => rfl | ⟨1, _⟩ => rfl
  exact (congrArg (matmul dot_S2000x256_S2000x256_S256x256_0_0_1_1_n_n none (truncf .bf16 (k1_pay3 x0 x1 x2) bitsLt_bf16_f32)
      (truncf .bf16 (k1_pay3 x0 x1 x2) bitsLt_bf16_f32) (constant S256x256 .f32 0x00000000#32)) e).trans
    (gram_zero_apply _ _ k l)

end Cert.KernelIdeal.R1V

end
-- ==== Proof.R1Sum.lean ====
import proofs.«149722_j50371376447949_2_alg».proof.Proof.R1Value
import proofs.«149722_j50371376447949_2_alg».proof.Proof.R1Pay
import Idealize.ShloMosaic.Lib.ValueIdx

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.R1V
open scoped BigOperators

/-! # The second kernel region at the exact values: its two output arrays as sums over the edges

With every float an extended real, the accumulators' recursion unrolls: each point adds its tile's contribution, the
first point of a row of the grid adds it to zero. So after the region row `q` of the first output holds, at column `k`,
the sum over the row's 125 tiles and each tile's 2000 edges of the hidden activation `h[edge, k]`; and slab `q` of the
second holds, at `(k, l)`, the sum over the same edges of `h[edge, k] · h[edge, l]`. The hidden activation of an edge
is `max (pre[edge, k] · scale[0, k] + shift[0, k]) 0`, read off the three input arrays as the region finds them:
tile `n` of the first input is its rows `2000 n … 2000 n + 1999`. -/

section Sum

variable (c : Dev nD) (A : (w : Fin cfg1.W) → Buf (Elt Ideal) ((cfg1.win w).arr.view.loc (c.tc : Thread nD τ)))

/-- The hidden activations of tile `n` (zero past the grid, where nothing reads them). -/
def hid (n : ℕ) : S2000x256.Idx → Ideal .f32 :=
  if h : n < cfg1.N then k1_pay3 (tile c A ⟨n, h⟩) (scale c A ⟨n, h⟩) (shift c A ⟨n, h⟩) else fun _ => 0

theorem hid_of_lt (n : ℕ) (h : n < cfg1.N) :
    hid c A n = k1_pay3 (tile c A ⟨n, h⟩) (scale c A ⟨n, h⟩) (shift c A ⟨n, h⟩) := dif_pos h

/-- Tile `n`'s contribution to column `k` of the first accumulator, -/
def colAdd (n : ℕ) (k : Fin 256) : Ideal .f32 := ∑ r : Fin 2000, hid c A n (ix2 r k)
/-- and to entry `(k, l)` of the second. -/
def gramAdd (n : ℕ) (kl : Fin 256 × Fin 256) : Ideal .f32 := ∑ r : Fin 2000, hid c A n (ix2 r kl.1) * hid c A n (ix2 r kl.2)

/-- The first accumulator after point `n`, by columns; -/
def acc1 (n : ℕ) (h : n < cfg1.N) : Fin 256 → Ideal .f32 := fun k => (acc c A n h).1 (ix3 (0 : Fin 1) (0 : Fin 1) k)
/-- the second, by entries. -/
def acc2 (n : ℕ) (h : n < cfg1.N) : Fin 256 × Fin 256 → Ideal .f32 := fun kl => (acc c A n h).2 (ix3 (0 : Fin 1) kl.1 kl.2)

theorem acc1_reset (n : ℕ) (h : n < cfg1.N) (hm : n % 125 = 0) : acc1 c A n h = fun k => 0 + colAdd c A n k := by
  funext k
  unfold acc1 colAdd
  rw [acc_reset c A ⟨n, h⟩ hm, hid_of_lt c A n h]
  show k1_pay4 (tile c A ⟨n, h⟩) (scale c A ⟨n, h⟩) (shift c A ⟨n, h⟩) (k1_pay1 (F := Ideal)) (ix3 (0 : Fin 1) (0 : Fin 1) k) = _
  rw [pay4_apply, pay1_apply]

theorem acc1_step (n : ℕ) (h : n + 1 < cfg1.N) (hm : ¬(n + 1) % 125 = 0) :
    acc1 c A (n + 1) h = fun k => acc1 c A n (Nat.lt_of_succ_lt h) k + colAdd c A (n + 1) k := by
  funext k
  unfold acc1 colAdd
  rw [acc_add c A ⟨n + 1, h⟩ hm, hid_of_lt c A (n + 1) h]
  show k1_pay4 (tile c A ⟨n + 1, h⟩) (scale c A ⟨n + 1, h⟩) (shift c A ⟨n + 1, h⟩) (acc c A n _).1 (ix3 (0 : Fin 1) (0 : Fin 1) k) = _
  rw [pay4_apply]

theorem acc2_reset (n : ℕ) (h : n < cfg1.N) (hm : n % 125 = 0) : acc2 c A n h = fun kl => 0 + gramAdd c A n kl := by
  funext kl
  unfold acc2 gramAdd
  rw [acc_reset c A ⟨n, h⟩ hm, hid_of_lt c A n h]
  show k1_pay5 (tile c A ⟨n, h⟩) (scale c A ⟨n, h⟩) (shift c A ⟨n, h⟩) (k1_pay2 (F := Ideal)) (ix3 (0 : Fin 1) kl.1 kl.2) = _
  rw [pay5_apply, pay2_apply]

theorem acc2_step (n : ℕ) (h : n + 1 < cfg1.N) (hm : ¬(n + 1) % 125 = 0) :
    acc2 c A (n + 1) h = fun kl => acc2 c A n (Nat.lt_of_succ_lt h) kl + gramAdd c A (n + 1) kl := by
  funext kl
  unfold acc2 gramAdd
  rw [acc_add c A ⟨n + 1, h⟩ hm, hid_of_lt c A (n + 1) h]
  show k1_pay5 (tile c A ⟨n + 1, h⟩) (scale c A ⟨n + 1, h⟩) (shift c A ⟨n + 1, h⟩) (acc c A n _).2 (ix3 (0 : Fin 1) kl.1 kl.2) = _
  rw [pay5_apply]

/-- THE FIRST ACCUMULATOR after the last point of row `q`: the sum of the row's 125 contributions. -/
theorem acc1_rowEnd (q : Fin 2) (k : Fin 256) :
    acc1 c A (125 * q.val + 124) (rowEnd_lt q) k = ∑ s ∈ Finset.range 125, colAdd c A (125 * q.val + s) k := by
  have e := Pipeline.eq_accAt (N := cfg1.N) (acc1 c A) 125 (fun n _ k => 0 + colAdd c A n k) (fun n _ prev k => prev k + colAdd c A n k)
    (fun n h hm => acc1_reset c A n h hm) (fun n h hm => acc1_step c A n h hm) q.val 124 (by omega) (rowEnd_lt q)
  rw [e, Pipeline.accAt_add_apply (N := cfg1.N) (fun n _ k => 0 + colAdd c A n k) (fun n _ prev k => prev k + colAdd c A n k)
    (fun _ => 0) (colAdd c A) (125 * q.val) 124 (fun _ _ => rfl) (fun _ _ _ _ _ _ => rfl) 124 (Nat.le_refl _) (rowEnd_lt q) k, zero_add]

/-- THE SECOND likewise. -/
theorem acc2_rowEnd (q : Fin 2) (kl : Fin 256 × Fin 256) :
    acc2 c A (125 * q.val + 124) (rowEnd_lt q) kl = ∑ s ∈ Finset.range 125, gramAdd c A (125 * q.val + s) kl := by
  have e := Pipeline.eq_accAt (N := cfg1.N) (acc2 c A) 125 (fun n _ kl => 0 + gramAdd c A n kl) (fun n _ prev kl => prev kl + gramAdd c A n kl)
    (fun n h hm => acc2_reset c A n h hm) (fun n h hm => acc2_step c A n h hm) q.val 124 (by omega) (rowEnd_lt q)
  rw [e, Pipeline.accAt_add_apply (N := cfg1.N) (fun n _ kl => 0 + gramAdd c A n kl) (fun n _ prev kl => prev kl + gramAdd c A n kl)
    (fun _ => 0) (gramAdd c A) (125 * q.val) 124 (fun _ _ => rfl) (fun _ _ _ _ _ _ => rfl) 124 (Nat.le_refl _) (rowEnd_lt q) kl, zero_add]

/-- ENTRY `(q, 0, k)` OF THE FIRST OUTPUT ARRAY after the region: the sum, over the 125 tiles of row `q` of the grid and
    each tile's 2000 rows, of the hidden activation at column `k`. -/
theorem arr3_sum (q : Fin 2) (k : Fin 256) :
    (dat c A).arrAt 3 cfg1.N (ix3 q (0 : Fin 1) k)
      = ∑ s ∈ Finset.range 125, ∑ r : Fin 2000, hid c A (125 * q.val + s) (ix2 r k) :=
  (arr3_apply c A q k).trans (acc1_rowEnd c A q k)

/-- ENTRY `(q, k, l)` OF THE SECOND: the sum over the same rows of the product of the hidden activations at columns `k`
    and `l`. -/
theorem arr4_sum (q : Fin 2) (k l : Fin 256) :
    (dat c A).arrAt 4 cfg1.N (ix3 q k l)
      = ∑ s ∈ Finset.range 125, ∑ r : Fin 2000, hid c A (125 * q.val + s) (ix2 r k) * hid c A (125 * q.val + s) (ix2 r l) :=
  (arr4_apply c A q k l).trans (acc2_rowEnd c A q (k, l))

end Sum

end Cert.KernelIdeal.R1

end
-- ==== Proof.R1Final.lean ====
import proofs.«149722_j50371376447949_2_alg».proof.Proof.R1Sum

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.KernelIdeal.R1V
open scoped BigOperators

/-! # The second kernel region: its input blocks read off the arrays, and the hidden activations of an edge

Tile `t` of the first input is rows `2000 t … 2000 t + 1999` of its array (all 256 columns); the scale and shift
blocks are their whole one-row arrays at every point. So the hidden activation the body forms at row `r` of tile `n`
is that of edge `2000 n + r`. -/

/-- At point `t` the first input's block index is (t, 0); the two rows' is (0, 0). -/
theorem idx_in : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section Blocks

variable (c : Dev nD) (A : (w : Fin cfg1.W) → Buf (Elt F) ((cfg1.win w).arr.view.loc (c.tc : Thread nD τ)))

/-- The tile at point `t` is rows 2000·t … of the first input array. -/
theorem tile_apply (t : Fin cfg1.N) (r : Fin 2000) (k : Fin 256) (h : 2000 * t.val + r.val < 500000) :
    tile c A t (ix2 r k) = (A 0 : Vec F S500000x256 .bf16) (ix2 ⟨2000 * t.val + r.val, h⟩ k) := by
  obtain ⟨h00, h01, -⟩ := idx_in t
  show (A 0 : Vec F S500000x256 .bf16) (((cfg1.win 0).blk t).view.emb (ix2 r k)) = _
  refine congrArg (A 0 : Vec F S500000x256 .bf16) ?_
  funext a
  apply Fin.ext
  match a with
  | ⟨0, _⟩ => show win1_0.index t (0 : Fin 2) * 2000 + 1 * r.val = 2000 * t.val + r.val; rw [h00]; omega
  | ⟨1, _⟩ => show win1_0.index t (1 : Fin 2) * 256 + 1 * k.val = k.val; rw [h01]; omega

/-- The scale and shift blocks are their whole arrays. -/
theorem scale_apply (t : Fin cfg1.N) (p : Fin 1) (q : Fin 256) :
    scale c A t (ix2 p q) = (A 1 : Vec F S1x256 .f32) (ix2 p q) := by
  obtain ⟨-, -, h10, h11, -⟩ := idx_in t
  show (A 1 : Vec F S1x256 .f32) (((cfg1.win 1).blk t).view.emb (ix2 p q)) = _
  refine congrArg (A 1 : Vec F S1x256 .f32) ?_
  funext a
  apply Fin.ext
  match a with
  | ⟨0, _⟩ => show win1_1.index t (0 : Fin 2) * 1 + 1 * p.val = p.val; rw [h10]; omega
  | ⟨1, _⟩ => show win1_1.index t (1 : Fin 2) * 256 + 1 * q.val = q.val; rw [h11]; omega
theorem shift_apply (t : Fin cfg1.N) (p : Fin 1) (q : Fin 256) :
    shift c A t (ix2 p q) = (A 2 : Vec F S1x256 .f32) (ix2 p q) := by
  obtain ⟨-, -, -, -, h20, h21⟩ := idx_in t
  show (A 2 : Vec F S1x256 .f32) (((cfg1.win 2).blk t).view.emb (ix2 p q)) = _
  refine congrArg (A 2 : Vec F S1x256 .f32) ?_
  funext a
  apply Fin.ext
  match a with
  | ⟨0, _⟩ => show win1_2.index t (0 : Fin 2) * 1 + 1 * p.val = p.val; rw [h20]; omega
  | ⟨1, _⟩ => show win1_2.index t (1 : Fin 2) * 256 + 1 * q.val = q.val; rw [h21]; omega

end Blocks

section AtIdeal

variable (c : Dev nD) (A : (w : Fin cfg1.W) → Buf (Elt Ideal) ((cfg1.win w).arr.view.loc (c.tc : Thread nD τ)))

/-- The hidden activation at row `r`, column `k` of tile `n`, from the three arrays as the region finds them (named
    `a0`, `a1`, `a2` at their literal types): that of edge `2000 n + r`. -/
theorem hid_value (n : ℕ) (hn : n < 250) (r : Fin 2000) (k : Fin 256)
    (a0 : Vec Ideal S500000x256 .bf16) (a1 a2 : Vec Ideal S1x256 .f32)
    (h0 : (A 0 : Vec Ideal S500000x256 .bf16) = a0) (h1 : (A 1 : Vec Ideal S1x256 .f32) = a1)
    (h2 : (A 2 : Vec Ideal S1x256 .f32) = a2) :
    hid c A n (ix2 r k)
      = max (a0 (ix2 (⟨2000 * n + r.val, by have := r.isLt; omega⟩ : Fin 500000) k) * a1 (ix2 (0 : Fin 1) k) + a2 (ix2 (0 : Fin 1) k)) 0 := by
  subst h0 h1 h2
  have hN : n < cfg1.N := lt_of_lt_of_eq hn N_1.symm
  rw [hid_of_lt c A n hN, pay3_apply, tile_apply c A ⟨n, hN⟩ r k (by have := r.isLt; show 2000 * n + r.val < 500000; omega),
    scale_apply, shift_apply]

end AtIdeal

end Cert.KernelIdeal.R1

end
-- ==== Proof.R1Total.lean ====
import proofs.«149722_j50371376447949_2_alg».proof.Proof.R1Sum
import proofs.«149722_j50371376447949_2_alg».proof.Proof.R1Final
import proofs.«149722_j50371376447949_2_alg».proof.Proof.LibSumRegroup

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.R1V
open scoped BigOperators

/-! # The second kernel region: the two cores' statistics joined over all the edges

Each core's row of the grid sums its 125 tiles of 2000 edges; the two rows of either output array, added, are the sum
over all 500000 edges: edge `(q · 125 + j) · 2000 + r` is row `r` of tile `j` of core `q`. So the two rows of the first
output add to the column sums of the hidden activations over every edge, and the two slabs of the second to their Gram
matrix over every edge. -/

/-- The hidden activation of edge `e` at column `k`, from the first product `a0` and the scale and shift rows `a1`, `a2`. -/
def actv (a0 : Vec Ideal S500000x256 .bf16) (a1 a2 : Vec Ideal S1x256 .f32) (e : Fin 500000) (k : Fin 256) : Ideal .f32 :=
  max (a0 (ix2 e k) * a1 (ix2 (0 : Fin 1) k) + a2 (ix2 (0 : Fin 1) k)) 0

theorem actv_def (a0 : Vec Ideal S500000x256 .bf16) (a1 a2 : Vec Ideal S1x256 .f32) (e : Fin 500000) (k : Fin 256) :
    actv a0 a1 a2 e k = max (a0 (ix2 e k) * a1 (ix2 (0 : Fin 1) k) + a2 (ix2 (0 : Fin 1) k)) 0 := rfl

section Total

variable (c : Dev nD) (A : (w : Fin cfg1.W) → Buf (Elt Ideal) ((cfg1.win w).arr.view.loc (c.tc : Thread nD τ)))

/-- Entry `(q, 0, k)` of the first output array after the region, and entry `(q, k, l)` of the second, as extended reals. -/
def out3 (q : Fin 2) (k : Fin 256) : Ideal .f32 := (dat c A).arrAt 3 cfg1.N (ix3 q (0 : Fin 1) k)
def out4 (q : Fin 2) (k l : Fin 256) : Ideal .f32 := (dat c A).arrAt 4 cfg1.N (ix3 q k l)

theorem out3_def (q : Fin 2) (k : Fin 256) : out3 c A q k = (dat c A).arrAt 3 cfg1.N (ix3 q (0 : Fin 1) k) := rfl
theorem out4_def (q : Fin 2) (k l : Fin 256) : out4 c A q k l = (dat c A).arrAt 4 cfg1.N (ix3 q k l) := rfl

/-- Row `q` of the first output: the column sums of the hidden activations over core `q`'s edges. -/
theorem row_colsum (q : Fin 2) (k : Fin 256) (a0 : Vec Ideal S500000x256 .bf16) (a1 a2 : Vec Ideal S1x256 .f32)
    (h0 : (A 0 : Vec Ideal S500000x256 .bf16) = a0) (h1 : (A 1 : Vec Ideal S1x256 .f32) = a1)
    (h2 : (A 2 : Vec Ideal S1x256 .f32) = a2) :
    out3 c A q k = ∑ j : Fin 125, ∑ r : Fin 2000, actv a0 a1 a2 (⟨(q.val * 125 + j.val) * 2000 + r.val, Cert.SumRegroup.mul_add_mul_add_lt (a := 2) q j r⟩ : Fin 500000) k := by
  unfold out3
  rw [arr3_sum, Finset.sum_range]
  refine Finset.sum_congr rfl fun j _ => Finset.sum_congr rfl fun r _ => ?_
  have hq := q.isLt; have hj := j.isLt; have hr := r.isLt
  rw [hid_value c A (125 * q.val + j.val) (by omega) r k a0 a1 a2 h0 h1 h2]
  exact congrArg (fun e : Fin 500000 => actv a0 a1 a2 e k)
    (Fin.ext (by show 2000 * (125 * q.val + j.val) + r.val = (q.val * 125 + j.val) * 2000 + r.val; omega))

/-- Slab `q` of the second: their Gram matrix over core `q`'s edges. -/
theorem row_gram (q : Fin 2) (k l : Fin 256) (a0 : Vec Ideal S500000x256 .bf16) (a1 a2 : Vec Ideal S1x256 .f32)
    (h0 : (A 0 : Vec Ideal S500000x256 .bf16) = a0) (h1 : (A 1 : Vec Ideal S1x256 .f32) = a1)
    (h2 : (A 2 : Vec Ideal S1x256 .f32) = a2) :
    out4 c A q k l = ∑ j : Fin 125, ∑ r : Fin 2000, actv a0 a1 a2 (⟨(q.val * 125 + j.val) * 2000 + r.val, Cert.SumRegroup.mul_add_mul_add_lt (a := 2) q j r⟩ : Fin 500000) k * actv a0 a1 a2 (⟨(q.val * 125 + j.val) * 2000 + r.val, Cert.SumRegroup.mul_add_mul_add_lt (a := 2) q j r⟩ : Fin 500000) l := by
  unfold out4
  rw [arr4_sum, Finset.sum_range]
  refine Finset.sum_congr rfl fun j _ => Finset.sum_congr rfl fun r _ => ?_
  have hq := q.isLt; have hj := j.isLt; have hr := r.isLt
  rw [hid_value c A (125 * q.val + j.val) (by omega) r k a0 a1 a2 h0 h1 h2,
    hid_value c A (125 * q.val + j.val) (by omega) r l a0 a1 a2 h0 h1 h2]
  exact congrArg (fun e : Fin 500000 => actv a0 a1 a2 e k * actv a0 a1 a2 e l)
    (Fin.ext (by show 2000 * (125 * q.val + j.val) + r.val = (q.val * 125 + j.val) * 2000 + r.val; omega))

/-- THE TWO ROWS OF THE FIRST OUTPUT, ADDED: the column sums of the hidden activations over all the edges. -/
theorem colsum_total (k : Fin 256) (a0 : Vec Ideal S500000x256 .bf16) (a1 a2 : Vec Ideal S1x256 .f32)
    (h0 : (A 0 : Vec Ideal S500000x256 .bf16) = a0) (h1 : (A 1 : Vec Ideal S1x256 .f32) = a1)
    (h2 : (A 2 : Vec Ideal S1x256 .f32) = a2) :
    out3 c A 0 k + out3 c A 1 k = ∑ e : Fin 500000, actv a0 a1 a2 e k := by
  rw [row_colsum c A 0 k a0 a1 a2 h0 h1 h2, row_colsum c A 1 k a0 a1 a2 h0 h1 h2,
    Cert.SumRegroup.sum_rows_by_tile (fun e : Fin 500000 => actv a0 a1 a2 e k), Fin.sum_univ_two]

/-- THE TWO SLABS OF THE SECOND, ADDED: their Gram matrix over all the edges. -/
theorem gram_total (k l : Fin 256) (a0 : Vec Ideal S500000x256 .bf16) (a1 a2 : Vec Ideal S1x256 .f32)
    (h0 : (A 0 : Vec Ideal S500000x256 .bf16) = a0) (h1 : (A 1 : Vec Ideal S1x256 .f32) = a1)
    (h2 : (A 2 : Vec Ideal S1x256 .f32) = a2) :
    out4 c A 0 k l + out4 c A 1 k l = ∑ e : Fin 500000, actv a0 a1 a2 e k * actv a0 a1 a2 e l := by
  rw [row_gram c A 0 k l a0 a1 a2 h0 h1 h2, row_gram c A 1 k l a0 a1 a2 h0 h1 h2,
    Cert.SumRegroup.sum_rows_by_tile (fun e : Fin 500000 => actv a0 a1 a2 e k * actv a0 a1 a2 e l), Fin.sum_univ_two]

end Total

end Cert.KernelIdeal.R1

end
-- ==== Proof.KLayer2.lean ====
/-
  The kernel's second layer and output, in reals.

  What the third region computes, entry (e, j):

      (∑ k, max (P[e, k] · scale₁[k] + shift₁[k]) 0 · (W₂[k, j] · scale₂[j])) + shift₂[j],

  where P is the first product, scale₁ and shift₁ the first normalisation's row vectors, and scale₂, shift₂ are computed
  between the regions from the two halves' column sums S and Gram matrices G of the hidden activations: with the totals
  S₀ + S₁ and G₀ + G₁ and n rows, mean₂[j] = (∑ k, (S₀ + S₁)[k] · W₂[k, j]) / n,
  msq₂[j] = (∑ k, W₂[k, j] · ∑ l, (G₀ + G₁)[k, l] · W₂[l, j]) / n, scale₂[j] = γ₂[j] · rsqrt (max (msq₂ − mean₂²) 0 + ε),
  shift₂[j] = β₂[j] − mean₂[j] · scale₂[j].

  Once the first layer's three arrays are the coercions of the real product, scale and shift, the hidden entry is the
  coercion of the real hidden activation `hF`; once the halves' totals are the coercions of the real column sums and
  Gram matrix of `hF` over all rows, every quantity above is a real operation on reals, and the whole entry is the
  coercion of the folded form `outF`.

  The halves' totals ARE those sums: each half accumulates, tile by tile, the sum over its 125 tiles of 2000 rows of
  the hidden activations (or of their products), and the 2 × 125 × 2000 rows are all the rows, each once.
-/
import proofs.«149722_j50371376447949_2_alg».proof.Proof.HostStretch2
import proofs.«149722_j50371376447949_2_alg».proof.Proof.LibFoldedExact
import proofs.«149722_j50371376447949_2_alg».proof.Proof.RefFinite
import proofs.«149722_j50371376447949_2_alg».proof.Proof.Walk
import proofs.«149722_j50371376447949_2_alg».proof.Proof.R2Value
import proofs.«149722_j50371376447949_2_alg».proof.Proof.R1Total

set_option maxRecDepth 16384

noncomputable section

namespace Cert.KernelIdeal.KL2

open Cert.KernelIdeal Cert.KernelIdeal.Gen
open Idealize.ShloMosaic Idealize.ShloMosaic.TcCoe Idealize.ShloMosaic.ValueIdx Idealize.SL.Sem
open Cert.KernelIdeal.HostSide Cert.BatchNorm Cert.TwoLayerNorm Cert.Arrays Cert.FoldedExact
open Cert.RefSide (AllReal)
open scoped BigOperators

/-! ## The arithmetic after the second region, over variable arrays -/

section Core

variable {α : Type*} [Fintype α] (X : Fin 500000 → α → ℝ) (W1 : α → Fin 256 → ℝ) (g1 b1 : Fin 256 → ℝ)
variable (S : FVec Ideal S2x1x256 .f32) (G : FVec Ideal S2x256x256 .f32)
variable (a8 : FVec Ideal S256x256 .f32) (a9 a10 : FVec Ideal S256 .f32)

/-- The second layer's mean at column `j`, when the halves' column sums total the real column sums of `h`. -/
theorem mean2_real (h : Fin 500000 → Fin 256 → ℝ) (h8 : AllReal a8)
    (hS : ∀ k : Fin 256, S (ix3 (0 : Fin 2) (0 : Fin 1) k) + S (ix3 (1 : Fin 2) (0 : Fin 1) k) = ((colsum h k : ℝ) : EReal))
    (j : Fin 256) :
    mean2 (F := Ideal) S a8 (ix2 (0 : Fin 1) j)
      = Ideal.div ((sum2 h (mat a8) j : ℝ) : EReal) (Ideal.ofBits .f32 0x48F42400#32) := by
  rw [mean2_apply]
  refine congrArg₂ Ideal.div ?_ rfl
  simp only [colTotal_apply, hS, coe_mat (A := 256) (B := 256) a8 h8]
  exact sum2_exact h (mat a8) j

/-- The second layer's mean of squares at column `j`, when the halves' Gram matrices total the real Gram matrix of `h`. -/
theorem msq2_real (h : Fin 500000 → Fin 256 → ℝ) (h8 : AllReal a8)
    (hG : ∀ k l : Fin 256, G (ix3 (0 : Fin 2) k l) + G (ix3 (1 : Fin 2) k l) = ((gram h k l : ℝ) : EReal))
    (j : Fin 256) :
    msq2 (F := Ideal) G a8 (ix2 (0 : Fin 1) j)
      = Ideal.div ((sumsq2 h (mat a8) j : ℝ) : EReal) (Ideal.ofBits .f32 0x48F42400#32) := by
  rw [msq2_apply]
  refine congrArg₂ Ideal.div ?_ rfl
  simp only [gramTotal_apply, hG, coe_mat (A := 256) (B := 256) a8 h8]
  exact sumsq2_exact h (mat a8) j

/-- The second scale at column `j` is the real one. -/
theorem scale2_real (h : Fin 500000 → Fin 256 → ℝ) (h8 : AllReal a8) (h9 : AllReal a9)
    (hS : ∀ k : Fin 256, S (ix3 (0 : Fin 2) (0 : Fin 1) k) + S (ix3 (1 : Fin 2) (0 : Fin 1) k) = ((colsum h k : ℝ) : EReal))
    (hG : ∀ k l : Fin 256, G (ix3 (0 : Fin 2) k l) + G (ix3 (1 : Fin 2) k l) = ((gram h k l : ℝ) : EReal))
    (j : Fin 256) :
    scale2 (F := Ideal) S G a8 a9 (ix2 (0 : Fin 1) j)
      = ((scaleOf 500000 eps (sum2 h (mat a8) j) (sumsq2 h (mat a8) j) (vec a9 j) : ℝ) : EReal) := by
  rw [scale2_apply, mean2_real S a8 h h8 hS j, msq2_real G a8 h h8 hG j, coe_vec (A := 256) a9 h9]
  exact scale_exact _ _ _

/-- The second shift at column `j` is the real one. -/
theorem shift2_real (h : Fin 500000 → Fin 256 → ℝ) (h8 : AllReal a8) (h9 : AllReal a9) (h10 : AllReal a10)
    (hS : ∀ k : Fin 256, S (ix3 (0 : Fin 2) (0 : Fin 1) k) + S (ix3 (1 : Fin 2) (0 : Fin 1) k) = ((colsum h k : ℝ) : EReal))
    (hG : ∀ k l : Fin 256, G (ix3 (0 : Fin 2) k l) + G (ix3 (1 : Fin 2) k l) = ((gram h k l : ℝ) : EReal))
    (j : Fin 256) :
    shift2 (F := Ideal) S G a8 a9 a10 (ix2 (0 : Fin 1) j)
      = ((shiftOf 500000 eps (sum2 h (mat a8) j) (sumsq2 h (mat a8) j) (vec a9 j) (vec a10 j) : ℝ) : EReal) := by
  rw [shift2_apply, mean2_real S a8 h h8 hS j, scale2_real S G a8 a9 h h8 h9 hS hG j, coe_vec (A := 256) a10 h10]
  exact shift_exact _ _ _ _

/-- The scaled weight at `(k, j)` is the real weight times the real second scale. -/
theorem scaledW2_real (h : Fin 500000 → Fin 256 → ℝ) (h8 : AllReal a8) (h9 : AllReal a9)
    (hS : ∀ k : Fin 256, S (ix3 (0 : Fin 2) (0 : Fin 1) k) + S (ix3 (1 : Fin 2) (0 : Fin 1) k) = ((colsum h k : ℝ) : EReal))
    (hG : ∀ k l : Fin 256, G (ix3 (0 : Fin 2) k l) + G (ix3 (1 : Fin 2) k l) = ((gram h k l : ℝ) : EReal))
    (k j : Fin 256) :
    scaledW2 (F := Ideal) S G a8 a9 (ix2 k j)
      = ((mat a8 k j * scaleOf 500000 eps (sum2 h (mat a8) j) (sumsq2 h (mat a8) j) (vec a9 j) : ℝ) : EReal) := by
  rw [scaledW2_apply, scale2_real S G a8 a9 h h8 h9 hS hG j, coe_mat (A := 256) (B := 256) a8 h8, ← EReal.coe_mul]

/-- THE OUTPUT ENTRY IN REALS. Over a first product, first scale and first shift that are the coercions of the real
    ones, and halves' totals that are the coercions of the real column sums and Gram matrix of the hidden
    activations, the third region's entry is the coercion of the folded form. -/
theorem out_real (P : Vec Ideal S500000x256 .bf16) (SC SH : Vec Ideal S1x256 .f32)
    (hP : ∀ (e : Fin 500000) (k : Fin 256), P (ix2 e k) = ((dense X W1 e k : ℝ) : EReal))
    (hSC : ∀ k : Fin 256, SC (ix2 (0 : Fin 1) k)
      = ((scaleOf 500000 eps (sum1 X W1 k) (sumsq1 X W1 k) (g1 k) : ℝ) : EReal))
    (hSH : ∀ k : Fin 256, SH (ix2 (0 : Fin 1) k)
      = ((shiftOf 500000 eps (sum1 X W1 k) (sumsq1 X W1 k) (g1 k) (b1 k) : ℝ) : EReal))
    (h8 : AllReal a8) (h9 : AllReal a9) (h10 : AllReal a10)
    (hS : ∀ k : Fin 256, S (ix3 (0 : Fin 2) (0 : Fin 1) k) + S (ix3 (1 : Fin 2) (0 : Fin 1) k)
      = ((colsum (hF 500000 eps X W1 g1 b1) k : ℝ) : EReal))
    (hG : ∀ k l : Fin 256, G (ix3 (0 : Fin 2) k l) + G (ix3 (1 : Fin 2) k l)
      = ((gram (hF 500000 eps X W1 g1 b1) k l : ℝ) : EReal))
    (e : Fin 500000) (j : Fin 256) :
    (∑ k : Fin 256, max (P (ix2 e k) * SC (ix2 (0 : Fin 1) k) + SH (ix2 (0 : Fin 1) k)) 0
        * scaledW2 (F := Ideal) S G a8 a9 (ix2 k j)) + shift2 (F := Ideal) S G a8 a9 a10 (ix2 (0 : Fin 1) j)
      = ((outF 500000 eps X W1 g1 b1 (mat a8) (vec a9) (vec a10) e j : ℝ) : EReal) := by
  have hh : ∀ k : Fin 256, max (P (ix2 e k) * SC (ix2 (0 : Fin 1) k) + SH (ix2 (0 : Fin 1) k)) 0
      = ((hF 500000 eps X W1 g1 b1 e k : ℝ) : EReal) := fun k => by
    rw [hP, hSC, hSH]
    exact hF_exact 500000 eps X W1 g1 b1 e k
  simp only [hh, scaledW2_real S G a8 a9 (hF 500000 eps X W1 g1 b1) h8 h9 hS hG]
  rw [shift2_real S G a8 a9 a10 (hF 500000 eps X W1 g1 b1) h8 h9 h10 hS hG j]
  exact outF_exact 500000 eps X W1 g1 b1 (mat a8) (vec a9) (vec a10) e j

end Core

/-! ## The result buffer at the end of the run -/

section Run

open Cert.KernelIdeal.RunAll

variable (m : (ℓ : Loc nD τ sig) → Buf (Elt Ideal) ℓ) (c : Dev nD)

/-! The arrays the statement is about, each named once at its literal type. -/

/-- The first product as the second region enters with it. -/
def pre1 : Vec Ideal S500000x256 .bf16 := A1 m c 0
/-- The first normalisation's scale as the second region enters with it. -/
def sc1 : Vec Ideal S1x256 .f32 := A1 m c 1
/-- The first normalisation's shift as the second region enters with it. -/
def sh1 : Vec Ideal S1x256 .f32 := A1 m c 2
/-- The halves' column sums of the hidden activations as the second region leaves them. -/
def colS : FVec Ideal S2x1x256 .f32 := (I1.dat c (A1 m c)).arrAt 3 cfg1.N
/-- The halves' Gram matrices of the hidden activations as the second region leaves them. -/
def gramS : FVec Ideal S2x256x256 .f32 := (I1.dat c (A1 m c)).arrAt 4 cfg1.N
/-- The second layer's weights, scale parameter and shift parameter: the last three arguments at launch. -/
def w2 : FVec Ideal S256x256 .f32 := m ((c : Thread nD τ).loc main_arg8)
def gam2 : FVec Ideal S256 .f32 := m ((c : Thread nD τ).loc main_arg9)
def bet2 : FVec Ideal S256 .f32 := m ((c : Thread nD τ).loc main_arg10)
/-- The result buffer at the end. -/
def res : Vec Ideal S500000x256 .f32 := B6 m c (Proc.devRef .tc main_v61)

/-- The result buffer ends at what the third region's pipeline leaves in its output window. -/
theorem res_eq : res m c = ((R2.dat c (A2 m c)).arrAt 5 cfg2.N : Vec Ideal S500000x256 .f32) :=
  Walk.B6_main_v61 m c

/-- The third region enters with the first product the second region entered with, -/
theorem in0_eq : (A2 m c 0 : Vec Ideal S500000x256 .bf16) = pre1 m c :=
  (Walk.A2_0 m c).trans (Walk.A1_0 m c).symm
/-- with the same scale, -/
theorem in1_eq : (A2 m c 1 : Vec Ideal S1x256 .f32) = sc1 m c :=
  (Walk.A2_1 m c).trans (Walk.A1_1 m c).symm
/-- with the same shift, -/
theorem in2_eq : (A2 m c 2 : Vec Ideal S1x256 .f32) = sh1 m c :=
  (Walk.A2_2 m c).trans (Walk.A1_2 m c).symm
/-- with the second layer's weights scaled, from what the second region left, -/
theorem in3_eq : (A2 m c 3 : Vec Ideal S256x256 .bf16)
    = scaledW2 (F := Ideal) (colS m c) (gramS m c) (w2 m c) (gam2 m c) :=
  Walk.A2_3 m c
/-- and with the second shift, from the same. -/
theorem in4_eq : (A2 m c 4 : Vec Ideal S1x256 .f32)
    = shift2 (F := Ideal) (colS m c) (gramS m c) (w2 m c) (gam2 m c) (bet2 m c) :=
  Walk.A2_4 m c

/-- The result's entry, from the five arrays the third region enters with. -/
theorem res_apply (e : Fin 500000) (j : Fin 256) :
    res m c (ix2 e j)
      = (∑ k : Fin 256, max (pre1 m c (ix2 e k) * sc1 m c (ix2 (0 : Fin 1) k) + sh1 m c (ix2 (0 : Fin 1) k)) 0
          * scaledW2 (F := Ideal) (colS m c) (gramS m c) (w2 m c) (gam2 m c) (ix2 k j))
        + shift2 (F := Ideal) (colS m c) (gramS m c) (w2 m c) (gam2 m c) (bet2 m c) (ix2 (0 : Fin 1) j) :=
  (congrFun (res_eq m c) (ix2 e j)).trans
    (R2V.out_value c (A2 m c) e j (pre1 m c) (sc1 m c) (sh1 m c) _ _
      (in0_eq m c) (in1_eq m c) (in2_eq m c) (in3_eq m c) (in4_eq m c))

variable {α : Type*} [Fintype α] (X : Fin 500000 → α → ℝ) (W1 : α → Fin 256 → ℝ) (g1 b1 : Fin 256 → ℝ)

/-- THE RESULT FROM THE HALVES' TOTALS. The result buffer ends at what the third region leaves; that region enters
    with the first product, scale and shift the second region entered with, and with the scaled weights and second shift
    computed from what the second region left. Where the first three are the coercions of the real ones and the
    second region's halves total the real column sums and Gram matrix of the hidden activations, the result's entry is
    the coercion of the folded form. -/
theorem res_of_totals
    (hP : ∀ (e : Fin 500000) (k : Fin 256), pre1 m c (ix2 e k) = ((dense X W1 e k : ℝ) : EReal))
    (hSC : ∀ k : Fin 256, sc1 m c (ix2 (0 : Fin 1) k)
      = ((scaleOf 500000 eps (sum1 X W1 k) (sumsq1 X W1 k) (g1 k) : ℝ) : EReal))
    (hSH : ∀ k : Fin 256, sh1 m c (ix2 (0 : Fin 1) k)
      = ((shiftOf 500000 eps (sum1 X W1 k) (sumsq1 X W1 k) (g1 k) (b1 k) : ℝ) : EReal))
    (h8 : AllReal (w2 m c)) (h9 : AllReal (gam2 m c)) (h10 : AllReal (bet2 m c))
    (hS : ∀ k : Fin 256, colS m c (ix3 (0 : Fin 2) (0 : Fin 1) k) + colS m c (ix3 (1 : Fin 2) (0 : Fin 1) k)
      = ((colsum (hF 500000 eps X W1 g1 b1) k : ℝ) : EReal))
    (hG : ∀ k l : Fin 256, gramS m c (ix3 (0 : Fin 2) k l) + gramS m c (ix3 (1 : Fin 2) k l)
      = ((gram (hF 500000 eps X W1 g1 b1) k l : ℝ) : EReal))
    (e : Fin 500000) (j : Fin 256) :
    res m c (ix2 e j)
      = ((outF 500000 eps X W1 g1 b1 (mat (w2 m c)) (vec (gam2 m c)) (vec (bet2 m c)) e j : ℝ) : EReal) :=
  (res_apply m c e j).trans
    (out_real X W1 g1 b1 (colS m c) (gramS m c) (w2 m c) (gam2 m c) (bet2 m c) (pre1 m c) (sc1 m c) (sh1 m c)
      hP hSC hSH h8 h9 h10 hS hG e j)

/-! ## The halves' totals are the sums over all rows -/

section Totals

variable (hP : ∀ (e : Fin 500000) (k : Fin 256), pre1 m c (ix2 e k) = ((dense X W1 e k : ℝ) : EReal))
  (hSC : ∀ k : Fin 256, sc1 m c (ix2 (0 : Fin 1) k)
    = ((scaleOf 500000 eps (sum1 X W1 k) (sumsq1 X W1 k) (g1 k) : ℝ) : EReal))
  (hSH : ∀ k : Fin 256, sh1 m c (ix2 (0 : Fin 1) k)
    = ((shiftOf 500000 eps (sum1 X W1 k) (sumsq1 X W1 k) (g1 k) (b1 k) : ℝ) : EReal))

include hP hSC hSH

/-- The hidden entry the second region forms at row `e`, column `k` is the coercion of the real hidden activation. -/
theorem actv_real (e : Fin 500000) (k : Fin 256) :
    R1.actv (pre1 m c) (sc1 m c) (sh1 m c) e k = ((hF 500000 eps X W1 g1 b1 e k : ℝ) : EReal) := by
  show max (pre1 m c (ix2 e k) * sc1 m c (ix2 (0 : Fin 1) k) + sh1 m c (ix2 (0 : Fin 1) k)) 0 = _
  rw [hP, hSC, hSH]
  exact hF_exact 500000 eps X W1 g1 b1 e k

/-- The two halves' column sums add up to the real column sums of the hidden activations over all rows. -/
theorem totals_colsum (k : Fin 256) :
    colS m c (ix3 (0 : Fin 2) (0 : Fin 1) k) + colS m c (ix3 (1 : Fin 2) (0 : Fin 1) k)
      = ((colsum (hF 500000 eps X W1 g1 b1) k : ℝ) : EReal) := by
  have h := R1.colsum_total c (A1 m c) k (pre1 m c) (sc1 m c) (sh1 m c) rfl rfl rfl
  refine (show colS m c (ix3 (0 : Fin 2) (0 : Fin 1) k) + colS m c (ix3 (1 : Fin 2) (0 : Fin 1) k)
    = ∑ e : Fin 500000, R1.actv (pre1 m c) (sc1 m c) (sh1 m c) e k from h).trans ?_
  simp only [actv_real m c X W1 g1 b1 hP hSC hSH]
  rw [← coe_sum]
  rfl

/-- The two halves' Gram matrices add up to the real Gram matrix of the hidden activations over all rows. -/
theorem totals_gram (k l : Fin 256) :
    gramS m c (ix3 (0 : Fin 2) k l) + gramS m c (ix3 (1 : Fin 2) k l)
      = ((gram (hF 500000 eps X W1 g1 b1) k l : ℝ) : EReal) := by
  have h := R1.gram_total c (A1 m c) k l (pre1 m c) (sc1 m c) (sh1 m c) rfl rfl rfl
  refine (show gramS m c (ix3 (0 : Fin 2) k l) + gramS m c (ix3 (1 : Fin 2) k l)
    = ∑ e : Fin 500000, R1.actv (pre1 m c) (sc1 m c) (sh1 m c) e k * R1.actv (pre1 m c) (sc1 m c) (sh1 m c) e l
    from h).trans ?_
  simp only [actv_real m c X W1 g1 b1 hP hSC hSH]
  exact sum_mul_exact (fun e => hF 500000 eps X W1 g1 b1 e k) fun e => hF 500000 eps X W1 g1 b1 e l

/-- THE KERNEL'S VALUE. Where the second region enters with the coercions of the real first product, scale and shift,
    and the second layer's parameters are real, the result buffer's entry at the end of the run is the coercion of the
    folded form of the real arrays. -/
theorem kernel_value_named (h8 : AllReal (w2 m c)) (h9 : AllReal (gam2 m c)) (h10 : AllReal (bet2 m c))
    (e : Fin 500000) (j : Fin 256) :
    res m c (ix2 e j)
      = ((outF 500000 eps X W1 g1 b1 (mat (w2 m c)) (vec (gam2 m c)) (vec (bet2 m c)) e j : ℝ) : EReal) :=
  res_of_totals m c X W1 g1 b1 hP hSC hSH h8 h9 h10 (totals_colsum m c X W1 g1 b1 hP hSC hSH)
    (totals_gram m c X W1 g1 b1 hP hSC hSH) e j

end Totals

/-! ## The same, stated over the run's own terms -/

section Stated

set_option maxHeartbeats 1000000 in
/-- THE KERNEL'S VALUE, over the run's boundary arrays themselves. -/
theorem kernel_value
    (hP : ∀ (e : Fin 500000) (k : Fin 256),
      (A1 m c 0 : Vec Ideal S500000x256 .bf16) (ix2 e k) = ((dense X W1 e k : ℝ) : EReal))
    (hSC : ∀ k : Fin 256, (A1 m c 1 : Vec Ideal S1x256 .f32) (ix2 (0 : Fin 1) k)
      = ((scaleOf 500000 eps (sum1 X W1 k) (sumsq1 X W1 k) (g1 k) : ℝ) : EReal))
    (hSH : ∀ k : Fin 256, (A1 m c 2 : Vec Ideal S1x256 .f32) (ix2 (0 : Fin 1) k)
      = ((shiftOf 500000 eps (sum1 X W1 k) (sumsq1 X W1 k) (g1 k) (b1 k) : ℝ) : EReal))
    (h8 : AllReal (s := S256x256) (m ((c.tc : Thread nD τ).loc main_arg8)))
    (h9 : AllReal (s := S256) (m ((c.tc : Thread nD τ).loc main_arg9)))
    (h10 : AllReal (s := S256) (m ((c.tc : Thread nD τ).loc main_arg10)))
    (e : Fin 500000) (j : Fin 256) :
    (B6 m c (Proc.devRef .tc main_v61) : Vec Ideal S500000x256 .f32) (ix2 e j)
      = ((outF 500000 eps X W1 g1 b1 (mat (A := 256) (B := 256) (m ((c.tc : Thread nD τ).loc main_arg8)))
          (vec (A := 256) (m ((c.tc : Thread nD τ).loc main_arg9)))
          (vec (A := 256) (m ((c.tc : Thread nD τ).loc main_arg10))) e j : ℝ) : EReal) :=
  kernel_value_named m c X W1 g1 b1 hP hSC hSH h8 h9 h10 e j

end Stated

end Run

end Cert.KernelIdeal.KL2

end
-- ==== Proof.Algebraic.lean ====
/-
  The equality of results, in exact arithmetic.

  From memories agreeing on the eleven arguments: the kernel's run ends with its result buffer at the last fold of the
  contents through the three regions, which entry by entry is the folded form of the two normalised layers over the real
  arrays the arguments denote; the reference's run ends with its result at its operations' composed term, which entry by
  entry is the centred form over the same real arrays; and the two forms are one function (Proof/LibTwoLayerNorm.lean).
  Finiteness of the inputs is what makes every quantity on the way a real number.
-/
import proofs.«149722_j50371376447949_2_alg».proof.Defs
import proofs.«149722_j50371376447949_2_alg».proof.Proof.Run
import proofs.«149722_j50371376447949_2_alg».proof.Proof.WalkArgs
import proofs.«149722_j50371376447949_2_alg».proof.Proof.RefValue
import proofs.«149722_j50371376447949_2_alg».proof.Proof.LibTwoLayerNorm
import proofs.«149722_j50371376447949_2_alg».proof.Proof.KLayer1
import proofs.«149722_j50371376447949_2_alg».proof.Proof.KLayer2
import proofs.«149722_j50371376447949_2_alg».proof.Proof.Gen.Pre_finite_inputs

noncomputable section

namespace Cert.Proof.Alg

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.RunAll.B6 (F := Ideal) m c (Proc.devRef .tc Cert.KernelIdeal.main_v61), ?_, ?_⟩
  · exact (θ_run Cert.KernelIdeal.defs _ _).mono (fun r h c =>
      ⟨h c _ (Cert.KernelIdeal.RunAll.mem_uc Cert.KernelIdeal.main_v61 (by decide)),
       (h c _ (Cert.KernelIdeal.RunAll.mem_uc Cert.KernelIdeal.main_arg0 (by decide))).trans (Cert.KernelIdeal.WalkArgs.B6_main_arg0 m c),
       (h c _ (Cert.KernelIdeal.RunAll.mem_uc Cert.KernelIdeal.main_arg1 (by decide))).trans (Cert.KernelIdeal.WalkArgs.B6_main_arg1 m c),
       (h c _ (Cert.KernelIdeal.RunAll.mem_uc Cert.KernelIdeal.main_arg2 (by decide))).trans (Cert.KernelIdeal.WalkArgs.B6_main_arg2 m c),
       (h c _ (Cert.KernelIdeal.RunAll.mem_uc Cert.KernelIdeal.main_arg3 (by decide))).trans (Cert.KernelIdeal.WalkArgs.B6_main_arg3 m c),
       (h c _ (Cert.KernelIdeal.RunAll.mem_uc Cert.KernelIdeal.main_arg4 (by decide))).trans (Cert.KernelIdeal.WalkArgs.B6_main_arg4 m c),
       (h c _ (Cert.KernelIdeal.RunAll.mem_uc Cert.KernelIdeal.main_arg5 (by decide))).trans (Cert.KernelIdeal.WalkArgs.B6_main_arg5 m c),
       (h c _ (Cert.KernelIdeal.RunAll.mem_uc Cert.KernelIdeal.main_arg6 (by decide))).trans (Cert.KernelIdeal.WalkArgs.B6_main_arg6 m c),
       (h c _ (Cert.KernelIdeal.RunAll.mem_uc Cert.KernelIdeal.main_arg7 (by decide))).trans (Cert.KernelIdeal.WalkArgs.B6_main_arg7 m c),
       (h c _ (Cert.KernelIdeal.RunAll.mem_uc Cert.KernelIdeal.main_arg8 (by decide))).trans (Cert.KernelIdeal.WalkArgs.B6_main_arg8 m c),
       (h c _ (Cert.KernelIdeal.RunAll.mem_uc Cert.KernelIdeal.main_arg9 (by decide))).trans (Cert.KernelIdeal.WalkArgs.B6_main_arg9 m c),
       (h c _ (Cert.KernelIdeal.RunAll.mem_uc Cert.KernelIdeal.main_arg10 (by decide))).trans (Cert.KernelIdeal.WalkArgs.B6_main_arg10 m c)⟩)
      (Cert.KernelIdeal.RunAll.run (F := Ideal) m ρ)
  · refine (θ_run Cert.ReferenceIdeal.defs _ _).mono (fun r h c => ⟨(h c).1.trans ?_, (h c).2⟩)
      (Cert.ReferenceIdeal.Value.run (F := Ideal) m' ρ')
    funext i
    obtain ⟨e, j, rfl⟩ : ∃ (e : Fin 500000) (j : Fin 256), i = ix2 e j := ⟨i 0, i 1, eq_ix2 i⟩
    have hargs : Cert.RefSide.ArgsReal m' c := Cert.RefSide.argsReal_of_pre m' c (by
      have := hpre c
      rw [← (hagree c).1, ← (hagree c).2.1, ← (hagree c).2.2.1, ← (hagree c).2.2.2.1, ← (hagree c).2.2.2.2.1, ← (hagree c).2.2.2.2.2.1,
        ← (hagree c).2.2.2.2.2.2.1, ← (hagree c).2.2.2.2.2.2.2.1, ← (hagree c).2.2.2.2.2.2.2.2.1, ← (hagree c).2.2.2.2.2.2.2.2.2.1,
        ← (hagree c).2.2.2.2.2.2.2.2.2.2] at this
      exact this)
    have hR := Cert.RefSide.ref_value m' c hargs e j
    -- the kernel's arguments are finite, so its result entry is the folded form of the real arrays
    obtain ⟨h0, h1, h2, h3, h5, h6, h7, h8, h9, h10⟩ := Cert.RefSide.finite_inputs _ _ _ _ _ _ _ _ _ _ _ (hpre c)
    have hK := Cert.KernelIdeal.KL2.kernel_value m c (Cert.KernelIdeal.KL1.X m c) (Cert.KernelIdeal.KL1.W1 m c)
      (Cert.KernelIdeal.KL1.g1 m c) (Cert.KernelIdeal.KL1.b1 m c)
      (Cert.KernelIdeal.KL1.pre1_val m c h0 h1 h2 h3 h5) (Cert.KernelIdeal.KL1.scale1_val m c h0 h1 h2 h3 h5 h6)
      (Cert.KernelIdeal.KL1.shift1_val m c h0 h1 h2 h3 h5 h6 h7) h8 h9 h10 e j
    -- the reference's entry is the centred form of the same arrays; the two forms are one function
    refine hR.trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2,
      ← Cert.TwoLayerNorm.outF_eq_outC (n := 500000) (by simp) (by norm_num)]
    exact hK.symm

end Cert.Proof.Alg

end
-- ==== Proof.lean ====
/-
  An edge model of a message-passing network: two dense layers over 500000 edges, each followed by batch normalisation
  over the edges, a rectifier between them; the kernel against its plain reference, both read in exact arithmetic.

  THE REFERENCE concatenates an edge's features (source node, destination node, edge attributes, its graph's globals
  gathered by the edge's graph number) into 384 columns, multiplies by `W1`, normalises every one of the 256 columns about
  its mean by its variance over all edges, scales, shifts and clamps at zero; multiplies by `W2` and normalises again.

  THE KERNEL makes three passes over the edges, 2000 at a time.
    1. The first product, as four partial products summed (one per part of the concatenation), kept for the later
       passes; beside it, per core, the running column sums of the product and of its squares.
    2. From those sums the first layer's scale and shift (variance as mean of squares less squared mean, clamped at zero);
       the hidden activations `max (p · s + t) 0`, and per core their running column sums and their Gram matrix.
    3. The second layer's statistics are never taken from the second product: its column sums are the hidden column sums
       against `W2`, its column sums of squares the Gram matrix's quadratic form at the columns of `W2`. The second scale
       is folded into `W2`'s columns; the last pass recomputes the hidden activations and applies one product and one add.

  WHY THEY AGREE. In exact arithmetic a change of float format is the identity, a sum taken tile by tile and core by core
  is the sum, and on finite inputs every quantity above is a real number. Over the reals the kernel's folded form and the
  reference's centred form are one function of the arrays: Proof/LibTwoLayerNorm.lean (`outF_eq_outC`), column by column
  the one-layer identity of Proof/LibBatchNorm.lean (the uncentred variance is the centred one, which is not negative,
  so the clamp is the identity; the rest is distributivity).

  THE FIVE CONJUNCTS. The kernel's run — three regions among three stretches of host operations, the first two regions
  carrying accumulators from grid point to grid point — is Proof/Run.lean, once for any float values; read at the argument
  arrays it is the kernel's frame, as printed (Proof/FrameWord.lean) and idealized (Proof/FrameIdeal.lean). The reference's
  frame and the empty idealization ledger are Proof/Reference.lean. The equality of results is Proof/Algebraic.lean.
-/
import proofs.«149722_j50371376447949_2_alg».proof.Defs
import proofs.«149722_j50371376447949_2_alg».proof.Proof.Gen.Kernel
import proofs.«149722_j50371376447949_2_alg».proof.Proof.Gen.KernelIdeal
import proofs.«149722_j50371376447949_2_alg».proof.Proof.Gen.ReferenceIdeal
import proofs.«149722_j50371376447949_2_alg».proof.Proof.Gen.Pre_finite_inputs
import proofs.«149722_j50371376447949_2_alg».proof.Proof.Reference
import proofs.«149722_j50371376447949_2_alg».proof.Proof.FrameWord
import proofs.«149722_j50371376447949_2_alg».proof.Proof.FrameIdeal
import proofs.«149722_j50371376447949_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    FrameKernel.frame, FrameKernelIdeal.frame, Conjuncts.frame_reference, Conjuncts.preserves, Alg.algebraic⟩

end Cert.Proof

end
